-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x3 : Shape := ⟨3, ![4, 65536, 3]⟩
abbrev S4x8x65536x1 : Shape := ⟨4, ![4, 8, 65536, 1]⟩
abbrev S4x65536x16 : Shape := ⟨3, ![4, 65536, 16]⟩
abbrev S8x10 : Shape := ⟨2, ![8, 10]⟩
abbrev S8 : Shape := ⟨1, ![8]⟩
abbrev S_ : Shape := ⟨0, ![]⟩

class Facts : Prop where
  bcast_S_S4x65536x3 : S_.BroadcastsInDim S4x65536x3 (![] : Fin 0 → Fin S4x65536x3.rank)
  reducesTo_S4x65536x3_S_d0_1_2 : S4x65536x3.ReducesTo [0, 1, 2] S_
  h_S_ : 0 < S_.numel
  bcast_S_S4x8x65536x1 : S_.BroadcastsInDim S4x8x65536x1 (![] : Fin 0 → Fin S4x8x65536x1.rank)
  reducesTo_S4x8x65536x1_S_d0_1_2_3 : S4x8x65536x1.ReducesTo [0, 1, 2, 3] S_
  bcast_S_S8x10 : S_.BroadcastsInDim S8x10 (![] : Fin 0 → Fin S8x10.rank)
  reducesTo_S8x10_S_d0_1 : S8x10.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_arg6 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S4x65536x3 .f32) (main_arg1 : FVec F S4x8x65536x1 .f32) (main_arg2 : IVec S4x65536x16 32) (main_arg3 : FVec F S8x10 .f32) (main_arg4 : FVec F S8 .f32) (main_arg5 : FVec F S8 .f32) (main_arg6 : FVec F S8 .f32) : IVec S_ 1 :=
  let main_v0 : FVec F S4x65536x3 .f32 := Host.absf main_arg0
  let main_cst : FVec F S_ .f32 := constant S_ .f32 0x7F800000#32
  let main_v1 : FVec F S4x65536x3 .f32 := broadcastInDim S4x65536x3 ![] bcast_S_S4x65536x3 main_cst
  let main_v2 : IVec S4x65536x3 1 := cmpf .olt main_v0 main_v1
  let main_c : IVec S_ 1 := constantI S_ 1 1#1
  let main_v3 : IVec S_ 1 := (fun x v => Host.reduce IntOp.andi x v reducesTo_S4x65536x3_S_d0_1_2 h_S_) main_v2 main_c
  let main_v4 : FVec F S4x8x65536x1 .f32 := Host.absf main_arg1
  let main_cst_0 : FVec F S_ .f32 := constant S_ .f32 0x7F800000#32
  let main_v5 : FVec F S4x8x65536x1 .f32 := broadcastInDim S4x8x65536x1 ![] bcast_S_S4x8x65536x1 main_cst_0
  let main_v6 : IVec S4x8x65536x1 1 := cmpf .olt main_v4 main_v5
  let main_c_1 : IVec S_ 1 := constantI S_ 1 1#1
  let main_v7 : IVec S_ 1 := (fun x v => Host.reduce IntOp.andi x v reducesTo_S4x8x65536x1_S_d0_1_2_3 h_S_) main_v6 main_c_1
  let main_v8 : IVec S_ 1 := andi main_v3 main_v7
  let main_v9 : FVec F S8x10 .f32 := Host.absf main_arg3
  let main_cst_2 : FVec F S_ .f32 := constant S_ .f32 0x7F800000#32
  let main_v10 : FVec F S8x10 .f32 := broadcastInDim S8x10 ![] bcast_S_S8x10 main_cst_2
  let main_v11 : IVec S8x10 1 := cmpf .olt main_v9 main_v10
  let main_c_3 : IVec S_ 1 := constantI S_ 1 1#1
  let main_v12 : IVec S_ 1 := (fun x v => Host.reduce IntOp.andi x v reducesTo_S8x10_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_v13 main_v16
-- ==== Kernel.lean ====
abbrev S4x65536x3 : Shape := ⟨3, ![4, 65536, 3]⟩
abbrev S4x8x65536x1 : Shape := ⟨4, ![4, 8, 65536, 1]⟩
abbrev S4x65536x16 : Shape := ⟨3, ![4, 65536, 16]⟩
abbrev S8x10 : Shape := ⟨2, ![8, 10]⟩
abbrev S8 : Shape := ⟨1, ![8]⟩
abbrev S_ : Shape := ⟨0, ![]⟩
abbrev S4x65536x16x1 : Shape := ⟨4, ![4, 65536, 16, 1]⟩
abbrev S4x65536x16x3 : Shape := ⟨4, ![4, 65536, 16, 3]⟩
abbrev S4x65536x1x3 : Shape := ⟨4, ![4, 65536, 1, 3]⟩
abbrev S4x65536x16x6 : Shape := ⟨4, ![4, 65536, 16, 6]⟩
abbrev S4x6x65536x16 : Shape := ⟨4, ![4, 6, 65536, 16]⟩
abbrev S4x6x1048576 : Shape := ⟨3, ![4, 6, 1048576]⟩
abbrev S4x8x65536 : Shape := ⟨3, ![4, 8, 65536]⟩
abbrev S4x65536x8 : Shape := ⟨3, ![4, 65536, 8]⟩
abbrev S4x65536x16x8 : Shape := ⟨4, ![4, 65536, 16, 8]⟩
abbrev S4x8x65536x16 : Shape := ⟨4, ![4, 8, 65536, 16]⟩
abbrev S4x8x1048576 : Shape := ⟨3, ![4, 8, 1048576]⟩
abbrev S4x1x8 : Shape := ⟨3, ![4, 1, 8]⟩
abbrev S1x6x32768 : Shape := ⟨3, ![1, 6, 32768]⟩
abbrev S1x1x8 : Shape := ⟨3, ![1, 1, 8]⟩
abbrev S1x8 : Shape := ⟨2, ![1, 8]⟩
abbrev S6x32768 : Shape := ⟨2, ![6, 32768]⟩
abbrev S3x32768 : Shape := ⟨2, ![3, 32768]⟩
abbrev S32768 : Shape := ⟨1, ![32768]⟩
abbrev S1x32768 : Shape := ⟨2, ![1, 32768]⟩
abbrev S10x32768 : Shape := ⟨2, ![10, 32768]⟩
abbrev S1 : Shape := ⟨1, ![1]⟩
abbrev S1x1 : Shape := ⟨2, ![1, 1]⟩
abbrev S8x32768 : Shape := ⟨2, ![8, 32768]⟩
abbrev S4x8 : Shape := ⟨2, ![4, 8]⟩
abbrev S8x1 : Shape := ⟨2, ![8, 1]⟩
abbrev S4x16x1048576 : Shape := ⟨3, ![4, 16, 1048576]⟩
abbrev S1x8x32768 : Shape := ⟨3, ![1, 8, 32768]⟩
abbrev S1x16x32768 : Shape := ⟨3, ![1, 16, 32768]⟩
abbrev S16x32768 : Shape := ⟨2, ![16, 32768]⟩
abbrev S4x16x65536x16 : Shape := ⟨4, ![4, 16, 65536, 16]⟩

abbrev nBuf : Space → Nat
  | .hbm => 67
  | .vmem => 20
  | .smem => 0
  | _ => 0

abbrev bufTy : (tb : Table) → Fin (tcTables nBuf tb) → BufTy
  | .hbm, ⟨0, _⟩ => ⟨S4x65536x3, .f32⟩
  | .hbm, ⟨1, _⟩ => ⟨S4x8x65536x1, .f32⟩
  | .hbm, ⟨2, _⟩ => ⟨S4x65536x16, .i32⟩
  | .hbm, ⟨3, _⟩ => ⟨S8x10, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S_, .i32⟩
  | .hbm, ⟨8, _⟩ => ⟨S4x65536x16, .i32⟩
  | .hbm, ⟨9, _⟩ => ⟨S4x65536x16, .i1⟩
  | .hbm, ⟨10, _⟩ => ⟨S_, .i32⟩
  | .hbm, ⟨11, _⟩ => ⟨S4x65536x16, .i32⟩
  | .hbm, ⟨12, _⟩ => ⟨S4x65536x16, .i32⟩
  | .hbm, ⟨13, _⟩ => ⟨S4x65536x16, .i32⟩
  | .hbm, ⟨14, _⟩ => ⟨S4x65536x16x1, .i32⟩
  | .hbm, ⟨15, _⟩ => ⟨S4x65536x16x3, .f32⟩
  | .hbm, ⟨16, _⟩ => ⟨S4x65536x1x3, .f32⟩
  | .hbm, ⟨17, _⟩ => ⟨S4x65536x16x3, .f32⟩
  | .hbm, ⟨18, _⟩ => ⟨S4x65536x16x6, .f32⟩
  | .hbm, ⟨19, _⟩ => ⟨S4x65536x16x6, .bf16⟩
  | .hbm, ⟨20, _⟩ => ⟨S4x6x65536x16, .bf16⟩
  | .hbm, ⟨21, _⟩ => ⟨S4x6x1048576, .bf16⟩
  | .hbm, ⟨22, _⟩ => ⟨S4x8x65536, .f32⟩
  | .hbm, ⟨23, _⟩ => ⟨S4x65536x8, .f32⟩
  | .hbm, ⟨24, _⟩ => ⟨S_, .i32⟩
  | .hbm, ⟨25, _⟩ => ⟨S4x65536x16, .i32⟩
  | .hbm, ⟨26, _⟩ => ⟨S4x65536x16, .i1⟩
  | .hbm, ⟨27, _⟩ => ⟨S_, .i32⟩
  | .hbm, ⟨28, _⟩ => ⟨S4x65536x16, .i32⟩
  | .hbm, ⟨29, _⟩ => ⟨S4x65536x16, .i32⟩
  | .hbm, ⟨30, _⟩ => ⟨S4x65536x16, .i32⟩
  | .hbm, ⟨31, _⟩ => ⟨S4x65536x16x1, .i32⟩
  | .hbm, ⟨32, _⟩ => ⟨S4x65536x16x8, .f32⟩
  | .hbm, ⟨33, _⟩ => ⟨S4x8x65536x16, .f32⟩
  | .hbm, ⟨34, _⟩ => ⟨S4x8x1048576, .f32⟩
  | .hbm, ⟨35, _⟩ => ⟨S4x1x8, .f32⟩
  | .hbm, ⟨36, _⟩ => ⟨S4x1x8, .f32⟩
  | .hbm, ⟨37, _⟩ => ⟨S4x8, .f32⟩
  | .hbm, ⟨38, _⟩ => ⟨S4x8, .f32⟩
  | .hbm, ⟨39, _⟩ => ⟨S_, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S8x1, .f32⟩
  | .hbm, ⟨57, _⟩ => ⟨S8x10, .f32⟩
  | .hbm, ⟨58, _⟩ => ⟨S8x10, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S4x16x1048576, .f32⟩
  | .hbm, ⟨64, _⟩ => ⟨S4x8x1048576, .f32⟩
  | .hbm, ⟨65, _⟩ => ⟨S4x16x65536x16, .f32⟩
  | .hbm, ⟨66, _⟩ => ⟨S4x8x65536x16, .f32⟩
  | .local _ .vmem, ⟨0, _⟩ => ⟨S1x6x32768, .bf16⟩
  | .local _ .vmem, ⟨1, _⟩ => ⟨S1x6x32768, .bf16⟩
  | .local _ .vmem, ⟨2, _⟩ => ⟨S8x10, .f32⟩
  | .local _ .vmem, ⟨3, _⟩ => ⟨S8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | .local _ .vmem, ⟨8, _⟩ => ⟨S1x8, .f32⟩
  | .local _ .vmem, ⟨9, _⟩ => ⟨S1x8, .f32⟩
  | .local _ .vmem, ⟨10, _⟩ => ⟨S1x6x32768, .bf16⟩
  | .local _ .vmem, ⟨11, _⟩ => ⟨S1x6x32768, .bf16⟩
  | .local _ .vmem, ⟨12, _⟩ => ⟨S1x8x32768, .f32⟩
  | .local _ .vmem, ⟨13, _⟩ => ⟨S1x8x32768, .f32⟩
  | .local _ .vmem, ⟨14, _⟩ => ⟨S8x10, .f32⟩
  | .local _ .vmem, ⟨15, _⟩ => ⟨S8, .f32⟩
  | .local _ .vmem, ⟨16, _⟩ => ⟨S1x16x32768, .f32⟩
  | .local _ .vmem, ⟨17, _⟩ => ⟨S1x16x32768, .f32⟩
  | .local _ .vmem, ⟨18, _⟩ => ⟨S1x8x32768, .f32⟩
  | .local _ .vmem, ⟨19, _⟩ => ⟨S1x8x32768, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46_0 : Ref sig .tc := ⟨.hbm, 63, rfl⟩
abbrev main_v46_1 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v624 : BitVec 1 := Scalar.cmpi .eq arg1 c31_i32
  let v625 : BitVec 32 := Scalar.extui v624
  let c0_i32_16 : BitVec 32 := 0#32
  let v626 : BitVec 1 := Scalar.cmpi .ne v625 c0_i32_16
  v626

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x6x32768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S8x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x16x32768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x32768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bcast_S_S4x65536x16 : S_.BroadcastsInDim S4x65536x16 (![] : Fin 0 → Fin S4x65536x16.rank)
  bcast_S4x65536x16_S4x65536x16x1_0_1_2 : S4x65536x16.BroadcastsInDim S4x65536x16x1 (![0, 1, 2] : Fin 3 → Fin S4x65536x16x1.rank)
  bcast_S4x65536x3_S4x65536x1x3_0_1_3 : S4x65536x3.BroadcastsInDim S4x65536x1x3 (![0, 1, 3] : Fin 3 → Fin S4x65536x1x3.rank)
  bcast_S4x65536x1x3_S4x65536x16x3_0_1_2_3 : S4x65536x1x3.BroadcastsInDim S4x65536x16x3 (![0, 1, 2, 3] : Fin 4 → Fin S4x65536x16x3.rank)
  concatenates_S4x65536x16x3_S4x65536x16x3_S4x65536x16x6_d3 : Shape.Concatenates [S4x65536x16x3, S4x65536x16x3] S4x65536x16x6 3
  bitsLt_bf16_f32 : FTy.bits .bf16 < FTy.bits .f32
  transposes_S4x65536x16x6_S4x6x65536x16_0_3_1_2 : S4x65536x16x6.Transposes [0, 3, 1, 2] S4x6x65536x16
  shapeCasts_S4x6x65536x16_S4x6x1048576 : S4x6x65536x16.ShapeCasts S4x6x1048576
  shapeCasts_S4x8x65536x1_S4x8x65536 : S4x8x65536x1.ShapeCasts S4x8x65536
  transposes_S4x8x65536_S4x65536x8_0_2_1 : S4x8x65536.Transposes [0, 2, 1] S4x65536x8
  transposes_S4x65536x16x8_S4x8x65536x16_0_3_1_2 : S4x65536x16x8.Transposes [0, 3, 1, 2] S4x8x65536x16
  shapeCasts_S4x8x65536x16_S4x8x1048576 : S4x8x65536x16.ShapeCasts S4x8x1048576
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x6x32768_S1x6x32768_0_0_0 : ∀ a, (![0, 0, 0] : Fin 3 → Nat) a + S1x6x32768.size a ≤ S1x6x32768.size a
  h_S1x6x32768 : 0 < S1x6x32768.numel
  shapeCasts_S1x6x32768_S6x32768 : S1x6x32768.ShapeCasts S6x32768
  slices_S6x32768_o0_0_S3x32768 : S6x32768.Slices ![0, 0] S3x32768
  slices_S6x32768_o3_0_S3x32768 : S6x32768.Slices ![3, 0] S3x32768
  reduces_S3x32768_S32768 : S3x32768.Reduces [0] S32768
  shapeCasts_S32768_S1x32768 : S32768.ShapeCasts S1x32768
  concatenates_S1x32768_S3x32768_S3x32768_S3x32768_S10x32768_d0 : Shape.Concatenates [S1x32768, S3x32768, S3x32768, S3x32768] S10x32768 0
  inb_S8x10_S8x10_0_0 : ∀ a, (![0, 0] : Fin 2 → Nat) a + S8x10.size a ≤ S8x10.size a
  h_S8x10 : 0 < S8x10.numel
  inb_S8_S8_0 : ∀ a, (![0] : Fin 1 → Nat) a + S8.size a ≤ S8.size a
  h_S8 : 0 < S8.numel
  slices_S8_o0_S1 : S8.Slices ![0] S1
  inpos_S1_p0 : ∀ a, (![0] : Fin 1 → Nat) a < S1.size a
  slices_S8x10_o0_0_S1x1 : S8x10.Slices ![0, 0] S1x1
  inpos_S1x1_p0_0 : ∀ a, (![0, 0] : Fin 2 → Nat) a < S1x1.size a
  slices_S10x32768_o0_0_S1x32768 : S10x32768.Slices ![0, 0] S1x32768
  shapeCasts_S1x32768_S32768 : S1x32768.ShapeCasts S32768
  slices_S8x10_o0_1_S1x1 : S8x10.Slices ![0, 1] S1x1
  slices_S10x32768_o1_0_S1x32768 : S10x32768.Slices ![1, 0] S1x32768
  slices_S8x10_o0_2_S1x1 : S8x10.Slices ![0, 2] S1x1
  slices_S10x32768_o2_0_S1x32768 : S10x32768.Slices ![2, 0] S1x32768
  slices_S8x10_o0_3_S1x1 : S8x10.Slices ![0, 3] S1x1
  slices_S10x32768_o3_0_S1x32768 : S10x32768.Slices ![3, 0] S1x32768
  slices_S8x10_o0_4_S1x1 : S8x10.Slices ![0, 4] S1x1
  slices_S10x32768_o4_0_S1x32768 : S10x32768.Slices ![4, 0] S1x32768
  slices_S8x10_o0_5_S1x1 : S8x10.Slices ![0, 5] S1x1
  slices_S10x32768_o5_0_S1x32768 : S10x32768.Slices ![5, 0] S1x32768
  slices_S8x10_o0_6_S1x1 : S8x10.Slices ![0, 6] S1x1
  slices_S10x32768_o6_0_S1x32768 : S10x32768.Slices ![6, 0] S1x32768
  slices_S8x10_o0_7_S1x1 : S8x10.Slices ![0, 7] S1x1
  slices_S10x32768_o7_0_S1x32768 : S10x32768.Slices ![7, 0] S1x32768
  slices_S8x10_o0_8_S1x1 : S8x10.Slices ![0, 8] S1x1
  slices_S10x32768_o8_0_S1x32768 : S10x32768.Slices ![8, 0] S1x32768
  slices_S8x10_o0_9_S1x1 : S8x10.Slices ![0, 9] S1x1
  slices_S10x32768_o9_0_S1x32768 : S10x32768.Slices ![9, 0] S1x32768
  slices_S8_o1_S1 : S8.Slices ![1] S1
  slices_S8x10_o1_0_S1x1 : S8x10.Slices ![1, 0] S1x1
  slices_S8x10_o1_1_S1x1 : S8x10.Slices ![1, 1] S1x1
  slices_S8x10_o1_2_S1x1 : S8x10.Slices ![1, 2] S1x1
  slices_S8x10_o1_3_S1x1 : S8x10.Slices ![1, 3] S1x1
  slices_S8x10_o1_4_S1x1 : S8x10.Slices ![1, 4] S1x1
  slices_S8x10_o1_5_S1x1 : S8x10.Slices ![1, 5] S1x1
  slices_S8x10_o1_6_S1x1 : S8x10.Slices ![1, 6] S1x1
  slices_S8x10_o1_7_S1x1 : S8x10.Slices ![1, 7] S1x1
  slices_S8x10_o1_8_S1x1 : S8x10.Slices ![1, 8] S1x1
  slices_S8x10_o1_9_S1x1 : S8x10.Slices ![1, 9] S1x1
  slices_S8_o2_S1 : S8.Slices ![2] S1
  slices_S8x10_o2_0_S1x1 : S8x10.Slices ![2, 0] S1x1
  slices_S8x10_o2_1_S1x1 : S8x10.Slices ![2, 1] S1x1
  slices_S8x10_o2_2_S1x1 : S8x10.Slices ![2, 2] S1x1
  slices_S8x10_o2_3_S1x1 : S8x10.Slices ![2, 3] S1x1
  slices_S8x10_o2_4_S1x1 : S8x10.Slices ![2, 4] S1x1
  slices_S8x10_o2_5_S1x1 : S8x10.Slices ![2, 5] S1x1
  slices_S8x10_o2_6_S1x1 : S8x10.Slices ![2, 6] S1x1
  slices_S8x10_o2_7_S1x1 : S8x10.Slices ![2, 7] S1x1
  slices_S8x10_o2_8_S1x1 : S8x10.Slices ![2, 8] S1x1
  slices_S8x10_o2_9_S1x1 : S8x10.Slices ![2, 9] S1x1
  slices_S8_o3_S1 : S8.Slices ![3] S1
  slices_S8x10_o3_0_S1x1 : S8x10.Slices ![3, 0] S1x1
  slices_S8x10_o3_1_S1x1 : S8x10.Slices ![3, 1] S1x1
  slices_S8x10_o3_2_S1x1 : S8x10.Slices ![3, 2] S1x1
  slices_S8x10_o3_3_S1x1 : S8x10.Slices ![3, 3] S1x1
  slices_S8x10_o3_4_S1x1 : S8x10.Slices ![3, 4] S1x1
  slices_S8x10_o3_5_S1x1 : S8x10.Slices ![3, 5] S1x1
  slices_S8x10_o3_6_S1x1 : S8x10.Slices ![3, 6] S1x1
  slices_S8x10_o3_7_S1x1 : S8x10.Slices ![3, 7] S1x1
  slices_S8x10_o3_8_S1x1 : S8x10.Slices ![3, 8] S1x1
  slices_S8x10_o3_9_S1x1 : S8x10.Slices ![3, 9] S1x1
  slices_S8_o4_S1 : S8.Slices ![4] S1
  slices_S8x10_o4_0_S1x1 : S8x10.Slices ![4, 0] S1x1
  slices_S8x10_o4_1_S1x1 : S8x10.Slices ![4, 1] S1x1
  slices_S8x10_o4_2_S1x1 : S8x10.Slices ![4, 2] S1x1
  slices_S8x10_o4_3_S1x1 : S8x10.Slices ![4, 3] S1x1
  slices_S8x10_o4_4_S1x1 : S8x10.Slices ![4, 4] S1x1
  slices_S8x10_o4_5_S1x1 : S8x10.Slices ![4, 5] S1x1
  slices_S8x10_o4_6_S1x1 : S8x10.Slices ![4, 6] S1x1
  slices_S8x10_o4_7_S1x1 : S8x10.Slices ![4, 7] S1x1
  slices_S8x10_o4_8_S1x1 : S8x10.Slices ![4, 8] S1x1
  slices_S8x10_o4_9_S1x1 : S8x10.Slices ![4, 9] S1x1
  slices_S8_o5_S1 : S8.Slices ![5] S1
  slices_S8x10_o5_0_S1x1 : S8x10.Slices ![5, 0] S1x1
  slices_S8x10_o5_1_S1x1 : S8x10.Slices ![5, 1] S1x1
  slices_S8x10_o5_2_S1x1 : S8x10.Slices ![5, 2] S1x1
  slices_S8x10_o5_3_S1x1 : S8x10.Slices ![5, 3] S1x1
  slices_S8x10_o5_4_S1x1 : S8x10.Slices ![5, 4] S1x1
  slices_S8x10_o5_5_S1x1 : S8x10.Slices ![5, 5] S1x1
  slices_S8x10_o5_6_S1x1 : S8x10.Slices ![5, 6] S1x1
  slices_S8x10_o5_7_S1x1 : S8x10.Slices ![5, 7] S1x1
  slices_S8x10_o5_8_S1x1 : S8x10.Slices ![5, 8] S1x1
  slices_S8x10_o5_9_S1x1 : S8x10.Slices ![5, 9] S1x1
  slices_S8_o6_S1 : S8.Slices ![6] S1
  slices_S8x10_o6_0_S1x1 : S8x10.Slices ![6, 0] S1x1
  slices_S8x10_o6_1_S1x1 : S8x10.Slices ![6, 1] S1x1
  slices_S8x10_o6_2_S1x1 : S8x10.Slices ![6, 2] S1x1
  slices_S8x10_o6_3_S1x1 : S8x10.Slices ![6, 3] S1x1
  slices_S8x10_o6_4_S1x1 : S8x10.Slices ![6, 4] S1x1
  slices_S8x10_o6_5_S1x1 : S8x10.Slices ![6, 5] S1x1
  slices_S8x10_o6_6_S1x1 : S8x10.Slices ![6, 6] S1x1
  slices_S8x10_o6_7_S1x1 : S8x10.Slices ![6, 7] S1x1
  slices_S8x10_o6_8_S1x1 : S8x10.Slices ![6, 8] S1x1
  slices_S8x10_o6_9_S1x1 : S8x10.Slices ![6, 9] S1x1
  slices_S8_o7_S1 : S8.Slices ![7] S1
  slices_S8x10_o7_0_S1x1 : S8x10.Slices ![7, 0] S1x1
  slices_S8x10_o7_1_S1x1 : S8x10.Slices ![7, 1] S1x1
  slices_S8x10_o7_2_S1x1 : S8x10.Slices ![7, 2] S1x1
  slices_S8x10_o7_3_S1x1 : S8x10.Slices ![7, 3] S1x1
  slices_S8x10_o7_4_S1x1 : S8x10.Slices ![7, 4] S1x1
  slices_S8x10_o7_5_S1x1 : S8x10.Slices ![7, 5] S1x1
  slices_S8x10_o7_6_S1x1 : S8x10.Slices ![7, 6] S1x1
  slices_S8x10_o7_7_S1x1 : S8x10.Slices ![7, 7] S1x1
  slices_S8x10_o7_8_S1x1 : S8x10.Slices ![7, 8] S1x1
  slices_S8x10_o7_9_S1x1 : S8x10.Slices ![7, 9] S1x1
  concatenates_S1x32768_S1x32768_S1x32768_S1x32768_S1x32768_S1x32768_S1x32768_S1x32768_S8x32768_d0 : Shape.Concatenates [S1x32768, S1x32768, S1x32768, S1x32768, S1x32768, S1x32768, S1x32768, S1x32768] S8x32768 0
  reduces_S8x32768_S8 : S8x32768.Reduces [1] S8
  shapeCasts_S8_S1x8 : S8.ShapeCasts S1x8
  shapeCasts_S1x8_S1x1x8 : S1x8.ShapeCasts S1x1x8
  inb_S1x1x8_S1x1x8_0_0_0 : ∀ a, (![0, 0, 0] : Fin 3 → Nat) a + S1x1x8.size a ≤ S1x1x8.size a
  h_S1x1x8 : 0 < S1x1x8.numel
  shapeCasts_S4x1x8_S4x8 : S4x1x8.ShapeCasts S4x8
  reducesTo_S4x8_S8_d0 : S4x8.ReducesTo [0] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x10_0_1 : S8x1.BroadcastsInDim S8x10 (![0, 1] : Fin 2 → Fin S8x10.rank)
  shapeCasts_S8x10_S8x10 : S8x10.ShapeCasts S8x10
  shapeCasts_S8_S8 : S8.ShapeCasts S8
  inb_S1x8x32768_S1x8x32768_0_0_0 : ∀ a, (![0, 0, 0] : Fin 3 → Nat) a + S1x8x32768.size a ≤ S1x8x32768.size a
  h_S1x8x32768 : 0 < S1x8x32768.numel
  shapeCasts_S1x8x32768_S8x32768 : S1x8x32768.ShapeCasts S8x32768
  concatenates_S8x32768_S8x32768_S16x32768_d0 : Shape.Concatenates [S8x32768, S8x32768] S16x32768 0
  inb_S1x16x32768_S1x16x32768_0_0_0 : ∀ a, (![0, 0, 0] : Fin 3 → Nat) a + S1x16x32768.size a ≤ S1x16x32768.size a
  h_S1x16x32768 : 0 < S1x16x32768.numel
  shapeCasts_S1x16x32768_S16x32768 : S1x16x32768.ShapeCasts S16x32768
  shapeCasts_S16x32768_S1x16x32768 : S16x32768.ShapeCasts S1x16x32768
  shapeCasts_S8x32768_S1x8x32768 : S8x32768.ShapeCasts S1x8x32768
  shapeCasts_S4x16x1048576_S4x16x65536x16 : S4x16x1048576.ShapeCasts S4x16x65536x16
  shapeCasts_S4x8x1048576_S4x8x65536x16 : S4x8x1048576.ShapeCasts S4x8x65536x16
  gather_S4x65536x3_S4x65536x16x1_S4x65536x16x3_3_1_0_0_1_3_113_wf : GatherDims.WF S4x65536x3 S4x65536x16x1 S4x65536x16x3 [3] [1] [0] [1] [0] 3 ![1, 1, 3]
  gather_S4x65536x8_S4x65536x16x1_S4x65536x16x8_3_1_0_0_1_3_118_wf : GatherDims.WF S4x65536x8 S4x65536x16x1 S4x65536x16x8 [3] [1] [0] [1] [0] 3 ![1, 1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6x32768.size a ≤ S4x6x1048576.size a
  hwx0_0 : ∀ i : grid0.Coords, EltTy.bits .bf16 = 32 ∨ (Rect.block (s := S4x6x1048576) S1x6x32768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x10.size a ≤ S8x10.size a
  hwx0_1 : ∀ i : grid0.Coords, EltTy.bits .f32 = 32 ∨ (Rect.block (s := S8x10) S8x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8.size a ≤ S4x1x8.size a
  hwx0_3 : ∀ i : grid0.Coords, EltTy.bits .f32 = 32 ∨ (Rect.block (s := S4x1x8) S1x1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8.size a ≤ S4x1x8.size a
  hwx0_4 : ∀ i : grid0.Coords, EltTy.bits .f32 = 32 ∨ (Rect.block (s := S4x1x8) S1x1x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x6x32768.size a ≤ S4x6x1048576.size a
  hwx1_0 : ∀ i : grid1.Coords, EltTy.bits .bf16 = 32 ∨ (Rect.block (s := S4x6x1048576) S1x6x32768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x32768.size a ≤ S4x8x1048576.size a
  hwx1_1 : ∀ i : grid1.Coords, EltTy.bits .f32 = 32 ∨ (Rect.block (s := S4x8x1048576) S1x8x32768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x10.size a ≤ S8x10.size a
  hwx1_2 : ∀ i : grid1.Coords, EltTy.bits .f32 = 32 ∨ (Rect.block (s := S8x10) S8x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8.size a ≤ S8.size a
  hwx1_3 : ∀ i : grid1.Coords, EltTy.bits .f32 = 32 ∨ (Rect.block (s := S8) S8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x32768.size a ≤ S4x16x1048576.size a
  hwx1_4 : ∀ i : grid1.Coords, EltTy.bits .f32 = 32 ∨ (Rect.block (s := S4x16x1048576) S1x16x32768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x32768.size a ≤ S4x8x1048576.size a
  hwx1_5 : ∀ i : grid1.Coords, EltTy.bits .f32 = 32 ∨ (Rect.block (s := S4x8x1048576) S1x8x32768.size (cc1_transform_5 i) (hinb1_5 i)).WholeWords (EltTy.packing .f32)

variable [Facts₀]

def gather_S4x65536x3_S4x65536x16x1_S4x65536x16x3_3_1_0_0_1_3_113 : GatherDims S4x65536x3 S4x65536x16x1 S4x65536x16x3 where
  offsetDims := [3]
  collapsedSliceDims := [1]
  operandBatchingDims := [0]
  startIndicesBatchingDims := [0]
  startIndexMap := [1]
  indexVectorDim := 3
  sliceSizes := ![1, 1, 3]
  wf := gather_S4x65536x3_S4x65536x16x1_S4x65536x16x3_3_1_0_0_1_3_113_wf
def gather_S4x65536x8_S4x65536x16x1_S4x65536x16x8_3_1_0_0_1_3_118 : GatherDims S4x65536x8 S4x65536x16x1 S4x65536x16x8 where
  offsetDims := [3]
  collapsedSliceDims := [1]
  operandBatchingDims := [0]
  startIndicesBatchingDims := [0]
  startIndexMap := [1]
  indexVectorDim := 3
  sliceSizes := ![1, 1, 8]
  wf := gather_S4x65536x8_S4x65536x16x1_S4x65536x16x8_3_1_0_0_1_3_118_wf

abbrev win0_0 : Pipeline.Window sig grid0 :=
  Pipeline.Window.ofSpec (Memref.whole main_v12) S1x6x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24_0) S1x1x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24_1) S1x1x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v12) S1x6x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x8x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S8x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S1x16x32768.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S1x8x32768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x65536x3 : Shape := ⟨3, ![4, 65536, 3]⟩
abbrev S4x8x65536x1 : Shape := ⟨4, ![4, 8, 65536, 1]⟩
abbrev S4x65536x16 : Shape := ⟨3, ![4, 65536, 16]⟩
abbrev S8x10 : Shape := ⟨2, ![8, 10]⟩
abbrev S8 : Shape := ⟨1, ![8]⟩
abbrev S_ : Shape := ⟨0, ![]⟩
abbrev S4x65536x16x1 : Shape := ⟨4, ![4, 65536, 16, 1]⟩
abbrev S4x65536x16x3 : Shape := ⟨4, ![4, 65536, 16, 3]⟩
abbrev S4x65536x1x3 : Shape := ⟨4, ![4, 65536, 1, 3]⟩
abbrev S4x65536x16x10 : Shape := ⟨4, ![4, 65536, 16, 10]⟩
abbrev S4x65536x16x8 : Shape := ⟨4, ![4, 65536, 16, 8]⟩
abbrev S1x1x1x8 : Shape := ⟨4, ![1, 1, 1, 8]⟩
abbrev S4x8x65536 : Shape := ⟨3, ![4, 8, 65536]⟩
abbrev S4x65536x8 : Shape := ⟨3, ![4, 65536, 8]⟩
abbrev S4x65536x16x16 : Shape := ⟨4, ![4, 65536, 16, 16]⟩
abbrev S4x16x65536x16 : Shape := ⟨4, ![4, 16, 65536, 16]⟩
abbrev S4x8x65536x16 : Shape := ⟨4, ![4, 8, 65536, 16]⟩

abbrev nBuf : Space → Nat
  | .hbm => 80
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S4x8x65536x1, .f32⟩
  | .hbm, ⟨2, _⟩ => ⟨S4x65536x16, .i32⟩
  | .hbm, ⟨3, _⟩ => ⟨S8x10, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S_, .i32⟩
  | .hbm, ⟨8, _⟩ => ⟨S4x65536x16, .i32⟩
  | .hbm, ⟨9, _⟩ => ⟨S4x65536x16, .i1⟩
  | .hbm, ⟨10, _⟩ => ⟨S_, .i32⟩
  | .hbm, ⟨11, _⟩ => ⟨S4x65536x16, .i32⟩
  | .hbm, ⟨12, _⟩ => ⟨S4x65536x16, .i32⟩
  | .hbm, ⟨13, _⟩ => ⟨S4x65536x16, .i32⟩
  | .hbm, ⟨14, _⟩ => ⟨S4x65536x16x1, .i32⟩
  | .hbm, ⟨15, _⟩ => ⟨S4x65536x16x3, .f32⟩
  | .hbm, ⟨16, _⟩ => ⟨S4x65536x1x3, .f32⟩
  | .hbm, ⟨17, _⟩ => ⟨S4x65536x16x3, .f32⟩
  | .hbm, ⟨18, _⟩ => ⟨S4x65536x16x3, .f32⟩
  | .hbm, ⟨19, _⟩ => ⟨S4x65536x16x3, .f32⟩
  | .hbm, ⟨20, _⟩ => ⟨S_, .f32⟩
  | .hbm, ⟨21, _⟩ => ⟨S4x65536x16, .f32⟩
  | .hbm, ⟨22, _⟩ => ⟨S4x65536x16x1, .f32⟩
  | .hbm, ⟨23, _⟩ => ⟨S4x65536x16x1, .f32⟩
  | .hbm, ⟨24, _⟩ => ⟨S4x65536x16x10, .f32⟩
  | .hbm, ⟨25, _⟩ => ⟨S4x65536x16x8, .f32⟩
  | .hbm, ⟨26, _⟩ => ⟨S1x1x1x8, .f32⟩
  | .hbm, ⟨27, _⟩ => ⟨S4x65536x16x8, .f32⟩
  | .hbm, ⟨28, _⟩ => ⟨S4x65536x16x8, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S1x1x1x8, .f32⟩
  | .hbm, ⟨35, _⟩ => ⟨S4x65536x16x8, .f32⟩
  | .hbm, ⟨36, _⟩ => ⟨S4x65536x16x8, .f32⟩
  | .hbm, ⟨37, _⟩ => ⟨S4x65536x16x8, .f32⟩
  | .hbm, ⟨38, _⟩ => ⟨S_, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S1x1x1x8, .f32⟩
  | .hbm, ⟨44, _⟩ => ⟨S4x65536x16x8, .f32⟩
  | .hbm, ⟨45, _⟩ => ⟨S4x65536x16x8, .f32⟩
  | .hbm, ⟨46, _⟩ => ⟨S1x1x1x8, .f32⟩
  | .hbm, ⟨47, _⟩ => ⟨S4x65536x16x8, .f32⟩
  | .hbm, ⟨48, _⟩ => ⟨S4x65536x16x8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S1x1x1x8, .f32⟩
  | .hbm, ⟨54, _⟩ => ⟨S4x65536x16x8, .f32⟩
  | .hbm, ⟨55, _⟩ => ⟨S4x65536x16x8, .f32⟩
  | .hbm, ⟨56, _⟩ => ⟨S1x1x1x8, .f32⟩
  | .hbm, ⟨57, _⟩ => ⟨S4x65536x16x8, .f32⟩
  | .hbm, ⟨58, _⟩ => ⟨S4x65536x16x8, .f32⟩
  | .hbm, ⟨59, _⟩ => ⟨S_, .f32⟩
  | .hbm, ⟨60, _⟩ => ⟨S4x65536x16x8, .f32⟩
  | .hbm, ⟨61, _⟩ => ⟨S4x65536x16x8, .i1⟩
  | .hbm, ⟨62, _⟩ => ⟨S_, .f32⟩
  | .hbm, ⟨63, _⟩ => ⟨S4x65536x16x8, .f32⟩
  | .hbm, ⟨64, _⟩ => ⟨S4x65536x16x8, .f32⟩
  | .hbm, ⟨65, _⟩ => ⟨S4x65536x16x8, .f32⟩
  | .hbm, ⟨66, _⟩ => ⟨S4x8x65536, .f32⟩
  | .hbm, ⟨67, _⟩ => ⟨S4x65536x8, .f32⟩
  | .hbm, ⟨68, _⟩ => ⟨S_, .i32⟩
  | .hbm, ⟨69, _⟩ => ⟨S4x65536x16, .i32⟩
  | .hbm, ⟨70, _⟩ => ⟨S4x65536x16, .i1⟩
  | .hbm, ⟨71, _⟩ => ⟨S_, .i32⟩
  | .hbm, ⟨72, _⟩ => ⟨S4x65536x16, .i32⟩
  | .hbm, ⟨73, _⟩ => ⟨S4x65536x16, .i32⟩
  | .hbm, ⟨74, _⟩ => ⟨S4x65536x16, .i32⟩
  | .hbm, ⟨75, _⟩ => ⟨S4x65536x16x1, .i32⟩
  | .hbm, ⟨76, _⟩ => ⟨S4x65536x16x8, .f32⟩
  | .hbm, ⟨77, _⟩ => ⟨S4x65536x16x16, .f32⟩
  | .hbm, ⟨78, _⟩ => ⟨S4x16x65536x16, .f32⟩
  | .hbm, ⟨79, _⟩ => ⟨S4x8x65536x16, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]

class Facts₀ : Prop where
  bcast_S_S4x65536x16 : S_.BroadcastsInDim S4x65536x16 (![] : Fin 0 → Fin S4x65536x16.rank)
  bcast_S4x65536x16_S4x65536x16x1_0_1_2 : S4x65536x16.BroadcastsInDim S4x65536x16x1 (![0, 1, 2] : Fin 3 → Fin S4x65536x16x1.rank)
  bcast_S4x65536x3_S4x65536x1x3_0_1_3 : S4x65536x3.BroadcastsInDim S4x65536x1x3 (![0, 1, 3] : Fin 3 → Fin S4x65536x1x3.rank)
  bcast_S4x65536x1x3_S4x65536x16x3_0_1_2_3 : S4x65536x1x3.BroadcastsInDim S4x65536x16x3 (![0, 1, 2, 3] : Fin 4 → Fin S4x65536x16x3.rank)
  reducesTo_S4x65536x16x3_S4x65536x16_d3 : S4x65536x16x3.ReducesTo [3] S4x65536x16
  h_S_ : 0 < S_.numel
  concatenates_S4x65536x16x1_S4x65536x16x3_S4x65536x16x3_S4x65536x16x3_S4x65536x16x10_d3 : Shape.Concatenates [S4x65536x16x1, S4x65536x16x3, S4x65536x16x3, S4x65536x16x3] S4x65536x16x10 3
  bcast_S8_S1x1x1x8_3 : S8.BroadcastsInDim S1x1x1x8 (![3] : Fin 1 → Fin S1x1x1x8.rank)
  bcast_S1x1x1x8_S4x65536x16x8_0_1_2_3 : S1x1x1x8.BroadcastsInDim S4x65536x16x8 (![0, 1, 2, 3] : Fin 4 → Fin S4x65536x16x8.rank)
  reducesTo_S4x65536x16x8_S8_d0_1_2 : S4x65536x16x8.ReducesTo [0, 1, 2] S8
  bcast_S_S8 : S_.BroadcastsInDim S8 (![] : Fin 0 → Fin S8.rank)
  bcast_S_S4x65536x16x8 : S_.BroadcastsInDim S4x65536x16x8 (![] : Fin 0 → Fin S4x65536x16x8.rank)
  shapeCasts_S4x8x65536x1_S4x8x65536 : S4x8x65536x1.ShapeCasts S4x8x65536
  transposes_S4x8x65536_S4x65536x8_0_2_1 : S4x8x65536.Transposes [0, 2, 1] S4x65536x8
  concatenates_S4x65536x16x8_S4x65536x16x8_S4x65536x16x16_d3 : Shape.Concatenates [S4x65536x16x8, S4x65536x16x8] S4x65536x16x16 3
  transposes_S4x65536x16x16_S4x16x65536x16_0_3_1_2 : S4x65536x16x16.Transposes [0, 3, 1, 2] S4x16x65536x16
  transposes_S4x65536x16x8_S4x8x65536x16_0_3_1_2 : S4x65536x16x8.Transposes [0, 3, 1, 2] S4x8x65536x16
  gather_S4x65536x3_S4x65536x16x1_S4x65536x16x3_3_1_0_0_1_3_113_wf : GatherDims.WF S4x65536x3 S4x65536x16x1 S4x65536x16x3 [3] [1] [0] [1] [0] 3 ![1, 1, 3]
  dot_S4x65536x16x10_S8x10_S4x65536x16x8_3_1_012_0_n_n_wf : DotDims.WF S4x65536x16x10 S8x10 S4x65536x16x8 [3] [1] [0, 1, 2] [0] [] []
  gather_S4x65536x8_S4x65536x16x1_S4x65536x16x8_3_1_0_0_1_3_118_wf : GatherDims.WF S4x65536x8 S4x65536x16x1 S4x65536x16x8 [3] [1] [0] [1] [0] 3 ![1, 1, 8]

variable [Facts₀]

def gather_S4x65536x3_S4x65536x16x1_S4x65536x16x3_3_1_0_0_1_3_113 : GatherDims S4x65536x3 S4x65536x16x1 S4x65536x16x3 where
  offsetDims := [3]
  collapsedSliceDims := [1]
  operandBatchingDims := [0]
  startIndicesBatchingDims := [0]
  startIndexMap := [1]
  indexVectorDim := 3
  sliceSizes := ![1, 1, 3]
  wf := gather_S4x65536x3_S4x65536x16x1_S4x65536x16x3_3_1_0_0_1_3_113_wf
def dot_S4x65536x16x10_S8x10_S4x65536x16x8_3_1_012_0_n_n : DotDims S4x65536x16x10 S8x10 S4x65536x16x8 where
  lhsContracting := [3]
  rhsContracting := [1]
  lhsNonContracting := [0, 1, 2]
  rhsNonContracting := [0]
  lhsBatch := []
  rhsBatch := []
  wf := dot_S4x65536x16x10_S8x10_S4x65536x16x8_3_1_012_0_n_n_wf
def gather_S4x65536x8_S4x65536x16x1_S4x65536x16x8_3_1_0_0_1_3_118 : GatherDims S4x65536x8 S4x65536x16x1 S4x65536x16x8 where
  offsetDims := [3]
  collapsedSliceDims := [1]
  operandBatchingDims := [0]
  startIndicesBatchingDims := [0]
  startIndexMap := [1]
  indexVectorDim := 3
  sliceSizes := ![1, 1, 8]
  wf := gather_S4x65536x8_S4x65536x16x1_S4x65536x16x8_3_1_0_0_1_3_118_wf

class Facts : Prop extends Facts₀ where

variable [Facts]
-- ==== Proof.K.Stats.Runs.lean ====
import proofs.«173522_j70901320122520_2_alg».proof.Proof.Gen.Kernel.Launch
import proofs.«173522_j70901320122520_2_alg».proof.Proof.Gen.Kernel.Skeleton
import proofs.«173522_j70901320122520_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The statistics kernel (the first pallas_call): what its three control cases share

The kernel walks a grid of 4 batches × 32 tiles. At the first tile of a batch it zeroes two accumulators
(one row of 8 sums, one row of 8 sums of squares); at every tile it adds the tile's row sums to them; at the
last tile of a batch it copies them to the two outputs. So a point is in one of three cases, decided by its
position modulo 32: first tile (A), a middle tile (B), last tile (C). Everything here is stated at a parameter
`V`, the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## The windows' blocks -/

/-- The block of window `w` at point `t`: that part of the window's array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The coordinates block (input 0) is in its staging buffer at every point, for any proof data over `V`'s
    array whose body leaves that block in place: a buffer not fetched afresh still holds the block of the
    point before, and the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights (input 1), fetched once: the one block stays where the first point put it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias (input 2), fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditions of the body, in closed form -/

/-- "This is the first tile of its batch": the tile coordinate equals 0, as the body computes it. -/
abbrev isFirst (i : grid0.Coords) : Prop := (Scalar.cmpi .ne (Scalar.extui (Scalar.cmpi .eq (BitVec.ofNat 32 (i 1).val) 0#32)) 0#32) = 1#1
/-- It holds exactly at the positions ≡ 0 (mod 32). -/
theorem isFirst_iff : ∀ t : Fin cfg0.N, isFirst (grid0.coords t) ↔ t.val % 32 = 0 :=
  (by decide +kernel : ∀ t : Fin grid0.N, isFirst (grid0.coords t) ↔ t.val % 32 = 0)

/-- "This is the last tile of its batch": the tile coordinate equals 31, as the body computes it. -/
abbrev isLast (i : grid0.Coords) : Prop := k0_cond2 i = 1#1
/-- It holds exactly at the positions ≡ 31 (mod 32). -/
theorem isLast_iff : ∀ t : Fin cfg0.N, isLast (grid0.coords t) ↔ t.val % 32 = 31 :=
  (by decide +kernel : ∀ t : Fin grid0.N, isLast (grid0.coords t) ↔ t.val % 32 = 31)

/-! ## Where the windows are live and where they rest -/

/-- The three inputs are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last tile the sum output rests: nothing is stored into it, and its block is not written back. -/
theorem rest0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
/-- On the last tile it is live. -/
theorem live0_3 : ∀ t : Fin cfg0.N, isLast (grid0.coords t) → cfg0.idle 3 (grid0.coords t) = false := by decide +kernel
/-- The same for the sum-of-squares output. -/
theorem rest0_4 : ∀ t : Fin cfg0.N, ¬isLast (grid0.coords t) → cfg0.idle 4 (grid0.coords t) = true := by decide +kernel
theorem noFlush0_4 : ∀ t : Fin cfg0.N, ¬isLast (grid0.coords t) → (cfg0.win 4).flush t = false := by decide +kernel
theorem live0_4 : ∀ t : Fin cfg0.N, isLast (grid0.coords t) → cfg0.idle 4 (grid0.coords t) = false := by decide +kernel

/-! ## The memrefs the body is called with -/

/-- One staging buffer of each output, through which its contents are stated (which one does not matter:
    a covered buffer reads back the same through any whole view). -/
abbrev outView3 : View sig .tc .vmem S1x1x8 .f32 := (Memref.whole cc0_stg3_0 : Memref sig .tc .vmem S1x1x8 .f32).view
abbrev outView4 : View sig .tc .vmem S1x1x8 .f32 := (Memref.whole cc0_stg4_0 : Memref sig .tc .vmem S1x1x8 .f32).view

/-- Each window's current staging memref at point `t`, and that it is a whole buffer. -/
abbrev stg0 (t : Fin cfg0.N) : Memref sig .tc .vmem S1x6x32768 .bf16 := win0_0.stage (cfg0.slots t 0)
abbrev hstg0 (t : Fin cfg0.N) : (stg0 t).IsWhole := hstage0_0 ((cfg0.slots t 0).cast nbuf0_0)
abbrev stg1 (t : Fin cfg0.N) : Memref sig .tc .vmem S8x10 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S8 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x1x8 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x1x8 .f32 := win0_4.stage (cfg0.slots t 4)
abbrev hstg4 (t : Fin cfg0.N) : (stg4 t).IsWhole := hstage0_4 ((cfg0.slots t 4).cast nbuf0_4)

/-- The two accumulators: whole scoped buffers of the kernel's own, carried from point to point. -/
abbrev accSum : Memref sig .tc .vmem S1x8 .f32 := Memref.whole cc0_scratch0
abbrev accSq : Memref sig .tc .vmem S1x8 .f32 := Memref.whole cc0_scratch1
abbrev accSumView : View sig .tc .vmem S1x8 .f32 := accSum.view
abbrev accSqView : View sig .tc .vmem S1x8 .f32 := accSq.view

/-! ## The region invariant, the accumulators split off -/

/-- The core's scoped buffers that are neither a staging buffer of this call nor one of its accumulators
    (the second call's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class's invariant hands the body both accumulators at some contents, the other scoped buffers, and
    the generator register. -/
theorem PhiA0_eq (c : Dev nD) :
    (Pipeline.ΦA spec0 c : sProp 𝕄)
      = iprop(iprop((∃ d, owns (c : Thread nD τ) accSum fullShare d) ∗ (∃ d, owns (c : Thread nD τ) accSq fullShare d) ∗ otherScoped c) ∗ (∃ r, prngReg c r)) := by
  unfold Pipeline.ΦA otherScoped; rw [scopedRest0_eq]; simp only [accSum, accSq, owns_whole]; try rfl

end Cert.Kernel.Hand

end
-- ==== Proof.K.Stats.RunA.lean ====
import proofs.«173522_j70901320122520_2_alg».proof.Proof.K.Stats.Runs

/-! # The statistics kernel at the first tile of a batch

A batch is walked in 32 tiles of 32768 lanes. At the first tile the body stores zero into both accumulators
(a row of 8 sums and a row of 8 sums of squares, one entry per output plane) and then adds this tile's row sums
to them: for each plane, the sum of the plane's values over the tile's lanes, resp. the sum of their squares.
Nothing is stored into the two outputs. The statement of this module: started with the three inputs' buffers
at given contents, the two outputs' buffers at given contents and the two accumulators at anything, the body
runs to its end; the inputs and the outputs are left as they were, and each accumulator is left with a known
list of stores written over it (the zero, then the zero plus the row sums). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST TILE OF A BATCH. Given the three inputs' buffers at their contents, the two outputs' buffers at
    contents that are handed back untouched (nothing is stored into them here), and the two accumulators at anything,
    the body runs to the end: the inputs stay as they were, and each accumulator ends with the listed stores written
    over it (last store first): the zero, then the zero plus this tile's row sums. The lists are found by running the
    body; they are the first components, the run is the last. -/
noncomputable def statsRun_A (c : Dev nD) (i : grid0.Coords) (arg2 : Memref sig .tc .vmem S1x6x32768 .bf16) (harg2 : arg2.IsWhole) (arg3 : Memref sig .tc .vmem S8x10 .f32) (harg3 : arg3.IsWhole) (arg4 : Memref sig .tc .vmem S8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : isFirst i) (hc1 : ¬isLast i)
    (x0 : Vec F S1x6x32768 .bf16) (x1 : Vec F S8x10 .f32) (x2 : Vec F S8 .f32) :
    Σ' (LS0 : List (View.Piece (Elt F) S1x8 .f32)), { LS1 : List (View.Piece (Elt F) S1x8 .f32) //
      ∀ (xi3 xi4 : Vec F S1x1x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Stats.RunB.lean ====
import proofs.«173522_j70901320122520_2_alg».proof.Proof.K.Stats.RunA

/-! # The statistics kernel at a middle tile of a batch

At a tile that is neither the first nor the last of its batch's 32 tiles the body only accumulates: it adds
this tile's row sums (for each output plane, the sum of the plane's values over the tile's 32768 lanes, resp.
the sum of their squares) to what the tile before left in the two accumulators. Nothing is stored into the two
outputs. The statement of this module: started with the three inputs' buffers at given contents, the two
outputs' buffers at given contents and the two accumulators at given contents, the body runs to its end; the
inputs and the outputs are left as they were, and each accumulator is left with one known store written over
it (its old contents plus the row sums). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE TILE. Given the three inputs' buffers at their contents, the two outputs' buffers at contents that are
    handed back untouched, and the two accumulators at what the tile before left (`xs0`, `xs1`), the body runs to the
    end: the inputs stay as they were and each accumulator ends with one store written over it, its old contents plus
    this tile's row sums. -/
noncomputable def statsRun_B (c : Dev nD) (i : grid0.Coords) (arg2 : Memref sig .tc .vmem S1x6x32768 .bf16) (harg2 : arg2.IsWhole) (arg3 : Memref sig .tc .vmem S8x10 .f32) (harg3 : arg3.IsWhole) (arg4 : Memref sig .tc .vmem S8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬isFirst i) (hc1 : ¬isLast i)
    (x0 : Vec F S1x6x32768 .bf16) (x1 : Vec F S8x10 .f32) (x2 : Vec F S8 .f32) (xs0 : Vec F S1x8 .f32) (xs1 : Vec F S1x8 .f32) :
    Σ' (LS0 : List (View.Piece (Elt F) S1x8 .f32)), { LS1 : List (View.Piece (Elt F) S1x8 .f32) //
      ∀ (xi3 xi4 : Vec F S1x1x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Stats.RunC.lean ====
import proofs.«173522_j70901320122520_2_alg».proof.Proof.K.Stats.RunB

/-! # The statistics kernel at the last tile of a batch

At the last of a batch's 32 tiles the body adds this tile's row sums (for each output plane, the sum of the
plane's values over the tile's 32768 lanes, resp. the sum of their squares) to what the tile before left in the
two accumulators, and then stores the two accumulators into the two outputs: the batch's sums and sums of
squares. The statement of this module: started with the three inputs' buffers at given contents, the two
outputs' buffers at anything and the two accumulators at given contents, the body runs to its end; the inputs
are left as they were, each accumulator is left with one known store written over it (its old contents plus the
row sums), and each output is left with one known store written over it (the accumulator's new contents). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST TILE OF A BATCH. Given the three inputs' buffers at their contents, the two outputs' buffers at anything,
    and the two accumulators at what the tile before left (`xs0`, `xs1`), the body runs to the end: the inputs stay as
    they were, each accumulator ends with one store written over it (old contents plus this tile's row sums), and each
    output ends with one store written over it: the accumulator's new contents. -/
noncomputable def statsRun_C (c : Dev nD) (i : grid0.Coords) (arg2 : Memref sig .tc .vmem S1x6x32768 .bf16) (harg2 : arg2.IsWhole) (arg3 : Memref sig .tc .vmem S8x10 .f32) (harg3 : arg3.IsWhole) (arg4 : Memref sig .tc .vmem S8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬isFirst i) (hc1 : isLast i)
    (x0 : Vec F S1x6x32768 .bf16) (x1 : Vec F S8x10 .f32) (x2 : Vec F S8 .f32) (xs0 : Vec F S1x8 .f32) (xs1 : Vec F S1x8 .f32) :
    Σ' (L3 : List (View.Piece (Elt F) S1x1x8 .f32)) (L4 : List (View.Piece (Elt F) S1x1x8 .f32)) (LS0 : List (View.Piece (Elt F) S1x8 .f32)), { LS1 : List (View.Piece (Elt F) S1x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.Stats.lean ====
import proofs.«173522_j70901320122520_2_alg».proof.Proof.K.Stats.RunC

/-! # The statistics kernel (the first pallas_call): its frame half at a parameter `V`

What each control case leaves in the two accumulators and the two outputs, read back as whole vectors; what
they hold after each grid point (`outsAt0`, by recursion on the position: a first tile starts from nothing, a
later tile from what the tile before left in the accumulators); the region invariant (`PhiS`: after any point
the accumulators are owned at exactly those contents); the proof data; and the body's obligation at every point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three runs at a grid point -/

/-- The first-tile run at point `t`, on the point's staging memrefs and the two accumulators. -/
abbrev runA (c : Dev nD) (t : Fin cfg0.N) (h0 : t.val % 32 = 0) (h1 : ¬t.val % 32 = 31) (x0 : Vec F S1x6x32768 .bf16) (x1 : Vec F S8x10 .f32) (x2 : Vec F S8 .f32) :=
  statsRun_A (F := F) c (grid0.coords t) (stg0 t) (hstg0 t) (stg1 t) (hstg1 t) (stg2 t) (hstg2 t) (stg3 t) (hstg3 t) (stg4 t) (hstg4 t) accSum (Memref.isWhole_whole _) accSq (Memref.isWhole_whole _) ((isFirst_iff t).mpr h0) (fun h => h1 ((isLast_iff t).mp h)) x0 x1 x2
/-- The middle-tile run at point `t`. -/
abbrev runB (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) :=
  statsRun_B (F := F) c (grid0.coords t) (stg0 t) (hstg0 t) (stg1 t) (hstg1 t) (stg2 t) (hstg2 t) (stg3 t) (hstg3 t) (stg4 t) (hstg4 t) accSum (Memref.isWhole_whole _) accSq (Memref.isWhole_whole _) (fun h => h0 ((isFirst_iff t).mp h)) (fun h => h1 ((isLast_iff t).mp h)) x0 x1 x2 xs0 xs1
/-- The last-tile run at point `t`. -/
abbrev runC (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) :=
  statsRun_C (F := F) c (grid0.coords t) (stg0 t) (hstg0 t) (stg1 t) (hstg1 t) (stg2 t) (hstg2 t) (stg3 t) (hstg3 t) (stg4 t) (hstg4 t) accSum (Memref.isWhole_whole _) accSq (Memref.isWhole_whole _) (fun h => h0 ((isFirst_iff t).mp h)) ((isLast_iff t).mpr h1) x0 x1 x2 xs0 xs1

/-! ## The stores of each case cover what they are stored into -/

theorem sumA_cover (c : Dev nD) (t : Fin cfg0.N) (h0 : t.val % 32 = 0) (h1 : ¬t.val % 32 = 31) (x0 : Vec F S1x6x32768 .bf16) (x1 : Vec F S8x10 .f32) (x2 : Vec F S8 .f32) (y : S1x8.Idx) : ∃ pc ∈ (runA c t h0 h1 x0 x1 x2).1, y ∈ pc.1.set :=
  View.cover_of_tiledL (runA c t h0 h1 x0 x1 x2).1 S1x8.size (by sl_kernel_rfl) y
theorem sqA_cover (c : Dev nD) (t : Fin cfg0.N) (h0 : t.val % 32 = 0) (h1 : ¬t.val % 32 = 31) (x0 : Vec F S1x6x32768 .bf16) (x1 : Vec F S8x10 .f32) (x2 : Vec F S8 .f32) (y : S1x8.Idx) : ∃ pc ∈ (runA c t h0 h1 x0 x1 x2).2.1, y ∈ pc.1.set :=
  View.cover_of_tiledL (runA c t h0 h1 x0 x1 x2).2.1 S1x8.size (by sl_kernel_rfl) y
theorem sumB_cover (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runB c t h0 h1 x0 x1 x2 xs0 xs1).1, y ∈ pc.1.set :=
  View.cover_of_tiledL (runB c t h0 h1 x0 x1 x2 xs0 xs1).1 S1x8.size (by sl_kernel_rfl) y
theorem sqB_cover (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runB c t h0 h1 x0 x1 x2 xs0 xs1).2.1, y ∈ pc.1.set :=
  View.cover_of_tiledL (runB c t h0 h1 x0 x1 x2 xs0 xs1).2.1 S1x8.size (by sl_kernel_rfl) y
theorem out3C_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x1x8.Idx) : ∃ pc ∈ (runC c t h0 h1 x0 x1 x2 xs0 xs1).1, y ∈ pc.1.set :=
  View.cover_of_tiledL (runC c t h0 h1 x0 x1 x2 xs0 xs1).1 S1x1x8.size (by sl_kernel_rfl) y
theorem out4C_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x1x8.Idx) : ∃ pc ∈ (runC c t h0 h1 x0 x1 x2 xs0 xs1).2.1, y ∈ pc.1.set :=
  View.cover_of_tiledL (runC c t h0 h1 x0 x1 x2 xs0 xs1).2.1 S1x1x8.size (by sl_kernel_rfl) y
theorem sumC_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runC c t h0 h1 x0 x1 x2 xs0 xs1).2.2.1, y ∈ pc.1.set :=
  View.cover_of_tiledL (runC c t h0 h1 x0 x1 x2 xs0 xs1).2.2.1 S1x8.size (by sl_kernel_rfl) y
theorem sqC_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runC c t h0 h1 x0 x1 x2 xs0 xs1).2.2.2.1, y ∈ pc.1.set :=
  View.cover_of_tiledL (runC c t h0 h1 x0 x1 x2 xs0 xs1).2.2.2.1 S1x8.size (by sl_kernel_rfl) y

/-! ## What each case leaves, as whole vectors -/

/-- The sum accumulator after a first tile: the case's stores read back (they cover it, so over anything). -/
def sumA (c : Dev nD) (t : Fin cfg0.N) (h0 : t.val % 32 = 0) (h1 : ¬t.val % 32 = 31) (x0 : Vec F S1x6x32768 .bf16) (x1 : Vec F S8x10 .f32) (x2 : Vec F S8 .f32) : Vec F S1x8 .f32 :=
  accSumView.read (Elt F) (accSumView.writes (Elt F) accSumView.junk (runA c t h0 h1 x0 x1 x2).1)
/-- The sum-of-squares accumulator after a first tile. -/
def sqA (c : Dev nD) (t : Fin cfg0.N) (h0 : t.val % 32 = 0) (h1 : ¬t.val % 32 = 31) (x0 : Vec F S1x6x32768 .bf16) (x1 : Vec F S8x10 .f32) (x2 : Vec F S8 .f32) : Vec F S1x8 .f32 :=
  accSqView.read (Elt F) (accSqView.writes (Elt F) accSqView.junk (runA c t h0 h1 x0 x1 x2).2.1)
/-- The accumulators after a middle tile, from what the tile before left (`xs0`, `xs1`). -/
def sumB (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSumView.read (Elt F) (accSumView.writes (Elt F) accSumView.junk (runB c t h0 h1 x0 x1 x2 xs0 xs1).1)
def sqB (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSqView.read (Elt F) (accSqView.writes (Elt F) accSqView.junk (runB c t h0 h1 x0 x1 x2 xs0 xs1).2.1)
/-- The two outputs and the accumulators after a last tile. -/
def out3C (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x1x8 .f32 :=
  outView3.read (Elt F) (outView3.writes (Elt F) outView3.junk (runC c t h0 h1 x0 x1 x2 xs0 xs1).1)
def out4C (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x1x8 .f32 :=
  outView4.read (Elt F) (outView4.writes (Elt F) outView4.junk (runC c t h0 h1 x0 x1 x2 xs0 xs1).2.1)
def sumC (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSumView.read (Elt F) (accSumView.writes (Elt F) accSumView.junk (runC c t h0 h1 x0 x1 x2 xs0 xs1).2.2.1)
def sqC (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSqView.read (Elt F) (accSqView.writes (Elt F) accSqView.junk (runC c t h0 h1 x0 x1 x2 xs0 xs1).2.2.2.1)
/-- An output off the last tile: nothing is stored into it, its block is not written back and the next point
    does not read it, so what stands here is never consulted. -/
def restOut : Vec F S1x1x8 .f32 := outView3.read (Elt F) outView3.junk

section Region

variable (V : (c : Dev nD) → (b : Ref sig .tc) → Buf (Elt F) ((c : Thread nD τ).loc b))

/-! ## The accumulation, point by point -/

/-- What the two outputs' staging buffers and the two accumulators hold after the body at position `n`
    (sum output, sum-of-squares output, sum accumulator, sum-of-squares accumulator): the case the position
    modulo 32 selects, on the point's blocks; a tile that is not the first of its batch starts from the accumulators
    of position `n - 1`. No position is both first and last (32 tiles a batch). -/
def outsAt0 (c : Dev nD) : (n : ℕ) → n < cfg0.N → Vec F S1x1x8 .f32 × Vec F S1x1x8 .f32 × Vec F S1x8 .f32 × Vec F S1x8 .f32
  | 0, hn => (restOut, restOut,
      sumA c ⟨0, hn⟩ (Nat.zero_mod _) (by show ¬0 % 32 = 31; omega) (iblk0 V c 0 ⟨0, hn⟩) (iblk0 V c 1 ⟨0, hn⟩) (iblk0 V c 2 ⟨0, hn⟩),
      sqA c ⟨0, hn⟩ (Nat.zero_mod _) (by show ¬0 % 32 = 31; omega) (iblk0 V c 0 ⟨0, hn⟩) (iblk0 V c 1 ⟨0, hn⟩) (iblk0 V c 2 ⟨0, hn⟩))
  | n + 1, hn =>
    if h0 : (n + 1) % 32 = 0 then
      if h1 : (n + 1) % 32 = 31 then
        False.elim (by omega)
      else
        (restOut, restOut, sumA c ⟨n + 1, hn⟩ h0 h1 (iblk0 V c 0 ⟨n + 1, hn⟩) (iblk0 V c 1 ⟨n + 1, hn⟩) (iblk0 V c 2 ⟨n + 1, hn⟩), sqA c ⟨n + 1, hn⟩ h0 h1 (iblk0 V c 0 ⟨n + 1, hn⟩) (iblk0 V c 1 ⟨n + 1, hn⟩) (iblk0 V c 2 ⟨n + 1, hn⟩))
    else
      if h1 : (n + 1) % 32 = 31 then
        (out3C c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         out4C c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         sumC c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         sqC c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (restOut, restOut,
         sumB c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         sqB c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- At a first tile. -/
theorem outsAt0_A (c : Dev nD) (t : Fin cfg0.N) (h0 : t.val % 32 = 0) (h1 : ¬t.val % 32 = 31) :
    outsAt0 V c t.val t.isLt = (restOut, restOut, sumA c t h0 h1 (iblk0 V c 0 t) (iblk0 V c 1 t) (iblk0 V c 2 t), sqA c t h0 h1 (iblk0 V c 0 t) (iblk0 V c 1 t) (iblk0 V c 2 t)) := by
  obtain ⟨n, hn⟩ := t
  cases n with
  | zero => exact rfl
  | succ n => exact (dif_pos h0).trans ((dif_neg h1).trans rfl)

/-- At a middle tile: over what the point before left in the accumulators. -/
theorem outsAt0_B (c : Dev nD) (t : Fin cfg0.N) (h0 : ¬t.val % 32 = 0) (h1 : ¬t.val % 32 = 31) :
    outsAt0 V c t.val t.isLt = (restOut, restOut,
      sumB c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      sqB c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left in the accumulators. -/
theorem outsAt0_C (c : Dev nD) (t : Fin cfg0.N) (h0 : ¬t.val % 32 = 0) (h1 : t.val % 32 = 31) :
    outsAt0 V c t.val t.isLt = (
      out3C c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      out4C c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      sumC c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      sqC c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class's invariant (both accumulators at anything); afterwards
    each accumulator owned at exactly what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) accSum fullShare ((outsAt0 V c n hn).2.2.1) ∗ owns (c : Thread nD τ) accSq fullShare ((outsAt0 V c n hn).2.2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accSum fullShare ((outsAt0 V c n hn).2.2.1) ∗ owns (c : Thread nD τ) accSq fullShare ((outsAt0 V c n hn).2.2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) accSum fullShare ((outsAt0 V c (n - 1) (by omega)).2.2.1) ∗ owns (c : Thread nD τ) accSq fullShare ((outsAt0 V c (n - 1) (by omega)).2.2.2) ∗ otherScoped c) ∗ (∃ r, prngReg c r)) := by
  cases n with
  | zero => exact absurd rfl hz
  | succ n => rfl

/-! ## The proof data -/

/-- The proof data of the first pipeline on core `c`: the arrays as the region finds them; after the body at point
    `t` each input's buffer at its block and the outputs' at `outsAt0`'s components; the invariant `PhiS`; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's obligation -/

/-- What the body is called with at point `t`: the invariant, what the core owes, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (stg0 t) fullShare ((dat0 V c).before 0 t d))
    ∗ (∃ d, owns (c : Thread nD τ) (stg1 t) fullShare ((dat0 V c).before 1 t d))
    ∗ (∃ d, owns (c : Thread nD τ) (stg2 t) fullShare ((dat0 V c).before 2 t d))
    ∗ (∃ d, owns (c : Thread nD τ) (stg3 t) fullShare ((dat0 V c).before 3 t d))
    ∗ (∃ d, owns (c : Thread nD τ) (stg4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the position modulo 32 says which case the
    point is in; that case's run applies, the invariant handing it the accumulators (at what the point before left,
    or at anything before the very first point and at a first tile) and taking them back at this point's contents;
    an output off the last tile is handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 32 = 0
  · by_cases h1 : t.val % 32 = 31
    · exfalso; omega
    · rw [show (dat0 V c).leavesExact 0 t = owns (c : Thread nD τ) (stg0 t) fullShare ((dat0 V c).after 0 t) from by
        unfold Dat.leavesExact; rw [live0_0 t], after0_0]
      rw [show (dat0 V c).leavesExact 1 t = owns (c : Thread nD τ) (stg1 t) fullShare ((dat0 V c).after 1 t) from by
        unfold Dat.leavesExact; rw [live0_1 t], after0_1]
      rw [show (dat0 V c).leavesExact 2 t = owns (c : Thread nD τ) (stg2 t) fullShare ((dat0 V c).after 2 t) from by
        unfold Dat.leavesExact; rw [live0_2 t], after0_2]
      rw [Dat.leavesExact_idle (dat0 V c) 3 t (rest0_3 t (fun h => h1 ((isLast_iff t).mp h))) (noFlush0_3 t (fun h => h1 ((isLast_iff t).mp h)))]
      rw [Dat.leavesExact_idle (dat0 V c) 4 t (rest0_4 t (fun h => h1 ((isLast_iff t).mp h))) (noFlush0_4 t (fun h => h1 ((isLast_iff t).mp h)))]
      rw [outsAt0_A V c t h0 h1]
      unfold sumA sqA; (try dsimp only)
      by_cases hz : t.val = 0
      · rw [PhiS_castSucc V c t, PhiS_zero V c _ _ hz, PhiA0_eq]
        iintro ⟨⟨⟨HS0, HS1, Hr⟩, Hg⟩, Ho, ⟨%d0, H0⟩, ⟨%d1, H1⟩, ⟨%d2, H2⟩, ⟨%d3, H3⟩, ⟨%d4, H4⟩⟩
        iapply ((runA c t h0 h1 (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (sumA_cover c t h0 h1 _ _ _)
            isplitl [HS1]
            · unfold owns; iexists _; isplitr
              swap; · iexact HS1
              ipureintro; exact View.read_writes_of_cover _ _ _ _ _ (sqA_cover c t h0 h1 _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩⟩
        iapply ((runA c t h0 h1 (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (sumA_cover c t h0 h1 _ _ _)
            isplitl [HS1]
            · unfold owns; iexists _; isplitr
              swap; · iexact HS1
              ipureintro; exact View.read_writes_of_cover _ _ _ _ _ (sqA_cover c t h0 h1 _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun e => h0 (by rw [e])
    by_cases h1 : t.val % 32 = 31
    · rw [show (dat0 V c).leavesExact 0 t = owns (c : Thread nD τ) (stg0 t) fullShare ((dat0 V c).after 0 t) from by
        unfold Dat.leavesExact; rw [live0_0 t], after0_0]
      rw [show (dat0 V c).leavesExact 1 t = owns (c : Thread nD τ) (stg1 t) fullShare ((dat0 V c).after 1 t) from by
        unfold Dat.leavesExact; rw [live0_1 t], after0_1]
      rw [show (dat0 V c).leavesExact 2 t = owns (c : Thread nD τ) (stg2 t) fullShare ((dat0 V c).after 2 t) from by
        unfold Dat.leavesExact; rw [live0_2 t], after0_2]
      rw [show (dat0 V c).leavesExact 3 t = owns (c : Thread nD τ) (stg3 t) fullShare ((dat0 V c).after 3 t) from by
        unfold Dat.leavesExact; rw [live0_3 t ((isLast_iff t).mpr h1)], after0_3]
      rw [show (dat0 V c).leavesExact 4 t = owns (c : Thread nD τ) (stg4 t) fullShare ((dat0 V c).after 4 t) from by
        unfold Dat.leavesExact; rw [live0_4 t ((isLast_iff t).mpr h1)], after0_4]
      rw [outsAt0_C V c t h0 h1]
      unfold out3C out4C sumC sqC; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((runC c t h0 h1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (sumC_cover c t h0 h1 _ _ _ _ _)
          isplitl [HS1]
          · unfold owns; iexists _; isplitr
            swap; · iexact HS1
            ipureintro; exact View.read_writes_of_cover _ _ _ _ _ (sqC_cover c t h0 h1 _ _ _ _ _)
          iexact Hr
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out3C_cover c t h0 h1 _ _ _ _ _)
      unfold owns; iexists _; isplitr
      swap; · iexact H4
      ipureintro; exact View.read_writes_of_cover _ _ _ _ _ (out4C_cover c t h0 h1 _ _ _ _ _)
    · rw [show (dat0 V c).leavesExact 0 t = owns (c : Thread nD τ) (stg0 t) fullShare ((dat0 V c).after 0 t) from by
        unfold Dat.leavesExact; rw [live0_0 t], after0_0]
      rw [show (dat0 V c).leavesExact 1 t = owns (c : Thread nD τ) (stg1 t) fullShare ((dat0 V c).after 1 t) from by
        unfold Dat.leavesExact; rw [live0_1 t], after0_1]
      rw [show (dat0 V c).leavesExact 2 t = owns (c : Thread nD τ) (stg2 t) fullShare ((dat0 V c).after 2 t) from by
        unfold Dat.leavesExact; rw [live0_2 t], after0_2]
      rw [Dat.leavesExact_idle (dat0 V c) 3 t (rest0_3 t (fun h => h1 ((isLast_iff t).mp h))) (noFlush0_3 t (fun h => h1 ((isLast_iff t).mp h)))]
      rw [Dat.leavesExact_idle (dat0 V c) 4 t (rest0_4 t (fun h => h1 ((isLast_iff t).mp h))) (noFlush0_4 t (fun h => h1 ((isLast_iff t).mp h)))]
      rw [outsAt0_B V c t h0 h1]
      unfold sumB sqB; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((runB c t h0 h1 (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (sumB_cover c t h0 h1 _ _ _ _ _)
          isplitl [HS1]
          · unfold owns; iexists _; isplitr
            swap; · iexact HS1
            ipureintro; exact View.read_writes_of_cover _ _ _ _ _ (sqB_cover c t h0 h1 _ _ _ _ _)
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the two ends -/

/-- Before the first point the invariant is the class's. -/
theorem Phi0_first (c : Dev nD) : (dat0 V c).Φ 0 = Pipeline.ΦA spec0 c := by
  rw [show (dat0 V c).Φ 0 = PhiS V c 0 (Nat.zero_le _) from rfl, PhiS_zero V c 0 _ rfl]

/-- After any point but the first the invariant gives the class's back: what the accumulators hold is forgotten. -/
theorem Phi0_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- In particular after the last point. -/
theorem Phi0_last (c : Dev nD) : (dat0 V c).Φ (Fin.last cfg0.N) ⊢ Pipeline.ΦA spec0 c :=
  Phi0_out V c _ (by rw [Fin.val_last]; have : cfg0.N = 128 := N_0; omega)

end Region

end Cert.Kernel.Hand

end
-- ==== Proof.K.Apply.lean ====
import proofs.«173522_j70901320122520_2_alg».proof.Proof.Gen.Kernel.Launch
import proofs.«173522_j70901320122520_2_alg».proof.Proof.Gen.Kernel.Skeleton
import proofs.«173522_j70901320122520_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second region: the convolution, leaky rectifier and concatenation kernel, at a generic entry state

The second pallas_call of the program runs over a grid of 4 x 32 points.  At each point it reads one
block of the six coordinate channels (window 0), one block of the eight neighbour feature channels
(window 1), the folded 8 x 10 weights (window 2) and the folded bias (window 3), and writes one block of
the sixteen output channels (window 4) and one block of the eight activated planes (window 5).

Everything here is stated at any float interpretation `F` and at a parameter `V`, the contents of the
core's buffers when the region is entered.  The body is straight-line: it loads the four input staging
buffers whole, computes, and stores each output staging buffer whole, once.  So what it leaves in an
output buffer is a closed function of the four input blocks (`out1_4`, `out1_5`), and what it finds in
an input buffer is that window's block at the point whether or not the block was fetched there (the
block index of the weights and of the bias never moves).
-/

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any
    proof data whose array is `V`'s and whose body leaves the block in place: where the window is not
    fetched its block index has not moved, so the block of the point before is this point's. The four input
    windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store takes its staging buffer whole -/

abbrev r1_0 : Rect S1x6x32768 := Rect.unit (s := S1x6x32768) ![0, 0, 0] S1x6x32768.size inb_S1x6x32768_S1x6x32768_0_0_0
abbrev r1_1 : Rect S1x8x32768 := Rect.unit (s := S1x8x32768) ![0, 0, 0] S1x8x32768.size inb_S1x8x32768_S1x8x32768_0_0_0
abbrev r1_2 : Rect S8x10 := Rect.unit (s := S8x10) ![0, 0] S8x10.size inb_S8x10_S8x10_0_0
abbrev r1_3 : Rect S8 := Rect.unit (s := S8) ![0] S8.size inb_S8_S8_0
abbrev r1_4 : Rect S1x16x32768 := Rect.unit (s := S1x16x32768) ![0, 0, 0] S1x16x32768.size inb_S1x16x32768_S1x16x32768_0_0_0

/-! ## The values the body computes, as functions of the input blocks

The body is printed in eleven parts that hand one another the ten feature rows (`a1_v10`), the weights
(`a1_v12`), the bias (`a1_v14`) and the partial sums of the eight planes.  Each value below is the
skeleton's payload applied to the values it is computed from; the eight activated planes are `a1_v92`,
`a1_v170`, `a1_v248`, `a1_v326`, `a1_v404`, `a1_v482`, `a1_v560`, and the last plane before its
rectifier `a1_v633` with the rectifier's mask `a1_v635`. -/

def a1_v10 (x0 : Vec F S1x6x32768 .bf16) : FVec F S10x32768 .f32 :=
  k1_pay4 (View.ld x0 r1_0)
def a1_v12 (x2 : Vec F S8x10 .f32) : FVec F S8x10 .f32 :=
  k1_pay5 (View.ld x2 r1_2)
def a1_v14 (x3 : Vec F S8 .f32) : FVec F S8 .f32 :=
  k1_pay6 (View.ld x3 r1_3)
def a1_v45 (x0 : Vec F S1x6x32768 .bf16) (x2 : Vec F S8x10 .f32) (x3 : Vec F S8 .f32) : FVec F S32768 .f32 :=
  k1_pay7 (View.ld x0 r1_0) (View.ld x2 r1_2) (View.ld x3 r1_3)
def a1_v49 (x0 : Vec F S1x6x32768 .bf16) : FVec F S32768 .f32 :=
  k1_pay8 (View.ld x0 r1_0)
def a1_v50 (x2 : Vec F S8x10 .f32) : FVec F S32768 .f32 :=
  k1_pay9 (View.ld x2 r1_2)
def a1_v92 (x0 : Vec F S1x6x32768 .bf16) (x2 : Vec F S8x10 .f32) (x3 : Vec F S8 .f32) : FVec F S32768 .f32 :=
  k1_pay10 (a1_v10 x0) (a1_v12 x2) (a1_v45 x0 x2 x3) (a1_v49 x0) (a1_v50 x2)
def a1_v102 (x0 : Vec F S1x6x32768 .bf16) (x2 : Vec F S8x10 .f32) (x3 : Vec F S8 .f32) : FVec F S32768 .f32 :=
  k1_pay11 (a1_v10 x0) (a1_v12 x2) (a1_v14 x3)
def a1_v108 (x0 : Vec F S1x6x32768 .bf16) (x2 : Vec F S8x10 .f32) : FVec F S32768 .f32 :=
  k1_pay12 (a1_v10 x0) (a1_v12 x2)
def a1_v165 (x0 : Vec F S1x6x32768 .bf16) (x2 : Vec F S8x10 .f32) (x3 : Vec F S8 .f32) : FVec F S32768 .f32 :=
  k1_pay13 (a1_v10 x0) (a1_v12 x2) (a1_v102 x0 x2 x3) (a1_v108 x0 x2)
def a1_v167 (x0 : Vec F S1x6x32768 .bf16) (x2 : Vec F S8x10 .f32) (x3 : Vec F S8 .f32) : IVec S32768 1 :=
  k1_pay14 (a1_v10 x0) (a1_v12 x2) (a1_v102 x0 x2 x3) (a1_v108 x0 x2)
def a1_v170 (x0 : Vec F S1x6x32768 .bf16) (x2 : Vec F S8x10 .f32) (x3 : Vec F S8 .f32) : FVec F S32768 .f32 :=
  k1_pay15 (a1_v165 x0 x2 x3) (a1_v167 x0 x2 x3)
def a1_v222 (x0 : Vec F S1x6x32768 .bf16) (x2 : Vec F S8x10 .f32) (x3 : Vec F S8 .f32) : FVec F S32768 .f32 :=
  k1_pay16 (a1_v10 x0) (a1_v12 x2) (a1_v14 x3)
def a1_v224 (x2 : Vec F S8x10 .f32) : F .f32 :=
  k1_pay17 (a1_v12 x2)
def a1_v226 (x0 : Vec F S1x6x32768 .bf16) : FVec F S32768 .f32 :=
  k1_pay18 (a1_v10 x0)
def a1_v248 (x0 : Vec F S1x6x32768 .bf16) (x2 : Vec F S8x10 .f32) (x3 : Vec F S8 .f32) : FVec F S32768 .f32 :=
  k1_pay19 (a1_v10 x0) (a1_v12 x2) (a1_v222 x0 x2 x3) (a1_v224 x2) (a1_v226 x0)
def a1_v279 (x0 : Vec F S1x6x32768 .bf16) (x2 : Vec F S8x10 .f32) (x3 : Vec F S8 .f32) : FVec F S32768 .f32 :=
  k1_pay20 (a1_v10 x0) (a1_v12 x2) (a1_v14 x3)
def a1_v283 (x0 : Vec F S1x6x32768 .bf16) : FVec F S32768 .f32 :=
  k1_pay21 (a1_v10 x0)
def a1_v284 (x2 : Vec F S8x10 .f32) : FVec F S32768 .f32 :=
  k1_pay22 (a1_v12 x2)
def a1_v326 (x0 : Vec F S1x6x32768 .bf16) (x2 : Vec F S8x10 .f32) (x3 : Vec F S8 .f32) : FVec F S32768 .f32 :=
  k1_pay23 (a1_v10 x0) (a1_v12 x2) (a1_v279 x0 x2 x3) (a1_v283 x0) (a1_v284 x2)
def a1_v336 (x0 : Vec F S1x6x32768 .bf16) (x2 : Vec F S8x10 .f32) (x3 : Vec F S8 .f32) : FVec F S32768 .f32 :=
  k1_pay24 (a1_v10 x0) (a1_v12 x2) (a1_v14 x3)
def a1_v342 (x0 : Vec F S1x6x32768 .bf16) (x2 : Vec F S8x10 .f32) : FVec F S32768 .f32 :=
  k1_pay25 (a1_v10 x0) (a1_v12 x2)
def a1_v399 (x0 : Vec F S1x6x32768 .bf16) (x2 : Vec F S8x10 .f32) (x3 : Vec F S8 .f32) : FVec F S32768 .f32 :=
  k1_pay26 (a1_v10 x0) (a1_v12 x2) (a1_v336 x0 x2 x3) (a1_v342 x0 x2)
def a1_v401 (x0 : Vec F S1x6x32768 .bf16) (x2 : Vec F S8x10 .f32) (x3 : Vec F S8 .f32) : IVec S32768 1 :=
  k1_pay27 (a1_v10 x0) (a1_v12 x2) (a1_v336 x0 x2 x3) (a1_v342 x0 x2)
def a1_v404 (x0 : Vec F S1x6x32768 .bf16) (x2 : Vec F S8x10 .f32) (x3 : Vec F S8 .f32) : FVec F S32768 .f32 :=
  k1_pay28 (a1_v399 x0 x2 x3) (a1_v401 x0 x2 x3)
def a1_v456 (x0 : Vec F S1x6x32768 .bf16) (x2 : Vec F S8x10 .f32) (x3 : Vec F S8 .f32) : FVec F S32768 .f32 :=
  k1_pay29 (a1_v10 x0) (a1_v12 x2) (a1_v14 x3)
def a1_v458 (x2 : Vec F S8x10 .f32) : F .f32 :=
  k1_pay30 (a1_v12 x2)
def a1_v460 (x0 : Vec F S1x6x32768 .bf16) : FVec F S32768 .f32 :=
  k1_pay31 (a1_v10 x0)
def a1_v482 (x0 : Vec F S1x6x32768 .bf16) (x2 : Vec F S8x10 .f32) (x3 : Vec F S8 .f32) : FVec F S32768 .f32 :=
  k1_pay32 (a1_v10 x0) (a1_v12 x2) (a1_v456 x0 x2 x3) (a1_v458 x2) (a1_v460 x0)
def a1_v513 (x0 : Vec F S1x6x32768 .bf16) (x2 : Vec F S8x10 .f32) (x3 : Vec F S8 .f32) : FVec F S32768 .f32 :=
  k1_pay33 (a1_v10 x0) (a1_v12 x2) (a1_v14 x3)
def a1_v517 (x0 : Vec F S1x6x32768 .bf16) : FVec F S32768 .f32 :=
  k1_pay34 (a1_v10 x0)
def a1_v518 (x2 : Vec F S8x10 .f32) : FVec F S32768 .f32 :=
  k1_pay35 (a1_v12 x2)
def a1_v560 (x0 : Vec F S1x6x32768 .bf16) (x2 : Vec F S8x10 .f32) (x3 : Vec F S8 .f32) : FVec F S32768 .f32 :=
  k1_pay36 (a1_v10 x0) (a1_v12 x2) (a1_v513 x0 x2 x3) (a1_v517 x0) (a1_v518 x2)
def a1_v570 (x0 : Vec F S1x6x32768 .bf16) (x2 : Vec F S8x10 .f32) (x3 : Vec F S8 .f32) : FVec F S32768 .f32 :=
  k1_pay37 (a1_v10 x0) (a1_v12 x2) (a1_v14 x3)
def a1_v576 (x0 : Vec F S1x6x32768 .bf16) (x2 : Vec F S8x10 .f32) : FVec F S32768 .f32 :=
  k1_pay38 (a1_v10 x0) (a1_v12 x2)
def a1_v633 (x0 : Vec F S1x6x32768 .bf16) (x2 : Vec F S8x10 .f32) (x3 : Vec F S8 .f32) : FVec F S32768 .f32 :=
  k1_pay39 (a1_v10 x0) (a1_v12 x2) (a1_v570 x0 x2 x3) (a1_v576 x0 x2)
def a1_v635 (x0 : Vec F S1x6x32768 .bf16) (x2 : Vec F S8x10 .f32) (x3 : Vec F S8 .f32) : IVec S32768 1 :=
  k1_pay40 (a1_v10 x0) (a1_v12 x2) (a1_v570 x0 x2 x3) (a1_v576 x0 x2)

/-! ## What the body leaves in each output window's buffer -/

/-- Window 4's staging buffer after the body: its one store, of the neighbour features over the eight
    activated planes. -/
def out1_4 (x0 : Vec F S1x6x32768 .bf16) (x1 : Vec F S1x8x32768 .f32) (x2 : Vec F S8x10 .f32) (x3 : Vec F S8 .f32) : Vec F S1x16x32768 .f32 :=
  View.canon [⟨r1_4, k1_pay2 (a1_v92 x0 x2 x3) (a1_v170 x0 x2 x3) (a1_v248 x0 x2 x3) (a1_v326 x0 x2 x3) (a1_v404 x0 x2 x3) (a1_v482 x0 x2 x3) (a1_v560 x0 x2 x3) (a1_v633 x0 x2 x3) (a1_v635 x0 x2 x3) (View.ld x1 r1_1)⟩]

/-- Window 5's staging buffer after the body: its one store, of the eight activated planes. (The
    neighbour features `x1` are not read.) -/
def out1_5 (x0 : Vec F S1x6x32768 .bf16) (x1 : Vec F S1x8x32768 .f32) (x2 : Vec F S8x10 .f32) (x3 : Vec F S8 .f32) : Vec F S1x8x32768 .f32 :=
  View.canon [⟨r1_1, k1_pay3 (a1_v92 x0 x2 x3) (a1_v170 x0 x2 x3) (a1_v248 x0 x2 x3) (a1_v326 x0 x2 x3) (a1_v404 x0 x2 x3) (a1_v482 x0 x2 x3) (a1_v560 x0 x2 x3) (a1_v633 x0 x2 x3) (a1_v635 x0 x2 x3)⟩]

/-- One store of the whole buffer covers it. -/
theorem cover1_4 (p0 : Vec F S1x16x32768 .f32) (y : S1x16x32768.Idx) :
    ∃ pc ∈ ([⟨r1_4, p0⟩] : List (View.Piece (Elt F) S1x16x32768 .f32)), y ∈ pc.1.set :=
  View.cover_of_tiled [⟨r1_4, p0⟩] S1x16x32768.size (by rfl) y

theorem cover1_5 (p0 : Vec F S1x8x32768 .f32) (y : S1x8x32768.Idx) :
    ∃ pc ∈ ([⟨r1_1, p0⟩] : List (View.Piece (Elt F) S1x8x32768 .f32)), y ∈ pc.1.set :=
  View.cover_of_tiled [⟨r1_1, p0⟩] S1x8x32768.size (by rfl) y

/-! ## The body's triple -/

set_option maxHeartbeats 4000000 in
/-- The kernel body on whole staging memrefs, the inputs' at read contents `xW` and the outputs' at
    anything, runs to the continuation holding the inputs' as they were and each output's at `out1_W` of
    the inputs'. The body reads each output buffer once before storing into it; the value read is used
    nowhere. -/
theorem sound_kernel1 (c : Dev nD) (E : Set ℕ) (i : grid1.Coords)
    (arg2 : Memref sig .tc .vmem S1x6x32768 .bf16) (harg2 : arg2.IsWhole) (arg3 : Memref sig .tc .vmem S1x8x32768 .f32) (harg3 : arg3.IsWhole)
    (arg4 : Memref sig .tc .vmem S8x10 .f32) (harg4 : arg4.IsWhole) (arg5 : Memref sig .tc .vmem S8 .f32) (harg5 : arg5.IsWhole)
    (arg6 : Memref sig .tc .vmem S1x16x32768 .f32) (harg6 : arg6.IsWhole) (arg7 : Memref sig .tc .vmem S1x8x32768 .f32) (harg7 : arg7.IsWhole)
    (x0 : Vec F S1x6x32768 .bf16) (x1 : Vec F S1x8x32768 .f32) (x2 : Vec F S8x10 .f32) (x3 : Vec F S8 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)
            ∗ owns (c : Thread nD τ) arg7 fullShare (out1_5 x0 x1 x2 x3)) -∗ K ⟨⟩))
      ⊢ wp frame (wpE (defs₀ (F := F)) Variants.none c none) E
          (cc1__apply_kernel i arg2 harg2 arg3 harg3 arg4 harg4 arg5 harg5 arg6 harg6 arg7 harg7) K := by
  simp only [cc1__apply_kernel_eq_skeleton]; unfold cc1__apply_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [k1_part10_eq_skeleton]; unfold k1_part10_skel
  simp only [k1_part11_eq_skeleton]; unfold k1_part11_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  iexists _; isplitr
  swap; · iexact H5
  ipureintro
  try dsimp only
  exact View.read_writes_eq_canon _ _ _ (cover1_5 _)

/-! ## The pipeline's proof data -/

/-- The proof data of the second pipeline on core `c`: the arrays as the region finds them; after the body
    at point `t` each input's buffer at its block and each output's at `out1_W` of the input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The run of @main as five items: the host operations before the first kernel, the statistics kernel, the host
  operations that turn its sums into the folded weights and bias, the normalising kernel, and the two reshapes of its
  results.  The buffer contents at each boundary are a fold from the launch memory: a stretch of host operations
  applies them; a kernel region leaves its windows' arrays at what its write-backs leave and every other buffer as
  entered.  Every weakly fair execution terminates, and every final memory holds each unscoped buffer at the last
  boundary's contents; the argument arrays are read back through the fold to their launch contents.
-/
import proofs.«173522_j70901320122520_2_alg».proof.Proof.K.Stats
import proofs.«173522_j70901320122520_2_alg».proof.Proof.K.Apply
import proofs.«173522_j70901320122520_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first stretch of host operations: what the statistics kernel is entered from. -/
abbrev B1 : Dev nD → Valuation τ sig (Elt F) := fun c => StableHlo.after hostOps0 (B0 m ρ c)
/-- The same, read at the TensorCore's references. -/
abbrev T1 : (c : Dev nD) → (b : Ref sig .tc) → Buf (Elt F) ((c : Thread nD τ).loc b) := fun c b => B1 m ρ c b
/-- At the statistics kernel's exit: its windows' arrays at what the pipeline leaves, the rest as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem exit0_arr (c : Dev nD) (w : Fin cfg0.W) : (dat0 (T1 m ρ) c).arrAt w cfg0.N = T2 m ρ c (Pipeline.arrRef spec0 w) :=
  (B2_arr m ρ c w).symm
theorem exit0_rest (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- After the second stretch of host operations: what the normalising kernel is entered from. -/
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b
/-- At the normalising kernel's exit. -/
def B4 (c : Dev nD) : Valuation τ sig (Elt F) :=
  Pipeline.withArrays spec1 c (B3 m ρ c) fun w => (dat1 (T3 m ρ) c).arrAt w cfg1.N
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem exit1_arr (c : Dev nD) (w : Fin cfg1.W) : (dat1 (T3 m ρ) c).arrAt w cfg1.N = T4 m ρ c (Pipeline.arrRef spec1 w) :=
  (B4_arr m ρ c w).symm
theorem exit1_rest (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)
/-- After the last stretch (the two reshapes): the final contents. -/
abbrev B5 : Dev nD → Valuation τ sig (Elt F) := fun c => StableHlo.after hostOps2 (B4 m ρ c)

/-! ## The arguments end as launched -/

/-- A buffer that no host operation writes and that is no array of either kernel's windows ends as launched. -/
theorem B5_of_untouched (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    B5 m ρ c (Proc.devRef .tc r) = m ((c : Thread nD τ).loc r) :=
  calc B5 m ρ c (Proc.devRef .tc r)
    _ = B4 m ρ c (Proc.devRef .tc r) := StableHlo.after_of_writes_sub hostOps2 _ hostOps2_writes h2
    _ = B3 m ρ c (Proc.devRef .tc r) := B4_of_ne m ρ c r hw1
    _ = B2 m ρ c (Proc.devRef .tc r) := StableHlo.after_of_writes_sub hostOps1 _ hostOps1_writes h1
    _ = B1 m ρ c (Proc.devRef .tc r) := B2_of_ne m ρ c r hw0
    _ = B0 m ρ c (Proc.devRef .tc r) := StableHlo.after_of_writes_sub hostOps0 _ hostOps0_writes h0
    _ = m ((c : Thread nD τ).loc r) := rfl

/-- An argument that the statistics kernel reads through input window `w` ends as launched. -/
theorem B5_of_input0 (c : Dev nD) (r : Ref sig .tc) (w : Fin cfg0.W) (hw : Pipeline.arrRef spec0 w = r) (hin : (cfg0.win w).isOut = false)
    (h0 : r ∉ hostOps0_W) (h1 : r ∉ hostOps1_W) (h2 : r ∉ hostOps2_W) (hw1 : ∀ w, Pipeline.arrRef spec1 w ≠ r) :
    B5 m ρ c (Proc.devRef .tc r) = m ((c : Thread nD τ).loc r) := by
  subst hw
  calc B5 m ρ c (Proc.devRef .tc (Pipeline.arrRef spec0 w))
    _ = B4 m ρ c (Proc.devRef .tc (Pipeline.arrRef spec0 w)) := StableHlo.after_of_writes_sub hostOps2 _ hostOps2_writes h2
    _ = B3 m ρ c (Proc.devRef .tc (Pipeline.arrRef spec0 w)) := B4_of_ne m ρ c _ hw1
    _ = B2 m ρ c (Proc.devRef .tc (Pipeline.arrRef spec0 w)) := StableHlo.after_of_writes_sub hostOps1 _ hostOps1_writes h1
    _ = B1 m ρ c (Proc.devRef .tc (Pipeline.arrRef spec0 w)) := (B2_arr m ρ c w).trans (((dat0 (T1 m ρ) c).arrAt_in w hin _).trans (A_eq0 (T1 m ρ) c w))
    _ = B0 m ρ c (Proc.devRef .tc (Pipeline.arrRef spec0 w)) := StableHlo.after_of_writes_sub hostOps0 _ hostOps0_writes h0
    _ = m ((c : Thread nD τ).loc (Pipeline.arrRef spec0 w)) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernels as items -/

set_option backward.isDefEq.respectTransparency.types false in
/-- The statistics kernel: entered from every unscoped buffer at `B1`, left at `B2`.  Its windows' arrays are split out
    of the unscoped buffers and put back at the exit contents; the generator register and the scratch accumulators enter
    the region's invariant, which is the plain one before the first point and gives the plain one back after the last. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (T1 m ρ) c).Φ 0 from rfl, Phi0_first]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (T1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising kernel: entered from every unscoped buffer at `B3`, left at `B4`; its invariant is the plain one
    throughout (the body carries nothing between points). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T3 m ρ c) (T4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

/-- @main's five items in order. -/
abbrev items : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
/-- @main is the run of the items. -/
theorem main_run (c : Dev nD) : main (F := F) c = Pipeline.Seg.run (items m ρ) := (main_chain c).trans (by chain_rfl)

set_option backward.isDefEq.respectTransparency.types false in
/-- From any memory with zero counters every weakly fair execution of @main terminates, nothing faulting, and every
    final memory holds each unscoped buffer at the final contents `B5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := fun c => StableHlo.held (c : Thread nD τ) (Pipeline.ucRefs τ sig) (B5 m ρ c))
    (hch := ⟨fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨Hh, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.Kernel.Hand

end
-- ==== Proof.K.Frame.lean ====
/-
  The frame claim and the results' contents, read off the run: the seven argument arrays end as launched — five of them
  are touched by no host operation and staged by no kernel window, the convolution's weights and bias are read by the
  statistics kernel through input windows that leave them as entered — and the two results end at the final boundary's
  contents.
-/
import proofs.«173522_j70901320122520_2_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem B5_main_arg0 (c : Dev nD) : B5 m ρ c (Proc.devRef .tc main_arg0) = m ((c : Thread nD τ).loc main_arg0) :=
  B5_of_untouched m ρ c main_arg0 (by decide) (by decide) (by decide) (by decide) (by decide)
theorem B5_main_arg1 (c : Dev nD) : B5 m ρ c (Proc.devRef .tc main_arg1) = m ((c : Thread nD τ).loc main_arg1) :=
  B5_of_untouched m ρ c main_arg1 (by decide) (by decide) (by decide) (by decide) (by decide)
theorem B5_main_arg2 (c : Dev nD) : B5 m ρ c (Proc.devRef .tc main_arg2) = m ((c : Thread nD τ).loc main_arg2) :=
  B5_of_untouched m ρ c main_arg2 (by decide) (by decide) (by decide) (by decide) (by decide)
theorem B5_main_arg3 (c : Dev nD) : B5 m ρ c (Proc.devRef .tc main_arg3) = m ((c : Thread nD τ).loc main_arg3) :=
  B5_of_input0 m ρ c main_arg3 1 rfl rfl (by decide) (by decide) (by decide) (by decide)
theorem B5_main_arg4 (c : Dev nD) : B5 m ρ c (Proc.devRef .tc main_arg4) = m ((c : Thread nD τ).loc main_arg4) :=
  B5_of_input0 m ρ c main_arg4 2 rfl rfl (by decide) (by decide) (by decide) (by decide)
theorem B5_main_arg5 (c : Dev nD) : B5 m ρ c (Proc.devRef .tc main_arg5) = m ((c : Thread nD τ).loc main_arg5) :=
  B5_of_untouched m ρ c main_arg5 (by decide) (by decide) (by decide) (by decide) (by decide)
theorem B5_main_arg6 (c : Dev nD) : B5 m ρ c (Proc.devRef .tc main_arg6) = m ((c : Thread nD τ).loc main_arg6) :=
  B5_of_untouched m ρ c main_arg6 (by decide) (by decide) (by decide) (by decide) (by decide)

/-- THE FRAME: every weakly fair execution of @main terminates, nothing faulting, and the argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c),
     (h c _ (mem_uc main_arg5 (by decide))).trans (B5_main_arg5 m ρ c),
     (h c _ (mem_uc main_arg6 (by decide))).trans (B5_main_arg6 m ρ c)⟩) (run m ρ)

/-- The same run with the two results named: each ends at the final boundary's contents. -/
theorem run_results : θ_run defs (onTc (τ := τ) (main (F := F))) ⟨m, fun _ => 0, ρ⟩ (fun r => ∀ c : Dev nD,
      r.2.mem ((c.tc : Thread nD τ).loc main_v47) = B5 m ρ c (Proc.devRef .tc main_v47)
      ∧ r.2.mem ((c.tc : Thread nD τ).loc main_v48) = B5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v47 (by decide)),
     h c _ (mem_uc main_v48 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c),
     (h c _ (mem_uc main_arg5 (by decide))).trans (B5_main_arg5 m ρ c),
     (h c _ (mem_uc main_arg6 (by decide))).trans (B5_main_arg6 m ρ c)⟩) (run m ρ)

end Cert.Kernel.Hand

end
-- ==== Proof.KI.Stats.Runs.lean ====
import proofs.«173522_j70901320122520_2_alg».proof.Proof.Gen.KernelIdeal.Launch
import proofs.«173522_j70901320122520_2_alg».proof.Proof.Gen.KernelIdeal.Skeleton
import proofs.«173522_j70901320122520_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The statistics kernel (the first pallas_call): what its three control cases share

The kernel walks a grid of 4 batches × 32 tiles. At the first tile of a batch it zeroes two accumulators
(one row of 8 sums, one row of 8 sums of squares); at every tile it adds the tile's row sums to them; at the
last tile of a batch it copies them to the two outputs. So a point is in one of three cases, decided by its
position modulo 32: first tile (A), a middle tile (B), last tile (C). Everything here is stated at a parameter
`V`, the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## The windows' blocks -/

/-- The block of window `w` at point `t`: that part of the window's array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The coordinates block (input 0) is in its staging buffer at every point, for any proof data over `V`'s
    array whose body leaves that block in place: a buffer not fetched afresh still holds the block of the
    point before, and the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights (input 1), fetched once: the one block stays where the first point put it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias (input 2), fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two conditions of the body, in closed form -/

/-- "This is the first tile of its batch": the tile coordinate equals 0, as the body computes it. -/
abbrev isFirst (i : grid0.Coords) : Prop := (Scalar.cmpi .ne (Scalar.extui (Scalar.cmpi .eq (BitVec.ofNat 32 (i 1).val) 0#32)) 0#32) = 1#1
/-- It holds exactly at the positions ≡ 0 (mod 32). -/
theorem isFirst_iff : ∀ t : Fin cfg0.N, isFirst (grid0.coords t) ↔ t.val % 32 = 0 :=
  (by decide +kernel : ∀ t : Fin grid0.N, isFirst (grid0.coords t) ↔ t.val % 32 = 0)

/-- "This is the last tile of its batch": the tile coordinate equals 31, as the body computes it. -/
abbrev isLast (i : grid0.Coords) : Prop := k0_cond2 i = 1#1
/-- It holds exactly at the positions ≡ 31 (mod 32). -/
theorem isLast_iff : ∀ t : Fin cfg0.N, isLast (grid0.coords t) ↔ t.val % 32 = 31 :=
  (by decide +kernel : ∀ t : Fin grid0.N, isLast (grid0.coords t) ↔ t.val % 32 = 31)

/-! ## Where the windows are live and where they rest -/

/-- The three inputs are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last tile the sum output rests: nothing is stored into it, and its block is not written back. -/
theorem rest0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
/-- On the last tile it is live. -/
theorem live0_3 : ∀ t : Fin cfg0.N, isLast (grid0.coords t) → cfg0.idle 3 (grid0.coords t) = false := by decide +kernel
/-- The same for the sum-of-squares output. -/
theorem rest0_4 : ∀ t : Fin cfg0.N, ¬isLast (grid0.coords t) → cfg0.idle 4 (grid0.coords t) = true := by decide +kernel
theorem noFlush0_4 : ∀ t : Fin cfg0.N, ¬isLast (grid0.coords t) → (cfg0.win 4).flush t = false := by decide +kernel
theorem live0_4 : ∀ t : Fin cfg0.N, isLast (grid0.coords t) → cfg0.idle 4 (grid0.coords t) = false := by decide +kernel

/-! ## The memrefs the body is called with -/

/-- One staging buffer of each output, through which its contents are stated (which one does not matter:
    a covered buffer reads back the same through any whole view). -/
abbrev outView3 : View sig .tc .vmem S1x1x8 .f32 := (Memref.whole cc0_stg3_0 : Memref sig .tc .vmem S1x1x8 .f32).view
abbrev outView4 : View sig .tc .vmem S1x1x8 .f32 := (Memref.whole cc0_stg4_0 : Memref sig .tc .vmem S1x1x8 .f32).view

/-- Each window's current staging memref at point `t`, and that it is a whole buffer. -/
abbrev stg0 (t : Fin cfg0.N) : Memref sig .tc .vmem S1x6x32768 .bf16 := win0_0.stage (cfg0.slots t 0)
abbrev hstg0 (t : Fin cfg0.N) : (stg0 t).IsWhole := hstage0_0 ((cfg0.slots t 0).cast nbuf0_0)
abbrev stg1 (t : Fin cfg0.N) : Memref sig .tc .vmem S8x10 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S8 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x1x8 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x1x8 .f32 := win0_4.stage (cfg0.slots t 4)
abbrev hstg4 (t : Fin cfg0.N) : (stg4 t).IsWhole := hstage0_4 ((cfg0.slots t 4).cast nbuf0_4)

/-- The two accumulators: whole scoped buffers of the kernel's own, carried from point to point. -/
abbrev accSum : Memref sig .tc .vmem S1x8 .f32 := Memref.whole cc0_scratch0
abbrev accSq : Memref sig .tc .vmem S1x8 .f32 := Memref.whole cc0_scratch1
abbrev accSumView : View sig .tc .vmem S1x8 .f32 := accSum.view
abbrev accSqView : View sig .tc .vmem S1x8 .f32 := accSq.view

/-! ## The region invariant, the accumulators split off -/

/-- The core's scoped buffers that are neither a staging buffer of this call nor one of its accumulators
    (the second call's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class's invariant hands the body both accumulators at some contents, the other scoped buffers, and
    the generator register. -/
theorem PhiA0_eq (c : Dev nD) :
    (Pipeline.ΦA spec0 c : sProp 𝕄)
      = iprop(iprop((∃ d, owns (c : Thread nD τ) accSum fullShare d) ∗ (∃ d, owns (c : Thread nD τ) accSq fullShare d) ∗ otherScoped c) ∗ (∃ r, prngReg c r)) := by
  unfold Pipeline.ΦA otherScoped; rw [scopedRest0_eq]; simp only [accSum, accSq, owns_whole]; try rfl

end Cert.KernelIdeal.Hand

end
-- ==== Proof.KI.Stats.RunA.lean ====
import proofs.«173522_j70901320122520_2_alg».proof.Proof.KI.Stats.Runs

/-! # The statistics kernel at the first tile of a batch

A batch is walked in 32 tiles of 32768 lanes. At the first tile the body stores zero into both accumulators
(a row of 8 sums and a row of 8 sums of squares, one entry per output plane) and then adds this tile's row sums
to them: for each plane, the sum of the plane's values over the tile's lanes, resp. the sum of their squares.
Nothing is stored into the two outputs. The statement of this module: started with the three inputs' buffers
at given contents, the two outputs' buffers at given contents and the two accumulators at anything, the body
runs to its end; the inputs and the outputs are left as they were, and each accumulator is left with a known
list of stores written over it (the zero, then the zero plus the row sums). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST TILE OF A BATCH. Given the three inputs' buffers at their contents, the two outputs' buffers at
    contents that are handed back untouched (nothing is stored into them here), and the two accumulators at anything,
    the body runs to the end: the inputs stay as they were, and each accumulator ends with the listed stores written
    over it (last store first): the zero, then the zero plus this tile's row sums. The lists are found by running the
    body; they are the first components, the run is the last. -/
noncomputable def statsRun_A (c : Dev nD) (i : grid0.Coords) (arg2 : Memref sig .tc .vmem S1x6x32768 .bf16) (harg2 : arg2.IsWhole) (arg3 : Memref sig .tc .vmem S8x10 .f32) (harg3 : arg3.IsWhole) (arg4 : Memref sig .tc .vmem S8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : isFirst i) (hc1 : ¬isLast i)
    (x0 : Vec F S1x6x32768 .bf16) (x1 : Vec F S8x10 .f32) (x2 : Vec F S8 .f32) :
    Σ' (LS0 : List (View.Piece (Elt F) S1x8 .f32)), { LS1 : List (View.Piece (Elt F) S1x8 .f32) //
      ∀ (xi3 xi4 : Vec F S1x1x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Stats.RunB.lean ====
import proofs.«173522_j70901320122520_2_alg».proof.Proof.KI.Stats.RunA

/-! # The statistics kernel at a middle tile of a batch

At a tile that is neither the first nor the last of its batch's 32 tiles the body only accumulates: it adds
this tile's row sums (for each output plane, the sum of the plane's values over the tile's 32768 lanes, resp.
the sum of their squares) to what the tile before left in the two accumulators. Nothing is stored into the two
outputs. The statement of this module: started with the three inputs' buffers at given contents, the two
outputs' buffers at given contents and the two accumulators at given contents, the body runs to its end; the
inputs and the outputs are left as they were, and each accumulator is left with one known store written over
it (its old contents plus the row sums). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE TILE. Given the three inputs' buffers at their contents, the two outputs' buffers at contents that are
    handed back untouched, and the two accumulators at what the tile before left (`xs0`, `xs1`), the body runs to the
    end: the inputs stay as they were and each accumulator ends with one store written over it, its old contents plus
    this tile's row sums. -/
noncomputable def statsRun_B (c : Dev nD) (i : grid0.Coords) (arg2 : Memref sig .tc .vmem S1x6x32768 .bf16) (harg2 : arg2.IsWhole) (arg3 : Memref sig .tc .vmem S8x10 .f32) (harg3 : arg3.IsWhole) (arg4 : Memref sig .tc .vmem S8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬isFirst i) (hc1 : ¬isLast i)
    (x0 : Vec F S1x6x32768 .bf16) (x1 : Vec F S8x10 .f32) (x2 : Vec F S8 .f32) (xs0 : Vec F S1x8 .f32) (xs1 : Vec F S1x8 .f32) :
    Σ' (LS0 : List (View.Piece (Elt F) S1x8 .f32)), { LS1 : List (View.Piece (Elt F) S1x8 .f32) //
      ∀ (xi3 xi4 : Vec F S1x1x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Stats.RunC.lean ====
import proofs.«173522_j70901320122520_2_alg».proof.Proof.KI.Stats.RunB

/-! # The statistics kernel at the last tile of a batch

At the last of a batch's 32 tiles the body adds this tile's row sums (for each output plane, the sum of the
plane's values over the tile's 32768 lanes, resp. the sum of their squares) to what the tile before left in the
two accumulators, and then stores the two accumulators into the two outputs: the batch's sums and sums of
squares. The statement of this module: started with the three inputs' buffers at given contents, the two
outputs' buffers at anything and the two accumulators at given contents, the body runs to its end; the inputs
are left as they were, each accumulator is left with one known store written over it (its old contents plus the
row sums), and each output is left with one known store written over it (the accumulator's new contents). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST TILE OF A BATCH. Given the three inputs' buffers at their contents, the two outputs' buffers at anything,
    and the two accumulators at what the tile before left (`xs0`, `xs1`), the body runs to the end: the inputs stay as
    they were, each accumulator ends with one store written over it (old contents plus this tile's row sums), and each
    output ends with one store written over it: the accumulator's new contents. -/
noncomputable def statsRun_C (c : Dev nD) (i : grid0.Coords) (arg2 : Memref sig .tc .vmem S1x6x32768 .bf16) (harg2 : arg2.IsWhole) (arg3 : Memref sig .tc .vmem S8x10 .f32) (harg3 : arg3.IsWhole) (arg4 : Memref sig .tc .vmem S8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬isFirst i) (hc1 : isLast i)
    (x0 : Vec F S1x6x32768 .bf16) (x1 : Vec F S8x10 .f32) (x2 : Vec F S8 .f32) (xs0 : Vec F S1x8 .f32) (xs1 : Vec F S1x8 .f32) :
    Σ' (L3 : List (View.Piece (Elt F) S1x1x8 .f32)) (L4 : List (View.Piece (Elt F) S1x1x8 .f32)) (LS0 : List (View.Piece (Elt F) S1x8 .f32)), { LS1 : List (View.Piece (Elt F) S1x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Stats.lean ====
import proofs.«173522_j70901320122520_2_alg».proof.Proof.KI.Stats.RunC

/-! # The statistics kernel (the first pallas_call): its frame half at a parameter `V`

What each control case leaves in the two accumulators and the two outputs, read back as whole vectors; what
they hold after each grid point (`outsAt0`, by recursion on the position: a first tile starts from nothing, a
later tile from what the tile before left in the accumulators); the region invariant (`PhiS`: after any point
the accumulators are owned at exactly those contents); the proof data; and the body's obligation at every point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three runs at a grid point -/

/-- The first-tile run at point `t`, on the point's staging memrefs and the two accumulators. -/
abbrev runA (c : Dev nD) (t : Fin cfg0.N) (h0 : t.val % 32 = 0) (h1 : ¬t.val % 32 = 31) (x0 : Vec F S1x6x32768 .bf16) (x1 : Vec F S8x10 .f32) (x2 : Vec F S8 .f32) :=
  statsRun_A (F := F) c (grid0.coords t) (stg0 t) (hstg0 t) (stg1 t) (hstg1 t) (stg2 t) (hstg2 t) (stg3 t) (hstg3 t) (stg4 t) (hstg4 t) accSum (Memref.isWhole_whole _) accSq (Memref.isWhole_whole _) ((isFirst_iff t).mpr h0) (fun h => h1 ((isLast_iff t).mp h)) x0 x1 x2
/-- The middle-tile run at point `t`. -/
abbrev runB (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) :=
  statsRun_B (F := F) c (grid0.coords t) (stg0 t) (hstg0 t) (stg1 t) (hstg1 t) (stg2 t) (hstg2 t) (stg3 t) (hstg3 t) (stg4 t) (hstg4 t) accSum (Memref.isWhole_whole _) accSq (Memref.isWhole_whole _) (fun h => h0 ((isFirst_iff t).mp h)) (fun h => h1 ((isLast_iff t).mp h)) x0 x1 x2 xs0 xs1
/-- The last-tile run at point `t`. -/
abbrev runC (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) :=
  statsRun_C (F := F) c (grid0.coords t) (stg0 t) (hstg0 t) (stg1 t) (hstg1 t) (stg2 t) (hstg2 t) (stg3 t) (hstg3 t) (stg4 t) (hstg4 t) accSum (Memref.isWhole_whole _) accSq (Memref.isWhole_whole _) (fun h => h0 ((isFirst_iff t).mp h)) ((isLast_iff t).mpr h1) x0 x1 x2 xs0 xs1

/-! ## The stores of each case cover what they are stored into -/

theorem sumA_cover (c : Dev nD) (t : Fin cfg0.N) (h0 : t.val % 32 = 0) (h1 : ¬t.val % 32 = 31) (x0 : Vec F S1x6x32768 .bf16) (x1 : Vec F S8x10 .f32) (x2 : Vec F S8 .f32) (y : S1x8.Idx) : ∃ pc ∈ (runA c t h0 h1 x0 x1 x2).1, y ∈ pc.1.set :=
  View.cover_of_tiledL (runA c t h0 h1 x0 x1 x2).1 S1x8.size (by sl_kernel_rfl) y
theorem sqA_cover (c : Dev nD) (t : Fin cfg0.N) (h0 : t.val % 32 = 0) (h1 : ¬t.val % 32 = 31) (x0 : Vec F S1x6x32768 .bf16) (x1 : Vec F S8x10 .f32) (x2 : Vec F S8 .f32) (y : S1x8.Idx) : ∃ pc ∈ (runA c t h0 h1 x0 x1 x2).2.1, y ∈ pc.1.set :=
  View.cover_of_tiledL (runA c t h0 h1 x0 x1 x2).2.1 S1x8.size (by sl_kernel_rfl) y
theorem sumB_cover (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runB c t h0 h1 x0 x1 x2 xs0 xs1).1, y ∈ pc.1.set :=
  View.cover_of_tiledL (runB c t h0 h1 x0 x1 x2 xs0 xs1).1 S1x8.size (by sl_kernel_rfl) y
theorem sqB_cover (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runB c t h0 h1 x0 x1 x2 xs0 xs1).2.1, y ∈ pc.1.set :=
  View.cover_of_tiledL (runB c t h0 h1 x0 x1 x2 xs0 xs1).2.1 S1x8.size (by sl_kernel_rfl) y
theorem out3C_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x1x8.Idx) : ∃ pc ∈ (runC c t h0 h1 x0 x1 x2 xs0 xs1).1, y ∈ pc.1.set :=
  View.cover_of_tiledL (runC c t h0 h1 x0 x1 x2 xs0 xs1).1 S1x1x8.size (by sl_kernel_rfl) y
theorem out4C_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x1x8.Idx) : ∃ pc ∈ (runC c t h0 h1 x0 x1 x2 xs0 xs1).2.1, y ∈ pc.1.set :=
  View.cover_of_tiledL (runC c t h0 h1 x0 x1 x2 xs0 xs1).2.1 S1x1x8.size (by sl_kernel_rfl) y
theorem sumC_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runC c t h0 h1 x0 x1 x2 xs0 xs1).2.2.1, y ∈ pc.1.set :=
  View.cover_of_tiledL (runC c t h0 h1 x0 x1 x2 xs0 xs1).2.2.1 S1x8.size (by sl_kernel_rfl) y
theorem sqC_cover (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) (y : S1x8.Idx) : ∃ pc ∈ (runC c t h0 h1 x0 x1 x2 xs0 xs1).2.2.2.1, y ∈ pc.1.set :=
  View.cover_of_tiledL (runC c t h0 h1 x0 x1 x2 xs0 xs1).2.2.2.1 S1x8.size (by sl_kernel_rfl) y

/-! ## What each case leaves, as whole vectors -/

/-- The sum accumulator after a first tile: the case's stores read back (they cover it, so over anything). -/
def sumA (c : Dev nD) (t : Fin cfg0.N) (h0 : t.val % 32 = 0) (h1 : ¬t.val % 32 = 31) (x0 : Vec F S1x6x32768 .bf16) (x1 : Vec F S8x10 .f32) (x2 : Vec F S8 .f32) : Vec F S1x8 .f32 :=
  accSumView.read (Elt F) (accSumView.writes (Elt F) accSumView.junk (runA c t h0 h1 x0 x1 x2).1)
/-- The sum-of-squares accumulator after a first tile. -/
def sqA (c : Dev nD) (t : Fin cfg0.N) (h0 : t.val % 32 = 0) (h1 : ¬t.val % 32 = 31) (x0 : Vec F S1x6x32768 .bf16) (x1 : Vec F S8x10 .f32) (x2 : Vec F S8 .f32) : Vec F S1x8 .f32 :=
  accSqView.read (Elt F) (accSqView.writes (Elt F) accSqView.junk (runA c t h0 h1 x0 x1 x2).2.1)
/-- The accumulators after a middle tile, from what the tile before left (`xs0`, `xs1`). -/
def sumB (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSumView.read (Elt F) (accSumView.writes (Elt F) accSumView.junk (runB c t h0 h1 x0 x1 x2 xs0 xs1).1)
def sqB (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSqView.read (Elt F) (accSqView.writes (Elt F) accSqView.junk (runB c t h0 h1 x0 x1 x2 xs0 xs1).2.1)
/-- The two outputs and the accumulators after a last tile. -/
def out3C (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x1x8 .f32 :=
  outView3.read (Elt F) (outView3.writes (Elt F) outView3.junk (runC c t h0 h1 x0 x1 x2 xs0 xs1).1)
def out4C (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x1x8 .f32 :=
  outView4.read (Elt F) (outView4.writes (Elt F) outView4.junk (runC c t h0 h1 x0 x1 x2 xs0 xs1).2.1)
def sumC (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSumView.read (Elt F) (accSumView.writes (Elt F) accSumView.junk (runC c t h0 h1 x0 x1 x2 xs0 xs1).2.2.1)
def sqC (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) : Vec F S1x8 .f32 :=
  accSqView.read (Elt F) (accSqView.writes (Elt F) accSqView.junk (runC c t h0 h1 x0 x1 x2 xs0 xs1).2.2.2.1)
/-- An output off the last tile: nothing is stored into it, its block is not written back and the next point
    does not read it, so what stands here is never consulted. -/
def restOut : Vec F S1x1x8 .f32 := outView3.read (Elt F) outView3.junk

section Region

variable (V : (c : Dev nD) → (b : Ref sig .tc) → Buf (Elt F) ((c : Thread nD τ).loc b))

/-! ## The accumulation, point by point -/

/-- What the two outputs' staging buffers and the two accumulators hold after the body at position `n`
    (sum output, sum-of-squares output, sum accumulator, sum-of-squares accumulator): the case the position
    modulo 32 selects, on the point's blocks; a tile that is not the first of its batch starts from the accumulators
    of position `n - 1`. No position is both first and last (32 tiles a batch). -/
def outsAt0 (c : Dev nD) : (n : ℕ) → n < cfg0.N → Vec F S1x1x8 .f32 × Vec F S1x1x8 .f32 × Vec F S1x8 .f32 × Vec F S1x8 .f32
  | 0, hn => (restOut, restOut,
      sumA c ⟨0, hn⟩ (Nat.zero_mod _) (by show ¬0 % 32 = 31; omega) (iblk0 V c 0 ⟨0, hn⟩) (iblk0 V c 1 ⟨0, hn⟩) (iblk0 V c 2 ⟨0, hn⟩),
      sqA c ⟨0, hn⟩ (Nat.zero_mod _) (by show ¬0 % 32 = 31; omega) (iblk0 V c 0 ⟨0, hn⟩) (iblk0 V c 1 ⟨0, hn⟩) (iblk0 V c 2 ⟨0, hn⟩))
  | n + 1, hn =>
    if h0 : (n + 1) % 32 = 0 then
      if h1 : (n + 1) % 32 = 31 then
        False.elim (by omega)
      else
        (restOut, restOut, sumA c ⟨n + 1, hn⟩ h0 h1 (iblk0 V c 0 ⟨n + 1, hn⟩) (iblk0 V c 1 ⟨n + 1, hn⟩) (iblk0 V c 2 ⟨n + 1, hn⟩), sqA c ⟨n + 1, hn⟩ h0 h1 (iblk0 V c 0 ⟨n + 1, hn⟩) (iblk0 V c 1 ⟨n + 1, hn⟩) (iblk0 V c 2 ⟨n + 1, hn⟩))
    else
      if h1 : (n + 1) % 32 = 31 then
        (out3C c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         out4C c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         sumC c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         sqC c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (restOut, restOut,
         sumB c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2,
         sqB c ⟨n + 1, hn⟩ h0 h1 (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- At a first tile. -/
theorem outsAt0_A (c : Dev nD) (t : Fin cfg0.N) (h0 : t.val % 32 = 0) (h1 : ¬t.val % 32 = 31) :
    outsAt0 V c t.val t.isLt = (restOut, restOut, sumA c t h0 h1 (iblk0 V c 0 t) (iblk0 V c 1 t) (iblk0 V c 2 t), sqA c t h0 h1 (iblk0 V c 0 t) (iblk0 V c 1 t) (iblk0 V c 2 t)) := by
  obtain ⟨n, hn⟩ := t
  cases n with
  | zero => exact rfl
  | succ n => exact (dif_pos h0).trans ((dif_neg h1).trans rfl)

/-- At a middle tile: over what the point before left in the accumulators. -/
theorem outsAt0_B (c : Dev nD) (t : Fin cfg0.N) (h0 : ¬t.val % 32 = 0) (h1 : ¬t.val % 32 = 31) :
    outsAt0 V c t.val t.isLt = (restOut, restOut,
      sumB c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      sqB c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left in the accumulators. -/
theorem outsAt0_C (c : Dev nD) (t : Fin cfg0.N) (h0 : ¬t.val % 32 = 0) (h1 : t.val % 32 = 31) :
    outsAt0 V c t.val t.isLt = (
      out3C c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      out4C c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      sumC c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2,
      sqC c t h0 h1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class's invariant (both accumulators at anything); afterwards
    each accumulator owned at exactly what the point before left in it, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) accSum fullShare ((outsAt0 V c n hn).2.2.1) ∗ owns (c : Thread nD τ) accSq fullShare ((outsAt0 V c n hn).2.2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accSum fullShare ((outsAt0 V c n hn).2.2.1) ∗ owns (c : Thread nD τ) accSq fullShare ((outsAt0 V c n hn).2.2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) accSum fullShare ((outsAt0 V c (n - 1) (by omega)).2.2.1) ∗ owns (c : Thread nD τ) accSq fullShare ((outsAt0 V c (n - 1) (by omega)).2.2.2) ∗ otherScoped c) ∗ (∃ r, prngReg c r)) := by
  cases n with
  | zero => exact absurd rfl hz
  | succ n => rfl

/-! ## The proof data -/

/-- The proof data of the first pipeline on core `c`: the arrays as the region finds them; after the body at point
    `t` each input's buffer at its block and the outputs' at `outsAt0`'s components; the invariant `PhiS`; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's obligation -/

/-- What the body is called with at point `t`: the invariant, what the core owes, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (stg0 t) fullShare ((dat0 V c).before 0 t d))
    ∗ (∃ d, owns (c : Thread nD τ) (stg1 t) fullShare ((dat0 V c).before 1 t d))
    ∗ (∃ d, owns (c : Thread nD τ) (stg2 t) fullShare ((dat0 V c).before 2 t d))
    ∗ (∃ d, owns (c : Thread nD τ) (stg3 t) fullShare ((dat0 V c).before 3 t d))
    ∗ (∃ d, owns (c : Thread nD τ) (stg4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the position modulo 32 says which case the
    point is in; that case's run applies, the invariant handing it the accumulators (at what the point before left,
    or at anything before the very first point and at a first tile) and taking them back at this point's contents;
    an output off the last tile is handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 32 = 0
  · by_cases h1 : t.val % 32 = 31
    · exfalso; omega
    · rw [show (dat0 V c).leavesExact 0 t = owns (c : Thread nD τ) (stg0 t) fullShare ((dat0 V c).after 0 t) from by
        unfold Dat.leavesExact; rw [live0_0 t], after0_0]
      rw [show (dat0 V c).leavesExact 1 t = owns (c : Thread nD τ) (stg1 t) fullShare ((dat0 V c).after 1 t) from by
        unfold Dat.leavesExact; rw [live0_1 t], after0_1]
      rw [show (dat0 V c).leavesExact 2 t = owns (c : Thread nD τ) (stg2 t) fullShare ((dat0 V c).after 2 t) from by
        unfold Dat.leavesExact; rw [live0_2 t], after0_2]
      rw [Dat.leavesExact_idle (dat0 V c) 3 t (rest0_3 t (fun h => h1 ((isLast_iff t).mp h))) (noFlush0_3 t (fun h => h1 ((isLast_iff t).mp h)))]
      rw [Dat.leavesExact_idle (dat0 V c) 4 t (rest0_4 t (fun h => h1 ((isLast_iff t).mp h))) (noFlush0_4 t (fun h => h1 ((isLast_iff t).mp h)))]
      rw [outsAt0_A V c t h0 h1]
      unfold sumA sqA; (try dsimp only)
      by_cases hz : t.val = 0
      · rw [PhiS_castSucc V c t, PhiS_zero V c _ _ hz, PhiA0_eq]
        iintro ⟨⟨⟨HS0, HS1, Hr⟩, Hg⟩, Ho, ⟨%d0, H0⟩, ⟨%d1, H1⟩, ⟨%d2, H2⟩, ⟨%d3, H3⟩, ⟨%d4, H4⟩⟩
        iapply ((runA c t h0 h1 (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (sumA_cover c t h0 h1 _ _ _)
            isplitl [HS1]
            · unfold owns; iexists _; isplitr
              swap; · iexact HS1
              ipureintro; exact View.read_writes_of_cover _ _ _ _ _ (sqA_cover c t h0 h1 _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩⟩
        iapply ((runA c t h0 h1 (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (sumA_cover c t h0 h1 _ _ _)
            isplitl [HS1]
            · unfold owns; iexists _; isplitr
              swap; · iexact HS1
              ipureintro; exact View.read_writes_of_cover _ _ _ _ _ (sqA_cover c t h0 h1 _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun e => h0 (by rw [e])
    by_cases h1 : t.val % 32 = 31
    · rw [show (dat0 V c).leavesExact 0 t = owns (c : Thread nD τ) (stg0 t) fullShare ((dat0 V c).after 0 t) from by
        unfold Dat.leavesExact; rw [live0_0 t], after0_0]
      rw [show (dat0 V c).leavesExact 1 t = owns (c : Thread nD τ) (stg1 t) fullShare ((dat0 V c).after 1 t) from by
        unfold Dat.leavesExact; rw [live0_1 t], after0_1]
      rw [show (dat0 V c).leavesExact 2 t = owns (c : Thread nD τ) (stg2 t) fullShare ((dat0 V c).after 2 t) from by
        unfold Dat.leavesExact; rw [live0_2 t], after0_2]
      rw [show (dat0 V c).leavesExact 3 t = owns (c : Thread nD τ) (stg3 t) fullShare ((dat0 V c).after 3 t) from by
        unfold Dat.leavesExact; rw [live0_3 t ((isLast_iff t).mpr h1)], after0_3]
      rw [show (dat0 V c).leavesExact 4 t = owns (c : Thread nD τ) (stg4 t) fullShare ((dat0 V c).after 4 t) from by
        unfold Dat.leavesExact; rw [live0_4 t ((isLast_iff t).mpr h1)], after0_4]
      rw [outsAt0_C V c t h0 h1]
      unfold out3C out4C sumC sqC; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((runC c t h0 h1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (sumC_cover c t h0 h1 _ _ _ _ _)
          isplitl [HS1]
          · unfold owns; iexists _; isplitr
            swap; · iexact HS1
            ipureintro; exact View.read_writes_of_cover _ _ _ _ _ (sqC_cover c t h0 h1 _ _ _ _ _)
          iexact Hr
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out3C_cover c t h0 h1 _ _ _ _ _)
      unfold owns; iexists _; isplitr
      swap; · iexact H4
      ipureintro; exact View.read_writes_of_cover _ _ _ _ _ (out4C_cover c t h0 h1 _ _ _ _ _)
    · rw [show (dat0 V c).leavesExact 0 t = owns (c : Thread nD τ) (stg0 t) fullShare ((dat0 V c).after 0 t) from by
        unfold Dat.leavesExact; rw [live0_0 t], after0_0]
      rw [show (dat0 V c).leavesExact 1 t = owns (c : Thread nD τ) (stg1 t) fullShare ((dat0 V c).after 1 t) from by
        unfold Dat.leavesExact; rw [live0_1 t], after0_1]
      rw [show (dat0 V c).leavesExact 2 t = owns (c : Thread nD τ) (stg2 t) fullShare ((dat0 V c).after 2 t) from by
        unfold Dat.leavesExact; rw [live0_2 t], after0_2]
      rw [Dat.leavesExact_idle (dat0 V c) 3 t (rest0_3 t (fun h => h1 ((isLast_iff t).mp h))) (noFlush0_3 t (fun h => h1 ((isLast_iff t).mp h)))]
      rw [Dat.leavesExact_idle (dat0 V c) 4 t (rest0_4 t (fun h => h1 ((isLast_iff t).mp h))) (noFlush0_4 t (fun h => h1 ((isLast_iff t).mp h)))]
      rw [outsAt0_B V c t h0 h1]
      unfold sumB sqB; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((runB c t h0 h1 (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (sumB_cover c t h0 h1 _ _ _ _ _)
          isplitl [HS1]
          · unfold owns; iexists _; isplitr
            swap; · iexact HS1
            ipureintro; exact View.read_writes_of_cover _ _ _ _ _ (sqB_cover c t h0 h1 _ _ _ _ _)
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the two ends -/

/-- Before the first point the invariant is the class's. -/
theorem Phi0_first (c : Dev nD) : (dat0 V c).Φ 0 = Pipeline.ΦA spec0 c := by
  rw [show (dat0 V c).Φ 0 = PhiS V c 0 (Nat.zero_le _) from rfl, PhiS_zero V c 0 _ rfl]

/-- After any point but the first the invariant gives the class's back: what the accumulators hold is forgotten. -/
theorem Phi0_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- In particular after the last point. -/
theorem Phi0_last (c : Dev nD) : (dat0 V c).Φ (Fin.last cfg0.N) ⊢ Pipeline.ΦA spec0 c :=
  Phi0_out V c _ (by rw [Fin.val_last]; have : cfg0.N = 128 := N_0; omega)

end Region

end Cert.KernelIdeal.Hand

end
-- ==== Proof.KI.Apply.lean ====
import proofs.«173522_j70901320122520_2_alg».proof.Proof.Gen.KernelIdeal.Launch
import proofs.«173522_j70901320122520_2_alg».proof.Proof.Gen.KernelIdeal.Skeleton
import proofs.«173522_j70901320122520_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second region: the convolution, leaky rectifier and concatenation kernel, at a generic entry state

The second pallas_call of the program runs over a grid of 4 x 32 points.  At each point it reads one
block of the six coordinate channels (window 0), one block of the eight neighbour feature channels
(window 1), the folded 8 x 10 weights (window 2) and the folded bias (window 3), and writes one block of
the sixteen output channels (window 4) and one block of the eight activated planes (window 5).

Everything here is stated at any float interpretation `F` and at a parameter `V`, the contents of the
core's buffers when the region is entered.  The body is straight-line: it loads the four input staging
buffers whole, computes, and stores each output staging buffer whole, once.  So what it leaves in an
output buffer is a closed function of the four input blocks (`out1_4`, `out1_5`), and what it finds in
an input buffer is that window's block at the point whether or not the block was fetched there (the
block index of the weights and of the bias never moves).
-/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any
    proof data whose array is `V`'s and whose body leaves the block in place: where the window is not
    fetched its block index has not moved, so the block of the point before is this point's. The four input
    windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store takes its staging buffer whole -/

abbrev r1_0 : Rect S1x6x32768 := Rect.unit (s := S1x6x32768) ![0, 0, 0] S1x6x32768.size inb_S1x6x32768_S1x6x32768_0_0_0
abbrev r1_1 : Rect S1x8x32768 := Rect.unit (s := S1x8x32768) ![0, 0, 0] S1x8x32768.size inb_S1x8x32768_S1x8x32768_0_0_0
abbrev r1_2 : Rect S8x10 := Rect.unit (s := S8x10) ![0, 0] S8x10.size inb_S8x10_S8x10_0_0
abbrev r1_3 : Rect S8 := Rect.unit (s := S8) ![0] S8.size inb_S8_S8_0
abbrev r1_4 : Rect S1x16x32768 := Rect.unit (s := S1x16x32768) ![0, 0, 0] S1x16x32768.size inb_S1x16x32768_S1x16x32768_0_0_0

/-! ## The values the body computes, as functions of the input blocks

The body is printed in eleven parts that hand one another the ten feature rows (`a1_v10`), the weights
(`a1_v12`), the bias (`a1_v14`) and the partial sums of the eight planes.  Each value below is the
skeleton's payload applied to the values it is computed from; the eight activated planes are `a1_v92`,
`a1_v170`, `a1_v248`, `a1_v326`, `a1_v404`, `a1_v482`, `a1_v560`, and the last plane before its
rectifier `a1_v633` with the rectifier's mask `a1_v635`. -/

def a1_v10 (x0 : Vec F S1x6x32768 .bf16) : FVec F S10x32768 .f32 :=
  k1_pay4 (View.ld x0 r1_0)
def a1_v12 (x2 : Vec F S8x10 .f32) : FVec F S8x10 .f32 :=
  k1_pay5 (View.ld x2 r1_2)
def a1_v14 (x3 : Vec F S8 .f32) : FVec F S8 .f32 :=
  k1_pay6 (View.ld x3 r1_3)
def a1_v45 (x0 : Vec F S1x6x32768 .bf16) (x2 : Vec F S8x10 .f32) (x3 : Vec F S8 .f32) : FVec F S32768 .f32 :=
  k1_pay7 (View.ld x0 r1_0) (View.ld x2 r1_2) (View.ld x3 r1_3)
def a1_v49 (x0 : Vec F S1x6x32768 .bf16) : FVec F S32768 .f32 :=
  k1_pay8 (View.ld x0 r1_0)
def a1_v50 (x2 : Vec F S8x10 .f32) : FVec F S32768 .f32 :=
  k1_pay9 (View.ld x2 r1_2)
def a1_v92 (x0 : Vec F S1x6x32768 .bf16) (x2 : Vec F S8x10 .f32) (x3 : Vec F S8 .f32) : FVec F S32768 .f32 :=
  k1_pay10 (a1_v10 x0) (a1_v12 x2) (a1_v45 x0 x2 x3) (a1_v49 x0) (a1_v50 x2)
def a1_v102 (x0 : Vec F S1x6x32768 .bf16) (x2 : Vec F S8x10 .f32) (x3 : Vec F S8 .f32) : FVec F S32768 .f32 :=
  k1_pay11 (a1_v10 x0) (a1_v12 x2) (a1_v14 x3)
def a1_v108 (x0 : Vec F S1x6x32768 .bf16) (x2 : Vec F S8x10 .f32) : FVec F S32768 .f32 :=
  k1_pay12 (a1_v10 x0) (a1_v12 x2)
def a1_v165 (x0 : Vec F S1x6x32768 .bf16) (x2 : Vec F S8x10 .f32) (x3 : Vec F S8 .f32) : FVec F S32768 .f32 :=
  k1_pay13 (a1_v10 x0) (a1_v12 x2) (a1_v102 x0 x2 x3) (a1_v108 x0 x2)
def a1_v167 (x0 : Vec F S1x6x32768 .bf16) (x2 : Vec F S8x10 .f32) (x3 : Vec F S8 .f32) : IVec S32768 1 :=
  k1_pay14 (a1_v10 x0) (a1_v12 x2) (a1_v102 x0 x2 x3) (a1_v108 x0 x2)
def a1_v170 (x0 : Vec F S1x6x32768 .bf16) (x2 : Vec F S8x10 .f32) (x3 : Vec F S8 .f32) : FVec F S32768 .f32 :=
  k1_pay15 (a1_v165 x0 x2 x3) (a1_v167 x0 x2 x3)
def a1_v222 (x0 : Vec F S1x6x32768 .bf16) (x2 : Vec F S8x10 .f32) (x3 : Vec F S8 .f32) : FVec F S32768 .f32 :=
  k1_pay16 (a1_v10 x0) (a1_v12 x2) (a1_v14 x3)
def a1_v224 (x2 : Vec F S8x10 .f32) : F .f32 :=
  k1_pay17 (a1_v12 x2)
def a1_v226 (x0 : Vec F S1x6x32768 .bf16) : FVec F S32768 .f32 :=
  k1_pay18 (a1_v10 x0)
def a1_v248 (x0 : Vec F S1x6x32768 .bf16) (x2 : Vec F S8x10 .f32) (x3 : Vec F S8 .f32) : FVec F S32768 .f32 :=
  k1_pay19 (a1_v10 x0) (a1_v12 x2) (a1_v222 x0 x2 x3) (a1_v224 x2) (a1_v226 x0)
def a1_v279 (x0 : Vec F S1x6x32768 .bf16) (x2 : Vec F S8x10 .f32) (x3 : Vec F S8 .f32) : FVec F S32768 .f32 :=
  k1_pay20 (a1_v10 x0) (a1_v12 x2) (a1_v14 x3)
def a1_v283 (x0 : Vec F S1x6x32768 .bf16) : FVec F S32768 .f32 :=
  k1_pay21 (a1_v10 x0)
def a1_v284 (x2 : Vec F S8x10 .f32) : FVec F S32768 .f32 :=
  k1_pay22 (a1_v12 x2)
def a1_v326 (x0 : Vec F S1x6x32768 .bf16) (x2 : Vec F S8x10 .f32) (x3 : Vec F S8 .f32) : FVec F S32768 .f32 :=
  k1_pay23 (a1_v10 x0) (a1_v12 x2) (a1_v279 x0 x2 x3) (a1_v283 x0) (a1_v284 x2)
def a1_v336 (x0 : Vec F S1x6x32768 .bf16) (x2 : Vec F S8x10 .f32) (x3 : Vec F S8 .f32) : FVec F S32768 .f32 :=
  k1_pay24 (a1_v10 x0) (a1_v12 x2) (a1_v14 x3)
def a1_v342 (x0 : Vec F S1x6x32768 .bf16) (x2 : Vec F S8x10 .f32) : FVec F S32768 .f32 :=
  k1_pay25 (a1_v10 x0) (a1_v12 x2)
def a1_v399 (x0 : Vec F S1x6x32768 .bf16) (x2 : Vec F S8x10 .f32) (x3 : Vec F S8 .f32) : FVec F S32768 .f32 :=
  k1_pay26 (a1_v10 x0) (a1_v12 x2) (a1_v336 x0 x2 x3) (a1_v342 x0 x2)
def a1_v401 (x0 : Vec F S1x6x32768 .bf16) (x2 : Vec F S8x10 .f32) (x3 : Vec F S8 .f32) : IVec S32768 1 :=
  k1_pay27 (a1_v10 x0) (a1_v12 x2) (a1_v336 x0 x2 x3) (a1_v342 x0 x2)
def a1_v404 (x0 : Vec F S1x6x32768 .bf16) (x2 : Vec F S8x10 .f32) (x3 : Vec F S8 .f32) : FVec F S32768 .f32 :=
  k1_pay28 (a1_v399 x0 x2 x3) (a1_v401 x0 x2 x3)
def a1_v456 (x0 : Vec F S1x6x32768 .bf16) (x2 : Vec F S8x10 .f32) (x3 : Vec F S8 .f32) : FVec F S32768 .f32 :=
  k1_pay29 (a1_v10 x0) (a1_v12 x2) (a1_v14 x3)
def a1_v458 (x2 : Vec F S8x10 .f32) : F .f32 :=
  k1_pay30 (a1_v12 x2)
def a1_v460 (x0 : Vec F S1x6x32768 .bf16) : FVec F S32768 .f32 :=
  k1_pay31 (a1_v10 x0)
def a1_v482 (x0 : Vec F S1x6x32768 .bf16) (x2 : Vec F S8x10 .f32) (x3 : Vec F S8 .f32) : FVec F S32768 .f32 :=
  k1_pay32 (a1_v10 x0) (a1_v12 x2) (a1_v456 x0 x2 x3) (a1_v458 x2) (a1_v460 x0)
def a1_v513 (x0 : Vec F S1x6x32768 .bf16) (x2 : Vec F S8x10 .f32) (x3 : Vec F S8 .f32) : FVec F S32768 .f32 :=
  k1_pay33 (a1_v10 x0) (a1_v12 x2) (a1_v14 x3)
def a1_v517 (x0 : Vec F S1x6x32768 .bf16) : FVec F S32768 .f32 :=
  k1_pay34 (a1_v10 x0)
def a1_v518 (x2 : Vec F S8x10 .f32) : FVec F S32768 .f32 :=
  k1_pay35 (a1_v12 x2)
def a1_v560 (x0 : Vec F S1x6x32768 .bf16) (x2 : Vec F S8x10 .f32) (x3 : Vec F S8 .f32) : FVec F S32768 .f32 :=
  k1_pay36 (a1_v10 x0) (a1_v12 x2) (a1_v513 x0 x2 x3) (a1_v517 x0) (a1_v518 x2)
def a1_v570 (x0 : Vec F S1x6x32768 .bf16) (x2 : Vec F S8x10 .f32) (x3 : Vec F S8 .f32) : FVec F S32768 .f32 :=
  k1_pay37 (a1_v10 x0) (a1_v12 x2) (a1_v14 x3)
def a1_v576 (x0 : Vec F S1x6x32768 .bf16) (x2 : Vec F S8x10 .f32) : FVec F S32768 .f32 :=
  k1_pay38 (a1_v10 x0) (a1_v12 x2)
def a1_v633 (x0 : Vec F S1x6x32768 .bf16) (x2 : Vec F S8x10 .f32) (x3 : Vec F S8 .f32) : FVec F S32768 .f32 :=
  k1_pay39 (a1_v10 x0) (a1_v12 x2) (a1_v570 x0 x2 x3) (a1_v576 x0 x2)
def a1_v635 (x0 : Vec F S1x6x32768 .bf16) (x2 : Vec F S8x10 .f32) (x3 : Vec F S8 .f32) : IVec S32768 1 :=
  k1_pay40 (a1_v10 x0) (a1_v12 x2) (a1_v570 x0 x2 x3) (a1_v576 x0 x2)

/-! ## What the body leaves in each output window's buffer -/

/-- Window 4's staging buffer after the body: its one store, of the neighbour features over the eight
    activated planes. -/
def out1_4 (x0 : Vec F S1x6x32768 .bf16) (x1 : Vec F S1x8x32768 .f32) (x2 : Vec F S8x10 .f32) (x3 : Vec F S8 .f32) : Vec F S1x16x32768 .f32 :=
  View.canon [⟨r1_4, k1_pay2 (a1_v92 x0 x2 x3) (a1_v170 x0 x2 x3) (a1_v248 x0 x2 x3) (a1_v326 x0 x2 x3) (a1_v404 x0 x2 x3) (a1_v482 x0 x2 x3) (a1_v560 x0 x2 x3) (a1_v633 x0 x2 x3) (a1_v635 x0 x2 x3) (View.ld x1 r1_1)⟩]

/-- Window 5's staging buffer after the body: its one store, of the eight activated planes. (The
    neighbour features `x1` are not read.) -/
def out1_5 (x0 : Vec F S1x6x32768 .bf16) (x1 : Vec F S1x8x32768 .f32) (x2 : Vec F S8x10 .f32) (x3 : Vec F S8 .f32) : Vec F S1x8x32768 .f32 :=
  View.canon [⟨r1_1, k1_pay3 (a1_v92 x0 x2 x3) (a1_v170 x0 x2 x3) (a1_v248 x0 x2 x3) (a1_v326 x0 x2 x3) (a1_v404 x0 x2 x3) (a1_v482 x0 x2 x3) (a1_v560 x0 x2 x3) (a1_v633 x0 x2 x3) (a1_v635 x0 x2 x3)⟩]

/-- One store of the whole buffer covers it. -/
theorem cover1_4 (p0 : Vec F S1x16x32768 .f32) (y : S1x16x32768.Idx) :
    ∃ pc ∈ ([⟨r1_4, p0⟩] : List (View.Piece (Elt F) S1x16x32768 .f32)), y ∈ pc.1.set :=
  View.cover_of_tiled [⟨r1_4, p0⟩] S1x16x32768.size (by rfl) y

theorem cover1_5 (p0 : Vec F S1x8x32768 .f32) (y : S1x8x32768.Idx) :
    ∃ pc ∈ ([⟨r1_1, p0⟩] : List (View.Piece (Elt F) S1x8x32768 .f32)), y ∈ pc.1.set :=
  View.cover_of_tiled [⟨r1_1, p0⟩] S1x8x32768.size (by rfl) y

/-! ## The body's triple -/

set_option maxHeartbeats 4000000 in
/-- The kernel body on whole staging memrefs, the inputs' at read contents `xW` and the outputs' at
    anything, runs to the continuation holding the inputs' as they were and each output's at `out1_W` of
    the inputs'. The body reads each output buffer once before storing into it; the value read is used
    nowhere. -/
theorem sound_kernel1 (c : Dev nD) (E : Set ℕ) (i : grid1.Coords)
    (arg2 : Memref sig .tc .vmem S1x6x32768 .bf16) (harg2 : arg2.IsWhole) (arg3 : Memref sig .tc .vmem S1x8x32768 .f32) (harg3 : arg3.IsWhole)
    (arg4 : Memref sig .tc .vmem S8x10 .f32) (harg4 : arg4.IsWhole) (arg5 : Memref sig .tc .vmem S8 .f32) (harg5 : arg5.IsWhole)
    (arg6 : Memref sig .tc .vmem S1x16x32768 .f32) (harg6 : arg6.IsWhole) (arg7 : Memref sig .tc .vmem S1x8x32768 .f32) (harg7 : arg7.IsWhole)
    (x0 : Vec F S1x6x32768 .bf16) (x1 : Vec F S1x8x32768 .f32) (x2 : Vec F S8x10 .f32) (x3 : Vec F S8 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)
            ∗ owns (c : Thread nD τ) arg7 fullShare (out1_5 x0 x1 x2 x3)) -∗ K ⟨⟩))
      ⊢ wp frame (wpE (defs₀ (F := F)) Variants.none c none) E
          (cc1__apply_kernel i arg2 harg2 arg3 harg3 arg4 harg4 arg5 harg5 arg6 harg6 arg7 harg7) K := by
  simp only [cc1__apply_kernel_eq_skeleton]; unfold cc1__apply_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [k1_part10_eq_skeleton]; unfold k1_part10_skel
  simp only [k1_part11_eq_skeleton]; unfold k1_part11_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  iexists _; isplitr
  swap; · iexact H5
  ipureintro
  try dsimp only
  exact View.read_writes_eq_canon _ _ _ (cover1_5 _)

/-! ## The pipeline's proof data -/

/-- The proof data of the second pipeline on core `c`: the arrays as the region finds them; after the body
    at point `t` each input's buffer at its block and each output's at `out1_W` of the input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The run of @main as five items: the host operations before the first kernel, the statistics kernel, the host
  operations that turn its sums into the folded weights and bias, the normalising kernel, and the two reshapes of its
  results.  The buffer contents at each boundary are a fold from the launch memory: a stretch of host operations
  applies them; a kernel region leaves its windows' arrays at what its write-backs leave and every other buffer as
  entered.  Every weakly fair execution terminates, and every final memory holds each unscoped buffer at the last
  boundary's contents; the argument arrays are read back through the fold to their launch contents.
-/
import proofs.«173522_j70901320122520_2_alg».proof.Proof.KI.Stats
import proofs.«173522_j70901320122520_2_alg».proof.Proof.KI.Apply
import proofs.«173522_j70901320122520_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first stretch of host operations: what the statistics kernel is entered from. -/
abbrev B1 : Dev nD → Valuation τ sig (Elt F) := fun c => StableHlo.after hostOps0 (B0 m ρ c)
/-- The same, read at the TensorCore's references. -/
abbrev T1 : (c : Dev nD) → (b : Ref sig .tc) → Buf (Elt F) ((c : Thread nD τ).loc b) := fun c b => B1 m ρ c b
/-- At the statistics kernel's exit: its windows' arrays at what the pipeline leaves, the rest as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev T2 : (c : Dev nD) → (b : Ref sig .tc) → Buf (Elt F) ((c : Thread nD τ).loc b) := fun c b => B2 m ρ c b
theorem exit0_arr (c : Dev nD) (w : Fin cfg0.W) : (dat0 (T1 m ρ) c).arrAt w cfg0.N = T2 m ρ c (Pipeline.arrRef spec0 w) :=
  (B2_arr m ρ c w).symm
theorem exit0_rest (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- After the second stretch of host operations: what the normalising kernel is entered from. -/
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b
/-- At the normalising kernel's exit. -/
def B4 (c : Dev nD) : Valuation τ sig (Elt F) :=
  Pipeline.withArrays spec1 c (B3 m ρ c) fun w => (dat1 (T3 m ρ) c).arrAt w cfg1.N
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev T4 : (c : Dev nD) → (b : Ref sig .tc) → Buf (Elt F) ((c : Thread nD τ).loc b) := fun c b => B4 m ρ c b
theorem exit1_arr (c : Dev nD) (w : Fin cfg1.W) : (dat1 (T3 m ρ) c).arrAt w cfg1.N = T4 m ρ c (Pipeline.arrRef spec1 w) :=
  (B4_arr m ρ c w).symm
theorem exit1_rest (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)
/-- After the last stretch (the two reshapes): the final contents. -/
abbrev B5 : Dev nD → Valuation τ sig (Elt F) := fun c => StableHlo.after hostOps2 (B4 m ρ c)

/-! ## The arguments end as launched -/

/-- A buffer that no host operation writes and that is no array of either kernel's windows ends as launched. -/
theorem B5_of_untouched (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    B5 m ρ c (Proc.devRef .tc r) = m ((c : Thread nD τ).loc r) :=
  calc B5 m ρ c (Proc.devRef .tc r)
    _ = B4 m ρ c (Proc.devRef .tc r) := StableHlo.after_of_writes_sub hostOps2 _ hostOps2_writes h2
    _ = B3 m ρ c (Proc.devRef .tc r) := B4_of_ne m ρ c r hw1
    _ = B2 m ρ c (Proc.devRef .tc r) := StableHlo.after_of_writes_sub hostOps1 _ hostOps1_writes h1
    _ = B1 m ρ c (Proc.devRef .tc r) := B2_of_ne m ρ c r hw0
    _ = B0 m ρ c (Proc.devRef .tc r) := StableHlo.after_of_writes_sub hostOps0 _ hostOps0_writes h0
    _ = m ((c : Thread nD τ).loc r) := rfl

/-- An argument that the statistics kernel reads through input window `w` ends as launched. -/
theorem B5_of_input0 (c : Dev nD) (r : Ref sig .tc) (w : Fin cfg0.W) (hw : Pipeline.arrRef spec0 w = r) (hin : (cfg0.win w).isOut = false)
    (h0 : r ∉ hostOps0_W) (h1 : r ∉ hostOps1_W) (h2 : r ∉ hostOps2_W) (hw1 : ∀ w, Pipeline.arrRef spec1 w ≠ r) :
    B5 m ρ c (Proc.devRef .tc r) = m ((c : Thread nD τ).loc r) := by
  subst hw
  calc B5 m ρ c (Proc.devRef .tc (Pipeline.arrRef spec0 w))
    _ = B4 m ρ c (Proc.devRef .tc (Pipeline.arrRef spec0 w)) := StableHlo.after_of_writes_sub hostOps2 _ hostOps2_writes h2
    _ = B3 m ρ c (Proc.devRef .tc (Pipeline.arrRef spec0 w)) := B4_of_ne m ρ c _ hw1
    _ = B2 m ρ c (Proc.devRef .tc (Pipeline.arrRef spec0 w)) := StableHlo.after_of_writes_sub hostOps1 _ hostOps1_writes h1
    _ = B1 m ρ c (Proc.devRef .tc (Pipeline.arrRef spec0 w)) := (B2_arr m ρ c w).trans (((dat0 (T1 m ρ) c).arrAt_in w hin _).trans (A_eq0 (T1 m ρ) c w))
    _ = B0 m ρ c (Proc.devRef .tc (Pipeline.arrRef spec0 w)) := StableHlo.after_of_writes_sub hostOps0 _ hostOps0_writes h0
    _ = m ((c : Thread nD τ).loc (Pipeline.arrRef spec0 w)) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernels as items -/

set_option backward.isDefEq.respectTransparency.types false in
/-- The statistics kernel: entered from every unscoped buffer at `B1`, left at `B2`.  Its windows' arrays are split out
    of the unscoped buffers and put back at the exit contents; the generator register and the scratch accumulators enter
    the region's invariant, which is the plain one before the first point and gives the plain one back after the last. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (T1 m ρ) c).Φ 0 from rfl, Phi0_first]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (T1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising kernel: entered from every unscoped buffer at `B3`, left at `B4`; its invariant is the plain one
    throughout (the body carries nothing between points). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T3 m ρ c) (T4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

/-- @main's five items in order. -/
abbrev items : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
/-- @main is the run of the items. -/
theorem main_run (c : Dev nD) : main (F := F) c = Pipeline.Seg.run (items m ρ) := (main_chain c).trans (by chain_rfl)

set_option backward.isDefEq.respectTransparency.types false in
/-- From any memory with zero counters every weakly fair execution of @main terminates, nothing faulting, and every
    final memory holds each unscoped buffer at the final contents `B5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := fun c => StableHlo.held (c : Thread nD τ) (Pipeline.ucRefs τ sig) (B5 m ρ c))
    (hch := ⟨fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨Hh, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.KernelIdeal.Hand

end
-- ==== Proof.KI.Frame.lean ====
/-
  The frame claim and the results' contents, read off the run: the seven argument arrays end as launched — five of them
  are touched by no host operation and staged by no kernel window, the convolution's weights and bias are read by the
  statistics kernel through input windows that leave them as entered — and the two results end at the final boundary's
  contents.
-/
import proofs.«173522_j70901320122520_2_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem B5_main_arg0 (c : Dev nD) : B5 m ρ c (Proc.devRef .tc main_arg0) = m ((c : Thread nD τ).loc main_arg0) :=
  B5_of_untouched m ρ c main_arg0 (by decide) (by decide) (by decide) (by decide) (by decide)
theorem B5_main_arg1 (c : Dev nD) : B5 m ρ c (Proc.devRef .tc main_arg1) = m ((c : Thread nD τ).loc main_arg1) :=
  B5_of_untouched m ρ c main_arg1 (by decide) (by decide) (by decide) (by decide) (by decide)
theorem B5_main_arg2 (c : Dev nD) : B5 m ρ c (Proc.devRef .tc main_arg2) = m ((c : Thread nD τ).loc main_arg2) :=
  B5_of_untouched m ρ c main_arg2 (by decide) (by decide) (by decide) (by decide) (by decide)
theorem B5_main_arg3 (c : Dev nD) : B5 m ρ c (Proc.devRef .tc main_arg3) = m ((c : Thread nD τ).loc main_arg3) :=
  B5_of_input0 m ρ c main_arg3 1 rfl rfl (by decide) (by decide) (by decide) (by decide)
theorem B5_main_arg4 (c : Dev nD) : B5 m ρ c (Proc.devRef .tc main_arg4) = m ((c : Thread nD τ).loc main_arg4) :=
  B5_of_input0 m ρ c main_arg4 2 rfl rfl (by decide) (by decide) (by decide) (by decide)
theorem B5_main_arg5 (c : Dev nD) : B5 m ρ c (Proc.devRef .tc main_arg5) = m ((c : Thread nD τ).loc main_arg5) :=
  B5_of_untouched m ρ c main_arg5 (by decide) (by decide) (by decide) (by decide) (by decide)
theorem B5_main_arg6 (c : Dev nD) : B5 m ρ c (Proc.devRef .tc main_arg6) = m ((c : Thread nD τ).loc main_arg6) :=
  B5_of_untouched m ρ c main_arg6 (by decide) (by decide) (by decide) (by decide) (by decide)

/-- THE FRAME: every weakly fair execution of @main terminates, nothing faulting, and the argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c),
     (h c _ (mem_uc main_arg5 (by decide))).trans (B5_main_arg5 m ρ c),
     (h c _ (mem_uc main_arg6 (by decide))).trans (B5_main_arg6 m ρ c)⟩) (run m ρ)

/-- The same run with the two results named: each ends at the final boundary's contents. -/
theorem run_results : θ_run defs (onTc (τ := τ) (main (F := F))) ⟨m, fun _ => 0, ρ⟩ (fun r => ∀ c : Dev nD,
      r.2.mem ((c.tc : Thread nD τ).loc main_v47) = B5 m ρ c (Proc.devRef .tc main_v47)
      ∧ r.2.mem ((c.tc : Thread nD τ).loc main_v48) = B5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v47 (by decide)),
     h c _ (mem_uc main_v48 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c),
     (h c _ (mem_uc main_arg5 (by decide))).trans (B5_main_arg5 m ρ c),
     (h c _ (mem_uc main_arg6 (by decide))).trans (B5_main_arg6 m ρ c)⟩) (run m ρ)

end Cert.KernelIdeal.Hand

end
-- ==== Proof.Frames.lean ====
/-
  The two kernel programs' frame claims and the idealization claim, as the statement spells them: each program's frame
  is its run read at the argument arrays (the word-level program at the bit-level values, the idealized one at the
  extended reals: the run is the same at any values); the ideal pass rewrote nothing, so there is nothing to preserve.
-/
import proofs.«173522_j70901320122520_2_alg».proof.Defs
import proofs.«173522_j70901320122520_2_alg».proof.Proof.K.Frame
import proofs.«173522_j70901320122520_2_alg».proof.Proof.KI.Frame
import proofs.«173522_j70901320122520_2_alg».proof.Proof.Gen.Kernel
import proofs.«173522_j70901320122520_2_alg».proof.Proof.Gen.KernelIdeal
import proofs.«173522_j70901320122520_2_alg».proof.Proof.Gen.Pre_finite_inputs

noncomputable section

namespace Cert.Proof.Claims

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem preserves : Cert.preserves_Kernel_KernelIdeal := trivial

end Cert.Proof.Claims

end
-- ==== Proof.KI.HostValues.lean ====
/-
  What the host operations around the two kernels compute, as functions of the buffers they read.

  Before the first kernel the host lays the point coordinates beside the gathered neighbour coordinates, channel-first
  and flattened over (point, neighbour); between the kernels it adds the per-batch sums over the batch axis, divides by
  the number of samples to get the mean and the mean square, and folds the normalisation into the convolution's weights
  and bias; after the second kernel it only reshapes.  Each stretch's result is named here as one function, and the
  per-channel totals are read at an index over the extended reals.
-/
import proofs.«173522_j70901320122520_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-! ## Between the kernels -/

/-- The per-channel total of the per-batch sums. -/
def total (s : FVec F S4x1x8 .f32) : FVec F S8 .f32 :=
  Host.reduceAdd (fun i => shapeCast S4x8 s shapeCasts_S4x1x8_S4x8 i) (constant S_ .f32 0#32) reducesTo_S4x8_S8_d0 h_S_

/-- A total divided by the number of samples. -/
def perSample (s : FVec F S4x1x8 .f32) : FVec F S8 .f32 :=
  Host.divf (total s) (broadcastInDim S8 ![] bcast_S_S8 (constant S_ .f32 1249902592#32))

/-- gamma over the regularised standard deviation, the variance being the mean square less the squared mean. -/
def hostScale (s1 s2 : FVec F S4x1x8 .f32) (g : FVec F S8 .f32) : FVec F S8 .f32 :=
  mulf g (Host.rsqrt (addf (subf (perSample s2) (mulf (perSample s1) (perSample s1)))
    (broadcastInDim S8 ![] bcast_S_S8 (constant S_ .f32 897988541#32))))

/-- The convolution's weights, each row scaled. -/
def foldedW (s1 s2 : FVec F S4x1x8 .f32) (g : FVec F S8 .f32) (w : FVec F S8x10 .f32) : FVec F S8x10 .f32 :=
  mulf (broadcastInDim S8x10 ![0, 1] bcast_S8x1_S8x10_0_1 (broadcastInDim S8x1 ![0] bcast_S8_S8x1_0 (hostScale s1 s2 g))) w

/-- The convolution's bias scaled, plus the shift less the scaled mean. -/
def foldedB (s1 s2 : FVec F S4x1x8 .f32) (g b e : FVec F S8 .f32) : FVec F S8 .f32 :=
  addf (mulf (hostScale s1 s2 g) b) (subf e (mulf (hostScale s1 s2 g) (perSample s1)))

set_option maxHeartbeats 2000000 in
theorem after1_v41 (W : Valuation τ sig (Elt F)) :
    StableHlo.after hostOps1 W (Proc.devRef .tc main_v41)
      = foldedW (W (Proc.devRef .tc main_v24_0)) (W (Proc.devRef .tc main_v24_1)) (W (Proc.devRef .tc main_arg5)) (W (Proc.devRef .tc main_arg3)) := by
  after_results_simp
  rfl

set_option maxHeartbeats 2000000 in
theorem after1_v45 (W : Valuation τ sig (Elt F)) :
    StableHlo.after hostOps1 W (Proc.devRef .tc main_v45)
      = foldedB (W (Proc.devRef .tc main_v24_0)) (W (Proc.devRef .tc main_v24_1)) (W (Proc.devRef .tc main_arg5))
          (W (Proc.devRef .tc main_arg4)) (W (Proc.devRef .tc main_arg6)) := by
  after_results_simp
  rfl

/-! ## Before the first kernel -/

/-- The neighbour slots' indices as the gathers take them: a negative word wrapped once by the number of points. -/
def wrapIdx (i : IVec S4x65536x16 32) : IVec S4x65536x16x1 32 :=
  broadcastInDim S4x65536x16x1 ![0, 1, 2] bcast_S4x65536x16_S4x65536x16x1_0_1_2
    (select (cmpi CmpIPredicate.slt i (broadcastInDim S4x65536x16 ![] bcast_S_S4x65536x16 (constantI S_ 32 0#32)))
      (addi i (broadcastInDim S4x65536x16 ![] bcast_S_S4x65536x16 (constantI S_ 32 65536#32))) i)

/-- The neighbours' coordinates. -/
def nbCoords (x : FVec F S4x65536x3 .f32) (i : IVec S4x65536x16 32) : FVec F S4x65536x16x3 .f32 :=
  Host.gather gather_S4x65536x3_S4x65536x16x1_S4x65536x16x3_3_1_0_0_1_3_113 x (wrapIdx i)

/-- The neighbours' features, from the features laid point-major. -/
def nbFeats (f : FVec F S4x8x65536x1 .f32) (i : IVec S4x65536x16 32) : FVec F S4x65536x16x8 .f32 :=
  Host.gather gather_S4x65536x8_S4x65536x16x1_S4x65536x16x8_3_1_0_0_1_3_118
    (transpose S4x65536x8 [0, 2, 1] (fun j => shapeCast S4x8x65536 f shapeCasts_S4x8x65536x1_S4x8x65536 j) transposes_S4x8x65536_S4x65536x8_0_2_1)
    (wrapIdx i)

/-- The first kernel operand: the point beside its neighbour, six channels first, flattened over (point, slot). -/
def extNb (x : FVec F S4x65536x3 .f32) (nb : FVec F S4x65536x16x3 .f32) : FVec F S4x6x1048576 .bf16 :=
  fun j => shapeCast S4x6x1048576
    (transpose S4x6x65536x16 [0, 3, 1, 2]
      (truncf .bf16
        (concatenate S4x65536x16x6 3
          [⟨S4x65536x16x3, broadcastInDim S4x65536x16x3 ![0, 1, 2, 3] bcast_S4x65536x1x3_S4x65536x16x3_0_1_2_3
              (broadcastInDim S4x65536x1x3 ![0, 1, 3] bcast_S4x65536x3_S4x65536x1x3_0_1_3 x)⟩,
            ⟨S4x65536x16x3, nb⟩]
          concatenates_S4x65536x16x3_S4x65536x16x3_S4x65536x16x6_d3)
        bitsLt_bf16_f32)
      transposes_S4x65536x16x6_S4x6x65536x16_0_3_1_2)
    shapeCasts_S4x6x65536x16_S4x6x1048576 j

/-- The gathered features, channel-first and flattened over (point, slot). -/
def nfFlat (nf : FVec F S4x65536x16x8 .f32) : FVec F S4x8x1048576 .f32 :=
  fun j => shapeCast S4x8x1048576 (transpose S4x8x65536x16 [0, 3, 1, 2] nf transposes_S4x65536x16x8_S4x8x65536x16_0_3_1_2)
    shapeCasts_S4x8x65536x16_S4x8x1048576 j

theorem after0_v12 (W : Valuation τ sig (Elt F)) :
    StableHlo.after hostOps0 W (Proc.devRef .tc main_v12)
      = extNb (W (Proc.devRef .tc main_arg0)) (nbCoords (W (Proc.devRef .tc main_arg0)) (W (Proc.devRef .tc main_arg2))) := by
  after_results
  rfl

set_option maxHeartbeats 2000000 in
theorem after0_v23 (W : Valuation τ sig (Elt F)) :
    StableHlo.after hostOps0 W (Proc.devRef .tc main_v23)
      = nfFlat (nbFeats (W (Proc.devRef .tc main_arg1)) (W (Proc.devRef .tc main_arg2))) := by
  after_results_simp
  rfl

/-! ## After the second kernel -/

theorem after2_v47 (W : Valuation τ sig (Elt F)) :
    StableHlo.after hostOps2 W (Proc.devRef .tc main_v47)
      = fun i => shapeCast S4x16x65536x16 (W (Proc.devRef .tc main_v46_0)) shapeCasts_S4x16x1048576_S4x16x65536x16 i := by
  after_results
  rfl

theorem after2_v48 (W : Valuation τ sig (Elt F)) :
    StableHlo.after hostOps2 W (Proc.devRef .tc main_v48)
      = fun i => shapeCast S4x8x65536x16 (W (Proc.devRef .tc main_v46_1)) shapeCasts_S4x8x1048576_S4x8x65536x16 i := by
  after_results
  rfl

end Cert.KernelIdeal.Hand

end
-- ==== Proof.KI.StatsStep.lean ====
import proofs.«173522_j70901320122520_2_alg».proof.Proof.KI.Stats
import Idealize.ShloMosaic.Lib.Pipeline.Value

/-! # The statistics kernel: each case's contents as one step of an accumulation

The stores each control case leaves were found by running the body; here they are read back in closed form.
A tile contributes eight rows (one per output plane) over its 32768 lanes; `sumStep` adds the rows' sums to
an accumulator and `sqStep` the sums of their squares. A first tile steps from the stored zero, a later tile
from what the tile before left, and a last tile also copies the stepped accumulators to the outputs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- A load of all of a whole buffer held at the contents that read `X` reads `X`. -/
theorem load_whole {sp : Space} {s : Shape} {e : EltTy} (m : Memref sig .tc sp s e) (h : m.IsWhole) (X : s.Idx → Elt F e)
    {off : Fin s.rank → Nat} (hz : off = fun _ => 0) (inb : ∀ a, off a + s.size a ≤ s.size a) :
    View.readAt (Elt F) m.view (Rect.unit off s.size inb).toLoadRect (h.unread X) = X := by
  show View.ld (m.view.read (Elt F) (h.unread X)) (Rect.unit off s.size inb) = X
  rw [h.read_unread, View.ld_unit_zero hz]

theorem load_coords (m : Memref sig .tc .vmem S1x6x32768 .bf16) (h : m.IsWhole) (X : Vec F S1x6x32768 .bf16)
    (inb : ∀ a, (![0, 0, 0] : Fin 3 → Nat) a + S1x6x32768.size a ≤ S1x6x32768.size a) :
    View.readAt (Elt F) m.view (Rect.unit (s := S1x6x32768) ![0, 0, 0] S1x6x32768.size inb).toLoadRect (h.unread X) = X :=
  load_whole m h X zero3 inb
theorem load_weights (m : Memref sig .tc .vmem S8x10 .f32) (h : m.IsWhole) (X : Vec F S8x10 .f32)
    (inb : ∀ a, (![0, 0] : Fin 2 → Nat) a + S8x10.size a ≤ S8x10.size a) :
    View.readAt (Elt F) m.view (Rect.unit (s := S8x10) ![0, 0] S8x10.size inb).toLoadRect (h.unread X) = X :=
  load_whole m h X zero2 inb
theorem load_bias (m : Memref sig .tc .vmem S8 .f32) (h : m.IsWhole) (X : Vec F S8 .f32)
    (inb : ∀ a, (![0] : Fin 1 → Nat) a + S8.size a ≤ S8.size a) :
    View.readAt (Elt F) m.view (Rect.unit (s := S8) ![0] S8.size inb).toLoadRect (h.unread X) = X :=
  load_whole m h X zero1 inb
theorem load_acc (m : Memref sig .tc .vmem S1x8 .f32) (h : m.IsWhole) (X : Vec F S1x8 .f32)
    (inb : ∀ a, (![0, 0] : Fin 2 → Nat) a + S1x8.size a ≤ S1x8.size a) :
    View.readAt (Elt F) m.view (Rect.unit (s := S1x8) ![0, 0] S1x8.size inb).toLoadRect (h.unread X) = X :=
  load_whole m h X zero2 inb

theorem load_accSum (h : (accSum : Memref sig .tc .vmem S1x8 .f32).IsWhole) (X : Vec F S1x8 .f32)
    (inb : ∀ a, (![0, 0] : Fin 2 → Nat) a + S1x8.size a ≤ S1x8.size a) :
    View.readAt (Elt F) (View.whole cc0_scratch0) (Rect.unit (s := S1x8) ![0, 0] S1x8.size inb).toLoadRect (h.unread X) = X :=
  load_whole accSum h X zero2 inb
theorem load_accSq (h : (accSq : Memref sig .tc .vmem S1x8 .f32).IsWhole) (X : Vec F S1x8 .f32)
    (inb : ∀ a, (![0, 0] : Fin 2 → Nat) a + S1x8.size a ≤ S1x8.size a) :
    View.readAt (Elt F) (View.whole cc0_scratch1) (Rect.unit (s := S1x8) ![0, 0] S1x8.size inb).toLoadRect (h.unread X) = X :=
  load_whole accSq h X zero2 inb

/-! ## A tile's eight rows -/

/-- Row `o` of a tile: output plane `o` of the pointwise convolution at each of the tile's lanes, from the
    coordinates block `x0`, the weights `x1` and the bias `x2` (the body's own sequence of operations). -/
def plane0 (x0 : Vec F S1x6x32768 .bf16) (x1 : Vec F S8x10 .f32) (x2 : Vec F S8 .f32) : FVec F S32768 .f32 := k0_pay8 (k0_pay5 x0) x1 (k0_pay6 x0 x1 x2) (k0_pay7 x1)
def plane1 (x0 : Vec F S1x6x32768 .bf16) (x1 : Vec F S8x10 .f32) (x2 : Vec F S8 .f32) : FVec F S32768 .f32 := k0_pay11 (k0_pay5 x0) x1 (k0_pay9 (k0_pay5 x0) x1 x2) (k0_pay10 x1)
def plane2 (x0 : Vec F S1x6x32768 .bf16) (x1 : Vec F S8x10 .f32) (x2 : Vec F S8 .f32) : FVec F S32768 .f32 := k0_pay16 (k0_pay5 x0) x1 (k0_pay15 (k0_pay5 x0) x1 (k0_pay12 x2) (k0_pay13 x1) (k0_pay14 (k0_pay5 x0)))
def plane3 (x0 : Vec F S1x6x32768 .bf16) (x1 : Vec F S8x10 .f32) (x2 : Vec F S8 .f32) : FVec F S32768 .f32 := k0_pay19 (k0_pay5 x0) x1 (k0_pay17 (k0_pay5 x0) x1 x2) (k0_pay18 x1)
def plane4 (x0 : Vec F S1x6x32768 .bf16) (x1 : Vec F S8x10 .f32) (x2 : Vec F S8 .f32) : FVec F S32768 .f32 := k0_pay22 (k0_pay5 x0) x1 (k0_pay20 (k0_pay5 x0) x1 x2) (k0_pay21 x1)
def plane5 (x0 : Vec F S1x6x32768 .bf16) (x1 : Vec F S8x10 .f32) (x2 : Vec F S8 .f32) : FVec F S32768 .f32 := k0_pay26 (k0_pay5 x0) x1 (k0_pay23 (k0_pay5 x0) x1 x2) (k0_pay24 x1) (k0_pay25 (k0_pay5 x0))
def plane6 (x0 : Vec F S1x6x32768 .bf16) (x1 : Vec F S8x10 .f32) (x2 : Vec F S8 .f32) : FVec F S32768 .f32 := k0_pay30 (k0_pay5 x0) x1 (k0_pay27 (k0_pay5 x0) x1 x2) (k0_pay28 x1) (k0_pay29 (k0_pay5 x0))
/-- Plane 7 up to its ninth term; the last two terms are added where the rows are stacked. -/
def plane7head (x0 : Vec F S1x6x32768 .bf16) (x1 : Vec F S8x10 .f32) (x2 : Vec F S8 .f32) : FVec F S32768 .f32 := k0_pay32 (k0_pay5 x0) x1 (k0_pay31 x2)

/-- The eight rows stacked: an 8 × 32768 matrix. -/
def tilePlanes (x0 : Vec F S1x6x32768 .bf16) (x1 : Vec F S8x10 .f32) (x2 : Vec F S8 .f32) : FVec F S8x32768 .f32 := k0_pay34 (k0_pay5 x0) x1 (plane0 x0 x1 x2) (plane1 x0 x1 x2) (plane2 x0 x1 x2) (plane3 x0 x1 x2) (plane4 x0 x1 x2) (plane5 x0 x1 x2) (plane6 x0 x1 x2) (plane7head x0 x1 x2) (k0_pay33 x1)

/-- The sum accumulator after a tile, from its contents `xs` before: `xs` plus the rows' sums. -/
def sumStep (x0 : Vec F S1x6x32768 .bf16) (x1 : Vec F S8x10 .f32) (x2 : Vec F S8 .f32) (xs : Vec F S1x8 .f32) : FVec F S1x8 .f32 := k0_pay35 (k0_pay5 x0) x1 (plane0 x0 x1 x2) (plane1 x0 x1 x2) (plane2 x0 x1 x2) (plane3 x0 x1 x2) (plane4 x0 x1 x2) (plane5 x0 x1 x2) (plane6 x0 x1 x2) (plane7head x0 x1 x2) (k0_pay33 x1) xs
/-- The sum-of-squares accumulator after a tile: `xs` plus the sums of the rows' squares. -/
def sqStep (x0 : Vec F S1x6x32768 .bf16) (x1 : Vec F S8x10 .f32) (x2 : Vec F S8 .f32) (xs : Vec F S1x8 .f32) : FVec F S1x8 .f32 := k0_pay36 (k0_pay5 x0) x1 (plane0 x0 x1 x2) (plane1 x0 x1 x2) (plane2 x0 x1 x2) (plane3 x0 x1 x2) (plane4 x0 x1 x2) (plane5 x0 x1 x2) (plane6 x0 x1 x2) (plane7head x0 x1 x2) (k0_pay33 x1) xs

/-! ## The cases' contents in closed form -/

theorem sumB_eq (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) :
    sumB c t h0 h1 x0 x1 x2 xs0 xs1 = sumStep x0 x1 x2 xs0 := by
  unfold sumB
  rw [View.read_writes_eq_canon _ _ _ (sumB_cover c t h0 h1 x0 x1 x2 xs0 xs1)]
  unfold runB statsRun_B; dsimp only; sl_unfold_run_names
  rw [View.canon_unit_zero zero2]
  rw [load_coords, load_weights, load_bias, load_accSum]
  rfl

theorem sqB_eq (c : Dev nD) (t : Fin cfg0.N) (h0 : ¬t.val % 32 = 0) (h1 : ¬t.val % 32 = 31) (x0 : Vec F S1x6x32768 .bf16) (x1 : Vec F S8x10 .f32) (x2 : Vec F S8 .f32) (xs0 : Vec F S1x8 .f32) (xs1 : Vec F S1x8 .f32) :
    sqB c t h0 h1 x0 x1 x2 xs0 xs1 = sqStep x0 x1 x2 xs1 := by
  unfold sqB
  rw [View.read_writes_eq_canon _ _ _ (sqB_cover c t h0 h1 x0 x1 x2 xs0 xs1)]
  unfold runB statsRun_B; dsimp only; sl_unfold_run_names
  rw [View.canon_unit_zero zero2]
  rw [load_coords, load_weights, load_bias, load_accSq]
  rfl

/-- A first tile steps from the zero it has just stored. -/
theorem sumA_eq (c : Dev nD) (t : Fin cfg0.N) (h0 : t.val % 32 = 0) (h1 : ¬t.val % 32 = 31) (x0 : Vec F S1x6x32768 .bf16) (x1 : Vec F S8x10 .f32) (x2 : Vec F S8 .f32) :
    sumA c t h0 h1 x0 x1 x2 = sumStep x0 x1 x2 (k0_pay3 (F := F)) := by
  unfold sumA
  rw [View.read_writes_eq_canon _ _ _ (sumA_cover c t h0 h1 x0 x1 x2)]
  unfold runA statsRun_A; dsimp only; sl_unfold_run_names
  rw [View.canon_cons_unit_zero zero2, View.readCov_unit_zero _ zero2]
  rw [load_coords, load_weights, load_bias]
  rfl

theorem sqA_eq (c : Dev nD) (t : Fin cfg0.N) (h0 : t.val % 32 = 0) (h1 : ¬t.val % 32 = 31) (x0 : Vec F S1x6x32768 .bf16) (x1 : Vec F S8x10 .f32) (x2 : Vec F S8 .f32) :
    sqA c t h0 h1 x0 x1 x2 = sqStep x0 x1 x2 (k0_pay4 (F := F)) := by
  unfold sqA
  rw [View.read_writes_eq_canon _ _ _ (sqA_cover c t h0 h1 x0 x1 x2)]
  unfold runA statsRun_A; dsimp only; sl_unfold_run_names
  rw [View.canon_cons_unit_zero zero2, View.readCov_unit_zero _ zero2]
  rw [load_coords, load_weights, load_bias]
  rfl

theorem sumC_eq (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) :
    sumC c t h0 h1 x0 x1 x2 xs0 xs1 = sumStep x0 x1 x2 xs0 := by
  unfold sumC
  rw [View.read_writes_eq_canon _ _ _ (sumC_cover c t h0 h1 x0 x1 x2 xs0 xs1)]
  unfold runC statsRun_C; dsimp only; sl_unfold_run_names
  rw [View.canon_unit_zero zero2]
  rw [load_coords, load_weights, load_bias, load_accSum]
  rfl

theorem sqC_eq (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) :
    sqC c t h0 h1 x0 x1 x2 xs0 xs1 = sqStep x0 x1 x2 xs1 := by
  unfold sqC
  rw [View.read_writes_eq_canon _ _ _ (sqC_cover c t h0 h1 x0 x1 x2 xs0 xs1)]
  unfold runC statsRun_C; dsimp only; sl_unfold_run_names
  rw [View.canon_unit_zero zero2]
  rw [load_coords, load_weights, load_bias, load_accSq]
  rfl

/-- A last tile copies the stepped sum accumulator to the sum output, with a unit axis put in front. -/
theorem out3C_eq (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) :
    out3C c t h0 h1 x0 x1 x2 xs0 xs1 = k0_pay1 (sumStep x0 x1 x2 xs0) := by
  unfold out3C
  rw [View.read_writes_eq_canon _ _ _ (out3C_cover c t h0 h1 x0 x1 x2 xs0 xs1)]
  unfold runC statsRun_C; dsimp only; sl_unfold_run_names
  rw [View.canon_unit_zero zero3, View.readCov_unit_zero _ zero2]
  rw [load_coords, load_weights, load_bias, load_accSum]
  rfl

theorem out4C_eq (c : Dev nD) (t : Fin cfg0.N) (h0 : ¬t.val % 32 = 0) (h1 : t.val % 32 = 31) (x0 : Vec F S1x6x32768 .bf16) (x1 : Vec F S8x10 .f32) (x2 : Vec F S8 .f32) (xs0 : Vec F S1x8 .f32) (xs1 : Vec F S1x8 .f32) :
    out4C c t h0 h1 x0 x1 x2 xs0 xs1 = k0_pay2 (sqStep x0 x1 x2 xs1) := by
  unfold out4C
  rw [View.read_writes_eq_canon _ _ _ (out4C_cover c t h0 h1 x0 x1 x2 xs0 xs1)]
  unfold runC statsRun_C; dsimp only; sl_unfold_run_names
  rw [View.canon_unit_zero zero3, View.readCov_unit_zero _ zero2]
  rw [load_coords, load_weights, load_bias, load_accSq]
  rfl

/-! ## The accumulation as steps, point by point -/

section Region

variable (V : (c : Dev nD) → (b : Ref sig .tc) → Buf (Elt F) ((c : Thread nD τ).loc b))

/-- At a first tile the sum accumulator is one step from the stored zero, -/
theorem accSum_first (c : Dev nD) (t : Fin cfg0.N) (h0 : t.val % 32 = 0) :
    (outsAt0 V c t.val t.isLt).2.2.1 = sumStep (iblk0 V c 0 t) (iblk0 V c 1 t) (iblk0 V c 2 t) (k0_pay3 (F := F)) := by
  have h1 : ¬t.val % 32 = 31 := by omega
  rw [outsAt0_A V c t h0 h1]; dsimp only; exact sumA_eq (F := F) c t h0 h1 _ _ _

/-- and at any other tile one step from what the point before left. -/
theorem accSum_next (c : Dev nD) (t : Fin cfg0.N) (h0 : ¬t.val % 32 = 0) :
    (outsAt0 V c t.val t.isLt).2.2.1 = sumStep (iblk0 V c 0 t) (iblk0 V c 1 t) (iblk0 V c 2 t) (outsAt0 V c (t.val - 1) (Nat.lt_of_le_of_lt (Nat.sub_le _ _) t.isLt)).2.2.1 := by
  by_cases h1 : t.val % 32 = 31
  · rw [outsAt0_C V c t h0 h1]; dsimp only; exact sumC_eq (F := F) c t h0 h1 _ _ _ _ _
  · rw [outsAt0_B V c t h0 h1]; dsimp only; exact sumB_eq (F := F) c t h0 h1 _ _ _ _ _

/-- The same for the sum-of-squares accumulator. -/
theorem accSq_first (c : Dev nD) (t : Fin cfg0.N) (h0 : t.val % 32 = 0) :
    (outsAt0 V c t.val t.isLt).2.2.2 = sqStep (iblk0 V c 0 t) (iblk0 V c 1 t) (iblk0 V c 2 t) (k0_pay4 (F := F)) := by
  have h1 : ¬t.val % 32 = 31 := by omega
  rw [outsAt0_A V c t h0 h1]; dsimp only; exact sqA_eq (F := F) c t h0 h1 _ _ _

theorem accSq_next (c : Dev nD) (t : Fin cfg0.N) (h0 : ¬t.val % 32 = 0) :
    (outsAt0 V c t.val t.isLt).2.2.2 = sqStep (iblk0 V c 0 t) (iblk0 V c 1 t) (iblk0 V c 2 t) (outsAt0 V c (t.val - 1) (Nat.lt_of_le_of_lt (Nat.sub_le _ _) t.isLt)).2.2.2 := by
  by_cases h1 : t.val % 32 = 31
  · rw [outsAt0_C V c t h0 h1]; dsimp only; exact sqC_eq (F := F) c t h0 h1 _ _ _ _ _
  · rw [outsAt0_B V c t h0 h1]; dsimp only; exact sqB_eq (F := F) c t h0 h1 _ _ _ _ _

/-- At a last tile each output is its accumulator, with a unit axis put in front. -/
theorem out3_last (c : Dev nD) (t : Fin cfg0.N) (h1 : t.val % 32 = 31) :
    (outsAt0 V c t.val t.isLt).1 = k0_pay1 ((outsAt0 V c t.val t.isLt).2.2.1) := by
  have h0 : ¬t.val % 32 = 0 := by omega
  rw [outsAt0_C V c t h0 h1]; dsimp only
  rw [out3C_eq (F := F) c t h0 h1, sumC_eq (F := F) c t h0 h1]

theorem out4_last (c : Dev nD) (t : Fin cfg0.N) (h1 : t.val % 32 = 31) :
    (outsAt0 V c t.val t.isLt).2.1 = k0_pay2 ((outsAt0 V c t.val t.isLt).2.2.2) := by
  have h0 : ¬t.val % 32 = 0 := by omega
  rw [outsAt0_C V c t h0 h1]; dsimp only
  rw [out4C_eq (F := F) c t h0 h1, sqC_eq (F := F) c t h0 h1]

end Region

end Cert.KernelIdeal.Hand

end
-- ==== Proof.KernelSpec.lean ====
import Idealize.ShloMosaic.PureOps.Ideal
import Idealize.ShloMosaic.PureOps.Ideal.Laws
import Idealize.ShloMosaic.Lib.ValueIdx

/-!
# What the kernels compute at one lane, over the extended reals

A lane is one (point, neighbour) pair. It carries six coordinates `p`: the centre point's three
(`p 0, p 1, p 2`) and the neighbour's three (`p 3, p 4, p 5`). From them the kernels form ten features:
the distance `sqrt (Σ_d (p d - p (3+d))²)`, the three differences, the three centre coordinates and the three
neighbour coordinates. Output plane `o` of the pointwise convolution is the bias plus the weighted sum of
the ten features, added in the order bias, feature 0, …, feature 9; the second kernel then applies the leaky
rectifier with slope the f32 number nearest 0.2.

The array-level functions `applyY` and `applyOut` say what the second kernel writes at every index of its two
result arrays, given the coordinate array, the neighbour feature array, and the weights and bias it is
handed.
-/

noncomputable section

namespace Cert.KernelSpec

open Idealize.ShloMosaic Idealize.ShloMosaic.ValueIdx

/-- Centre coordinate less neighbour coordinate, along axis `d`. -/
def rel (p : Fin 6 → EReal) (d : Fin 3) : EReal :=
  p ⟨d.val, by omega⟩ - p ⟨3 + d.val, by omega⟩

/-- The distance between the centre and the neighbour. -/
def dist (p : Fin 6 → EReal) : EReal :=
  Ideal.sqrt (∑ d : Fin 3, rel p d * rel p d)

/-- The ten features of a lane: distance, differences, centre, neighbour. -/
def feat (p : Fin 6 → EReal) : Fin 10 → EReal :=
  ![dist p, rel p 0, rel p 1, rel p 2, p 0, p 1, p 2, p 3, p 4, p 5]

/-- One output plane of the pointwise convolution at a lane: the bias, then the ten weighted features, added
    in that order. -/
def conv (w : Fin 10 → EReal) (b : EReal) (f : Fin 10 → EReal) : EReal :=
  b + w 0 * f 0 + w 1 * f 1 + w 2 * f 2 + w 3 * f 3 + w 4 * f 4 + w 5 * f 5 + w 6 * f 6 + w 7 * f 7
    + w 8 * f 8 + w 9 * f 9

/-- Addition of extended reals is associative, so the order does not matter: the bias plus the sum. -/
theorem conv_eq_sum (w : Fin 10 → EReal) (b : EReal) (f : Fin 10 → EReal) :
    conv w b f = b + ∑ c : Fin 10, w c * f c := by
  unfold conv
  simp only [Fin.sum_univ_succ, Fin.sum_univ_zero, add_zero, add_assoc]
  rfl

/-- The leaky rectifier: `v` where `v ≥ 0`, else the slope (the f32 number nearest 0.2) times `v`. -/
def leaky (v : EReal) : EReal :=
  Scalar.select (Ideal.cmp .oge v (Ideal.ofBits .f32 0x00000000#32)) v (Ideal.ofBits .f32 0x3E4CCCCD#32 * v)

/-- Output plane `o` of the second kernel at a lane with coordinates `p`, for weights `w` and bias `b`. -/
def plane (w : (⟨2, ![8, 10]⟩ : Shape).Idx → EReal) (b : (⟨1, ![8]⟩ : Shape).Idx → EReal) (p : Fin 6 → EReal)
    (o : Fin 8) : EReal :=
  leaky (conv (fun c => w (ix2 o c)) (b (ix1 o)) (feat p))

/-- The same before the rectifier: what the first kernel sums. -/
def planeRaw (w : (⟨2, ![8, 10]⟩ : Shape).Idx → EReal) (b : (⟨1, ![8]⟩ : Shape).Idx → EReal) (p : Fin 6 → EReal)
    (o : Fin 8) : EReal :=
  conv (fun c => w (ix2 o c)) (b (ix1 o)) (feat p)

theorem plane_eq (w : (⟨2, ![8, 10]⟩ : Shape).Idx → EReal) (b : (⟨1, ![8]⟩ : Shape).Idx → EReal) (p : Fin 6 → EReal)
    (o : Fin 8) : plane w b p o = leaky (planeRaw w b p o) := rfl

/-! ## The second kernel's two result arrays -/

/-- The activated plane `o` at batch `bb`, lane `j`. -/
def applyYAt (a12 : (⟨3, ![4, 6, 1048576]⟩ : Shape).Idx → EReal) (w : (⟨2, ![8, 10]⟩ : Shape).Idx → EReal)
    (b : (⟨1, ![8]⟩ : Shape).Idx → EReal) (bb : Fin 4) (o : Fin 8) (j : Fin 1048576) : EReal :=
  plane w b (fun d => a12 (ix3 bb d j)) o

/-- The eight activated planes, as an array. -/
def applyY (a12 : (⟨3, ![4, 6, 1048576]⟩ : Shape).Idx → EReal) (w : (⟨2, ![8, 10]⟩ : Shape).Idx → EReal)
    (b : (⟨1, ![8]⟩ : Shape).Idx → EReal) : (⟨3, ![4, 8, 1048576]⟩ : Shape).Idx → EReal :=
  fun i => applyYAt a12 w b (i 0) (i 1) (i 2)

theorem applyY_ix3 (a12 : (⟨3, ![4, 6, 1048576]⟩ : Shape).Idx → EReal) (w : (⟨2, ![8, 10]⟩ : Shape).Idx → EReal)
    (b : (⟨1, ![8]⟩ : Shape).Idx → EReal) (bb : Fin 4) (o : Fin 8) (j : Fin 1048576) :
    applyY a12 w b (ix3 bb o j) = applyYAt a12 w b bb o j := rfl

/-- Channel `ch` of the concatenated result at batch `bb`, lane `j`: the neighbour feature for `ch < 8`, the
    activated plane `ch - 8` above. -/
def applyOutAt (a12 : (⟨3, ![4, 6, 1048576]⟩ : Shape).Idx → EReal) (a23 : (⟨3, ![4, 8, 1048576]⟩ : Shape).Idx → EReal)
    (w : (⟨2, ![8, 10]⟩ : Shape).Idx → EReal) (b : (⟨1, ![8]⟩ : Shape).Idx → EReal)
    (bb : Fin 4) (ch : Fin 16) (j : Fin 1048576) : EReal :=
  if h : ch.val < 8 then a23 (ix3 bb ⟨ch.val, h⟩ j) else applyYAt a12 w b bb ⟨ch.val - 8, by omega⟩ j

/-- The concatenated result, as an array. -/
def applyOut (a12 : (⟨3, ![4, 6, 1048576]⟩ : Shape).Idx → EReal) (a23 : (⟨3, ![4, 8, 1048576]⟩ : Shape).Idx → EReal)
    (w : (⟨2, ![8, 10]⟩ : Shape).Idx → EReal) (b : (⟨1, ![8]⟩ : Shape).Idx → EReal) :
    (⟨3, ![4, 16, 1048576]⟩ : Shape).Idx → EReal :=
  fun i => applyOutAt a12 a23 w b (i 0) (i 1) (i 2)

theorem applyOut_ix3 (a12 : (⟨3, ![4, 6, 1048576]⟩ : Shape).Idx → EReal) (a23 : (⟨3, ![4, 8, 1048576]⟩ : Shape).Idx → EReal)
    (w : (⟨2, ![8, 10]⟩ : Shape).Idx → EReal) (b : (⟨1, ![8]⟩ : Shape).Idx → EReal)
    (bb : Fin 4) (ch : Fin 16) (j : Fin 1048576) :
    applyOut a12 a23 w b (ix3 bb ch j) = applyOutAt a12 a23 w b bb ch j := rfl

/-! ## The first kernel's two result arrays -/

/-- The convolution output of plane `o` summed over every lane of batch `bb`. -/
def statsSum (a12 : (⟨3, ![4, 6, 1048576]⟩ : Shape).Idx → EReal) (w : (⟨2, ![8, 10]⟩ : Shape).Idx → EReal)
    (b : (⟨1, ![8]⟩ : Shape).Idx → EReal) : (⟨3, ![4, 1, 8]⟩ : Shape).Idx → EReal :=
  fun i => ∑ j : Fin 1048576, planeRaw w b (fun d => a12 (ix3 (i 0) d j)) (i 2)

/-- Its square summed over every lane of batch `bb`. -/
def statsSq (a12 : (⟨3, ![4, 6, 1048576]⟩ : Shape).Idx → EReal) (w : (⟨2, ![8, 10]⟩ : Shape).Idx → EReal)
    (b : (⟨1, ![8]⟩ : Shape).Idx → EReal) : (⟨3, ![4, 1, 8]⟩ : Shape).Idx → EReal :=
  fun i => ∑ j : Fin 1048576, planeRaw w b (fun d => a12 (ix3 (i 0) d j)) (i 2) * planeRaw w b (fun d => a12 (ix3 (i 0) d j)) (i 2)

theorem statsSum_ix3 (a12 : (⟨3, ![4, 6, 1048576]⟩ : Shape).Idx → EReal) (w : (⟨2, ![8, 10]⟩ : Shape).Idx → EReal)
    (b : (⟨1, ![8]⟩ : Shape).Idx → EReal) (bb : Fin 4) (u : Fin 1) (o : Fin 8) :
    statsSum a12 w b (ix3 bb u o) = ∑ j : Fin 1048576, planeRaw w b (fun d => a12 (ix3 bb d j)) o := rfl

theorem statsSq_ix3 (a12 : (⟨3, ![4, 6, 1048576]⟩ : Shape).Idx → EReal) (w : (⟨2, ![8, 10]⟩ : Shape).Idx → EReal)
    (b : (⟨1, ![8]⟩ : Shape).Idx → EReal) (bb : Fin 4) (u : Fin 1) (o : Fin 8) :
    statsSq a12 w b (ix3 bb u o)
      = ∑ j : Fin 1048576, planeRaw w b (fun d => a12 (ix3 bb d j)) o * planeRaw w b (fun d => a12 (ix3 bb d j)) o := rfl

end Cert.KernelSpec

end
-- ==== Proof.LaneOps.lean ====
import Idealize.ShloMosaic.PureOps.Ideal
import Idealize.ShloMosaic.PureOps.Ideal.Laws
import Idealize.ShloMosaic.Lib.ValueIdx
import Idealize.ShloMosaic.Lib.ValueLayout

/-!
# Rows, entries and stacks: the layout steps of the lane kernels, read at an index

Both kernels treat a block as a stack of rows over the lanes. They take row `c` of a matrix as a vector
(a one-row slice, then the unit axis dropped), take entry `(o, c)` of the weight matrix or entry `o` of the
bias as a scalar (a one-entry slice, then its one element), and put rows back on top of one another.
Each lemma reads one such step at an index written by its coordinates.
-/

namespace Cert.LaneOps

open Idealize.ShloMosaic Idealize.ShloMosaic.ValueIdx

variable {α : Type}

/-- Row `c` of an `[n, m]` matrix, cut out as a `[1, m]` slice and cast to a vector, reads at lane `j` the
    matrix at `(c, j)`. -/
theorem row_apply {n m : Nat} (c : Nat) (v : (⟨2, ![n, m]⟩ : Shape).Idx → α)
    (h : (⟨2, ![n, m]⟩ : Shape).Slices ![c, 0] ⟨2, ![1, m]⟩)
    (h' : (⟨2, ![1, m]⟩ : Shape).ShapeCasts ⟨1, ![m]⟩) (hc : c < n) (j : Fin m) :
    shapeCast ⟨1, ![m]⟩ (extractStridedSlice ⟨2, ![1, m]⟩ ![c, 0] v h) h' (ix1 j) = v (ix2 ⟨c, hc⟩ j) := by
  rw [shapeCast_1a_a_apply]
  exact slice2_axis0_apply c v h 0 j ⟨c, hc⟩ rfl

/-- Entry `(o, c)` of a matrix, cut out as a `[1, 1]` slice and extracted. -/
theorem entry2_apply {n m : Nat} (o c : Nat) (v : (⟨2, ![n, m]⟩ : Shape).Idx → α)
    (h : (⟨2, ![n, m]⟩ : Shape).Slices ![o, c] ⟨2, ![1, 1]⟩)
    (h' : ∀ a, (![0, 0] : Fin 2 → Nat) a < (⟨2, ![1, 1]⟩ : Shape).size a) (ho : o < n) (hc : c < m) :
    extractAt ![0, 0] (extractStridedSlice ⟨2, ![1, 1]⟩ ![o, c] v h) h' = v (ix2 ⟨o, ho⟩ ⟨c, hc⟩) := by
  unfold extractAt
  refine extractStridedSlice_apply _ _ _ _ _ (fun ax => ?_)
  match ax with
  | ⟨0, _⟩ => rfl
  | ⟨1, _⟩ => rfl

/-- Entry `o` of a vector, cut out as a `[1]` slice and extracted. -/
theorem entry1_apply {n : Nat} (o : Nat) (v : (⟨1, ![n]⟩ : Shape).Idx → α)
    (h : (⟨1, ![n]⟩ : Shape).Slices ![o] ⟨1, ![1]⟩)
    (h' : ∀ a, (![0] : Fin 1 → Nat) a < (⟨1, ![1]⟩ : Shape).size a) (ho : o < n) :
    extractAt ![0] (extractStridedSlice ⟨1, ![1]⟩ ![o] v h) h' = v (ix1 ⟨o, ho⟩) := by
  unfold extractAt
  refine extractStridedSlice_apply _ _ _ _ _ (fun ax => ?_)
  match ax with
  | ⟨0, _⟩ => rfl

/-! The same three with the bound on the row or entry read off the slice's own in-range fact, so that they
rewrite with no side condition. -/

theorem row_lt {n m : Nat} {c : Nat} (h : (⟨2, ![n, m]⟩ : Shape).Slices ![c, 0] ⟨2, ![1, m]⟩) : c < n := h.2 0

theorem row_eq {n m : Nat} (c : Nat) (v : (⟨2, ![n, m]⟩ : Shape).Idx → α)
    (h : (⟨2, ![n, m]⟩ : Shape).Slices ![c, 0] ⟨2, ![1, m]⟩)
    (h' : (⟨2, ![1, m]⟩ : Shape).ShapeCasts ⟨1, ![m]⟩) (j : Fin m) :
    shapeCast ⟨1, ![m]⟩ (extractStridedSlice ⟨2, ![1, m]⟩ ![c, 0] v h) h' (ix1 j) = v (ix2 ⟨c, row_lt h⟩ j) :=
  row_apply c v h h' (row_lt h) j

theorem entry2_lt0 {n m : Nat} {o c : Nat} (h : (⟨2, ![n, m]⟩ : Shape).Slices ![o, c] ⟨2, ![1, 1]⟩) : o < n := h.2 0
theorem entry2_lt1 {n m : Nat} {o c : Nat} (h : (⟨2, ![n, m]⟩ : Shape).Slices ![o, c] ⟨2, ![1, 1]⟩) : c < m := h.2 1

theorem entry2_eq {n m : Nat} (o c : Nat) (v : (⟨2, ![n, m]⟩ : Shape).Idx → α)
    (h : (⟨2, ![n, m]⟩ : Shape).Slices ![o, c] ⟨2, ![1, 1]⟩)
    (h' : ∀ a, (![0, 0] : Fin 2 → Nat) a < (⟨2, ![1, 1]⟩ : Shape).size a) :
    extractAt ![0, 0] (extractStridedSlice ⟨2, ![1, 1]⟩ ![o, c] v h) h' = v (ix2 ⟨o, entry2_lt0 h⟩ ⟨c, entry2_lt1 h⟩) :=
  entry2_apply o c v h h' (entry2_lt0 h) (entry2_lt1 h)

theorem entry1_lt {n : Nat} {o : Nat} (h : (⟨1, ![n]⟩ : Shape).Slices ![o] ⟨1, ![1]⟩) : o < n := h.2 0

theorem entry1_eq {n : Nat} (o : Nat) (v : (⟨1, ![n]⟩ : Shape).Idx → α)
    (h : (⟨1, ![n]⟩ : Shape).Slices ![o] ⟨1, ![1]⟩)
    (h' : ∀ a, (![0] : Fin 1 → Nat) a < (⟨1, ![1]⟩ : Shape).size a) :
    extractAt ![0] (extractStridedSlice ⟨1, ![1]⟩ ![o] v h) h' = v (ix1 ⟨o, entry1_lt h⟩) :=
  entry1_apply o v h h' (entry1_lt h)

end Cert.LaneOps
-- ==== Proof.KI.ApplyFeat.lean ====
import proofs.«173522_j70901320122520_2_alg».proof.Proof.Gen.KernelIdeal.Skeleton
import proofs.«173522_j70901320122520_2_alg».proof.Proof.KernelSpec
import proofs.«173522_j70901320122520_2_alg».proof.Proof.LaneOps
import Idealize.ShloMosaic.Lib.ValueLayout

/-!
# The second kernel's feature block, row by row, over the extended reals

The body widens the `[1, 6, T]` block of coordinates (the centre's three rows, then the neighbour's three),
drops the unit axis, and stacks ten rows of length `T`: the distance, the three differences, the centre's
rows and the neighbour's rows. Read at row `c` and lane `j` this is feature `c` of the six coordinates the
block holds at lane `j`.
-/

noncomputable section

namespace Cert.KernelIdeal.Hand

open Cert.KernelIdeal Cert.KernelIdeal.Gen Cert.KernelSpec Cert.LaneOps
open Idealize.ShloMosaic Idealize.ShloMosaic.ValueIdx

/-! ## The ten feature rows of a block -/

/-- The coordinate block widened to f32 (the identity on extended reals), its unit axis dropped: row `r`,
    lane `j` is the block at `(0, r, j)`. -/
theorem widened_apply (v0 : Vec Ideal S1x6x32768 .bf16) (r : Fin 6) (j : Fin 32768) :
    (extf .f32 (shapeCast S6x32768 v0 shapeCasts_S1x6x32768_S6x32768) bitsLt_bf16_f32 : FVec Ideal S6x32768 .f32) (ix2 r j)
      = v0 (ix3 (0 : Fin 1) r j) := by
  rw [extf_apply]
  exact shapeCast_1ab_ab_apply v0 _ r j

/-- The square root of a vector, at an index. -/
theorem sqrt_apply {s : Shape} {φ : FTy} (a : FVec Ideal s φ) (i : s.Idx) : sqrt a i = Ideal.sqrt (a i) := rfl

/-- The centre rows: rows 0–2 of the widened block. -/
theorem centre_apply (v0 : Vec Ideal S1x6x32768 .bf16) (r : Fin 3) (j : Fin 32768) :
    extractStridedSlice S3x32768 ![0, 0]
        (extf .f32 (shapeCast S6x32768 v0 shapeCasts_S1x6x32768_S6x32768) bitsLt_bf16_f32 : FVec Ideal S6x32768 .f32)
        slices_S6x32768_o0_0_S3x32768 (ix2 r j)
      = v0 (ix3 (0 : Fin 1) (⟨r.val, by omega⟩ : Fin 6) j) := by
  rw [slice2_axis0_apply 0 _ _ r j (⟨r.val, by omega⟩ : Fin 6) (Nat.zero_add _).symm, widened_apply]

/-- The neighbour rows: rows 3–5 of the widened block. -/
theorem neighbour_apply (v0 : Vec Ideal S1x6x32768 .bf16) (r : Fin 3) (j : Fin 32768) :
    extractStridedSlice S3x32768 ![3, 0]
        (extf .f32 (shapeCast S6x32768 v0 shapeCasts_S1x6x32768_S6x32768) bitsLt_bf16_f32 : FVec Ideal S6x32768 .f32)
        slices_S6x32768_o3_0_S3x32768 (ix2 r j)
      = v0 (ix3 (0 : Fin 1) (⟨3 + r.val, by omega⟩ : Fin 6) j) := by
  rw [slice2_axis0_apply 3 _ _ r j (⟨3 + r.val, by omega⟩ : Fin 6) rfl, widened_apply]

/-- Off the stacking axis the piece's index and the stack's agree: the lane. -/
theorem lane_agrees {n N : Nat} (r : Fin n) (c : Fin N) (j : Fin 32768) :
    ∀ b : Fin (⟨2, ![n, 32768]⟩ : Shape).rank, b.cast (rfl : (2 : Nat) = 2) ≠ (0 : Fin 2) →
      ((ix2 r j : (⟨2, ![n, 32768]⟩ : Shape).Idx) b).val = ((ix2 c j : (⟨2, ![N, 32768]⟩ : Shape).Idx) (b.cast rfl)).val := by
  intro b hb
  match b with
  | ⟨0, _⟩ => exact absurd rfl hb
  | ⟨1, _⟩ => rfl

set_option maxHeartbeats 400000 in
/-- Rows 1–3 of the feature block: the differences. -/
theorem pay4_rel (v0 : Vec Ideal S1x6x32768 .bf16) (r : Fin 3) (j : Fin 32768) :
    k1_pay4 v0 (ix2 (⟨1 + r.val, by omega⟩ : Fin 10) j) = rel (fun d => v0 (ix3 (0 : Fin 1) d j)) r := by
  unfold k1_pay4
  dsimp only
  refine Eq.trans (concatenate_apply_piece (t := S10x32768) (0 : Fin 2) _ _ (ix2 (⟨1 + r.val, by omega⟩ : Fin 10) j) 1 (by simp) S3x32768 _ rfl rfl 1 (by rfl)
    (ix2 r j) (lane_agrees r _ j) (by rfl)) ?_
  rw [subf_apply, centre_apply, neighbour_apply]
  rfl

set_option maxHeartbeats 400000 in
/-- Rows 4–6: the centre coordinates. -/
theorem pay4_centre (v0 : Vec Ideal S1x6x32768 .bf16) (r : Fin 3) (j : Fin 32768) :
    k1_pay4 v0 (ix2 (⟨4 + r.val, by omega⟩ : Fin 10) j) = v0 (ix3 (0 : Fin 1) (⟨r.val, by omega⟩ : Fin 6) j) := by
  unfold k1_pay4
  dsimp only
  refine Eq.trans (concatenate_apply_piece (t := S10x32768) (0 : Fin 2) _ _ (ix2 (⟨4 + r.val, by omega⟩ : Fin 10) j) 2 (by simp) S3x32768 _ rfl rfl 4 (by rfl)
    (ix2 r j) (lane_agrees r _ j) (by rfl)) ?_
  exact centre_apply v0 r j

set_option maxHeartbeats 400000 in
/-- Rows 7–9: the neighbour coordinates. -/
theorem pay4_neighbour (v0 : Vec Ideal S1x6x32768 .bf16) (r : Fin 3) (j : Fin 32768) :
    k1_pay4 v0 (ix2 (⟨7 + r.val, by omega⟩ : Fin 10) j) = v0 (ix3 (0 : Fin 1) (⟨3 + r.val, by omega⟩ : Fin 6) j) := by
  unfold k1_pay4
  dsimp only
  refine Eq.trans (concatenate_apply_piece (t := S10x32768) (0 : Fin 2) _ _ (ix2 (⟨7 + r.val, by omega⟩ : Fin 10) j) 3 (by simp) S3x32768 _ rfl rfl 7 (by rfl)
    (ix2 r j) (lane_agrees r _ j) (by rfl)) ?_
  exact neighbour_apply v0 r j

set_option maxHeartbeats 400000 in
/-- Row 0: the distance, the square root of the sum over the three axes of the squared differences. -/
theorem pay4_dist (v0 : Vec Ideal S1x6x32768 .bf16) (j : Fin 32768) :
    k1_pay4 v0 (ix2 (0 : Fin 10) j) = dist (fun d => v0 (ix3 (0 : Fin 1) d j)) := by
  unfold k1_pay4
  dsimp only
  refine Eq.trans (concatenate_apply_piece (t := S10x32768) (0 : Fin 2) _ _ (ix2 (0 : Fin 10) j) 0 (by simp) S1x32768 _ rfl rfl 0 (by rfl)
    (ix2 (0 : Fin 1) j) (lane_agrees (0 : Fin 1) _ j) (by rfl)) ?_
  refine (sqrt_apply _ _).trans ?_
  unfold KernelSpec.dist
  refine congrArg Ideal.sqrt ?_
  refine (shapeCast_a_1a_apply _ _ (0 : Fin 1) j).trans ?_
  refine (Ideal.multiReduction_add_single _ _ reduces_S3x32768_S32768 _ _ (ix1 j)).trans ?_
  show ∑ k : Fin 3, _ = ∑ d : Fin 3, _
  refine Finset.sum_congr rfl fun k _ => ?_
  have hk : reduces_S3x32768_S32768.lift (ix1 j) k = (ix2 k j : S3x32768.Idx) := by
    funext a
    match a with
    | ⟨0, _⟩ => exact Fin.ext rfl
    | ⟨1, _⟩ => exact Fin.ext rfl
  rw [hk, mulf_apply, subf_apply, centre_apply, neighbour_apply]
  rfl

/-- The feature block at row `c`, lane `j`, is feature `c` of the lane's six coordinates. -/
theorem pay4_apply (v0 : Vec Ideal S1x6x32768 .bf16) (c : Fin 10) (j : Fin 32768) :
    k1_pay4 v0 (ix2 c j) = feat (fun d => v0 (ix3 (0 : Fin 1) d j)) c := by
  match c with
  | ⟨0, _⟩ => exact pay4_dist v0 j
  | ⟨1, _⟩ => exact pay4_rel v0 0 j
  | ⟨2, _⟩ => exact pay4_rel v0 1 j
  | ⟨3, _⟩ => exact pay4_rel v0 2 j
  | ⟨4, _⟩ => exact pay4_centre v0 0 j
  | ⟨5, _⟩ => exact pay4_centre v0 1 j
  | ⟨6, _⟩ => exact pay4_centre v0 2 j
  | ⟨7, _⟩ => exact pay4_neighbour v0 0 j
  | ⟨8, _⟩ => exact pay4_neighbour v0 1 j
  | ⟨9, _⟩ => exact pay4_neighbour v0 2 j

end Cert.KernelIdeal.Hand

end
-- ==== Proof.KI.StatsRows.lean ====
import proofs.«173522_j70901320122520_2_alg».proof.Proof.KI.StatsStep
import proofs.«173522_j70901320122520_2_alg».proof.Proof.KI.ApplyFeat

/-!
# The statistics kernel's accumulator step, read at an index, over the extended reals

A tile's feature block is built exactly as the second kernel builds it, so its row `c` at lane `l` is feature
`c` of the six coordinates the tile holds at lane `l`. Row `o` of the tile's eight planes is then the
pointwise convolution's plane `o` before any rectifier (`planeRaw`), and a step of the sum accumulator adds,
to entry `o`, the sum of that plane over the tile's 32768 lanes; the sum-of-squares accumulator adds the sum of
its squares.
-/

set_option maxRecDepth 16384

noncomputable section

namespace Cert.KernelIdeal.Hand

open Cert.KernelIdeal Cert.KernelIdeal.Gen Cert.KernelSpec Cert.LaneOps
open Idealize.ShloMosaic Idealize.ShloMosaic.ValueIdx

/-- The two kernels build the feature block by the same sequence of operations. -/
theorem pay5_eq_pay4 (v : Vec Ideal S1x6x32768 .bf16) : k0_pay5 v = k1_pay4 v := rfl

/-- The tile's feature block at row `c`, lane `l`. -/
theorem pay5_apply (v : Vec Ideal S1x6x32768 .bf16) (c : Fin 10) (l : Fin 32768) :
    k0_pay5 v (ix2 c l) = feat (fun d => v (ix3 (0 : Fin 1) d l)) c := by
  rw [pay5_eq_pay4]; exact pay4_apply v c l

/-! ## The eight planes of a tile -/

set_option maxHeartbeats 1000000 in
theorem plane0_apply (x0 : Vec Ideal S1x6x32768 .bf16) (x1 : Vec Ideal S8x10 .f32) (x2 : Vec Ideal S8 .f32) (l : Fin 32768) :
    plane0 x0 x1 x2 (ix1 l) = planeRaw x1 x2 (fun d => x0 (ix3 (0 : Fin 1) d l)) 0 := by
  simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
  rfl

set_option maxHeartbeats 1000000 in
theorem plane1_apply (x0 : Vec Ideal S1x6x32768 .bf16) (x1 : Vec Ideal S8x10 .f32) (x2 : Vec Ideal S8 .f32) (l : Fin 32768) :
    plane1 x0 x1 x2 (ix1 l) = planeRaw x1 x2 (fun d => x0 (ix3 (0 : Fin 1) d l)) 1 := by
  simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
  rfl

set_option maxHeartbeats 1000000 in
theorem plane2_apply (x0 : Vec Ideal S1x6x32768 .bf16) (x1 : Vec Ideal S8x10 .f32) (x2 : Vec Ideal S8 .f32) (l : Fin 32768) :
    plane2 x0 x1 x2 (ix1 l) = planeRaw x1 x2 (fun d => x0 (ix3 (0 : Fin 1) d l)) 2 := by
  simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
  rfl

set_option maxHeartbeats 1000000 in
theorem plane3_apply (x0 : Vec Ideal S1x6x32768 .bf16) (x1 : Vec Ideal S8x10 .f32) (x2 : Vec Ideal S8 .f32) (l : Fin 32768) :
    plane3 x0 x1 x2 (ix1 l) = planeRaw x1 x2 (fun d => x0 (ix3 (0 : Fin 1) d l)) 3 := by
  simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
  rfl

set_option maxHeartbeats 1000000 in
theorem plane4_apply (x0 : Vec Ideal S1x6x32768 .bf16) (x1 : Vec Ideal S8x10 .f32) (x2 : Vec Ideal S8 .f32) (l : Fin 32768) :
    plane4 x0 x1 x2 (ix1 l) = planeRaw x1 x2 (fun d => x0 (ix3 (0 : Fin 1) d l)) 4 := by
  simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
  rfl

set_option maxHeartbeats 1000000 in
theorem plane5_apply (x0 : Vec Ideal S1x6x32768 .bf16) (x1 : Vec Ideal S8x10 .f32) (x2 : Vec Ideal S8 .f32) (l : Fin 32768) :
    plane5 x0 x1 x2 (ix1 l) = planeRaw x1 x2 (fun d => x0 (ix3 (0 : Fin 1) d l)) 5 := by
  simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
  rfl

set_option maxHeartbeats 1000000 in
theorem plane6_apply (x0 : Vec Ideal S1x6x32768 .bf16) (x1 : Vec Ideal S8x10 .f32) (x2 : Vec Ideal S8 .f32) (l : Fin 32768) :
    plane6 x0 x1 x2 (ix1 l) = planeRaw x1 x2 (fun d => x0 (ix3 (0 : Fin 1) d l)) 6 := by
  simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
  rfl

set_option maxHeartbeats 2000000 in
/-- The eight planes stacked: row `o`, lane `l` is plane `o` of the lane's coordinates, before any rectifier. -/
theorem tilePlanes_apply (x0 : Vec Ideal S1x6x32768 .bf16) (x1 : Vec Ideal S8x10 .f32) (x2 : Vec Ideal S8 .f32) (o : Fin 8) (l : Fin 32768) :
    tilePlanes x0 x1 x2 (ix2 o l) = planeRaw x1 x2 (fun d => x0 (ix3 (0 : Fin 1) d l)) o := by
  unfold tilePlanes k0_pay34
  try dsimp only
  match o with
  | ⟨0, _⟩ =>
    refine Eq.trans (concatenate_apply_piece (t := S8x32768) (0 : Fin 2) _ _ (ix2 (⟨0, by omega⟩ : Fin 8) l) 0 (by simp) S1x32768 _ rfl rfl 0 (by rfl)
      (ix2 (0 : Fin 1) l) (lane_agrees (0 : Fin 1) _ l) (by rfl)) ?_
    exact (shapeCast_a_1a_apply _ _ (0 : Fin 1) l).trans (plane0_apply x0 x1 x2 l)
  | ⟨1, _⟩ =>
    refine Eq.trans (concatenate_apply_piece (t := S8x32768) (0 : Fin 2) _ _ (ix2 (⟨1, by omega⟩ : Fin 8) l) 1 (by simp) S1x32768 _ rfl rfl 1 (by rfl)
      (ix2 (0 : Fin 1) l) (lane_agrees (0 : Fin 1) _ l) (by rfl)) ?_
    exact (shapeCast_a_1a_apply _ _ (0 : Fin 1) l).trans (plane1_apply x0 x1 x2 l)
  | ⟨2, _⟩ =>
    refine Eq.trans (concatenate_apply_piece (t := S8x32768) (0 : Fin 2) _ _ (ix2 (⟨2, by omega⟩ : Fin 8) l) 2 (by simp) S1x32768 _ rfl rfl 2 (by rfl)
      (ix2 (0 : Fin 1) l) (lane_agrees (0 : Fin 1) _ l) (by rfl)) ?_
    exact (shapeCast_a_1a_apply _ _ (0 : Fin 1) l).trans (plane2_apply x0 x1 x2 l)
  | ⟨3, _⟩ =>
    refine Eq.trans (concatenate_apply_piece (t := S8x32768) (0 : Fin 2) _ _ (ix2 (⟨3, by omega⟩ : Fin 8) l) 3 (by simp) S1x32768 _ rfl rfl 3 (by rfl)
      (ix2 (0 : Fin 1) l) (lane_agrees (0 : Fin 1) _ l) (by rfl)) ?_
    exact (shapeCast_a_1a_apply _ _ (0 : Fin 1) l).trans (plane3_apply x0 x1 x2 l)
  | ⟨4, _⟩ =>
    refine Eq.trans (concatenate_apply_piece (t := S8x32768) (0 : Fin 2) _ _ (ix2 (⟨4, by omega⟩ : Fin 8) l) 4 (by simp) S1x32768 _ rfl rfl 4 (by rfl)
      (ix2 (0 : Fin 1) l) (lane_agrees (0 : Fin 1) _ l) (by rfl)) ?_
    exact (shapeCast_a_1a_apply _ _ (0 : Fin 1) l).trans (plane4_apply x0 x1 x2 l)
  | ⟨5, _⟩ =>
    refine Eq.trans (concatenate_apply_piece (t := S8x32768) (0 : Fin 2) _ _ (ix2 (⟨5, by omega⟩ : Fin 8) l) 5 (by simp) S1x32768 _ rfl rfl 5 (by rfl)
      (ix2 (0 : Fin 1) l) (lane_agrees (0 : Fin 1) _ l) (by rfl)) ?_
    exact (shapeCast_a_1a_apply _ _ (0 : Fin 1) l).trans (plane5_apply x0 x1 x2 l)
  | ⟨6, _⟩ =>
    refine Eq.trans (concatenate_apply_piece (t := S8x32768) (0 : Fin 2) _ _ (ix2 (⟨6, by omega⟩ : Fin 8) l) 6 (by simp) S1x32768 _ rfl rfl 6 (by rfl)
      (ix2 (0 : Fin 1) l) (lane_agrees (0 : Fin 1) _ l) (by rfl)) ?_
    exact (shapeCast_a_1a_apply _ _ (0 : Fin 1) l).trans (plane6_apply x0 x1 x2 l)
  | ⟨7, _⟩ =>
    refine Eq.trans (concatenate_apply_piece (t := S8x32768) (0 : Fin 2) _ _ (ix2 (⟨7, by omega⟩ : Fin 8) l) 7 (by simp) S1x32768 _ rfl rfl 7 (by rfl)
      (ix2 (0 : Fin 1) l) (lane_agrees (0 : Fin 1) _ l) (by rfl)) ?_
    refine (shapeCast_a_1a_apply _ _ (0 : Fin 1) l).trans ?_
    simp only [plane0, plane1, plane2, plane3, plane4, plane5, plane6, plane7head,
    k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33,
    addf_apply, mulf_apply, broadcast_apply, row_eq, entry2_eq, entry1_eq, pay5_apply]
    rfl

/-! ## One step of each accumulator -/

/-- The lane axis of the stacked planes, put back beside a plane's number. -/
theorem lift_lane (o : Fin 8) (k : Fin 32768) :
    reduces_S8x32768_S8.lift (ix1 o) k = (ix2 o k : S8x32768.Idx) := by
  funext a
  match a with
  | ⟨0, _⟩ => exact Fin.ext rfl
  | ⟨1, _⟩ => exact Fin.ext rfl

/-- The stored zeros. -/
theorem zeroSum_apply (i : S1x8.Idx) : k0_pay3 (F := Ideal) i = 0 := by
  simp only [k0_pay3, shapeCast_self, broadcast_apply]
  exact Ideal.ofBits_zero_f32
theorem zeroSq_apply (i : S1x8.Idx) : k0_pay4 (F := Ideal) i = 0 := by
  simp only [k0_pay4, shapeCast_self, broadcast_apply]
  exact Ideal.ofBits_zero_f32

set_option maxHeartbeats 1000000 in
/-- A step of the sum accumulator: entry `o` gains the sum over the tile's lanes of plane `o`. -/
theorem sumStep_apply (x0 : Vec Ideal S1x6x32768 .bf16) (x1 : Vec Ideal S8x10 .f32) (x2 : Vec Ideal S8 .f32) (xs : Vec Ideal S1x8 .f32)
    (o : Fin 8) :
    sumStep x0 x1 x2 xs (ix2 (0 : Fin 1) o)
      = xs (ix2 (0 : Fin 1) o) + ∑ l : Fin 32768, planeRaw x1 x2 (fun d => x0 (ix3 (0 : Fin 1) d l)) o := by
  unfold sumStep k0_pay35
  try dsimp only
  rw [shapeCast_self, addf_apply]
  refine congrArg (fun z => xs (ix2 (0 : Fin 1) o) + z) ?_
  refine (shapeCast_a_1a_apply _ _ (0 : Fin 1) o).trans ?_
  refine (Ideal.multiReduction_add_single _ _ reduces_S8x32768_S8 _ _ (ix1 o)).trans ?_
  show ∑ k : Fin 32768, _ = ∑ l : Fin 32768, _
  refine Finset.sum_congr rfl fun k _ => ?_
  rw [lift_lane]
  exact tilePlanes_apply x0 x1 x2 o k

set_option maxHeartbeats 1000000 in
/-- A step of the sum-of-squares accumulator: entry `o` gains the sum over the tile's lanes of plane `o` squared. -/
theorem sqStep_apply (x0 : Vec Ideal S1x6x32768 .bf16) (x1 : Vec Ideal S8x10 .f32) (x2 : Vec Ideal S8 .f32) (xs : Vec Ideal S1x8 .f32)
    (o : Fin 8) :
    sqStep x0 x1 x2 xs (ix2 (0 : Fin 1) o)
      = xs (ix2 (0 : Fin 1) o) + ∑ l : Fin 32768, planeRaw x1 x2 (fun d => x0 (ix3 (0 : Fin 1) d l)) o
          * planeRaw x1 x2 (fun d => x0 (ix3 (0 : Fin 1) d l)) o := by
  unfold sqStep k0_pay36
  try dsimp only
  rw [shapeCast_self, addf_apply]
  refine congrArg (fun z => xs (ix2 (0 : Fin 1) o) + z) ?_
  refine (shapeCast_a_1a_apply _ _ (0 : Fin 1) o).trans ?_
  refine (Ideal.multiReduction_add_single _ _ reduces_S8x32768_S8 _ _ (ix1 o)).trans ?_
  show ∑ k : Fin 32768, _ = ∑ l : Fin 32768, _
  refine Finset.sum_congr rfl fun k _ => ?_
  rw [lift_lane, mulf_apply]
  exact congrArg₂ (· * ·) (tilePlanes_apply x0 x1 x2 o k) (tilePlanes_apply x0 x1 x2 o k)

end Cert.KernelIdeal.Hand

end
-- ==== Proof.LibSumIndex.lean ====
/-
  Finite sums over the index types of arrays, re-indexed (any additive commutative monoid):
  a sum over a reshaped array is the sum over the array; a sum over a rank-3 shape is the iterated sum over its three
  coordinates; a sum over `G * R` consecutive positions is the sum over `G` blocks of the sums over their `R` places.
-/
import Idealize.ShloMosaic.Lib.ValueIdx
import Idealize.ShloMosaic.Lib.Pipeline.Value

namespace Idealize.ShloMosaic.SumIndex

open Idealize.ShloMosaic Idealize.ShloMosaic.ValueIdx

variable {M : Type} [AddCommMonoid M]

/-- A reshape only re-indexes: summing every entry of the reshaped array sums every entry of the array. -/
theorem sum_shapeCast {s t : Shape} (x : s.Idx → M) (h : s.ShapeCasts t) :
    ∑ j : t.Idx, shapeCast t x h j = ∑ k : s.Idx, x k := by
  unfold shapeCast
  exact (Shape.reshapeEquiv h).sum_comp x

/-- The indices of a rank-3 shape are the triples of coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A sum over a rank-3 shape, coordinate by coordinate. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← idxEquiv3.symm.sum_comp f, Fintype.sum_prod_type]
  refine Finset.sum_congr rfl fun a _ => ?_
  rw [Fintype.sum_prod_type]
  rfl

/-- Position `r` of block `g` among `G` blocks of `R` consecutive positions. -/
abbrev blockPos {N : Nat} (G R : Nat) (hN : N = G * R) (g : Fin G) (r : Fin R) : Fin N :=
  ⟨g.val * R + r.val, by
    subst hN
    have hg := g.isLt
    have hr := r.isLt
    calc g.val * R + r.val < g.val * R + R := by omega
      _ = (g.val + 1) * R := by ring
      _ ≤ G * R := Nat.mul_le_mul_right R hg⟩

/-- A sum over `G * R` consecutive positions, block by block. -/
theorem sum_blocks {N : Nat} (G R : Nat) (hN : N = G * R) (f : Fin N → M) :
    ∑ i, f i = ∑ g : Fin G, ∑ r : Fin R, f (blockPos G R hN g r) := by
  subst hN
  rw [← finProdFinEquiv.sum_comp f, Fintype.sum_prod_type]
  refine Finset.sum_congr rfl fun g _ => Finset.sum_congr rfl fun r _ => congrArg f (Fin.ext ?_)
  show r.val + R * g.val = g.val * R + r.val
  rw [Nat.mul_comm, Nat.add_comm]

end Idealize.ShloMosaic.SumIndex
-- ==== Proof.KI.StatsBatch.lean ====
import proofs.«173522_j70901320122520_2_alg».proof.Proof.KI.StatsRows
import Idealize.ShloMosaic.Lib.Pipeline.Value
import Idealize.ShloMosaic.Lib.ValueLayout
import Idealize.ShloMosaic.PureOps.Ideal.Laws
import proofs.«173522_j70901320122520_2_alg».proof.Proof.KernelSpec
import proofs.«173522_j70901320122520_2_alg».proof.Proof.LibSumIndex

/-! # The statistics kernel: what a batch's last tile leaves in the outputs

Within a batch the accumulators start from zero at the first tile and each tile adds its rows' sums (and sums of
squares). Reading each tile's blocks off the arrays and adding up over the batch's 32 tiles, the last tile's
accumulators, which it copies to the outputs, hold for every plane the sum (resp. the sum of squares) of the
plane's values over ALL 1048576 lanes of the batch: 32 tiles of 32768 lanes are the lanes `n · 32768 + l`.
Addition of extended reals is associative and commutative, so the grouping by tiles does not matter. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.SumIndex

/-- The printed index maps, decided over the grid: point `t` is batch `t / 32`, lane tile `t % 32`; the weights
    and the bias are one block; each output's block is its batch's row. -/
theorem idx_facts0 : ∀ t : Fin cfg0.N,
    win0_0.index t (0 : Fin 3) = t.val / 32 ∧ win0_0.index t (1 : Fin 3) = 0 ∧ win0_0.index t (2 : Fin 3) = t.val % 32
    ∧ win0_1.index t (0 : Fin 2) = 0 ∧ win0_1.index t (1 : Fin 2) = 0
    ∧ win0_2.index t (0 : Fin 1) = 0
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

theorem point0_lt (t : Fin cfg0.N) : t.val < 128 := lt_of_lt_of_eq t.isLt N_0

/-- Tile `k` of batch `bb` is a point of the grid. -/
theorem point0_in (bb : Fin 4) (k : ℕ) (hk : k < 32) : 32 * bb.val + k < cfg0.N := by
  rw [show cfg0.N = 128 from N_0]; have := bb.isLt; omega

/-- A plane depends on the weights' row `o`, the bias's entry `o` and the lane's coordinates only. -/
theorem planeRaw_congr {w w' : (⟨2, ![8, 10]⟩ : Shape).Idx → EReal} {b b' : (⟨1, ![8]⟩ : Shape).Idx → EReal} {p p' : Fin 6 → EReal}
    {o : Fin 8} (hw : ∀ cc, w (ix2 o cc) = w' (ix2 o cc)) (hb : b (ix1 o) = b' (ix1 o)) (hp : ∀ d, p d = p' d) :
    KernelSpec.planeRaw w b p o = KernelSpec.planeRaw w' b' p' o := by
  unfold KernelSpec.planeRaw
  rw [show (fun c => w (ix2 o c)) = fun c => w' (ix2 o c) from funext hw, hb, show p = p' from funext hp]

/-- Each output is its accumulator with a unit axis put in front. -/
theorem pay1_apply (v : Vec Ideal S1x8 .f32) (o : Fin 8) :
    k0_pay1 (F := Ideal) v (ix3 (0 : Fin 1) (0 : Fin 1) o) = v (ix2 (0 : Fin 1) o) := by
  unfold k0_pay1; exact shapeCast_ab_1ab_apply v _ 0 0 o
theorem pay2_apply (v : Vec Ideal S1x8 .f32) (o : Fin 8) :
    k0_pay2 (F := Ideal) v (ix3 (0 : Fin 1) (0 : Fin 1) o) = v (ix2 (0 : Fin 1) o) := by
  unfold k0_pay2; exact shapeCast_ab_1ab_apply v _ 0 0 o

section Region

variable (V : (c : Dev nD) → (b : Ref sig .tc) → Buf (Elt Ideal) ((c : Thread nD τ).loc b))

theorem outsAt0_congr (c : Dev nD) {n n' : ℕ} (e : n = n') (hn : n < cfg0.N) (hn' : n' < cfg0.N) :
    outsAt0 V c n hn = outsAt0 V c n' hn' := by subst e; rfl

/-! ## The blocks, read off the arrays -/

/-- The coordinate block at point `t` (batch `bb`, tile `n`): entry `(0, d, l)` is the array at batch `bb`, lane `n · 32768 + l`. -/
theorem iblk0_0_apply (c : Dev nD) (t : Fin cfg0.N) (bb : Fin 4) (n : Fin 32) (hb : t.val / 32 = bb.val) (hn : t.val % 32 = n.val)
    (d : Fin 6) (l : Fin 32768) :
    iblk0 V c 0 t (ix3 (0 : Fin 1) d l)
      = V c (Pipeline.arrRef spec0 0) (ix3 bb d (blockPos 32 32768 (by norm_num) n l)) := by
  obtain ⟨e0, e1, e2, -⟩ := idx_facts0 t
  show V c (Pipeline.arrRef spec0 0) (((cfg0.win 0).blk t).view.emb (ix3 (0 : Fin 1) d l)) = _
  refine congrArg _ (funext fun a => Fin.ext ?_)
  match a with
  | ⟨0, _⟩ => show win0_0.index t (0 : Fin 3) * 1 + 1 * 0 = bb.val; omega
  | ⟨1, _⟩ => show win0_0.index t (1 : Fin 3) * 6 + 1 * d.val = d.val; omega
  | ⟨2, _⟩ => show win0_0.index t (2 : Fin 3) * 32768 + 1 * l.val = n.val * 32768 + l.val; omega

/-- The weights' block is the whole array at every point. -/
theorem iblk0_1_apply (c : Dev nD) (t : Fin cfg0.N) (o : Fin 8) (cc : Fin 10) :
    iblk0 V c 1 t (ix2 o cc) = V c (Pipeline.arrRef spec0 1) (ix2 o cc) := by
  obtain ⟨-, -, -, e0, e1, -⟩ := idx_facts0 t
  show V c (Pipeline.arrRef spec0 1) (((cfg0.win 1).blk t).view.emb (ix2 o cc)) = _
  refine congrArg _ (funext fun a => Fin.ext ?_)
  match a with
  | ⟨0, _⟩ => show win0_1.index t (0 : Fin 2) * 8 + 1 * o.val = o.val; omega
  | ⟨1, _⟩ => show win0_1.index t (1 : Fin 2) * 10 + 1 * cc.val = cc.val; omega

/-- So is the bias's. -/
theorem iblk0_2_apply (c : Dev nD) (t : Fin cfg0.N) (o : Fin 8) :
    iblk0 V c 2 t (ix1 o) = V c (Pipeline.arrRef spec0 2) (ix1 o) := by
  obtain ⟨-, -, -, -, -, e0, -⟩ := idx_facts0 t
  show V c (Pipeline.arrRef spec0 2) (((cfg0.win 2).blk t).view.emb (ix1 o)) = _
  refine congrArg _ (funext fun a => Fin.ext ?_)
  match a with
  | ⟨0, _⟩ => show win0_2.index t (0 : Fin 1) * 8 + 1 * o.val = o.val; omega

/-! ## The sums -/

/-- What one tile adds for plane `o`: the sum of the plane's values over the tile's 32768 lanes, read off the arrays
    (tile `n` of batch `bb` holds lanes `n · 32768 …`). -/
def tileSum (a12 : (⟨3, ![4, 6, 1048576]⟩ : Shape).Idx → EReal) (w : (⟨2, ![8, 10]⟩ : Shape).Idx → EReal) (b : (⟨1, ![8]⟩ : Shape).Idx → EReal) (bb : Fin 4) (n : Fin 32) (o : Fin 8) : EReal :=
  ∑ l : Fin 32768, KernelSpec.planeRaw w b (fun d => a12 (ix3 bb d (blockPos 32 32768 (by norm_num) n l))) o

/-- One step of the accumulation at point `t` (batch `bb`, tile `n`), read off the arrays. -/
theorem sumStep_at (c : Dev nD) (t : Fin cfg0.N) (bb : Fin 4) (n : Fin 32) (hb : t.val / 32 = bb.val) (hn : t.val % 32 = n.val)
    (xs : Vec Ideal S1x8 .f32) (o : Fin 8) :
    sumStep (F := Ideal) (iblk0 V c 0 t) (iblk0 V c 1 t) (iblk0 V c 2 t) xs (ix2 (0 : Fin 1) o)
      = xs (ix2 (0 : Fin 1) o) + tileSum (V c (Pipeline.arrRef spec0 0)) (V c (Pipeline.arrRef spec0 1)) (V c (Pipeline.arrRef spec0 2)) bb n o := by
  rw [sumStep_apply]
  refine congrArg (xs (ix2 (0 : Fin 1) o) + ·) ?_
  unfold tileSum
  refine Finset.sum_congr rfl fun l _ => ?_
  rw [planeRaw_congr (fun cc => iblk0_1_apply V c t o cc) (iblk0_2_apply V c t o) (fun d => iblk0_0_apply V c t bb n hb hn d l)]

/-- THE ACCUMULATION over a batch: after tile `k` of batch `bb` the accumulator holds, for plane `o`, the sum of
    what tiles `0 … k` added (the stored zero adds nothing). -/
theorem accSum_apply (c : Dev nD) (bb : Fin 4) (o : Fin 8) : ∀ (k : ℕ) (hk : k < 32),
    (outsAt0 V c (32 * bb.val + k) (point0_in bb k hk)).2.2.1 (ix2 (0 : Fin 1) o)
      = ∑ n ∈ Finset.range (k + 1), (if h : n < 32 then tileSum (V c (Pipeline.arrRef spec0 0)) (V c (Pipeline.arrRef spec0 1)) (V c (Pipeline.arrRef spec0 2)) bb ⟨n, h⟩ o else 0)
  | 0, hk => by
    have h0 : (⟨32 * bb.val + 0, point0_in bb 0 hk⟩ : Fin cfg0.N).val % 32 = 0 := by show (32 * bb.val + 0) % 32 = 0; omega
    refine (congrFun (accSum_first V c ⟨32 * bb.val + 0, point0_in bb 0 hk⟩ h0) (ix2 (0 : Fin 1) o)).trans ?_
    rw [sumStep_at V c ⟨32 * bb.val + 0, point0_in bb 0 hk⟩ bb ⟨0, hk⟩ (by show (32 * bb.val + 0) / 32 = bb.val; omega) (by show (32 * bb.val + 0) % 32 = 0; omega),
      zeroSum_apply, zero_add, Finset.sum_range_one, dif_pos hk]
  | k + 1, hk => by
    have hk' : k < 32 := by omega
    have h0 : ¬(⟨32 * bb.val + (k + 1), point0_in bb (k + 1) hk⟩ : Fin cfg0.N).val % 32 = 0 := by show ¬(32 * bb.val + (k + 1)) % 32 = 0; omega
    refine (congrFun (accSum_next V c ⟨32 * bb.val + (k + 1), point0_in bb (k + 1) hk⟩ h0) (ix2 (0 : Fin 1) o)).trans ?_
    rw [sumStep_at V c ⟨32 * bb.val + (k + 1), point0_in bb (k + 1) hk⟩ bb ⟨k + 1, hk⟩ (by show (32 * bb.val + (k + 1)) / 32 = bb.val; omega) (by show (32 * bb.val + (k + 1)) % 32 = k + 1; omega)]
    rw [Finset.sum_range_succ _ (k + 1), dif_pos hk]
    exact congrArg (· + tileSum (V c (Pipeline.arrRef spec0 0)) (V c (Pipeline.arrRef spec0 1)) (V c (Pipeline.arrRef spec0 2)) bb ⟨k + 1, hk⟩ o) (accSum_apply c bb o k hk')

/-- At the last tile of batch `bb` the sum output holds, for plane `o`, the sum of the plane's values over ALL the batch's lanes. -/
theorem lastSum_at (c : Dev nD) (t : Fin cfg0.N) (h1 : t.val % 32 = 31) (bb : Fin 4) (hb : t.val / 32 = bb.val) (o : Fin 8) :
    (outsAt0 V c t.val t.isLt).1 (ix3 (0 : Fin 1) (0 : Fin 1) o) = KernelSpec.statsSum (V c (Pipeline.arrRef spec0 0)) (V c (Pipeline.arrRef spec0 1)) (V c (Pipeline.arrRef spec0 2)) (ix3 bb (0 : Fin 1) o) := by
  rw [out3_last V c t h1, pay1_apply]
  have ht : t.val = 32 * bb.val + 31 := by omega
  rw [outsAt0_congr V c ht t.isLt (point0_in bb 31 (by omega)), accSum_apply V c bb o 31 (by omega), KernelSpec.statsSum_ix3]
  rw [sum_blocks 32 32768 (by norm_num) (fun j : Fin 1048576 => KernelSpec.planeRaw (V c (Pipeline.arrRef spec0 1)) (V c (Pipeline.arrRef spec0 2)) (fun d => V c (Pipeline.arrRef spec0 0) (ix3 bb d j)) o)]
  rw [Finset.sum_range (fun n => if h : n < 32 then tileSum (V c (Pipeline.arrRef spec0 0)) (V c (Pipeline.arrRef spec0 1)) (V c (Pipeline.arrRef spec0 2)) bb ⟨n, h⟩ o else 0)]
  refine Finset.sum_congr rfl fun n _ => ?_
  rw [dif_pos n.isLt]
  rfl

/-- The same with the batch read off the point and the two unit coordinates left free. -/
theorem lastSum (c : Dev nD) (t : Fin cfg0.N) (h1 : t.val % 32 = 31) (u u' : Fin 1) (o : Fin 8) :
    (outsAt0 V c t.val t.isLt).1 (ix3 u u' o)
      = KernelSpec.statsSum (V c (Pipeline.arrRef spec0 0)) (V c (Pipeline.arrRef spec0 1)) (V c (Pipeline.arrRef spec0 2))
          (ix3 (⟨t.val / 32, by have := point0_lt t; omega⟩ : Fin 4) (0 : Fin 1) o) := by
  obtain rfl : u = 0 := Subsingleton.elim _ _
  obtain rfl : u' = 0 := Subsingleton.elim _ _
  exact lastSum_at V c t h1 ⟨t.val / 32, by have := point0_lt t; omega⟩ rfl o

/-! ## The sums of squares -/

/-- What one tile adds for plane `o`: the sum of the squares of the plane's values over the tile's 32768 lanes, read off the arrays
    (tile `n` of batch `bb` holds lanes `n · 32768 …`). -/
def tileSq (a12 : (⟨3, ![4, 6, 1048576]⟩ : Shape).Idx → EReal) (w : (⟨2, ![8, 10]⟩ : Shape).Idx → EReal) (b : (⟨1, ![8]⟩ : Shape).Idx → EReal) (bb : Fin 4) (n : Fin 32) (o : Fin 8) : EReal :=
  ∑ l : Fin 32768, KernelSpec.planeRaw w b (fun d => a12 (ix3 bb d (blockPos 32 32768 (by norm_num) n l))) o * KernelSpec.planeRaw w b (fun d => a12 (ix3 bb d (blockPos 32 32768 (by norm_num) n l))) o

/-- One step of the accumulation at point `t` (batch `bb`, tile `n`), read off the arrays. -/
theorem sqStep_at (c : Dev nD) (t : Fin cfg0.N) (bb : Fin 4) (n : Fin 32) (hb : t.val / 32 = bb.val) (hn : t.val % 32 = n.val)
    (xs : Vec Ideal S1x8 .f32) (o : Fin 8) :
    sqStep (F := Ideal) (iblk0 V c 0 t) (iblk0 V c 1 t) (iblk0 V c 2 t) xs (ix2 (0 : Fin 1) o)
      = xs (ix2 (0 : Fin 1) o) + tileSq (V c (Pipeline.arrRef spec0 0)) (V c (Pipeline.arrRef spec0 1)) (V c (Pipeline.arrRef spec0 2)) bb n o := by
  rw [sqStep_apply]
  refine congrArg (xs (ix2 (0 : Fin 1) o) + ·) ?_
  unfold tileSq
  refine Finset.sum_congr rfl fun l _ => ?_
  rw [planeRaw_congr (fun cc => iblk0_1_apply V c t o cc) (iblk0_2_apply V c t o) (fun d => iblk0_0_apply V c t bb n hb hn d l)]

/-- THE ACCUMULATION over a batch: after tile `k` of batch `bb` the accumulator holds, for plane `o`, the sum of
    what tiles `0 … k` added (the stored zero adds nothing). -/
theorem accSq_apply (c : Dev nD) (bb : Fin 4) (o : Fin 8) : ∀ (k : ℕ) (hk : k < 32),
    (outsAt0 V c (32 * bb.val + k) (point0_in bb k hk)).2.2.2 (ix2 (0 : Fin 1) o)
      = ∑ n ∈ Finset.range (k + 1), (if h : n < 32 then tileSq (V c (Pipeline.arrRef spec0 0)) (V c (Pipeline.arrRef spec0 1)) (V c (Pipeline.arrRef spec0 2)) bb ⟨n, h⟩ o else 0)
  | 0, hk => by
    have h0 : (⟨32 * bb.val + 0, point0_in bb 0 hk⟩ : Fin cfg0.N).val % 32 = 0 := by show (32 * bb.val + 0) % 32 = 0; omega
    refine (congrFun (accSq_first V c ⟨32 * bb.val + 0, point0_in bb 0 hk⟩ h0) (ix2 (0 : Fin 1) o)).trans ?_
    rw [sqStep_at V c ⟨32 * bb.val + 0, point0_in bb 0 hk⟩ bb ⟨0, hk⟩ (by show (32 * bb.val + 0) / 32 = bb.val; omega) (by show (32 * bb.val + 0) % 32 = 0; omega),
      zeroSq_apply, zero_add, Finset.sum_range_one, dif_pos hk]
  | k + 1, hk => by
    have hk' : k < 32 := by omega
    have h0 : ¬(⟨32 * bb.val + (k + 1), point0_in bb (k + 1) hk⟩ : Fin cfg0.N).val % 32 = 0 := by show ¬(32 * bb.val + (k + 1)) % 32 = 0; omega
    refine (congrFun (accSq_next V c ⟨32 * bb.val + (k + 1), point0_in bb (k + 1) hk⟩ h0) (ix2 (0 : Fin 1) o)).trans ?_
    rw [sqStep_at V c ⟨32 * bb.val + (k + 1), point0_in bb (k + 1) hk⟩ bb ⟨k + 1, hk⟩ (by show (32 * bb.val + (k + 1)) / 32 = bb.val; omega) (by show (32 * bb.val + (k + 1)) % 32 = k + 1; omega)]
    rw [Finset.sum_range_succ _ (k + 1), dif_pos hk]
    exact congrArg (· + tileSq (V c (Pipeline.arrRef spec0 0)) (V c (Pipeline.arrRef spec0 1)) (V c (Pipeline.arrRef spec0 2)) bb ⟨k + 1, hk⟩ o) (accSq_apply c bb o k hk')

/-- At the last tile of batch `bb` the sum-of-squares output holds, for plane `o`, the sum of the squares of the plane's values over ALL the batch's lanes. -/
theorem lastSq_at (c : Dev nD) (t : Fin cfg0.N) (h1 : t.val % 32 = 31) (bb : Fin 4) (hb : t.val / 32 = bb.val) (o : Fin 8) :
    (outsAt0 V c t.val t.isLt).2.1 (ix3 (0 : Fin 1) (0 : Fin 1) o) = KernelSpec.statsSq (V c (Pipeline.arrRef spec0 0)) (V c (Pipeline.arrRef spec0 1)) (V c (Pipeline.arrRef spec0 2)) (ix3 bb (0 : Fin 1) o) := by
  rw [out4_last V c t h1, pay2_apply]
  have ht : t.val = 32 * bb.val + 31 := by omega
  rw [outsAt0_congr V c ht t.isLt (point0_in bb 31 (by omega)), accSq_apply V c bb o 31 (by omega), KernelSpec.statsSq_ix3]
  rw [sum_blocks 32 32768 (by norm_num) (fun j : Fin 1048576 => KernelSpec.planeRaw (V c (Pipeline.arrRef spec0 1)) (V c (Pipeline.arrRef spec0 2)) (fun d => V c (Pipeline.arrRef spec0 0) (ix3 bb d j)) o * KernelSpec.planeRaw (V c (Pipeline.arrRef spec0 1)) (V c (Pipeline.arrRef spec0 2)) (fun d => V c (Pipeline.arrRef spec0 0) (ix3 bb d j)) o)]
  rw [Finset.sum_range (fun n => if h : n < 32 then tileSq (V c (Pipeline.arrRef spec0 0)) (V c (Pipeline.arrRef spec0 1)) (V c (Pipeline.arrRef spec0 2)) bb ⟨n, h⟩ o else 0)]
  refine Finset.sum_congr rfl fun n _ => ?_
  rw [dif_pos n.isLt]
  rfl

/-- The same with the batch read off the point and the two unit coordinates left free. -/
theorem lastSq (c : Dev nD) (t : Fin cfg0.N) (h1 : t.val % 32 = 31) (u u' : Fin 1) (o : Fin 8) :
    (outsAt0 V c t.val t.isLt).2.1 (ix3 u u' o)
      = KernelSpec.statsSq (V c (Pipeline.arrRef spec0 0)) (V c (Pipeline.arrRef spec0 1)) (V c (Pipeline.arrRef spec0 2))
          (ix3 (⟨t.val / 32, by have := point0_lt t; omega⟩ : Fin 4) (0 : Fin 1) o) := by
  obtain rfl : u = 0 := Subsingleton.elim _ _
  obtain rfl : u' = 0 := Subsingleton.elim _ _
  exact lastSq_at V c t h1 ⟨t.val / 32, by have := point0_lt t; omega⟩ rfl o

end Region

end Cert.KernelIdeal.Hand

end
-- ==== Proof.KI.StatsArray.lean ====
import proofs.«173522_j70901320122520_2_alg».proof.Proof.KI.StatsBatch
import proofs.«173522_j70901320122520_2_alg».proof.Proof.KernelSpec
import Idealize.ShloMosaic.Lib.Pipeline.Value
import Idealize.ShloMosaic.Lib.ValueIdx

/-!
# The first region's two result arrays, as functions of the arrays it is handed

The two result windows of the statistics kernel have one block per batch: point `t` holds row `t / 32` of the
`[4, 1, 8]` array, and the row is written back only at the batch's last tile, `t % 32 = 31`. At such a point
the block is, entry by entry, the sum over all the batch's lanes of a plane (of its square, for the second
window) — the induction over the batch's 32 tiles. The four last tiles' blocks are the four rows of the array,
so after the region each result array is the array-level sum. The sum over a batch's lanes is never unfolded
here: the array-level function is carried as one name.
-/

set_option maxRecDepth 16384

noncomputable section

namespace Cert.KernelIdeal.Hand

open Cert.KernelIdeal Cert.KernelIdeal.Gen Cert.KernelSpec
open Idealize.ShloMosaic Idealize.ShloMosaic.TcCoe Idealize.ShloMosaic.ValueIdx
open Idealize.SL Idealize.SL.Sem
open Idealize.ShloMosaic.Pipeline (Dat Cfg Window)

/-- The printed index maps of the two result windows, decided over the grid: point `t` is row `t / 32`. -/
theorem idx_facts0_out : ∀ t : Fin cfg0.N,
    win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

variable (V : (c : Dev nD) → (b : Ref sig .tc) → Buf (Elt Ideal) ((c : Thread nD τ).loc b))

/-! ## Window 3: the per-batch sums of the eight planes -/

/-- A block whose every entry `(·, ·, o)` is entry `(t / 32, 0, o)` of an array-level function `G` is point `t`'s
    block of `G`: the block is row `t / 32` of the array. (`G` is kept a variable: nothing here looks inside it.) -/
theorem row_block0_3 (G : S4x1x8.Idx → EReal) (X : Vec Ideal S1x1x8 .f32) (t : Fin cfg0.N)
    (h : ∀ (u u' : Fin 1) (o : Fin 8), X (ix3 u u' o) = G (ix3 (⟨t.val / 32, by have := point0_lt t; omega⟩ : Fin 4) (0 : Fin 1) o)) :
    (cfg0.win 3).cut (grid0.coords t) X = ((cfg0.win 3).blk t).view.read (Elt Ideal) G := by
  obtain ⟨e30, e31, e32, e40, e41, e42⟩ := idx_facts0_out t
  funext y
  have hy0 : (y 0).val < 1 := (y 0).isLt
  have hy1 : (y 1).val < 1 := (y 1).isLt
  have hy2 : (y 2).val < 8 := (y 2).isLt
  have hx : (cfg0.win 3).xinj (grid0.coords t) y = ix3 (⟨(y 0).val, hy0⟩ : Fin 1) (⟨(y 1).val, hy1⟩ : Fin 1) (⟨(y 2).val, hy2⟩ : Fin 8) :=
    funext fun a => by
      match a with
      | ⟨0, _⟩ => rfl
      | ⟨1, _⟩ => rfl
      | ⟨2, _⟩ => rfl
  show X ((cfg0.win 3).xinj (grid0.coords t) y) = G (((cfg0.win 3).blk t).view.emb y)
  rw [hx]
  refine (h _ _ _).trans ?_
  refine congrArg G (funext fun a => Fin.ext ?_)
  match a with
  | ⟨0, _⟩ => show t.val / 32 = win0_3.index t (0 : Fin 3) * 1 + 1 * (y 0).val; omega
  | ⟨1, _⟩ => show 0 = win0_3.index t (1 : Fin 3) * 1 + 1 * (y 1).val; omega
  | ⟨2, _⟩ => show (y 2).val = win0_3.index t (2 : Fin 3) * 8 + 1 * (y 2).val; omega

/-- What a last tile's point writes back of window 3 is its block of the array-level sums. -/
theorem flushed0_3_eq (c : Dev nD) (t : Fin cfg0.N) (hf : (cfg0.win 3).flush t = true) :
    (dat0 V c).flushed 3 t = ((cfg0.win 3).blk t).view.read (Elt Ideal) (statsSum (V c (Pipeline.arrRef spec0 0)) (V c (Pipeline.arrRef spec0 1)) (V c (Pipeline.arrRef spec0 2))) := by
  have h1 : t.val % 32 = 31 := (flush0_3 t).mp hf
  show (cfg0.win 3).cut (grid0.coords t) ((dat0 V c).after 3 t) = _
  rw [after0_3]
  exact row_block0_3 (statsSum (V c (Pipeline.arrRef spec0 0)) (V c (Pipeline.arrRef spec0 1)) (V c (Pipeline.arrRef spec0 2))) _ t (fun u u' o => lastSum V c t h1 u u' o)

/-- An index of the array is in point `t`'s block of window 3 iff each coordinate is in the block's range. -/
theorem mem_blk0_3 (t : Fin cfg0.N) (i : S4x1x8.Idx) :
    i ∈ ((cfg0.win 3).blk t).view.set ↔ ∀ a : Fin 3, win0_3.index t a * S1x1x8.size a ≤ (i a).val
      ∧ (i a).val < win0_3.index t a * S1x1x8.size a + S1x1x8.size a := by
  show i ∈ ((View.whole main_v24_0).slice (win0_3.rect t)).set ↔ _
  rw [View.set_slice_whole, Rect.mem_set_unit]
  exact Iff.rfl

/-- Row `bb` of the array is the block of the batch's last tile, point `bb · 32 + 31`, which writes back. -/
theorem covered0_3 (i : S4x1x8.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8 := (i 2).isLt
  have hN : cfg0.N = 128 := N_0
  obtain ⟨t, ht⟩ : ∃ t : Fin cfg0.N, t.val = (i 0).val * 32 + 31 :=
    ⟨⟨(i 0).val * 32 + 31, by rw [hN]; omega⟩, rfl⟩
  obtain ⟨e30, e31, e32, e40, e41, e42⟩ := idx_facts0_out t
  refine ⟨t, (flush0_3 t).mpr (by omega), ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8 ≤ (i 2).val ∧ (i 2).val < win0_3.index t (2 : Fin 3) * 8 + 8; omega

/-- Window 3's array after the region. -/
theorem final0_3 (c : Dev nD) :
    (dat0 V c).arrAt 3 cfg0.N = statsSum (V c (Pipeline.arrRef spec0 0)) (V c (Pipeline.arrRef spec0 1)) (V c (Pipeline.arrRef spec0 2)) :=
  (dat0 V c).arrAt_eq_of_cover 3 (statsSum (V c (Pipeline.arrRef spec0 0)) (V c (Pipeline.arrRef spec0 1)) (V c (Pipeline.arrRef spec0 2))) (fun t hf => flushed0_3_eq V c t hf) covered0_3

/-! ## Window 4: the per-batch sums of their squares -/

/-- A block whose every entry `(·, ·, o)` is entry `(t / 32, 0, o)` of an array-level function `G` is point `t`'s
    block of `G`: the block is row `t / 32` of the array. (`G` is kept a variable: nothing here looks inside it.) -/
theorem row_block0_4 (G : S4x1x8.Idx → EReal) (X : Vec Ideal S1x1x8 .f32) (t : Fin cfg0.N)
    (h : ∀ (u u' : Fin 1) (o : Fin 8), X (ix3 u u' o) = G (ix3 (⟨t.val / 32, by have := point0_lt t; omega⟩ : Fin 4) (0 : Fin 1) o)) :
    (cfg0.win 4).cut (grid0.coords t) X = ((cfg0.win 4).blk t).view.read (Elt Ideal) G := by
  obtain ⟨e30, e31, e32, e40, e41, e42⟩ := idx_facts0_out t
  funext y
  have hy0 : (y 0).val < 1 := (y 0).isLt
  have hy1 : (y 1).val < 1 := (y 1).isLt
  have hy2 : (y 2).val < 8 := (y 2).isLt
  have hx : (cfg0.win 4).xinj (grid0.coords t) y = ix3 (⟨(y 0).val, hy0⟩ : Fin 1) (⟨(y 1).val, hy1⟩ : Fin 1) (⟨(y 2).val, hy2⟩ : Fin 8) :=
    funext fun a => by
      match a with
      | ⟨0, _⟩ => rfl
      | ⟨1, _⟩ => rfl
      | ⟨2, _⟩ => rfl
  show X ((cfg0.win 4).xinj (grid0.coords t) y) = G (((cfg0.win 4).blk t).view.emb y)
  rw [hx]
  refine (h _ _ _).trans ?_
  refine congrArg G (funext fun a => Fin.ext ?_)
  match a with
  | ⟨0, _⟩ => show t.val / 32 = win0_4.index t (0 : Fin 3) * 1 + 1 * (y 0).val; omega
  | ⟨1, _⟩ => show 0 = win0_4.index t (1 : Fin 3) * 1 + 1 * (y 1).val; omega
  | ⟨2, _⟩ => show (y 2).val = win0_4.index t (2 : Fin 3) * 8 + 1 * (y 2).val; omega

/-- What a last tile's point writes back of window 4 is its block of the array-level sums. -/
theorem flushed0_4_eq (c : Dev nD) (t : Fin cfg0.N) (hf : (cfg0.win 4).flush t = true) :
    (dat0 V c).flushed 4 t = ((cfg0.win 4).blk t).view.read (Elt Ideal) (statsSq (V c (Pipeline.arrRef spec0 0)) (V c (Pipeline.arrRef spec0 1)) (V c (Pipeline.arrRef spec0 2))) := by
  have h1 : t.val % 32 = 31 := (flush0_4 t).mp hf
  show (cfg0.win 4).cut (grid0.coords t) ((dat0 V c).after 4 t) = _
  rw [after0_4]
  exact row_block0_4 (statsSq (V c (Pipeline.arrRef spec0 0)) (V c (Pipeline.arrRef spec0 1)) (V c (Pipeline.arrRef spec0 2))) _ t (fun u u' o => lastSq V c t h1 u u' o)

/-- An index of the array is in point `t`'s block of window 4 iff each coordinate is in the block's range. -/
theorem mem_blk0_4 (t : Fin cfg0.N) (i : S4x1x8.Idx) :
    i ∈ ((cfg0.win 4).blk t).view.set ↔ ∀ a : Fin 3, win0_4.index t a * S1x1x8.size a ≤ (i a).val
      ∧ (i a).val < win0_4.index t a * S1x1x8.size a + S1x1x8.size a := by
  show i ∈ ((View.whole main_v24_1).slice (win0_4.rect t)).set ↔ _
  rw [View.set_slice_whole, Rect.mem_set_unit]
  exact Iff.rfl

/-- Row `bb` of the array is the block of the batch's last tile, point `bb · 32 + 31`, which writes back. -/
theorem covered0_4 (i : S4x1x8.Idx) :
    ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 8 := (i 2).isLt
  have hN : cfg0.N = 128 := N_0
  obtain ⟨t, ht⟩ : ∃ t : Fin cfg0.N, t.val = (i 0).val * 32 + 31 :=
    ⟨⟨(i 0).val * 32 + 31, by rw [hN]; omega⟩, rfl⟩
  obtain ⟨e30, e31, e32, e40, e41, e42⟩ := idx_facts0_out t
  refine ⟨t, (flush0_4 t).mpr (by omega), ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 8 ≤ (i 2).val ∧ (i 2).val < win0_4.index t (2 : Fin 3) * 8 + 8; omega

/-- Window 4's array after the region. -/
theorem final0_4 (c : Dev nD) :
    (dat0 V c).arrAt 4 cfg0.N = statsSq (V c (Pipeline.arrRef spec0 0)) (V c (Pipeline.arrRef spec0 1)) (V c (Pipeline.arrRef spec0 2)) :=
  (dat0 V c).arrAt_eq_of_cover 4 (statsSq (V c (Pipeline.arrRef spec0 0)) (V c (Pipeline.arrRef spec0 1)) (V c (Pipeline.arrRef spec0 2))) (fun t hf => flushed0_4_eq V c t hf) covered0_4

end Cert.KernelIdeal.Hand

end
-- ==== Proof.KI.ApplyValue.lean ====
import proofs.«173522_j70901320122520_2_alg».proof.Proof.KI.ApplyFeat
import proofs.«173522_j70901320122520_2_alg».proof.Proof.KI.Apply

/-!
# The second kernel's two blocks, read at an index, over the extended reals

At lane `j` of a block the six coordinates are the coordinate block's entries `(0, d, j)`, `d < 6`. The
body leaves in window 5's buffer, at `(0, o, j)`, plane `o` of those coordinates for the weights and the bias
it was handed (the bias first, the ten weighted features in order, then the leaky rectifier), and in window
4's buffer the neighbour features at channels 0–7 and the same planes at channels 8–15. Widening the
coordinates from bf16 to f32 is the identity on extended reals.
-/

noncomputable section

namespace Cert.KernelIdeal.Hand

open Cert.KernelIdeal Cert.KernelIdeal.Gen Cert.KernelSpec Cert.LaneOps
open Idealize.ShloMosaic Idealize.ShloMosaic.ValueIdx

/-! ## The loads: each reads its whole staging buffer -/

theorem ld0 (x0 : Vec Ideal S1x6x32768 .bf16) : View.ld x0 r1_0 = x0 :=
  View.ld_unit_zero (by funext a; match a with | ⟨0, _⟩ => rfl | ⟨1, _⟩ => rfl | ⟨2, _⟩ => rfl) _ x0
theorem ld1 (x1 : Vec Ideal S1x8x32768 .f32) : View.ld x1 r1_1 = x1 :=
  View.ld_unit_zero (by funext a; match a with | ⟨0, _⟩ => rfl | ⟨1, _⟩ => rfl | ⟨2, _⟩ => rfl) _ x1
theorem ld2 (x2 : Vec Ideal S8x10 .f32) : View.ld x2 r1_2 = x2 :=
  View.ld_unit_zero (by funext a; match a with | ⟨0, _⟩ => rfl | ⟨1, _⟩ => rfl) _ x2
theorem ld3 (x3 : Vec Ideal S8 .f32) : View.ld x3 r1_3 = x3 :=
  View.ld_unit_zero (by funext a; match a with | ⟨0, _⟩ => rfl) _ x3

/-! ## The activated planes

Plane `o` is accumulated across two or three of the body's printed parts: the bias, then the ten weighted
feature rows, then the rectifier. Unfolding the parts' values and reading every vector operation at lane
`j` leaves exactly `plane` of the lane's coordinates. -/

set_option maxHeartbeats 1000000 in
theorem a1_v92_apply (x0 : Vec Ideal S1x6x32768 .bf16) (x2 : Vec Ideal S8x10 .f32) (x3 : Vec Ideal S8 .f32) (j : Fin 32768) :
    a1_v92 x0 x2 x3 (ix1 j) = plane x2 x3 (fun d => x0 (ix3 (0 : Fin 1) d j)) 0 := by
  simp only [a1_v92, a1_v10, a1_v12, a1_v45, a1_v49, a1_v50, ld0, ld2, ld3,
    k1_pay10, k1_pay5, k1_pay7, k1_pay8, k1_pay9, k1_pay5, k1_pay6, shapeCast_self, select_apply, cmpf_apply, addf_apply,
    mulf_apply, broadcast_apply, row_eq, entry2_eq, entry1_eq, pay4_apply]
  rfl

set_option maxHeartbeats 1000000 in
theorem a1_v170_apply (x0 : Vec Ideal S1x6x32768 .bf16) (x2 : Vec Ideal S8x10 .f32) (x3 : Vec Ideal S8 .f32) (j : Fin 32768) :
    a1_v170 x0 x2 x3 (ix1 j) = plane x2 x3 (fun d => x0 (ix3 (0 : Fin 1) d j)) 1 := by
  simp only [a1_v170, a1_v165, a1_v10, a1_v12, a1_v102, a1_v14, a1_v108, a1_v167, ld0, ld2, ld3,
    k1_pay15, k1_pay13, k1_pay5, k1_pay11, k1_pay6, k1_pay12, k1_pay14, k1_pay5, k1_pay6, shapeCast_self, select_apply, cmpf_apply, addf_apply,
    mulf_apply, broadcast_apply, row_eq, entry2_eq, entry1_eq, pay4_apply]
  rfl

set_option maxHeartbeats 1000000 in
theorem a1_v248_apply (x0 : Vec Ideal S1x6x32768 .bf16) (x2 : Vec Ideal S8x10 .f32) (x3 : Vec Ideal S8 .f32) (j : Fin 32768) :
    a1_v248 x0 x2 x3 (ix1 j) = plane x2 x3 (fun d => x0 (ix3 (0 : Fin 1) d j)) 2 := by
  simp only [a1_v248, a1_v10, a1_v12, a1_v222, a1_v14, a1_v224, a1_v226, ld0, ld2, ld3,
    k1_pay19, k1_pay5, k1_pay16, k1_pay6, k1_pay17, k1_pay18, k1_pay5, k1_pay6, shapeCast_self, select_apply, cmpf_apply, addf_apply,
    mulf_apply, broadcast_apply, row_eq, entry2_eq, entry1_eq, pay4_apply]
  rfl

set_option maxHeartbeats 1000000 in
theorem a1_v326_apply (x0 : Vec Ideal S1x6x32768 .bf16) (x2 : Vec Ideal S8x10 .f32) (x3 : Vec Ideal S8 .f32) (j : Fin 32768) :
    a1_v326 x0 x2 x3 (ix1 j) = plane x2 x3 (fun d => x0 (ix3 (0 : Fin 1) d j)) 3 := by
  simp only [a1_v326, a1_v10, a1_v12, a1_v279, a1_v14, a1_v283, a1_v284, ld0, ld2, ld3,
    k1_pay23, k1_pay5, k1_pay20, k1_pay6, k1_pay21, k1_pay22, k1_pay5, k1_pay6, shapeCast_self, select_apply, cmpf_apply, addf_apply,
    mulf_apply, broadcast_apply, row_eq, entry2_eq, entry1_eq, pay4_apply]
  rfl

set_option maxHeartbeats 1000000 in
theorem a1_v404_apply (x0 : Vec Ideal S1x6x32768 .bf16) (x2 : Vec Ideal S8x10 .f32) (x3 : Vec Ideal S8 .f32) (j : Fin 32768) :
    a1_v404 x0 x2 x3 (ix1 j) = plane x2 x3 (fun d => x0 (ix3 (0 : Fin 1) d j)) 4 := by
  simp only [a1_v404, a1_v399, a1_v10, a1_v12, a1_v336, a1_v14, a1_v342, a1_v401, ld0, ld2, ld3,
    k1_pay28, k1_pay26, k1_pay5, k1_pay24, k1_pay6, k1_pay25, k1_pay27, k1_pay5, k1_pay6, shapeCast_self, select_apply, cmpf_apply, addf_apply,
    mulf_apply, broadcast_apply, row_eq, entry2_eq, entry1_eq, pay4_apply]
  rfl

set_option maxHeartbeats 1000000 in
theorem a1_v482_apply (x0 : Vec Ideal S1x6x32768 .bf16) (x2 : Vec Ideal S8x10 .f32) (x3 : Vec Ideal S8 .f32) (j : Fin 32768) :
    a1_v482 x0 x2 x3 (ix1 j) = plane x2 x3 (fun d => x0 (ix3 (0 : Fin 1) d j)) 5 := by
  simp only [a1_v482, a1_v10, a1_v12, a1_v456, a1_v14, a1_v458, a1_v460, ld0, ld2, ld3,
    k1_pay32, k1_pay5, k1_pay29, k1_pay6, k1_pay30, k1_pay31, k1_pay5, k1_pay6, shapeCast_self, select_apply, cmpf_apply, addf_apply,
    mulf_apply, broadcast_apply, row_eq, entry2_eq, entry1_eq, pay4_apply]
  rfl

set_option maxHeartbeats 1000000 in
theorem a1_v560_apply (x0 : Vec Ideal S1x6x32768 .bf16) (x2 : Vec Ideal S8x10 .f32) (x3 : Vec Ideal S8 .f32) (j : Fin 32768) :
    a1_v560 x0 x2 x3 (ix1 j) = plane x2 x3 (fun d => x0 (ix3 (0 : Fin 1) d j)) 6 := by
  simp only [a1_v560, a1_v10, a1_v12, a1_v513, a1_v14, a1_v517, a1_v518, ld0, ld2, ld3,
    k1_pay36, k1_pay5, k1_pay33, k1_pay6, k1_pay34, k1_pay35, k1_pay5, k1_pay6, shapeCast_self, select_apply, cmpf_apply, addf_apply,
    mulf_apply, broadcast_apply, row_eq, entry2_eq, entry1_eq, pay4_apply]
  rfl

set_option maxHeartbeats 1000000 in
/-- The last plane's rectifier is applied where the planes are stacked: here it is with the plane's raw value
    and mask. -/
theorem a1_v638_apply (x0 : Vec Ideal S1x6x32768 .bf16) (x2 : Vec Ideal S8x10 .f32) (x3 : Vec Ideal S8 .f32) (j : Fin 32768) :
    (select (a1_v635 x0 x2 x3) (a1_v633 x0 x2 x3)
        (mulf (broadcast S32768 (Scalar.ofBits .f32 0x3E4CCCCD#32)) (a1_v633 x0 x2 x3)) : FVec Ideal S32768 .f32) (ix1 j)
      = plane x2 x3 (fun d => x0 (ix3 (0 : Fin 1) d j)) 7 := by
  simp only [a1_v633, a1_v10, a1_v12, a1_v570, a1_v14, a1_v576, a1_v635, ld0, ld2, ld3,
    k1_pay39, k1_pay5, k1_pay37, k1_pay6, k1_pay38, k1_pay40, k1_pay5, k1_pay6, shapeCast_self, select_apply, cmpf_apply, addf_apply,
    mulf_apply, broadcast_apply, row_eq, entry2_eq, entry1_eq, pay4_apply]
  rfl

/-! ## The eight planes stacked, and the two stores -/

set_option maxHeartbeats 2000000 in
/-- The stack of the eight activated planes, read at plane `o`, lane `j`. -/
theorem planes_apply (x0 : Vec Ideal S1x6x32768 .bf16) (x2 : Vec Ideal S8x10 .f32) (x3 : Vec Ideal S8 .f32) (o : Fin 8) (j : Fin 32768) :
    k1_pay1 (a1_v92 x0 x2 x3) (a1_v170 x0 x2 x3) (a1_v248 x0 x2 x3) (a1_v326 x0 x2 x3) (a1_v404 x0 x2 x3) (a1_v482 x0 x2 x3) (a1_v560 x0 x2 x3) (a1_v633 x0 x2 x3) (a1_v635 x0 x2 x3) (ix2 o j)
      = plane x2 x3 (fun d => x0 (ix3 (0 : Fin 1) d j)) o := by
  unfold k1_pay1
  try dsimp only
  match o with
  | ⟨0, _⟩ =>
    refine Eq.trans (concatenate_apply_piece (t := S8x32768) (0 : Fin 2) _ _ (ix2 (⟨0, by omega⟩ : Fin 8) j) 0 (by simp) S1x32768 _ rfl rfl 0 (by rfl)
      (ix2 (0 : Fin 1) j) (lane_agrees (0 : Fin 1) _ j) (by rfl)) ?_
    exact (shapeCast_a_1a_apply _ _ (0 : Fin 1) j).trans (a1_v92_apply x0 x2 x3 j)
  | ⟨1, _⟩ =>
    refine Eq.trans (concatenate_apply_piece (t := S8x32768) (0 : Fin 2) _ _ (ix2 (⟨1, by omega⟩ : Fin 8) j) 1 (by simp) S1x32768 _ rfl rfl 1 (by rfl)
      (ix2 (0 : Fin 1) j) (lane_agrees (0 : Fin 1) _ j) (by rfl)) ?_
    exact (shapeCast_a_1a_apply _ _ (0 : Fin 1) j).trans (a1_v170_apply x0 x2 x3 j)
  | ⟨2, _⟩ =>
    refine Eq.trans (concatenate_apply_piece (t := S8x32768) (0 : Fin 2) _ _ (ix2 (⟨2, by omega⟩ : Fin 8) j) 2 (by simp) S1x32768 _ rfl rfl 2 (by rfl)
      (ix2 (0 : Fin 1) j) (lane_agrees (0 : Fin 1) _ j) (by rfl)) ?_
    exact (shapeCast_a_1a_apply _ _ (0 : Fin 1) j).trans (a1_v248_apply x0 x2 x3 j)
  | ⟨3, _⟩ =>
    refine Eq.trans (concatenate_apply_piece (t := S8x32768) (0 : Fin 2) _ _ (ix2 (⟨3, by omega⟩ : Fin 8) j) 3 (by simp) S1x32768 _ rfl rfl 3 (by rfl)
      (ix2 (0 : Fin 1) j) (lane_agrees (0 : Fin 1) _ j) (by rfl)) ?_
    exact (shapeCast_a_1a_apply _ _ (0 : Fin 1) j).trans (a1_v326_apply x0 x2 x3 j)
  | ⟨4, _⟩ =>
    refine Eq.trans (concatenate_apply_piece (t := S8x32768) (0 : Fin 2) _ _ (ix2 (⟨4, by omega⟩ : Fin 8) j) 4 (by simp) S1x32768 _ rfl rfl 4 (by rfl)
      (ix2 (0 : Fin 1) j) (lane_agrees (0 : Fin 1) _ j) (by rfl)) ?_
    exact (shapeCast_a_1a_apply _ _ (0 : Fin 1) j).trans (a1_v404_apply x0 x2 x3 j)
  | ⟨5, _⟩ =>
    refine Eq.trans (concatenate_apply_piece (t := S8x32768) (0 : Fin 2) _ _ (ix2 (⟨5, by omega⟩ : Fin 8) j) 5 (by simp) S1x32768 _ rfl rfl 5 (by rfl)
      (ix2 (0 : Fin 1) j) (lane_agrees (0 : Fin 1) _ j) (by rfl)) ?_
    exact (shapeCast_a_1a_apply _ _ (0 : Fin 1) j).trans (a1_v482_apply x0 x2 x3 j)
  | ⟨6, _⟩ =>
    refine Eq.trans (concatenate_apply_piece (t := S8x32768) (0 : Fin 2) _ _ (ix2 (⟨6, by omega⟩ : Fin 8) j) 6 (by simp) S1x32768 _ rfl rfl 6 (by rfl)
      (ix2 (0 : Fin 1) j) (lane_agrees (0 : Fin 1) _ j) (by rfl)) ?_
    exact (shapeCast_a_1a_apply _ _ (0 : Fin 1) j).trans (a1_v560_apply x0 x2 x3 j)
  | ⟨7, _⟩ =>
    refine Eq.trans (concatenate_apply_piece (t := S8x32768) (0 : Fin 2) _ _ (ix2 (⟨7, by omega⟩ : Fin 8) j) 7 (by simp) S1x32768 _ rfl rfl 7 (by rfl)
      (ix2 (0 : Fin 1) j) (lane_agrees (0 : Fin 1) _ j) (by rfl)) ?_
    exact (shapeCast_a_1a_apply _ _ (0 : Fin 1) j).trans (a1_v638_apply x0 x2 x3 j)

/-- Window 5's block after the body: plane `o` of the lane's coordinates at `(0, o, j)`. -/
theorem out1_5_apply (x0 : Vec Ideal S1x6x32768 .bf16) (x1 : Vec Ideal S1x8x32768 .f32) (x2 : Vec Ideal S8x10 .f32) (x3 : Vec Ideal S8 .f32)
    (u : Fin 1) (o : Fin 8) (j : Fin 32768) :
    out1_5 x0 x1 x2 x3 (ix3 u o j) = plane x2 x3 (fun d => x0 (ix3 (0 : Fin 1) d j)) o := by
  unfold out1_5
  rw [View.canon_unit_zero (by funext a; match a with | ⟨0, _⟩ => rfl | ⟨1, _⟩ => rfl | ⟨2, _⟩ => rfl)]
  unfold k1_pay3
  try dsimp only
  exact (shapeCast_ab_1ab_apply _ _ u o j).trans (planes_apply x0 x2 x3 o j)

/-- Window 4's block after the body, channels 0–7: the neighbour features, copied. -/
theorem out1_4_apply_lo (x0 : Vec Ideal S1x6x32768 .bf16) (x1 : Vec Ideal S1x8x32768 .f32) (x2 : Vec Ideal S8x10 .f32) (x3 : Vec Ideal S8 .f32)
    (u : Fin 1) (o : Fin 8) (j : Fin 32768) :
    out1_4 x0 x1 x2 x3 (ix3 u (⟨o.val, by omega⟩ : Fin 16) j) = x1 (ix3 (0 : Fin 1) o j) := by
  unfold out1_4
  rw [View.canon_unit_zero (by funext a; match a with | ⟨0, _⟩ => rfl | ⟨1, _⟩ => rfl | ⟨2, _⟩ => rfl)]
  unfold k1_pay2
  try dsimp only
  refine (shapeCast_ab_1ab_apply _ _ u (⟨o.val, by omega⟩ : Fin 16) j).trans ?_
  refine Eq.trans (concatenate_apply_piece (t := S16x32768) (0 : Fin 2) _ _ (ix2 (⟨o.val, by omega⟩ : Fin 16) j) 0 (by simp) S8x32768 _ rfl rfl 0 (by rfl)
    (ix2 o j) (lane_agrees o _ j) (Nat.zero_add _)) ?_
  refine (shapeCast_1ab_ab_apply _ _ o j).trans ?_
  rw [ld1]

/-- Window 4's block after the body, channels 8–15: the activated planes. -/
theorem out1_4_apply_hi (x0 : Vec Ideal S1x6x32768 .bf16) (x1 : Vec Ideal S1x8x32768 .f32) (x2 : Vec Ideal S8x10 .f32) (x3 : Vec Ideal S8 .f32)
    (u : Fin 1) (o : Fin 8) (j : Fin 32768) :
    out1_4 x0 x1 x2 x3 (ix3 u (⟨8 + o.val, by omega⟩ : Fin 16) j) = plane x2 x3 (fun d => x0 (ix3 (0 : Fin 1) d j)) o := by
  unfold out1_4
  rw [View.canon_unit_zero (by funext a; match a with | ⟨0, _⟩ => rfl | ⟨1, _⟩ => rfl | ⟨2, _⟩ => rfl)]
  unfold k1_pay2
  try dsimp only
  refine (shapeCast_ab_1ab_apply _ _ u (⟨8 + o.val, by omega⟩ : Fin 16) j).trans ?_
  refine Eq.trans (concatenate_apply_piece (t := S16x32768) (0 : Fin 2) _ _ (ix2 (⟨8 + o.val, by omega⟩ : Fin 16) j) 1 (by simp) S8x32768 _ rfl rfl 8 (by rfl)
    (ix2 o j) (lane_agrees o _ j) (by rfl)) ?_
  exact planes_apply x0 x2 x3 o j

end Cert.KernelIdeal.Hand

end
-- ==== Proof.KI.ApplyArray.lean ====
import proofs.«173522_j70901320122520_2_alg».proof.Proof.KI.ApplyValue
import Idealize.ShloMosaic.Lib.Pipeline.Value

/-!
# The second region's two result arrays, as functions of the arrays it is handed

Point `t` of the 4 x 32 grid is batch `t / 32`, lane tile `t % 32`: the block of a blocked window at `t` is
the array's slab at that batch, all channels, lanes `(t % 32) · 32768 …`; the weights' and the bias's block is
the whole array. So entry `(0, ch, j)` of what the body leaves at `t` sits in the array at
`(t / 32, ch, (t % 32) · 32768 + j)`, and it is the array-level value there (`applyY`, `applyOut` of the entry
arrays). Every point writes both result blocks back, and the blocks tile the arrays, so after the region each
result array is that function everywhere. All of this at the extended reals, for any entry contents `V`.
-/

set_option maxRecDepth 16384

noncomputable section

namespace Cert.KernelIdeal.Hand

open Cert.KernelIdeal Cert.KernelIdeal.Gen Cert.KernelSpec Cert.LaneOps
open Idealize.ShloMosaic Idealize.ShloMosaic.TcCoe Idealize.ShloMosaic.ValueIdx
open Idealize.SL Idealize.SL.Sem
open Idealize.ShloMosaic.Pipeline (Dat Cfg Window)

/-- The printed index maps, decided over the grid: point `t` is batch `t / 32`, lane tile `t % 32` for the four
    blocked windows; the weights and the bias are one block. -/
theorem idx_facts1 : ∀ t : Fin cfg1.N,
    win1_0.index t (0 : Fin 3) = t.val / 32 ∧ win1_0.index t (1 : Fin 3) = 0 ∧ win1_0.index t (2 : Fin 3) = t.val % 32
    ∧ win1_1.index t (0 : Fin 3) = t.val / 32 ∧ win1_1.index t (1 : Fin 3) = 0 ∧ win1_1.index t (2 : Fin 3) = t.val % 32
    ∧ win1_2.index t (0 : Fin 2) = 0 ∧ win1_2.index t (1 : Fin 2) = 0
    ∧ win1_3.index t (0 : Fin 1) = 0
    ∧ win1_4.index t (0 : Fin 3) = t.val / 32 ∧ win1_4.index t (1 : Fin 3) = 0 ∧ win1_4.index t (2 : Fin 3) = t.val % 32
    ∧ win1_5.index t (0 : Fin 3) = t.val / 32 ∧ win1_5.index t (1 : Fin 3) = 0 ∧ win1_5.index t (2 : Fin 3) = t.val % 32 :=
  (by decide +kernel : ∀ t : Fin grid1.N, _)

theorem point_lt (t : Fin cfg1.N) : t.val < 128 := lt_of_lt_of_eq t.isLt N_1

variable (V : (c : Dev nD) → (b : Ref sig .tc) → Buf (Elt Ideal) ((c : Thread nD τ).loc b))

/-- The coordinate block at point `t`: entry `(0, d, j)` is the array at batch `t / 32`, lane `(t % 32) · 32768 + j`. -/
theorem iblk1_0_apply (c : Dev nD) (t : Fin cfg1.N) (d : Fin 6) (j : Fin 32768) :
    iblk1 V c 0 t (ix3 (0 : Fin 1) d j)
      = V c (Pipeline.arrRef spec1 0) (ix3 (⟨t.val / 32, by have := point_lt t; omega⟩ : Fin 4) d
          (⟨t.val % 32 * 32768 + j.val, by have := j.isLt; omega⟩ : Fin 1048576)) := by
  obtain ⟨e0, e1, e2, -⟩ := idx_facts1 t
  show V c (Pipeline.arrRef spec1 0) (((cfg1.win 0).blk t).view.emb (ix3 (0 : Fin 1) d j)) = _
  refine congrArg _ (funext fun a => Fin.ext ?_)
  match a with
  | ⟨0, _⟩ => show win1_0.index t (0 : Fin 3) * 1 + 1 * 0 = t.val / 32; omega
  | ⟨1, _⟩ => show win1_0.index t (1 : Fin 3) * 6 + 1 * d.val = d.val; omega
  | ⟨2, _⟩ => show win1_0.index t (2 : Fin 3) * 32768 + 1 * j.val = t.val % 32 * 32768 + j.val; omega

/-- The neighbour feature block at point `t`. -/
theorem iblk1_1_apply (c : Dev nD) (t : Fin cfg1.N) (d : Fin 8) (j : Fin 32768) :
    iblk1 V c 1 t (ix3 (0 : Fin 1) d j)
      = V c (Pipeline.arrRef spec1 1) (ix3 (⟨t.val / 32, by have := point_lt t; omega⟩ : Fin 4) d
          (⟨t.val % 32 * 32768 + j.val, by have := j.isLt; omega⟩ : Fin 1048576)) := by
  obtain ⟨-, -, -, e0, e1, e2, -⟩ := idx_facts1 t
  show V c (Pipeline.arrRef spec1 1) (((cfg1.win 1).blk t).view.emb (ix3 (0 : Fin 1) d j)) = _
  refine congrArg _ (funext fun a => Fin.ext ?_)
  match a with
  | ⟨0, _⟩ => show win1_1.index t (0 : Fin 3) * 1 + 1 * 0 = t.val / 32; omega
  | ⟨1, _⟩ => show win1_1.index t (1 : Fin 3) * 8 + 1 * d.val = d.val; omega
  | ⟨2, _⟩ => show win1_1.index t (2 : Fin 3) * 32768 + 1 * j.val = t.val % 32 * 32768 + j.val; omega

/-- The weights' block is the whole array at every point. -/
theorem iblk1_2_apply (c : Dev nD) (t : Fin cfg1.N) (o : Fin 8) (cc : Fin 10) :
    iblk1 V c 2 t (ix2 o cc) = V c (Pipeline.arrRef spec1 2) (ix2 o cc) := by
  obtain ⟨-, -, -, -, -, -, e0, e1, -⟩ := idx_facts1 t
  show V c (Pipeline.arrRef spec1 2) (((cfg1.win 2).blk t).view.emb (ix2 o cc)) = _
  refine congrArg _ (funext fun a => Fin.ext ?_)
  match a with
  | ⟨0, _⟩ => show win1_2.index t (0 : Fin 2) * 8 + 1 * o.val = o.val; omega
  | ⟨1, _⟩ => show win1_2.index t (1 : Fin 2) * 10 + 1 * cc.val = cc.val; omega

/-- So is the bias's. -/
theorem iblk1_3_apply (c : Dev nD) (t : Fin cfg1.N) (o : Fin 8) :
    iblk1 V c 3 t (ix1 o) = V c (Pipeline.arrRef spec1 3) (ix1 o) := by
  obtain ⟨-, -, -, -, -, -, -, -, e0, -⟩ := idx_facts1 t
  show V c (Pipeline.arrRef spec1 3) (((cfg1.win 3).blk t).view.emb (ix1 o)) = _
  refine congrArg _ (funext fun a => Fin.ext ?_)
  match a with
  | ⟨0, _⟩ => show win1_3.index t (0 : Fin 1) * 8 + 1 * o.val = o.val; omega

/-- A plane depends on the weights' row `o`, the bias's entry `o` and the lane's coordinates only. -/
theorem plane_congr {w w' : (⟨2, ![8, 10]⟩ : Shape).Idx → EReal} {b b' : (⟨1, ![8]⟩ : Shape).Idx → EReal} {p p' : Fin 6 → EReal}
    {o : Fin 8} (hw : ∀ cc, w (ix2 o cc) = w' (ix2 o cc)) (hb : b (ix1 o) = b' (ix1 o)) (hp : ∀ d, p d = p' d) :
    plane w b p o = plane w' b' p' o := by
  unfold plane
  rw [show (fun c => w (ix2 o c)) = fun c => w' (ix2 o c) from funext hw, hb, show p = p' from funext hp]

/-- What the body leaves in window 5's buffer at point `t`, entry by entry, is the array-level plane at the
    entry's place in the array. -/
theorem point1_5 (c : Dev nD) (t : Fin cfg1.N) (u : Fin 1) (o : Fin 8) (j : Fin 32768) :
    out1_5 (iblk1 V c 0 t) (iblk1 V c 1 t) (iblk1 V c 2 t) (iblk1 V c 3 t) (ix3 u o j)
      = applyY (V c (Pipeline.arrRef spec1 0)) (V c (Pipeline.arrRef spec1 2)) (V c (Pipeline.arrRef spec1 3))
          (ix3 (⟨t.val / 32, by have := point_lt t; omega⟩ : Fin 4) o
            (⟨t.val % 32 * 32768 + j.val, by have := j.isLt; omega⟩ : Fin 1048576)) := by
  refine (out1_5_apply (iblk1 V c 0 t) (iblk1 V c 1 t) (iblk1 V c 2 t) (iblk1 V c 3 t) u o j).trans ?_
  rw [applyY_ix3]
  unfold applyYAt
  exact plane_congr (fun cc => iblk1_2_apply V c t o cc) (iblk1_3_apply V c t o) (fun d => iblk1_0_apply V c t d j)

/-! ## Window 5: the eight activated planes -/

/-- What point `t` writes back of window 5 is block `t` of the array-level planes. -/
theorem flushed1_5_eq (c : Dev nD) (t : Fin cfg1.N) :
    (dat1 V c).flushed 5 t = ((cfg1.win 5).blk t).view.read (Elt Ideal) (applyY (V c (Pipeline.arrRef spec1 0)) (V c (Pipeline.arrRef spec1 2)) (V c (Pipeline.arrRef spec1 3))) := by
  show (cfg1.win 5).cut (grid1.coords t) ((dat1 V c).after 5 t) = _
  rw [after1_5]
  obtain ⟨-, -, -, -, -, -, -, -, -, -, -, -, e0, e1, e2⟩ := idx_facts1 t
  funext y
  have hy0 : (y 0).val < 1 := (y 0).isLt
  have hy1 : (y 1).val < 8 := (y 1).isLt
  have hy2 : (y 2).val < 32768 := (y 2).isLt
  have hx : (cfg1.win 5).xinj (grid1.coords t) y = ix3 (⟨(y 0).val, hy0⟩ : Fin 1) (⟨(y 1).val, hy1⟩ : Fin 8) (⟨(y 2).val, hy2⟩ : Fin 32768) :=
    funext fun a => by
      match a with
      | ⟨0, _⟩ => rfl
      | ⟨1, _⟩ => rfl
      | ⟨2, _⟩ => rfl
  show out1_5 (iblk1 V c 0 t) (iblk1 V c 1 t) (iblk1 V c 2 t) (iblk1 V c 3 t) ((cfg1.win 5).xinj (grid1.coords t) y)
    = applyY (V c (Pipeline.arrRef spec1 0)) (V c (Pipeline.arrRef spec1 2)) (V c (Pipeline.arrRef spec1 3)) (((cfg1.win 5).blk t).view.emb y)
  rw [hx]
  refine (point1_5 V c t _ _ _).trans ?_
  refine congrArg _ (funext fun a => Fin.ext ?_)
  match a with
  | ⟨0, _⟩ => show t.val / 32 = win1_5.index t (0 : Fin 3) * 1 + 1 * (y 0).val; omega
  | ⟨1, _⟩ => show (y 1).val = win1_5.index t (1 : Fin 3) * 8 + 1 * (y 1).val; omega
  | ⟨2, _⟩ => show t.val % 32 * 32768 + (y 2).val = win1_5.index t (2 : Fin 3) * 32768 + 1 * (y 2).val; omega

/-- An index of the array is in point `t`'s block of window 5 iff each coordinate is in the block's range. -/
theorem mem_blk1_5 (t : Fin cfg1.N) (i : S4x8x1048576.Idx) :
    i ∈ ((cfg1.win 5).blk t).view.set ↔ ∀ a : Fin 3, win1_5.index t a * S1x8x32768.size a ≤ (i a).val
      ∧ (i a).val < win1_5.index t a * S1x8x32768.size a + S1x8x32768.size a := by
  show i ∈ ((View.whole main_v46_1).slice (win1_5.rect t)).set ↔ _
  rw [View.set_slice_whole, Rect.mem_set_unit]
  exact Iff.rfl

/-- Every index of window 5's array is in the block of the point of its batch and lane tile, which writes back. -/
theorem covered1_5 (i : S4x8x1048576.Idx) :
    ∃ t : Fin cfg1.N, (cfg1.win 5).flush t = true ∧ i ∈ ((cfg1.win 5).blk t).view.set := by
  have h0 : (i 0).val < 4 := (i 0).isLt
  have h1 : (i 1).val < 8 := (i 1).isLt
  have h2 : (i 2).val < 1048576 := (i 2).isLt
  have hN : cfg1.N = 128 := N_1
  obtain ⟨t, ht⟩ : ∃ t : Fin cfg1.N, t.val = (i 0).val * 32 + (i 2).val / 32768 :=
    ⟨⟨(i 0).val * 32 + (i 2).val / 32768, by rw [hN]; omega⟩, rfl⟩
  obtain ⟨-, -, -, -, -, -, -, -, -, -, -, -, e0, e1, e2⟩ := idx_facts1 t
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 8 ≤ (i 1).val ∧ (i 1).val < win1_5.index t (1 : Fin 3) * 8 + 8; omega
  | ⟨2, _⟩ => show win1_5.index t (2 : Fin 3) * 32768 ≤ (i 2).val ∧ (i 2).val < win1_5.index t (2 : Fin 3) * 32768 + 32768; omega

/-- Window 5's array after the region: the eight activated planes of the coordinate array, for the weights and
    bias arrays the region was handed. -/
theorem final1_5 (c : Dev nD) :
    (dat1 V c).arrAt 5 cfg1.N = applyY (V c (Pipeline.arrRef spec1 0)) (V c (Pipeline.arrRef spec1 2)) (V c (Pipeline.arrRef spec1 3)) :=
  (dat1 V c).arrAt_eq_of_cover 5 _ (fun t _ => flushed1_5_eq V c t) covered1_5

/-! ## Window 4: the neighbour features over the activated planes -/

theorem applyOutAt_lo (a12 : (⟨3, ![4, 6, 1048576]⟩ : Shape).Idx → EReal) (a23 : (⟨3, ![4, 8, 1048576]⟩ : Shape).Idx → EReal)
    (w : (⟨2, ![8, 10]⟩ : Shape).Idx → EReal) (b : (⟨1, ![8]⟩ : Shape).Idx → EReal) (bb : Fin 4) (o : Fin 8) (j : Fin 1048576) :
    applyOutAt a12 a23 w b bb (⟨o.val, by omega⟩ : Fin 16) j = a23 (ix3 bb o j) := by
  unfold applyOutAt
  rw [dif_pos o.isLt]

theorem applyOutAt_hi (a12 : (⟨3, ![4, 6, 1048576]⟩ : Shape).Idx → EReal) (a23 : (⟨3, ![4, 8, 1048576]⟩ : Shape).Idx → EReal)
    (w : (⟨2, ![8, 10]⟩ : Shape).Idx → EReal) (b : (⟨1, ![8]⟩ : Shape).Idx → EReal) (bb : Fin 4) (o : Fin 8) (j : Fin 1048576) :
    applyOutAt a12 a23 w b bb (⟨8 + o.val, by omega⟩ : Fin 16) j = applyYAt a12 w b bb o j := by
  unfold applyOutAt
  rw [dif_neg (by simp : ¬ 8 + o.val < 8)]
  exact congrArg (fun o' => applyYAt a12 w b bb o' j) (Fin.ext (by show 8 + o.val - 8 = o.val; omega))

/-- A channel of the concatenated result is a neighbour feature channel or, eight up, a plane. -/
theorem channel_split (ch : Fin 16) :
    (∃ o : Fin 8, ch = (⟨o.val, by omega⟩ : Fin 16)) ∨ (∃ o : Fin 8, ch = (⟨8 + o.val, by omega⟩ : Fin 16)) := by
  by_cases h : ch.val < 8
  · exact .inl ⟨⟨ch.val, h⟩, rfl⟩
  · exact .inr ⟨⟨ch.val - 8, by omega⟩, Fin.ext (by show ch.val = 8 + (ch.val - 8); omega)⟩

/-- What the body leaves in window 4's buffer at point `t`, entry by entry. -/
theorem point1_4 (c : Dev nD) (t : Fin cfg1.N) (u : Fin 1) (ch : Fin 16) (j : Fin 32768) :
    out1_4 (iblk1 V c 0 t) (iblk1 V c 1 t) (iblk1 V c 2 t) (iblk1 V c 3 t) (ix3 u ch j)
      = applyOut (V c (Pipeline.arrRef spec1 0)) (V c (Pipeline.arrRef spec1 1)) (V c (Pipeline.arrRef spec1 2)) (V c (Pipeline.arrRef spec1 3))
          (ix3 (⟨t.val / 32, by have := point_lt t; omega⟩ : Fin 4) ch
            (⟨t.val % 32 * 32768 + j.val, by have := j.isLt; omega⟩ : Fin 1048576)) := by
  rw [applyOut_ix3]
  rcases channel_split ch with ⟨o, rfl⟩ | ⟨o, rfl⟩
  · rw [applyOutAt_lo]
    exact (out1_4_apply_lo (iblk1 V c 0 t) (iblk1 V c 1 t) (iblk1 V c 2 t) (iblk1 V c 3 t) u o j).trans
      (iblk1_1_apply V c t o j)
  · rw [applyOutAt_hi]
    refine (out1_4_apply_hi (iblk1 V c 0 t) (iblk1 V c 1 t) (iblk1 V c 2 t) (iblk1 V c 3 t) u o j).trans ?_
    unfold applyYAt
    exact plane_congr (fun cc => iblk1_2_apply V c t o cc) (iblk1_3_apply V c t o) (fun d => iblk1_0_apply V c t d j)

/-- What point `t` writes back of window 4 is block `t` of the array-level result. -/
theorem flushed1_4_eq (c : Dev nD) (t : Fin cfg1.N) :
    (dat1 V c).flushed 4 t = ((cfg1.win 4).blk t).view.read (Elt Ideal) (applyOut (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  obtain ⟨-, -, -, -, -, -, -, -, -, e0, e1, e2, -⟩ := idx_facts1 t
  funext y
  have hy0 : (y 0).val < 1 := (y 0).isLt
  have hy1 : (y 1).val < 16 := (y 1).isLt
  have hy2 : (y 2).val < 32768 := (y 2).isLt
  have hx : (cfg1.win 4).xinj (grid1.coords t) y = ix3 (⟨(y 0).val, hy0⟩ : Fin 1) (⟨(y 1).val, hy1⟩ : Fin 16) (⟨(y 2).val, hy2⟩ : Fin 32768) :=
    funext fun a => by
      match a with
      | ⟨0, _⟩ => rfl
      | ⟨1, _⟩ => rfl
      | ⟨2, _⟩ => rfl
  show out1_4 (iblk1 V c 0 t) (iblk1 V c 1 t) (iblk1 V c 2 t) (iblk1 V c 3 t) ((cfg1.win 4).xinj (grid1.coords t) y)
    = applyOut (V c (Pipeline.arrRef spec1 0)) (V c (Pipeline.arrRef spec1 1)) (V c (Pipeline.arrRef spec1 2)) (V c (Pipeline.arrRef spec1 3)) (((cfg1.win 4).blk t).view.emb y)
  rw [hx]
  refine (point1_4 V c t _ _ _).trans ?_
  refine congrArg _ (funext fun a => Fin.ext ?_)
  match a with
  | ⟨0, _⟩ => show t.val / 32 = win1_4.index t (0 : Fin 3) * 1 + 1 * (y 0).val; omega
  | ⟨1, _⟩ => show (y 1).val = win1_4.index t (1 : Fin 3) * 16 + 1 * (y 1).val; omega
  | ⟨2, _⟩ => show t.val % 32 * 32768 + (y 2).val = win1_4.index t (2 : Fin 3) * 32768 + 1 * (y 2).val; omega

theorem mem_blk1_4 (t : Fin cfg1.N) (i : S4x16x1048576.Idx) :
    i ∈ ((cfg1.win 4).blk t).view.set ↔ ∀ a : Fin 3, win1_4.index t a * S1x16x32768.size a ≤ (i a).val
      ∧ (i a).val < win1_4.index t a * S1x16x32768.size a + S1x16x32768.size a := by
  show i ∈ ((View.whole main_v46_0).slice (win1_4.rect t)).set ↔ _
  rw [View.set_slice_whole, Rect.mem_set_unit]
  exact Iff.rfl

theorem covered1_4 (i : S4x16x1048576.Idx) :
    ∃ t : Fin cfg1.N, (cfg1.win 4).flush t = true ∧ i ∈ ((cfg1.win 4).blk t).view.set := by
  have h0 : (i 0).val < 4 := (i 0).isLt
  have h1 : (i 1).val < 16 := (i 1).isLt
  have h2 : (i 2).val < 1048576 := (i 2).isLt
  have hN : cfg1.N = 128 := N_1
  obtain ⟨t, ht⟩ : ∃ t : Fin cfg1.N, t.val = (i 0).val * 32 + (i 2).val / 32768 :=
    ⟨⟨(i 0).val * 32 + (i 2).val / 32768, by rw [hN]; omega⟩, rfl⟩
  obtain ⟨-, -, -, -, -, -, -, -, -, e0, e1, e2, -⟩ := idx_facts1 t
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 16 ≤ (i 1).val ∧ (i 1).val < win1_4.index t (1 : Fin 3) * 16 + 16; omega
  | ⟨2, _⟩ => show win1_4.index t (2 : Fin 3) * 32768 ≤ (i 2).val ∧ (i 2).val < win1_4.index t (2 : Fin 3) * 32768 + 32768; omega

/-- Window 4's array after the region: the neighbour feature array's channels, then the eight activated planes. -/
theorem final1_4 (c : Dev nD) :
    (dat1 V c).arrAt 4 cfg1.N = applyOut (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_4_eq V c t) covered1_4

end Cert.KernelIdeal.Hand

end
-- ==== Proof.RefSpec.lean ====
/-
  The reference's two results, element by element over the extended reals, as functions of its arguments.

  Local spatial encoding of a point cloud. For batch `b`, point `n` and neighbour slot `k`: the relative position
  `rel` of the point to its `k`-th neighbour, its Euclidean length `dist`, the point and the neighbour are laid side
  by side (ten features, `feat`), mixed by a linear map from ten to eight channels with a bias (`yraw`), normalised
  per channel by the biased statistics over every (b, n, k) (`mean`, `var`, `scale`), scaled and shifted (`norm`), and
  passed through a leaky rectifier (`act`). The first result (`out`) lays the neighbours' eight gathered feature
  channels before the eight activations, channel-first; the second (`yout`) is the activations, channel-first.

  The two gathers — the neighbours' coordinates `nbc` and the neighbours' features `nf` — are taken as given arrays.
  The sums over (b, n, k) are iterated finite sums; the sum over the ten features is a finite sum over `Fin 10` of a
  ten-entry vector. Every float constant is the extended real its word denotes, left unevaluated; the zero each sum
  starts from is written `0`.
-/
import Idealize.ShloMosaic.PureOps.Ideal
import Idealize.ShloMosaic.Lib.ValueIdx

noncomputable section

open scoped BigOperators

namespace Cert.RefSpec

open Idealize.ShloMosaic Idealize.ShloMosaic.ValueIdx

/-- Point coordinates, [4, 65536, 3]. -/
abbrev Coords : Type := FVec Ideal ⟨3, ![4, 65536, 3]⟩ .f32
/-- Neighbour coordinates (the first gather), [4, 65536, 16, 3]. -/
abbrev NbCoords : Type := FVec Ideal ⟨4, ![4, 65536, 16, 3]⟩ .f32
/-- Neighbour features (the second gather), [4, 65536, 16, 8]. -/
abbrev NbFeats : Type := FVec Ideal ⟨4, ![4, 65536, 16, 8]⟩ .f32
/-- The linear map's matrix, [8, 10] (output channel, feature). -/
abbrev Weights : Type := FVec Ideal ⟨2, ![8, 10]⟩ .f32
/-- One value per output channel, [8]. -/
abbrev Chan : Type := FVec Ideal ⟨1, ![8]⟩ .f32

/-- The number of (b, n, k) triples, 4 · 65536 · 16 = 2²², as the reference's divisor writes it. -/
def count : EReal := Ideal.ofBits .f32 0x4A800000#32
/-- The variance's regulariser. -/
def eps : EReal := Ideal.ofBits .f32 0x358637BD#32
/-- The rectifier's slope on the negative side. -/
def slope : EReal := Ideal.ofBits .f32 0x3E4CCCCD#32

section
variable (x : Coords) (nbc : NbCoords) (nf : NbFeats) (w : Weights) (bias gamma beta : Chan)

/-- The point less its `k`-th neighbour, coordinate `d`. -/
def rel (b : Fin 4) (n : Fin 65536) (k : Fin 16) (d : Fin 3) : EReal :=
  x (ix3 b n d) - nbc (ix4 b n k d)

/-- The Euclidean length of `rel`. -/
def dist (b : Fin 4) (n : Fin 65536) (k : Fin 16) : EReal :=
  Ideal.sqrt (0 + ∑ d : Fin 3, rel x nbc b n k d * rel x nbc b n k d)

/-- The ten features: the length, the relative position, the point, the neighbour. -/
def feat (b : Fin 4) (n : Fin 65536) (k : Fin 16) : Fin 10 → EReal :=
  ![dist x nbc b n k,
    rel x nbc b n k 0, rel x nbc b n k 1, rel x nbc b n k 2,
    x (ix3 b n 0), x (ix3 b n 1), x (ix3 b n 2),
    nbc (ix4 b n k 0), nbc (ix4 b n k 1), nbc (ix4 b n k 2)]

/-- The linear map with its bias, before normalisation. -/
def yraw (b : Fin 4) (n : Fin 65536) (k : Fin 16) (o : Fin 8) : EReal :=
  (∑ c : Fin 10, feat x nbc b n k c * w (ix2 o c)) + bias (ix1 o)

/-- Channel `o`'s mean over every (b, n, k). -/
def mean (o : Fin 8) : EReal :=
  Ideal.div (0 + ∑ b : Fin 4, ∑ n : Fin 65536, ∑ k : Fin 16, yraw x nbc w bias b n k o) count

/-- Channel `o`'s biased variance over every (b, n, k). -/
def var (o : Fin 8) : EReal :=
  Ideal.div (0 + ∑ b : Fin 4, ∑ n : Fin 65536, ∑ k : Fin 16,
    (yraw x nbc w bias b n k o - mean x nbc w bias o) * (yraw x nbc w bias b n k o - mean x nbc w bias o)) count

/-- The reciprocal standard deviation, regularised. -/
def scale (o : Fin 8) : EReal :=
  Ideal.rsqrt (var x nbc w bias o + eps)

/-- The normalised value, scaled by `gamma` and shifted by `beta`. -/
def norm (b : Fin 4) (n : Fin 65536) (k : Fin 16) (o : Fin 8) : EReal :=
  gamma (ix1 o) * (yraw x nbc w bias b n k o - mean x nbc w bias o) * scale x nbc w bias o + beta (ix1 o)

/-- The leaky rectifier of `norm`. -/
def act (b : Fin 4) (n : Fin 65536) (k : Fin 16) (o : Fin 8) : EReal :=
  if 0 ≤ norm x nbc w bias gamma beta b n k o then norm x nbc w bias gamma beta b n k o
  else slope * norm x nbc w bias gamma beta b n k o

/-- The first result at (b, channel, n, k): a neighbour feature below channel 8, an activation from 8 on. -/
def outAt (b : Fin 4) (ch : Fin 16) (n : Fin 65536) (k : Fin 16) : EReal :=
  if h : ch.val < 8 then nf (ix4 b n k ⟨ch.val, h⟩)
  else act x nbc w bias gamma beta b n k ⟨ch.val - 8, by have := ch.isLt; omega⟩

/-- The first result, [4, 16, 65536, 16]. -/
def out : FVec Ideal ⟨4, ![4, 16, 65536, 16]⟩ .f32 :=
  fun i => outAt x nbc nf w bias gamma beta (i 0) (i 1) (i 2) (i 3)

/-- The second result, [4, 8, 65536, 16]: the activations, channel-first. -/
def yout : FVec Ideal ⟨4, ![4, 8, 65536, 16]⟩ .f32 :=
  fun i => act x nbc w bias gamma beta (i 0) (i 2) (i 3) (i 1)

/-- The first result at an index given by its coordinates. -/
theorem out_apply (b : Fin 4) (ch : Fin 16) (n : Fin 65536) (k : Fin 16) :
    out x nbc nf w bias gamma beta (ix4 b ch n k) = outAt x nbc nf w bias gamma beta b ch n k := rfl

/-- The second result at an index given by its coordinates. -/
theorem yout_apply (b : Fin 4) (o : Fin 8) (n : Fin 65536) (k : Fin 16) :
    yout x nbc w bias gamma beta (ix4 b o n k) = act x nbc w bias gamma beta b n k o := rfl

/-- Below channel 8 the first result is the neighbour feature. -/
theorem outAt_lt (b : Fin 4) (ch : Fin 16) (n : Fin 65536) (k : Fin 16) (h : ch.val < 8) :
    outAt x nbc nf w bias gamma beta b ch n k = nf (ix4 b n k ⟨ch.val, h⟩) := dif_pos h

/-- From channel 8 on the first result is the activation of channel `ch - 8`. -/
theorem outAt_ge (b : Fin 4) (ch : Fin 16) (n : Fin 65536) (k : Fin 16) (h : ¬ch.val < 8) :
    outAt x nbc nf w bias gamma beta b ch n k
      = act x nbc w bias gamma beta b n k ⟨ch.val - 8, by have := ch.isLt; omega⟩ := dif_neg h

end

end Cert.RefSpec

end
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.BNAlgebra.lean ====
/-
  The algebra that joins the two programs, over the real numbers.

  Both programs normalise the same convolution output y (one real number per point of a finite set P and per output
  channel) by its mean and variance over P.  One computes the variance as the mean of the squares minus the square of
  the mean, the other as the mean of the squared deviations; these agree because the sum of y over P is the number of
  points times the mean.  One applies the normalisation's affine map after the convolution, the other folds it into the
  convolution's weights and bias; these agree by distributing the scale over the sum of the ten channel terms.  Every
  quantity here is a real number: the laws used (distributivity, cancelling) fail at the infinities, so the bridge to
  the extended reals first shows that every entry is the coercion of a real.
-/
import proofs.«173522_j70901320122520_2_alg».proof.Proof.LibRealValued
import Idealize.ShloMosaic.PureOps.Ideal
import Mathlib.Tactic.Ring
import Mathlib.Tactic.FieldSimp
import Mathlib.Tactic.Positivity
import Mathlib.Analysis.SpecialFunctions.Pow.Real

noncomputable section

namespace Cert.BNAlgebra

open Idealize.ShloMosaic Cert.RealValued

/-! ## The operations on real entries -/

/-- The quotient of a real by a nonzero real, computed on the extended reals, is the real quotient. -/
theorem div_coe_coe (a : ℝ) {n : ℝ} (hn : n ≠ 0) : Ideal.div (a : EReal) (n : EReal) = ((a / n : ℝ) : EReal) := by
  rw [Ideal.div_coe hn, ← EReal.coe_mul]
  congr 1
  ring

/-- The square root of a nonnegative real. -/
theorem sqrt_coe_nonneg {r : ℝ} (h : 0 ≤ r) : Ideal.sqrt (r : EReal) = ((Real.sqrt r : ℝ) : EReal) := by
  rw [Ideal.sqrt_coe, if_neg (not_lt.mpr h)]

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-! ## The two forms of the variance -/

/-- The mean of the squares minus the square of the mean is the mean of the squared deviations, when the divisor
    is the number of points. -/
theorem var_forms {P : Type} [Fintype P] (y : P → ℝ) (n : ℝ) (hn : n = (Fintype.card P : ℝ)) (hn0 : n ≠ 0) :
    (∑ p, y p * y p) / n - ((∑ p, y p) / n) * ((∑ p, y p) / n)
      = (∑ p, (y p - (∑ q, y q) / n) * (y p - (∑ q, y q) / n)) / n := by
  set s := ∑ q, y q with hs
  have hexp : ∑ p, (y p - s / n) * (y p - s / n)
      = (∑ p, y p * y p) - 2 * (s / n) * s + n * ((s / n) * (s / n)) := by
    have h1 : ∀ p, (y p - s / n) * (y p - s / n) = y p * y p - 2 * (s / n) * y p + (s / n) * (s / n) := fun p => by ring
    rw [Finset.sum_congr rfl fun p _ => h1 p, Finset.sum_add_distrib, Finset.sum_sub_distrib, ← Finset.mul_sum,
      Finset.sum_const, Finset.card_univ, nsmul_eq_mul, ← hn]
  rw [hexp]
  field_simp
  ring

/-- The mean of squared deviations is nonnegative for a positive divisor. -/
theorem var_nonneg {P : Type} [Fintype P] (y : P → ℝ) (μ n : ℝ) (hn : 0 < n) :
    0 ≤ (∑ p, (y p - μ) * (y p - μ)) / n :=
  div_nonneg (Finset.sum_nonneg fun p _ => mul_self_nonneg _) hn.le

/-! ## The affine map folded into the convolution -/

/-- Scaling the weights by a = γ·r and taking the bias a·b + (β − a·μ) gives γ·(conv + b − μ)·r + β. -/
theorem affine_fold (γ r b β μ : ℝ) (W f : Fin 10 → ℝ) :
    (γ * r) * b + (β - (γ * r) * μ) + ∑ c, ((γ * r) * W c) * f c
      = γ * ((∑ c, f c * W c + b) - μ) * r + β := by
  have h : ∑ c, ((γ * r) * W c) * f c = (γ * r) * ∑ c, f c * W c := by
    rw [Finset.mul_sum]
    exact Finset.sum_congr rfl fun c _ => by ring
  rw [h]
  ring

end Cert.BNAlgebra

end
-- ==== Proof.Consts.lean ====
/-
  The two float constants whose values the proof uses, as the real numbers their words denote: the divisor 2²² (the
  number of batch, point and neighbour triples) and the variance's regulariser, a positive dyadic rational.
-/
import Idealize.ShloMosaic.PureOps.Ideal

noncomputable section

namespace Cert.Consts

open Idealize.ShloMosaic

/-- The divisor's word denotes 4 · 65536 · 16 = 4194304. -/
theorem ofBits_count : Ideal.ofBits .f32 0x4A800000#32 = ((4194304 : ℝ) : EReal) := by
  simp [Ideal.ofBits, Ideal.ieee, -EReal.coe_mul]; norm_num

/-- The regulariser's word denotes 8796093 / 2⁴³. -/
theorem ofBits_eps : Ideal.ofBits .f32 0x358637BD#32 = ((8796093 / 8796093022208 : ℝ) : EReal) := by
  simp [Ideal.ofBits, Ideal.ieee, -EReal.coe_mul]; norm_num

end Cert.Consts

end
-- ==== Proof.Bridge.lean ====
/-
  The kernel's arrangement of the normalisation equals the reference's, on real entries.

  The kernel sums the convolution output and its square over every (batch, point, neighbour), divides by their number,
  takes the variance as the mean square less the squared mean, scales the convolution's weights by
  a = gamma / sqrt(variance + eps) and replaces its bias by a·bias + (beta − a·mean); the reference subtracts the mean,
  takes the variance as the mean squared deviation, and applies gamma·(y − mean)/sqrt(variance + eps) + beta.  When the
  coordinates, the weights and the per-channel parameters are real numbers every intermediate entry is a real number
  (a square root of a sum of squares; a reciprocal square root of a positive number), and the two arrangements agree
  by the two laws of the algebra module.
-/
import proofs.«173522_j70901320122520_2_alg».proof.Proof.RefSpec
import proofs.«173522_j70901320122520_2_alg».proof.Proof.BNAlgebra
import proofs.«173522_j70901320122520_2_alg».proof.Proof.Consts
import Mathlib.Data.Fintype.BigOperators
import Mathlib.Tactic.FinCases
import Mathlib.Tactic.NormNum

noncomputable section

open scoped BigOperators

namespace Cert.Bridge

open Idealize.ShloMosaic Idealize.ShloMosaic.ValueIdx Cert.RealValued Cert.RefSpec Cert.BNAlgebra

/-! ## The kernel's arrangement, over the extended reals -/

section Kernel
variable (x : Coords) (nbc : NbCoords) (w : Weights) (bias gamma beta : Chan)

/-- The sum of the convolution output over every (b, n, k). -/
def sum1 (o : Fin 8) : EReal := ∑ b : Fin 4, ∑ n : Fin 65536, ∑ k : Fin 16, yraw x nbc w bias b n k o
/-- The sum of its square. -/
def sum2 (o : Fin 8) : EReal :=
  ∑ b : Fin 4, ∑ n : Fin 65536, ∑ k : Fin 16, yraw x nbc w bias b n k o * yraw x nbc w bias b n k o
/-- The mean as the kernel's host code computes it. -/
def meanK (o : Fin 8) : EReal := Ideal.div (sum1 x nbc w bias o) count
/-- The variance as the mean square less the squared mean. -/
def varK (o : Fin 8) : EReal := Ideal.div (sum2 x nbc w bias o) count - meanK x nbc w bias o * meanK x nbc w bias o
/-- The scale gamma / sqrt(variance + eps). -/
def aK (o : Fin 8) : EReal := gamma (ix1 o) * Ideal.rsqrt (varK x nbc w bias o + eps)
/-- The folded weights. -/
def wK (o : Fin 8) (c : Fin 10) : EReal := aK x nbc w bias gamma o * w (ix2 o c)
/-- The folded bias. -/
def bK (o : Fin 8) : EReal :=
  aK x nbc w bias gamma o * bias (ix1 o) + (beta (ix1 o) - aK x nbc w bias gamma o * meanK x nbc w bias o)
/-- The convolution with the folded weights and bias. -/
def normK (b : Fin 4) (n : Fin 65536) (k : Fin 16) (o : Fin 8) : EReal :=
  bK x nbc w bias gamma beta o + ∑ c : Fin 10, wK x nbc w bias gamma o c * feat x nbc b n k c

end Kernel

/-! ## Real-valued mirrors -/

section Mirror
variable (xr : (⟨3, ![4, 65536, 3]⟩ : Shape).Idx → ℝ) (nr : (⟨4, ![4, 65536, 16, 3]⟩ : Shape).Idx → ℝ)
  (wr : (⟨2, ![8, 10]⟩ : Shape).Idx → ℝ) (br gr er : (⟨1, ![8]⟩ : Shape).Idx → ℝ)

def relR (b : Fin 4) (n : Fin 65536) (k : Fin 16) (d : Fin 3) : ℝ := xr (ix3 b n d) - nr (ix4 b n k d)
def distR (b : Fin 4) (n : Fin 65536) (k : Fin 16) : ℝ := Real.sqrt (∑ d : Fin 3, relR xr nr b n k d * relR xr nr b n k d)
def featR (b : Fin 4) (n : Fin 65536) (k : Fin 16) : Fin 10 → ℝ :=
  ![distR xr nr b n k, relR xr nr b n k 0, relR xr nr b n k 1, relR xr nr b n k 2,
    xr (ix3 b n 0), xr (ix3 b n 1), xr (ix3 b n 2), nr (ix4 b n k 0), nr (ix4 b n k 1), nr (ix4 b n k 2)]
def yrawR (b : Fin 4) (n : Fin 65536) (k : Fin 16) (o : Fin 8) : ℝ :=
  (∑ c : Fin 10, featR xr nr b n k c * wr (ix2 o c)) + br (ix1 o)
/-- The triples (b, n, k) as one finite type. -/
abbrev Pt : Type := Fin 4 × Fin 65536 × Fin 16
def yP (o : Fin 8) (p : Pt) : ℝ := yrawR xr nr wr br p.1 p.2.1 p.2.2 o
def sR (o : Fin 8) : ℝ := ∑ p : Pt, yP xr nr wr br o p
def muR (o : Fin 8) : ℝ := sR xr nr wr br o / 4194304
def varR (o : Fin 8) : ℝ :=
  (∑ p : Pt, (yP xr nr wr br o p - muR xr nr wr br o) * (yP xr nr wr br o p - muR xr nr wr br o)) / 4194304
def rR (o : Fin 8) : ℝ := (Real.sqrt (varR xr nr wr br o + 8796093 / 8796093022208))⁻¹

theorem card_Pt : ((Fintype.card Pt : ℕ) : ℝ) = 4194304 := by
  simp [Pt, Fintype.card_prod, Fintype.card_fin] <;> norm_num

theorem varR_nonneg (o : Fin 8) : 0 ≤ varR xr nr wr br o := var_nonneg _ _ _ (by norm_num)

end Mirror

/-! ## Each entry is its mirror's coercion -/

section Coe
variable (x : Coords) (nbc : NbCoords) (w : Weights) (bias gamma beta : Chan)
variable (xr : (⟨3, ![4, 65536, 3]⟩ : Shape).Idx → ℝ) (nr : (⟨4, ![4, 65536, 16, 3]⟩ : Shape).Idx → ℝ)
  (wr : (⟨2, ![8, 10]⟩ : Shape).Idx → ℝ) (br gr er : (⟨1, ![8]⟩ : Shape).Idx → ℝ)

/-- An iterated sum over batch, point and neighbour is the sum over the triples. -/
theorem sum_Pt {M : Type} [AddCommMonoid M] (f : Fin 4 → Fin 65536 → Fin 16 → M) :
    ∑ b : Fin 4, ∑ n : Fin 65536, ∑ k : Fin 16, f b n k = ∑ p : Pt, f p.1 p.2.1 p.2.2 := by
  simp only [Pt, Fintype.sum_prod_type]

theorem rel_coe (hx : ∀ i, x i = ((xr i : ℝ) : EReal)) (hn : ∀ i, nbc i = ((nr i : ℝ) : EReal))
    (b : Fin 4) (n : Fin 65536) (k : Fin 16) (d : Fin 3) :
    RefSpec.rel x nbc b n k d = ((relR xr nr b n k d : ℝ) : EReal) := by
  unfold RefSpec.rel relR
  rw [hx, hn, EReal.coe_sub]

theorem dist_coe (hx : ∀ i, x i = ((xr i : ℝ) : EReal)) (hn : ∀ i, nbc i = ((nr i : ℝ) : EReal))
    (b : Fin 4) (n : Fin 65536) (k : Fin 16) :
    RefSpec.dist x nbc b n k = ((distR xr nr b n k : ℝ) : EReal) := by
  unfold RefSpec.dist distR
  rw [zero_add]
  have h : (∑ d : Fin 3, RefSpec.rel x nbc b n k d * RefSpec.rel x nbc b n k d)
      = ((∑ d : Fin 3, relR xr nr b n k d * relR xr nr b n k d : ℝ) : EReal) := by
    rw [coe_sum]
    exact Finset.sum_congr rfl fun d _ => by rw [rel_coe x nbc xr nr hx hn, EReal.coe_mul]
  rw [h, sqrt_coe_nonneg (Finset.sum_nonneg fun d _ => mul_self_nonneg _)]

theorem feat_coe (hx : ∀ i, x i = ((xr i : ℝ) : EReal)) (hn : ∀ i, nbc i = ((nr i : ℝ) : EReal))
    (b : Fin 4) (n : Fin 65536) (k : Fin 16) (c : Fin 10) :
    RefSpec.feat x nbc b n k c = ((featR xr nr b n k c : ℝ) : EReal) := by
  fin_cases c
  · exact dist_coe x nbc xr nr hx hn b n k
  · exact rel_coe x nbc xr nr hx hn b n k 0
  · exact rel_coe x nbc xr nr hx hn b n k 1
  · exact rel_coe x nbc xr nr hx hn b n k 2
  · exact hx _
  · exact hx _
  · exact hx _
  · exact hn _
  · exact hn _
  · exact hn _

theorem yraw_coe (hx : ∀ i, x i = ((xr i : ℝ) : EReal)) (hn : ∀ i, nbc i = ((nr i : ℝ) : EReal))
    (hw : ∀ i, w i = ((wr i : ℝ) : EReal)) (hb : ∀ i, bias i = ((br i : ℝ) : EReal))
    (b : Fin 4) (n : Fin 65536) (k : Fin 16) (o : Fin 8) :
    RefSpec.yraw x nbc w bias b n k o = ((yrawR xr nr wr br b n k o : ℝ) : EReal) := by
  unfold RefSpec.yraw yrawR
  rw [EReal.coe_add, coe_sum, hb]
  refine congrArg (· + ((br (ix1 o) : ℝ) : EReal)) ?_
  exact Finset.sum_congr rfl fun c _ => by rw [feat_coe x nbc xr nr hx hn, hw, EReal.coe_mul]

theorem sum1_coe (hx : ∀ i, x i = ((xr i : ℝ) : EReal)) (hn : ∀ i, nbc i = ((nr i : ℝ) : EReal))
    (hw : ∀ i, w i = ((wr i : ℝ) : EReal)) (hb : ∀ i, bias i = ((br i : ℝ) : EReal)) (o : Fin 8) :
    sum1 x nbc w bias o = ((sR xr nr wr br o : ℝ) : EReal) := by
  unfold sum1 sR
  rw [sum_Pt, coe_sum]
  exact Finset.sum_congr rfl fun p _ => yraw_coe x nbc w bias xr nr wr br hx hn hw hb p.1 p.2.1 p.2.2 o

theorem mean_coe (hx : ∀ i, x i = ((xr i : ℝ) : EReal)) (hn : ∀ i, nbc i = ((nr i : ℝ) : EReal))
    (hw : ∀ i, w i = ((wr i : ℝ) : EReal)) (hb : ∀ i, bias i = ((br i : ℝ) : EReal)) (o : Fin 8) :
    RefSpec.mean x nbc w bias o = ((muR xr nr wr br o : ℝ) : EReal) := by
  have h := sum1_coe x nbc w bias xr nr wr br hx hn hw hb o
  unfold sum1 at h
  unfold RefSpec.mean muR
  rw [zero_add, h, RefSpec.count, Consts.ofBits_count, div_coe_coe _ (by norm_num)]

theorem meanK_coe (hx : ∀ i, x i = ((xr i : ℝ) : EReal)) (hn : ∀ i, nbc i = ((nr i : ℝ) : EReal))
    (hw : ∀ i, w i = ((wr i : ℝ) : EReal)) (hb : ∀ i, bias i = ((br i : ℝ) : EReal)) (o : Fin 8) :
    meanK x nbc w bias o = ((muR xr nr wr br o : ℝ) : EReal) := by
  unfold meanK muR
  rw [sum1_coe x nbc w bias xr nr wr br hx hn hw hb o, RefSpec.count, Consts.ofBits_count, div_coe_coe _ (by norm_num)]

theorem var_coe (hx : ∀ i, x i = ((xr i : ℝ) : EReal)) (hn : ∀ i, nbc i = ((nr i : ℝ) : EReal))
    (hw : ∀ i, w i = ((wr i : ℝ) : EReal)) (hb : ∀ i, bias i = ((br i : ℝ) : EReal)) (o : Fin 8) :
    RefSpec.var x nbc w bias o = ((varR xr nr wr br o : ℝ) : EReal) := by
  unfold RefSpec.var varR
  rw [zero_add, sum_Pt]
  have h : (∑ p : Pt, (RefSpec.yraw x nbc w bias p.1 p.2.1 p.2.2 o - RefSpec.mean x nbc w bias o)
        * (RefSpec.yraw x nbc w bias p.1 p.2.1 p.2.2 o - RefSpec.mean x nbc w bias o))
      = ((∑ p : Pt, (yP xr nr wr br o p - muR xr nr wr br o) * (yP xr nr wr br o p - muR xr nr wr br o) : ℝ) : EReal) := by
    rw [coe_sum]
    exact Finset.sum_congr rfl fun p _ => by
      rw [yraw_coe x nbc w bias xr nr wr br hx hn hw hb, mean_coe x nbc w bias xr nr wr br hx hn hw hb,
        ← EReal.coe_sub, ← EReal.coe_mul]
      rfl
  rw [h, RefSpec.count, Consts.ofBits_count, div_coe_coe _ (by norm_num)]

theorem varK_coe (hx : ∀ i, x i = ((xr i : ℝ) : EReal)) (hn : ∀ i, nbc i = ((nr i : ℝ) : EReal))
    (hw : ∀ i, w i = ((wr i : ℝ) : EReal)) (hb : ∀ i, bias i = ((br i : ℝ) : EReal)) (o : Fin 8) :
    varK x nbc w bias o = ((varR xr nr wr br o : ℝ) : EReal) := by
  unfold varK sum2
  rw [sum_Pt]
  have h : (∑ p : Pt, RefSpec.yraw x nbc w bias p.1 p.2.1 p.2.2 o * RefSpec.yraw x nbc w bias p.1 p.2.1 p.2.2 o)
      = ((∑ p : Pt, yP xr nr wr br o p * yP xr nr wr br o p : ℝ) : EReal) := by
    rw [coe_sum]
    exact Finset.sum_congr rfl fun p _ => by
      rw [yraw_coe x nbc w bias xr nr wr br hx hn hw hb, ← EReal.coe_mul]
      rfl
  rw [h, meanK_coe x nbc w bias xr nr wr br hx hn hw hb, RefSpec.count, Consts.ofBits_count,
    div_coe_coe _ (by norm_num), ← EReal.coe_mul, ← EReal.coe_sub]
  refine congrArg (fun r : ℝ => (r : EReal)) ?_
  have hv := var_forms (yP xr nr wr br o) 4194304 (card_Pt).symm (by norm_num)
  unfold varR muR sR
  exact hv

theorem scale_coe (hx : ∀ i, x i = ((xr i : ℝ) : EReal)) (hn : ∀ i, nbc i = ((nr i : ℝ) : EReal))
    (hw : ∀ i, w i = ((wr i : ℝ) : EReal)) (hb : ∀ i, bias i = ((br i : ℝ) : EReal)) (o : Fin 8) :
    RefSpec.scale x nbc w bias o = ((rR xr nr wr br o : ℝ) : EReal) := by
  unfold RefSpec.scale rR
  rw [var_coe x nbc w bias xr nr wr br hx hn hw hb, RefSpec.eps, Consts.ofBits_eps, ← EReal.coe_add,
    rsqrt_coe_pos (add_pos_of_nonneg_of_pos (varR_nonneg xr nr wr br o) (by norm_num))]

theorem scaleK_coe (hx : ∀ i, x i = ((xr i : ℝ) : EReal)) (hn : ∀ i, nbc i = ((nr i : ℝ) : EReal))
    (hw : ∀ i, w i = ((wr i : ℝ) : EReal)) (hb : ∀ i, bias i = ((br i : ℝ) : EReal)) (o : Fin 8) :
    Ideal.rsqrt (varK x nbc w bias o + RefSpec.eps) = ((rR xr nr wr br o : ℝ) : EReal) := by
  unfold rR
  rw [varK_coe x nbc w bias xr nr wr br hx hn hw hb, RefSpec.eps, Consts.ofBits_eps, ← EReal.coe_add,
    rsqrt_coe_pos (add_pos_of_nonneg_of_pos (varR_nonneg xr nr wr br o) (by norm_num))]

/-- THE BRIDGE on real entries: the convolution with the folded weights and bias is the normalised convolution. -/
theorem normK_eq_of_coe (hx : ∀ i, x i = ((xr i : ℝ) : EReal)) (hn : ∀ i, nbc i = ((nr i : ℝ) : EReal))
    (hw : ∀ i, w i = ((wr i : ℝ) : EReal)) (hb : ∀ i, bias i = ((br i : ℝ) : EReal))
    (hg : ∀ i, gamma i = ((gr i : ℝ) : EReal)) (he : ∀ i, beta i = ((er i : ℝ) : EReal))
    (b : Fin 4) (n : Fin 65536) (k : Fin 16) (o : Fin 8) :
    normK x nbc w bias gamma beta b n k o = RefSpec.norm x nbc w bias gamma beta b n k o := by
  have hR : RefSpec.norm x nbc w bias gamma beta b n k o
      = ((gr (ix1 o) * (yrawR xr nr wr br b n k o - muR xr nr wr br o) * rR xr nr wr br o + er (ix1 o) : ℝ) : EReal) := by
    unfold RefSpec.norm
    rw [hg, he, yraw_coe x nbc w bias xr nr wr br hx hn hw hb, mean_coe x nbc w bias xr nr wr br hx hn hw hb,
      scale_coe x nbc w bias xr nr wr br hx hn hw hb, ← EReal.coe_sub, ← EReal.coe_mul, ← EReal.coe_mul, ← EReal.coe_add]
  have ha : aK x nbc w bias gamma o = ((gr (ix1 o) * rR xr nr wr br o : ℝ) : EReal) := by
    unfold aK
    rw [hg, scaleK_coe x nbc w bias xr nr wr br hx hn hw hb, ← EReal.coe_mul]
  have hK : normK x nbc w bias gamma beta b n k o
      = (((gr (ix1 o) * rR xr nr wr br o) * br (ix1 o) + (er (ix1 o) - (gr (ix1 o) * rR xr nr wr br o) * muR xr nr wr br o)
          + ∑ c : Fin 10, ((gr (ix1 o) * rR xr nr wr br o) * wr (ix2 o c)) * featR xr nr b n k c : ℝ) : EReal) := by
    unfold normK bK wK
    rw [ha, hb, he, meanK_coe x nbc w bias xr nr wr br hx hn hw hb, ← EReal.coe_mul, ← EReal.coe_mul, ← EReal.coe_sub,
      ← EReal.coe_add, EReal.coe_add (_ + _), coe_sum]
    refine congrArg (((gr (ix1 o) * rR xr nr wr br o * br (ix1 o) + (er (ix1 o) - gr (ix1 o) * rR xr nr wr br o * muR xr nr wr br o) : ℝ) : EReal) + ·) ?_
    exact Finset.sum_congr rfl fun c _ => by rw [hw, feat_coe x nbc xr nr hx hn, ← EReal.coe_mul, ← EReal.coe_mul]
  rw [hK, hR]
  refine congrArg (fun r : ℝ => (r : EReal)) ?_
  exact affine_fold (gr (ix1 o)) (rR xr nr wr br o) (br (ix1 o)) (er (ix1 o)) (muR xr nr wr br o)
    (fun c => wr (ix2 o c)) (featR xr nr b n k)

end Coe

/-- THE BRIDGE: when every coordinate, gathered coordinate, weight and per-channel parameter is a real number, the
    kernel's folded form of the normalised convolution is the reference's. -/
theorem normK_eq (x : Coords) (nbc : NbCoords) (w : Weights) (bias gamma beta : Chan)
    (hx : ∀ i, IsReal (x i)) (hn : ∀ i, IsReal (nbc i)) (hw : ∀ i, IsReal (w i)) (hb : ∀ i, IsReal (bias i))
    (hg : ∀ i, IsReal (gamma i)) (he : ∀ i, IsReal (beta i)) (b : Fin 4) (n : Fin 65536) (k : Fin 16) (o : Fin 8) :
    normK x nbc w bias gamma beta b n k o = RefSpec.norm x nbc w bias gamma beta b n k o := by
  choose xr hxr using hx
  choose nr hnr using hn
  choose wr hwr using hw
  choose br hbr using hb
  choose gr hgr using hg
  choose er her using he
  exact normK_eq_of_coe x nbc w bias gamma beta xr nr wr br gr er hxr hnr hwr hbr hgr her b n k o

end Cert.Bridge

end
-- ==== Proof.Whole.lean ====
/-
  The kernel's arithmetic at one lane is the reference's, over the extended reals.

  A lane is a (batch, point, neighbour) triple; its six coordinates are the point's three and the gathered neighbour's
  three.  The ten features the kernels form from a lane are the reference's ten features, the convolution plane before
  the rectifier is the reference's convolution output (the same terms added in another order), the rectifier is the
  same case distinction, and, with the weights and bias folded as the host folds them, the rectified plane is the
  reference's activation whenever every entry is a real number.
-/
import proofs.«173522_j70901320122520_2_alg».proof.Proof.RefSpec
import proofs.«173522_j70901320122520_2_alg».proof.Proof.KernelSpec
import proofs.«173522_j70901320122520_2_alg».proof.Proof.Bridge

noncomputable section

open scoped BigOperators

namespace Cert.Whole

open Idealize.ShloMosaic Idealize.ShloMosaic.ValueIdx Cert.RealValued

section
variable (x : RefSpec.Coords) (nbc : RefSpec.NbCoords) (w : RefSpec.Weights) (bias gamma beta : RefSpec.Chan)

/-- The six coordinates of a lane: the point's, then the gathered neighbour's. -/
def lane (bb : Fin 4) (n : Fin 65536) (k : Fin 16) : Fin 6 → EReal :=
  ![x (ix3 bb n 0), x (ix3 bb n 1), x (ix3 bb n 2), nbc (ix4 bb n k 0), nbc (ix4 bb n k 1), nbc (ix4 bb n k 2)]

theorem rel_lane (bb : Fin 4) (n : Fin 65536) (k : Fin 16) (d : Fin 3) :
    KernelSpec.rel (lane x nbc bb n k) d = RefSpec.rel x nbc bb n k d := by
  fin_cases d <;> rfl

theorem dist_lane (bb : Fin 4) (n : Fin 65536) (k : Fin 16) :
    KernelSpec.dist (lane x nbc bb n k) = RefSpec.dist x nbc bb n k := by
  unfold KernelSpec.dist RefSpec.dist
  rw [zero_add]
  exact congrArg Ideal.sqrt (Finset.sum_congr rfl fun d _ => by rw [rel_lane])

/-- The kernels' ten features of a lane are the reference's. -/
theorem feat_lane (bb : Fin 4) (n : Fin 65536) (k : Fin 16) (c : Fin 10) :
    KernelSpec.feat (lane x nbc bb n k) c = RefSpec.feat x nbc bb n k c := by
  fin_cases c
  · exact dist_lane x nbc bb n k
  · exact rel_lane x nbc bb n k 0
  · exact rel_lane x nbc bb n k 1
  · exact rel_lane x nbc bb n k 2
  all_goals rfl

/-- The plane before the rectifier is the reference's convolution output: the same eleven terms, in another order. -/
theorem planeRaw_lane (bb : Fin 4) (n : Fin 65536) (k : Fin 16) (o : Fin 8) :
    KernelSpec.planeRaw w bias (lane x nbc bb n k) o = RefSpec.yraw x nbc w bias bb n k o := by
  unfold KernelSpec.planeRaw RefSpec.yraw
  rw [KernelSpec.conv_eq_sum, add_comm]
  refine congrArg (· + bias (ix1 o)) (Finset.sum_congr rfl fun c _ => ?_)
  rw [feat_lane, mul_comm]

/-- The rectifier, as a case distinction. -/
theorem leaky_eq (v : EReal) : KernelSpec.leaky v = if 0 ≤ v then v else RefSpec.slope * v := by
  unfold KernelSpec.leaky Scalar.select Ideal.cmp RefSpec.slope
  rw [Ideal.ofBits_zero_f32]
  by_cases h : (0 : EReal) ≤ v <;> simp [h]

/-- The weights as the host folds the normalisation into them. -/
def wF : (⟨2, ![8, 10]⟩ : Shape).Idx → EReal := fun i => Bridge.wK x nbc w bias gamma (i 0) (i 1)
/-- The bias likewise. -/
def bF : (⟨1, ![8]⟩ : Shape).Idx → EReal := fun i => Bridge.bK x nbc w bias gamma beta (i 0)

/-- With the folded weights and bias the rectified plane is the reference's activation, on real entries. -/
theorem plane_folded (hx : ∀ i, IsReal (x i)) (hn : ∀ i, IsReal (nbc i)) (hw : ∀ i, IsReal (w i))
    (hb : ∀ i, IsReal (bias i)) (hg : ∀ i, IsReal (gamma i)) (he : ∀ i, IsReal (beta i))
    (bb : Fin 4) (n : Fin 65536) (k : Fin 16) (o : Fin 8) :
    KernelSpec.plane (wF x nbc w bias gamma) (bF x nbc w bias gamma beta) (lane x nbc bb n k) o
      = RefSpec.act x nbc w bias gamma beta bb n k o := by
  have h : KernelSpec.planeRaw (wF x nbc w bias gamma) (bF x nbc w bias gamma beta) (lane x nbc bb n k) o
      = RefSpec.norm x nbc w bias gamma beta bb n k o := by
    rw [← Bridge.normK_eq x nbc w bias gamma beta hx hn hw hb hg he bb n k o]
    unfold KernelSpec.planeRaw Bridge.normK
    rw [KernelSpec.conv_eq_sum]
    refine congrArg (Bridge.bK x nbc w bias gamma beta o + ·) (Finset.sum_congr rfl fun c _ => ?_)
    rw [feat_lane]
    rfl
  rw [KernelSpec.plane_eq, leaky_eq, h]
  rfl

end

end Cert.Whole

end
-- ==== Proof.KI.Layout.lean ====
/-
  The host's layout operations read at an index.

  The kernels work on arrays flattened over (point, neighbour slot): lane j = n·16 + k.  The first operand holds, at
  batch b, channel d and lane j, the point's coordinate d for d < 3 and the gathered neighbour's coordinate d − 3 from
  3 on (a join along the channel axis, moved channel-first, flattened); the second holds the gathered features
  channel-first and flattened; the results are un-flattened back to (point, slot).  Each is a reshape, a transpose, a
  join and two broadcasts read at an index.
-/
import proofs.«173522_j70901320122520_2_alg».proof.Proof.KI.HostValues
import proofs.«173522_j70901320122520_2_alg».proof.Proof.Whole
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

/-- The lane of point `n`, slot `k`. -/
def laneOf (n : Fin 65536) (k : Fin 16) : Fin 1048576 := ⟨n.val * 16 + k.val, by have := n.isLt; have := k.isLt; omega⟩

/-- The gathered features, flattened, at a lane: the feature of that point and slot. -/
theorem nfFlat_apply (nf : FVec Ideal S4x65536x16x8 .f32) (bb : Fin 4) (ch : Fin 8) (n : Fin 65536) (k : Fin 16) :
    nfFlat (F := Ideal) nf (ix3 bb ch (laneOf n k)) = nf (ix4 bb n k ch) := by
  unfold nfFlat
  have hn := n.isLt; have hk := k.isLt; have hb := bb.isLt; have hc := ch.isLt
  rw [shapeCast_apply _ _ _ (ix4 bb ch n k) (by
    rw [Shape.rowMajor_val_four, Shape.rowMajor_val_three]
    show ((bb.val * 8 + ch.val) * 65536 + n.val) * 16 + k.val = (bb.val * 8 + ch.val) * 1048576 + (n.val * 16 + k.val)
    omega)]
  exact transpose_apply _ _ _ (ix4 bb ch n k) (ix4 bb n k ch) (fun b => by fin_cases b <;> rfl)

/-- The first operand at a lane, channel `d < 3`: the point's coordinate. -/
theorem extNb_lo (x : FVec Ideal S4x65536x3 .f32) (nb : FVec Ideal S4x65536x16x3 .f32) (bb : Fin 4) (d : Fin 3)
    (n : Fin 65536) (k : Fin 16) :
    extNb (F := Ideal) x nb (ix3 bb (⟨d.val, by have := d.isLt; omega⟩ : Fin 6) (laneOf n k)) = x (ix3 bb n d) := by
  unfold extNb
  have hn := n.isLt; have hk := k.isLt; have hb := bb.isLt; have hd := d.isLt
  rw [shapeCast_apply _ _ _ (ix4 bb (⟨d.val, by omega⟩ : Fin 6) n k) (by
    rw [Shape.rowMajor_val_four, Shape.rowMajor_val_three]
    show ((bb.val * 6 + d.val) * 65536 + n.val) * 16 + k.val = (bb.val * 6 + d.val) * 1048576 + (n.val * 16 + k.val)
    omega)]
  rw [transpose_apply _ _ _ (ix4 bb (⟨d.val, by omega⟩ : Fin 6) n k) (ix4 bb n k (⟨d.val, by omega⟩ : Fin 6)) (fun b => by fin_cases b <;> rfl)]
  rw [truncf_apply]
  refine (concatenate_pair_apply_left (t := S4x65536x16x6) (s₁ := S4x65536x16x3) (s₂ := S4x65536x16x3) 3 _ nb
    concatenates_S4x65536x16x3_S4x65536x16x3_S4x65536x16x6_d3 (ix4 bb n k (⟨d.val, by omega⟩ : Fin 6)) rfl (ix4 bb n k d)
    (fun b => by fin_cases b <;> rfl)).trans ?_
  refine (broadcastInDim_apply (s := S4x65536x1x3) (t := S4x65536x16x3) _ _ _ (ix4 bb n k d) (ix4 bb n (0 : Fin 1) d)
    (fun a => by fin_cases a <;> rfl)).trans ?_
  exact broadcastInDim_apply (s := S4x65536x3) (t := S4x65536x1x3) _ _ _ (ix4 bb n (0 : Fin 1) d) (ix3 bb n d)
    (fun a => by fin_cases a <;> rfl)

/-- The first operand at a lane, channel `3 + d`: the gathered neighbour's coordinate. -/
theorem extNb_hi (x : FVec Ideal S4x65536x3 .f32) (nb : FVec Ideal S4x65536x16x3 .f32) (bb : Fin 4) (d : Fin 3)
    (n : Fin 65536) (k : Fin 16) :
    extNb (F := Ideal) x nb (ix3 bb (⟨3 + d.val, by have := d.isLt; omega⟩ : Fin 6) (laneOf n k)) = nb (ix4 bb n k d) := by
  unfold extNb
  have hn := n.isLt; have hk := k.isLt; have hb := bb.isLt; have hd := d.isLt
  rw [shapeCast_apply _ _ _ (ix4 bb (⟨3 + d.val, by omega⟩ : Fin 6) n k) (by
    rw [Shape.rowMajor_val_four, Shape.rowMajor_val_three]
    show ((bb.val * 6 + (3 + d.val)) * 65536 + n.val) * 16 + k.val = (bb.val * 6 + (3 + d.val)) * 1048576 + (n.val * 16 + k.val)
    omega)]
  rw [transpose_apply _ _ _ (ix4 bb (⟨3 + d.val, by omega⟩ : Fin 6) n k) (ix4 bb n k (⟨3 + d.val, by omega⟩ : Fin 6)) (fun b => by fin_cases b <;> rfl)]
  rw [truncf_apply]
  exact concatenate_pair_apply_right (t := S4x65536x16x6) (s₁ := S4x65536x16x3) (s₂ := S4x65536x16x3) 3 _ nb
    concatenates_S4x65536x16x3_S4x65536x16x3_S4x65536x16x6_d3 (ix4 bb n k (⟨3 + d.val, by omega⟩ : Fin 6)) rfl rfl (ix4 bb n k d)
    (fun b hb => by
      fin_cases b
      · rfl
      · rfl
      · rfl
      · exact absurd rfl hb)
    (by show d.val + 3 = 3 + d.val; omega)

/-- The six coordinates of a lane, as the first operand holds them. -/
theorem extNb_lane (x : FVec Ideal S4x65536x3 .f32) (nb : FVec Ideal S4x65536x16x3 .f32) (bb : Fin 4) (n : Fin 65536) (k : Fin 16) :
    (fun d : Fin 6 => extNb (F := Ideal) x nb (ix3 bb d (laneOf n k))) = Whole.lane x nb bb n k := by
  funext d
  fin_cases d
  · exact extNb_lo x nb bb 0 n k
  · exact extNb_lo x nb bb 1 n k
  · exact extNb_lo x nb bb 2 n k
  · exact extNb_hi x nb bb 0 n k
  · exact extNb_hi x nb bb 1 n k
  · exact extNb_hi x nb bb 2 n k

/-- A result un-flattened: entry (b, channel, n, k) is the flat array's entry at that lane. -/
theorem unflat16_apply (A : FVec Ideal S4x16x1048576 .f32) (bb : Fin 4) (ch : Fin 16) (n : Fin 65536) (k : Fin 16) :
    shapeCast S4x16x65536x16 A shapeCasts_S4x16x1048576_S4x16x65536x16 (ix4 bb ch n k) = A (ix3 bb ch (laneOf n k)) := by
  have hn := n.isLt; have hk := k.isLt; have hb := bb.isLt; have hc := ch.isLt
  exact shapeCast_apply _ _ _ (ix3 bb ch (laneOf n k)) (by
    rw [Shape.rowMajor_val_four, Shape.rowMajor_val_three]
    show (bb.val * 16 + ch.val) * 1048576 + (n.val * 16 + k.val) = ((bb.val * 16 + ch.val) * 65536 + n.val) * 16 + k.val
    omega)

theorem unflat8_apply (A : FVec Ideal S4x8x1048576 .f32) (bb : Fin 4) (ch : Fin 8) (n : Fin 65536) (k : Fin 16) :
    shapeCast S4x8x65536x16 A shapeCasts_S4x8x1048576_S4x8x65536x16 (ix4 bb ch n k) = A (ix3 bb ch (laneOf n k)) := by
  have hn := n.isLt; have hk := k.isLt; have hb := bb.isLt; have hc := ch.isLt
  exact shapeCast_apply _ _ _ (ix3 bb ch (laneOf n k)) (by
    rw [Shape.rowMajor_val_four, Shape.rowMajor_val_three]
    show (bb.val * 8 + ch.val) * 1048576 + (n.val * 16 + k.val) = ((bb.val * 8 + ch.val) * 65536 + n.val) * 16 + k.val
    omega)

end Cert.KernelIdeal.Hand

end
-- ==== Proof.KI.HostRead.lean ====
/-
  The host's statistics and folded parameters read at an index, over the extended reals: the per-channel total is the
  stored zero plus the four per-batch sums; a total divided by the sample count; the scale gamma times the reciprocal
  square root of the regularised variance; each weight row and the bias scaled by it.
-/
import proofs.«173522_j70901320122520_2_alg».proof.Proof.KI.HostValues
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx

/-- The per-channel total: zero plus the four per-batch sums. -/
theorem total_apply (s : FVec Ideal S4x1x8 .f32) (o : Fin 8) :
    total (F := Ideal) s (ix1 o) = 0 + ∑ bb : Fin 4, s (ix3 bb 0 o) := by
  unfold total
  simp only [Host.reduceAdd, Ideal.hostReduceAdd_def]
  rw [Ideal.hostReduceAdd_single reducesTo_S4x8_S8_d0 (by decide)]
  rw [constant_apply, Ideal.ofBits_zero_f32]
  refine congrArg (0 + ·) (Finset.sum_congr rfl fun bb _ => ?_)
  have hb := bb.isLt; have ho := o.isLt
  exact shapeCast_apply s _ _ (ix3 bb 0 o) (by
    rw [Shape.rowMajor_val_three, Shape.rowMajor_val_two]
    show (bb.val * 1 + 0) * 8 + o.val = bb.val * 8 + o.val
    omega)

/-- A total over the number of samples. -/
theorem perSample_apply (s : FVec Ideal S4x1x8 .f32) (o : Fin 8) :
    perSample (F := Ideal) s (ix1 o) = Ideal.div (total (F := Ideal) s (ix1 o)) (Ideal.ofBits .f32 0x4A800000#32) := by
  unfold perSample
  show Ideal.div _ (broadcastInDim S8 ![] bcast_S_S8 (constant (F := Ideal) S_ .f32 1249902592#32) (ix1 o)) = _
  rw [broadcastInDim_scalar_apply, constant_apply]

/-- The scale at a channel. -/
theorem hostScale_apply (s1 s2 : FVec Ideal S4x1x8 .f32) (g : FVec Ideal S8 .f32) (o : Fin 8) :
    hostScale (F := Ideal) s1 s2 g (ix1 o)
      = g (ix1 o) * Ideal.rsqrt ((perSample (F := Ideal) s2 (ix1 o) - perSample (F := Ideal) s1 (ix1 o) * perSample (F := Ideal) s1 (ix1 o))
          + Ideal.ofBits .f32 0x358637BD#32) := by
  unfold hostScale
  show g (ix1 o) * Ideal.rsqrt ((perSample (F := Ideal) s2 (ix1 o) - perSample (F := Ideal) s1 (ix1 o) * perSample (F := Ideal) s1 (ix1 o))
      + broadcastInDim S8 ![] bcast_S_S8 (constant (F := Ideal) S_ .f32 897988541#32) (ix1 o)) = _
  rw [broadcastInDim_scalar_apply, constant_apply]

/-- A folded weight: the row's scale times the weight. -/
theorem foldedW_apply (s1 s2 : FVec Ideal S4x1x8 .f32) (g : FVec Ideal S8 .f32) (w : FVec Ideal S8x10 .f32) (o : Fin 8) (c : Fin 10) :
    foldedW (F := Ideal) s1 s2 g w (ix2 o c) = hostScale (F := Ideal) s1 s2 g (ix1 o) * w (ix2 o c) := by
  unfold foldedW
  show broadcastInDim S8x10 ![0, 1] bcast_S8x1_S8x10_0_1 (broadcastInDim S8x1 ![0] bcast_S8_S8x1_0 (hostScale (F := Ideal) s1 s2 g)) (ix2 o c) * w (ix2 o c) = _
  refine congrArg (· * w (ix2 o c)) ?_
  refine (broadcastInDim_apply (s := S8x1) (t := S8x10) _ _ _ (ix2 o c) (ix2 o (0 : Fin 1)) (fun a => by fin_cases a <;> rfl)).trans ?_
  exact broadcastInDim_apply (s := S8) (t := S8x1) _ _ _ (ix2 o (0 : Fin 1)) (ix1 o) (fun a => by fin_cases a <;> rfl)

/-- The folded bias at a channel. -/
theorem foldedB_apply (s1 s2 : FVec Ideal S4x1x8 .f32) (g b e : FVec Ideal S8 .f32) (o : Fin 8) :
    foldedB (F := Ideal) s1 s2 g b e (ix1 o)
      = hostScale (F := Ideal) s1 s2 g (ix1 o) * b (ix1 o) + (e (ix1 o) - hostScale (F := Ideal) s1 s2 g (ix1 o) * perSample (F := Ideal) s1 (ix1 o)) := rfl

end Cert.KernelIdeal.Hand

end
-- ==== Proof.KI.KernelOut.lean ====
/-
  The kernel program's two results as functions of its arguments, and that they are the reference's.

  With the point coordinates, the gathered neighbour coordinates and features, the weights and the per-channel
  parameters given, the program's results are: the statistics kernel's per-batch sums of the convolution output and its
  square over the flattened coordinate array; the host's folded weights and bias from them; the normalising kernel's two
  arrays from the flattened arrays and the folded parameters; un-flattened.  The per-batch sums regroup, lane by lane,
  into the sums over (point, slot); the host's mean, variance and scale are then the bridge's, the folded parameters the
  bridge's, and the rectified planes the reference's activations when every entry is a real number.
-/
import proofs.«173522_j70901320122520_2_alg».proof.Proof.KI.Layout
import proofs.«173522_j70901320122520_2_alg».proof.Proof.KI.HostRead
import proofs.«173522_j70901320122520_2_alg».proof.Proof.LibSumIndex

noncomputable section

open scoped BigOperators

namespace Cert.KernelIdeal.Hand

open Cert.KernelIdeal Cert.KernelIdeal.Gen
open Idealize.ShloMosaic Idealize.ShloMosaic.TcCoe Idealize.ShloMosaic.ValueIdx Cert.RealValued

/-- A sum over the lanes of a batch, point by point and slot by slot. -/
theorem sum_lanes {M : Type} [AddCommMonoid M] (g : Fin 1048576 → M) :
    ∑ j, g j = ∑ n : Fin 65536, ∑ k : Fin 16, g (laneOf n k) :=
  (SumIndex.sum_blocks 65536 16 (by norm_num) g).trans
    (Finset.sum_congr rfl fun n _ => Finset.sum_congr rfl fun k _ => congrArg g (Fin.ext rfl))

section
variable (x0 : FVec Ideal S4x65536x3 .f32) (nbc : FVec Ideal S4x65536x16x3 .f32) (nf : FVec Ideal S4x65536x16x8 .f32)
  (x3 : FVec Ideal S8x10 .f32) (x4 x5 x6 : FVec Ideal S8 .f32)

/-- The statistics kernel's first result from the arguments. -/
abbrev sum1Arr : FVec Ideal S4x1x8 .f32 := KernelSpec.statsSum (extNb (F := Ideal) x0 nbc) x3 x4
/-- Its second result. -/
abbrev sum2Arr : FVec Ideal S4x1x8 .f32 := KernelSpec.statsSq (extNb (F := Ideal) x0 nbc) x3 x4

theorem sum1Arr_apply (bb : Fin 4) (o : Fin 8) :
    sum1Arr x0 nbc x3 x4 (ix3 bb 0 o) = ∑ n : Fin 65536, ∑ k : Fin 16, RefSpec.yraw x0 nbc x3 x4 bb n k o := by
  show KernelSpec.statsSum (extNb (F := Ideal) x0 nbc) x3 x4 (ix3 bb 0 o) = _
  rw [KernelSpec.statsSum_ix3, sum_lanes]
  refine Finset.sum_congr rfl fun n _ => Finset.sum_congr rfl fun k _ => ?_
  show KernelSpec.planeRaw x3 x4 (fun d : Fin 6 => extNb (F := Ideal) x0 nbc (ix3 bb d (laneOf n k))) o = _
  rw [extNb_lane]
  exact Whole.planeRaw_lane x0 nbc x3 x4 bb n k o

theorem sum2Arr_apply (bb : Fin 4) (o : Fin 8) :
    sum2Arr x0 nbc x3 x4 (ix3 bb 0 o)
      = ∑ n : Fin 65536, ∑ k : Fin 16, RefSpec.yraw x0 nbc x3 x4 bb n k o * RefSpec.yraw x0 nbc x3 x4 bb n k o := by
  show KernelSpec.statsSq (extNb (F := Ideal) x0 nbc) x3 x4 (ix3 bb 0 o) = _
  rw [KernelSpec.statsSq_ix3, sum_lanes]
  refine Finset.sum_congr rfl fun n _ => Finset.sum_congr rfl fun k _ => ?_
  show KernelSpec.planeRaw x3 x4 (fun d : Fin 6 => extNb (F := Ideal) x0 nbc (ix3 bb d (laneOf n k))) o
      * KernelSpec.planeRaw x3 x4 (fun d : Fin 6 => extNb (F := Ideal) x0 nbc (ix3 bb d (laneOf n k))) o = _
  rw [extNb_lane, Whole.planeRaw_lane x0 nbc x3 x4 bb n k o]

theorem total1 (o : Fin 8) : total (F := Ideal) (sum1Arr x0 nbc x3 x4) (ix1 o) = Bridge.sum1 x0 nbc x3 x4 o := by
  rw [total_apply, zero_add]
  unfold Bridge.sum1
  exact Finset.sum_congr rfl fun bb _ => sum1Arr_apply x0 nbc x3 x4 bb o

theorem total2 (o : Fin 8) : total (F := Ideal) (sum2Arr x0 nbc x3 x4) (ix1 o) = Bridge.sum2 x0 nbc x3 x4 o := by
  rw [total_apply, zero_add]
  unfold Bridge.sum2
  exact Finset.sum_congr rfl fun bb _ => sum2Arr_apply x0 nbc x3 x4 bb o

theorem mean_eq (o : Fin 8) : perSample (F := Ideal) (sum1Arr x0 nbc x3 x4) (ix1 o) = Bridge.meanK x0 nbc x3 x4 o := by
  rw [perSample_apply, total1]
  rfl

theorem scale_eq (o : Fin 8) :
    hostScale (F := Ideal) (sum1Arr x0 nbc x3 x4) (sum2Arr x0 nbc x3 x4) x5 (ix1 o) = Bridge.aK x0 nbc x3 x4 x5 o := by
  rw [hostScale_apply, mean_eq, perSample_apply, total2]
  rfl

/-- The host's folded weights are the bridge's. -/
theorem foldedW_eq :
    foldedW (F := Ideal) (sum1Arr x0 nbc x3 x4) (sum2Arr x0 nbc x3 x4) x5 x3 = Whole.wF x0 nbc x3 x4 x5 := by
  funext i
  obtain ⟨o, c, rfl⟩ : ∃ (o : Fin 8) (c : Fin 10), i = ix2 o c := ⟨i 0, i 1, eq_ix2 i⟩
  rw [foldedW_apply, scale_eq]
  rfl

/-- The host's folded bias is the bridge's. -/
theorem foldedB_eq :
    foldedB (F := Ideal) (sum1Arr x0 nbc x3 x4) (sum2Arr x0 nbc x3 x4) x5 x4 x6 = Whole.bF x0 nbc x3 x4 x5 x6 := by
  funext i
  obtain ⟨o, rfl⟩ : ∃ o : Fin 8, i = ix1 o := ⟨i 0, eq_ix1 i⟩
  rw [foldedB_apply, scale_eq, mean_eq]
  rfl

/-- The program's first result from the arguments and the gathered arrays. -/
def kernelOut : FVec Ideal S4x16x65536x16 .f32 := fun i =>
  shapeCast S4x16x65536x16
    (KernelSpec.applyOut (extNb (F := Ideal) x0 nbc) (nfFlat (F := Ideal) nf)
      (foldedW (F := Ideal) (sum1Arr x0 nbc x3 x4) (sum2Arr x0 nbc x3 x4) x5 x3)
      (foldedB (F := Ideal) (sum1Arr x0 nbc x3 x4) (sum2Arr x0 nbc x3 x4) x5 x4 x6))
    shapeCasts_S4x16x1048576_S4x16x65536x16 i

/-- The program's second result. -/
def kernelY : FVec Ideal S4x8x65536x16 .f32 := fun i =>
  shapeCast S4x8x65536x16
    (KernelSpec.applyY (extNb (F := Ideal) x0 nbc)
      (foldedW (F := Ideal) (sum1Arr x0 nbc x3 x4) (sum2Arr x0 nbc x3 x4) x5 x3)
      (foldedB (F := Ideal) (sum1Arr x0 nbc x3 x4) (sum2Arr x0 nbc x3 x4) x5 x4 x6))
    shapeCasts_S4x8x1048576_S4x8x65536x16 i

theorem applyY_lane (hx : ∀ i, IsReal (x0 i)) (hn : ∀ i, IsReal (nbc i)) (hw : ∀ i, IsReal (x3 i))
    (hb : ∀ i, IsReal (x4 i)) (hg : ∀ i, IsReal (x5 i)) (he : ∀ i, IsReal (x6 i))
    (bb : Fin 4) (o : Fin 8) (n : Fin 65536) (k : Fin 16) :
    KernelSpec.applyYAt (extNb (F := Ideal) x0 nbc)
        (foldedW (F := Ideal) (sum1Arr x0 nbc x3 x4) (sum2Arr x0 nbc x3 x4) x5 x3)
        (foldedB (F := Ideal) (sum1Arr x0 nbc x3 x4) (sum2Arr x0 nbc x3 x4) x5 x4 x6) bb o (laneOf n k)
      = RefSpec.act x0 nbc x3 x4 x5 x6 bb n k o := by
  unfold KernelSpec.applyYAt
  rw [extNb_lane, foldedW_eq, foldedB_eq]
  exact Whole.plane_folded x0 nbc x3 x4 x5 x6 hx hn hw hb hg he bb n k o

/-- THE KERNEL SIDE: on real entries the program's first result is the reference's. -/
theorem kernelOut_eq (hx : ∀ i, IsReal (x0 i)) (hn : ∀ i, IsReal (nbc i)) (hw : ∀ i, IsReal (x3 i))
    (hb : ∀ i, IsReal (x4 i)) (hg : ∀ i, IsReal (x5 i)) (he : ∀ i, IsReal (x6 i)) :
    kernelOut x0 nbc nf x3 x4 x5 x6 = RefSpec.out x0 nbc nf x3 x4 x5 x6 := by
  funext i
  obtain ⟨bb, ch, n, k, rfl⟩ : ∃ (bb : Fin 4) (ch : Fin 16) (n : Fin 65536) (k : Fin 16), i = ix4 bb ch n k :=
    ⟨i 0, i 1, i 2, i 3, eq_ix4 i⟩
  unfold kernelOut
  rw [unflat16_apply, KernelSpec.applyOut_ix3, RefSpec.out_apply]
  unfold KernelSpec.applyOutAt
  by_cases h : ch.val < 8
  · rw [dif_pos h, RefSpec.outAt_lt _ _ _ _ _ _ _ _ _ _ _ h]
    exact nfFlat_apply nf bb ⟨ch.val, h⟩ n k
  · rw [dif_neg h, RefSpec.outAt_ge _ _ _ _ _ _ _ _ _ _ _ h]
    exact applyY_lane x0 nbc x3 x4 x5 x6 hx hn hw hb hg he bb _ n k

/-- And the second. -/
theorem kernelY_eq (hx : ∀ i, IsReal (x0 i)) (hn : ∀ i, IsReal (nbc i)) (hw : ∀ i, IsReal (x3 i))
    (hb : ∀ i, IsReal (x4 i)) (hg : ∀ i, IsReal (x5 i)) (he : ∀ i, IsReal (x6 i)) :
    kernelY x0 nbc x3 x4 x5 x6 = RefSpec.yout x0 nbc x3 x4 x5 x6 := by
  funext i
  obtain ⟨bb, o, n, k, rfl⟩ : ∃ (bb : Fin 4) (o : Fin 8) (n : Fin 65536) (k : Fin 16), i = ix4 bb o n k :=
    ⟨i 0, i 1, i 2, i 3, eq_ix4 i⟩
  unfold kernelY
  rw [unflat8_apply, KernelSpec.applyY_ix3, RefSpec.yout_apply]
  exact applyY_lane x0 nbc x3 x4 x5 x6 hx hn hw hb hg he bb o n k

end

end Cert.KernelIdeal.Hand

end
-- ==== Proof.KI.Value.lean ====
/-
  The run's final contents of the two results, as the functions of the arguments named in the assembly module: the
  buffers are read back through the boundaries — the last reshapes, the normalising kernel's arrays, the host's folded
  parameters, the statistics kernel's arrays, the flattened operands — down to the launch memory.
-/
import proofs.«173522_j70901320122520_2_alg».proof.Proof.KI.Frame
import proofs.«173522_j70901320122520_2_alg».proof.Proof.KI.HostValues
import proofs.«173522_j70901320122520_2_alg».proof.Proof.KI.StatsArray
import proofs.«173522_j70901320122520_2_alg».proof.Proof.KI.ApplyArray
import proofs.«173522_j70901320122520_2_alg».proof.Proof.KI.KernelOut

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The operands of the statistics kernel -/

theorem T1_arg (c : Dev nD) (r : Ref sig .tc) (h : r ∉ hostOps0_W) : T1 m ρ c r = m ((c : Thread nD τ).loc r) :=
  StableHlo.after_of_writes_sub hostOps0 _ hostOps0_writes h

theorem T1_v12 (c : Dev nD) :
    T1 m ρ c main_v12 = extNb (F := Ideal) (m ((c : Thread nD τ).loc main_arg0))
      (nbCoords (F := Ideal) (m ((c : Thread nD τ).loc main_arg0)) (m ((c : Thread nD τ).loc main_arg2))) :=
  after0_v12 (B0 m ρ c)

theorem T1_v23 (c : Dev nD) :
    T1 m ρ c main_v23 = nfFlat (F := Ideal)
      (nbFeats (F := Ideal) (m ((c : Thread nD τ).loc main_arg1)) (m ((c : Thread nD τ).loc main_arg2))) :=
  after0_v23 (B0 m ρ c)

/-! ## After the statistics kernel -/

/-- An input window's array leaves the statistics kernel as entered. -/
theorem T2_input (c : Dev nD) (w : Fin cfg0.W) (hin : (cfg0.win w).isOut = false) :
    T2 m ρ c (Pipeline.arrRef spec0 w) = T1 m ρ c (Pipeline.arrRef spec0 w) :=
  (B2_arr m ρ c w).trans (((dat0 (T1 m ρ) c).arrAt_in w hin _).trans (A_eq0 (T1 m ρ) c w))

theorem T2_v24_0 (c : Dev nD) :
    T2 m ρ c main_v24_0 = sum1Arr (m ((c : Thread nD τ).loc main_arg0))
      (nbCoords (F := Ideal) (m ((c : Thread nD τ).loc main_arg0)) (m ((c : Thread nD τ).loc main_arg2)))
      (m ((c : Thread nD τ).loc main_arg3)) (m ((c : Thread nD τ).loc main_arg4)) := by
  refine (B2_arr m ρ c 3).trans ((final0_3 (T1 m ρ) c).trans ?_)
  show KernelSpec.statsSum (T1 m ρ c main_v12) (T1 m ρ c main_arg3) (T1 m ρ c main_arg4) = _
  rw [T1_v12, T1_arg m ρ c main_arg3 (by decide), T1_arg m ρ c main_arg4 (by decide)]

theorem T2_v24_1 (c : Dev nD) :
    T2 m ρ c main_v24_1 = sum2Arr (m ((c : Thread nD τ).loc main_arg0))
      (nbCoords (F := Ideal) (m ((c : Thread nD τ).loc main_arg0)) (m ((c : Thread nD τ).loc main_arg2)))
      (m ((c : Thread nD τ).loc main_arg3)) (m ((c : Thread nD τ).loc main_arg4)) := by
  refine (B2_arr m ρ c 4).trans ((final0_4 (T1 m ρ) c).trans ?_)
  show KernelSpec.statsSq (T1 m ρ c main_v12) (T1 m ρ c main_arg3) (T1 m ρ c main_arg4) = _
  rw [T1_v12, T1_arg m ρ c main_arg3 (by decide), T1_arg m ρ c main_arg4 (by decide)]

theorem T2_untouched (c : Dev nD) (r : Ref sig .tc) (h0 : r ∉ hostOps0_W) (hw : ∀ w, Pipeline.arrRef spec0 w ≠ r) :
    T2 m ρ c r = m ((c : Thread nD τ).loc r) :=
  (B2_of_ne m ρ c r hw).trans (T1_arg m ρ c r h0)

/-! ## The operands of the normalising kernel -/

theorem T3_keep (c : Dev nD) (r : Ref sig .tc) (h : r ∉ hostOps1_W) : T3 m ρ c r = T2 m ρ c r :=
  StableHlo.after_of_writes_sub hostOps1 _ hostOps1_writes h

theorem T3_v12 (c : Dev nD) : T3 m ρ c main_v12 = T1 m ρ c main_v12 :=
  (T3_keep m ρ c main_v12 (by decide)).trans (T2_input m ρ c 0 rfl)

theorem T3_v23 (c : Dev nD) : T3 m ρ c main_v23 = T1 m ρ c main_v23 :=
  (T3_keep m ρ c main_v23 (by decide)).trans (B2_of_ne m ρ c main_v23 (by decide))

theorem T3_v41 (c : Dev nD) :
    T3 m ρ c main_v41 = foldedW (F := Ideal) (T2 m ρ c main_v24_0) (T2 m ρ c main_v24_1) (T2 m ρ c main_arg5) (T2 m ρ c main_arg3) :=
  after1_v41 (B2 m ρ c)

theorem T3_v45 (c : Dev nD) :
    T3 m ρ c main_v45 = foldedB (F := Ideal) (T2 m ρ c main_v24_0) (T2 m ρ c main_v24_1) (T2 m ρ c main_arg5)
      (T2 m ρ c main_arg4) (T2 m ρ c main_arg6) :=
  after1_v45 (B2 m ρ c)

theorem T2_arg3 (c : Dev nD) : T2 m ρ c main_arg3 = m ((c : Thread nD τ).loc main_arg3) :=
  (T2_input m ρ c 1 rfl).trans (T1_arg m ρ c main_arg3 (by decide))
theorem T2_arg4 (c : Dev nD) : T2 m ρ c main_arg4 = m ((c : Thread nD τ).loc main_arg4) :=
  (T2_input m ρ c 2 rfl).trans (T1_arg m ρ c main_arg4 (by decide))
theorem T2_arg5 (c : Dev nD) : T2 m ρ c main_arg5 = m ((c : Thread nD τ).loc main_arg5) :=
  T2_untouched m ρ c main_arg5 (by decide) (by decide)
theorem T2_arg6 (c : Dev nD) : T2 m ρ c main_arg6 = m ((c : Thread nD τ).loc main_arg6) :=
  T2_untouched m ρ c main_arg6 (by decide) (by decide)

/-! ## The results -/

/-- The first result ends at the assembly module's function of the launch arguments. -/
theorem B5_v47 (c : Dev nD) :
    B5 m ρ c (Proc.devRef .tc main_v47)
      = kernelOut (m ((c : Thread nD τ).loc main_arg0))
          (nbCoords (F := Ideal) (m ((c : Thread nD τ).loc main_arg0)) (m ((c : Thread nD τ).loc main_arg2)))
          (nbFeats (F := Ideal) (m ((c : Thread nD τ).loc main_arg1)) (m ((c : Thread nD τ).loc main_arg2)))
          (m ((c : Thread nD τ).loc main_arg3)) (m ((c : Thread nD τ).loc main_arg4))
          (m ((c : Thread nD τ).loc main_arg5)) (m ((c : Thread nD τ).loc main_arg6)) := by
  refine (after2_v47 (B4 m ρ c)).trans ?_
  unfold kernelOut
  have h4 : B4 m ρ c (Proc.devRef .tc main_v46_0)
      = KernelSpec.applyOut (T3 m ρ c main_v12) (T3 m ρ c main_v23) (T3 m ρ c main_v41) (T3 m ρ c main_v45) :=
    (B4_arr m ρ c 4).trans (final1_4 (T3 m ρ) c)
  rw [h4, T3_v12, T3_v23, T3_v41, T3_v45, T1_v12, T1_v23, T2_v24_0, T2_v24_1, T2_arg3, T2_arg4, T2_arg5, T2_arg6]

/-- The second result likewise. -/
theorem B5_v48 (c : Dev nD) :
    B5 m ρ c (Proc.devRef .tc main_v48)
      = kernelY (m ((c : Thread nD τ).loc main_arg0))
          (nbCoords (F := Ideal) (m ((c : Thread nD τ).loc main_arg0)) (m ((c : Thread nD τ).loc main_arg2)))
          (m ((c : Thread nD τ).loc main_arg3)) (m ((c : Thread nD τ).loc main_arg4))
          (m ((c : Thread nD τ).loc main_arg5)) (m ((c : Thread nD τ).loc main_arg6)) := by
  refine (after2_v48 (B4 m ρ c)).trans ?_
  unfold kernelY
  have h5 : B4 m ρ c (Proc.devRef .tc main_v46_1)
      = KernelSpec.applyY (T3 m ρ c main_v12) (T3 m ρ c main_v41) (T3 m ρ c main_v45) :=
    (B4_arr m ρ c 5).trans (final1_5 (T3 m ρ) c)
  rw [h5, T3_v12, T3_v41, T3_v45, T1_v12, T2_v24_0, T2_v24_1, T2_arg3, T2_arg4, T2_arg5, T2_arg6]

end Cert.KernelIdeal.Hand

end
-- ==== Proof.Gathers.lean ====
/-
  The two programs gather the same rows: the neighbours' coordinates and features, as the kernel's host code and the
  reference compute them, are one array each (the same gather over the same wrapped indices), and a gathered entry is
  one of the operand's entries, so it is a real number when they all are.
-/
import proofs.«173522_j70901320122520_2_alg».proof.Proof.KI.HostValues
import proofs.«173522_j70901320122520_2_alg».proof.Proof.RefRead
import proofs.«173522_j70901320122520_2_alg».proof.Proof.LibRealValued

set_option maxRecDepth 16384

noncomputable section

namespace Cert.Gathers

open Idealize.ShloMosaic Cert.RealValued

theorem nbCoords_eq (x0 : FVec Ideal Cert.KernelIdeal.S4x65536x3 .f32) (x2 : IVec Cert.KernelIdeal.S4x65536x16 32) :
    Cert.KernelIdeal.Hand.nbCoords (F := Ideal) x0 x2 = Cert.ReferenceIdeal.Read.val_main_v6 (F := Ideal) x0 x2 := rfl

theorem nbFeats_eq (x1 : FVec Ideal Cert.KernelIdeal.S4x8x65536x1 .f32) (x2 : IVec Cert.KernelIdeal.S4x65536x16 32) :
    Cert.KernelIdeal.Hand.nbFeats (F := Ideal) x1 x2 = Cert.ReferenceIdeal.Read.val_main_v57 (F := Ideal) x1 x2 := rfl

/-- A gathered coordinate is one of the coordinates. -/
theorem nbCoords_real (x0 : FVec Ideal Cert.KernelIdeal.S4x65536x3 .f32) (x2 : IVec Cert.KernelIdeal.S4x65536x16 32)
    (hx : ∀ i, IsReal (x0 i)) (i) : IsReal (Cert.KernelIdeal.Hand.nbCoords (F := Ideal) x0 x2 i) := hx _

end Cert.Gathers

end
-- ==== Proof.Finite.lean ====
/-
  The precondition makes every float argument real-valued.

  The precondition's function compares the absolute value of every entry of each float argument with +∞, takes the
  conjunction over each array, and then the conjunction of the six answers. Where it answers "true", every entry's
  absolute value is below +∞; an extended real whose absolute value is below +∞ is neither infinity, so it is a real
  number.
-/
import proofs.«173522_j70901320122520_2_alg».proof.Pre_finite_inputs
import proofs.«173522_j70901320122520_2_alg».proof.Proof.LibRealValued
import Idealize.ShloMosaic.Lib.ReduceAll
import Idealize.ShloMosaic.Lib.ValueIdx
import Idealize.ShloMosaic.PureOps.Ideal.Laws

noncomputable section

namespace Cert.Finite

open Idealize.ShloMosaic Cert.RealValued Cert.Pre_finite_inputs

/-- The word of +∞ denotes the top element. -/
theorem ofBits_inf : Ideal.ofBits .f32 0x7F800000#32 = ⊤ := by simp [Ideal.ofBits, Ideal.ieee]

/-- An extended real whose absolute value is below +∞ is a real number. -/
theorem isReal_of_abs_lt_top (a : EReal) (h : max a (-a) < ⊤) : IsReal a := by
  induction a using EReal.rec with
  | bot => exact absurd h (by simp)
  | top => exact absurd h (by simp)
  | coe r => exact ⟨r, rfl⟩

/-- The element fact: where the comparison of |a| with +∞ answers 1, `a` is a real number. -/
theorem isReal_of_cmp (a : Ideal .f32)
    (h : FloatOps.cmpf .olt (FloatOps.hostAbsf a) (FloatOps.ofBits (F := Ideal) .f32 0x7F800000#32) = 1#1) :
    IsReal a := by
  refine isReal_of_abs_lt_top a ?_
  have h' : BitVec.ofBool (decide (max a (-a) < Ideal.ofBits .f32 0x7F800000#32)) = 1#1 := h
  rw [ofBits_inf] at h'
  by_contra hn
  rw [decide_eq_false hn] at h'
  exact absurd h' (by decide)

/-- One array: where the conjunction over the whole array of "|x| < +∞" answers 1, every entry is a real number. -/
theorem isReal_of_all {s : Shape} {axes : List (Fin s.rank)} (x inf : FVec Ideal s .f32)
    (hinf : ∀ i, inf i = FloatOps.ofBits (F := Ideal) .f32 0x7F800000#32) (init : IVec S_ 1)
    (hred : s.ReducesTo axes S_) (hu : 0 < S_.numel)
    (h : Host.reduce IntOp.andi (cmpf .olt (Host.absf x) inf) init hred hu ValueIdx.ix0 = 1#1) (i : s.Idx) :
    IsReal (x i) := by
  haveI : Subsingleton S_.Idx := ⟨fun a b => funext fun d => d.elim0⟩
  have hi := Host.reduce_andi_all (cmpf .olt (Host.absf x) inf) init hred hu ValueIdx.ix0 h i
  refine isReal_of_cmp (x i) ?_
  rw [← hinf i]
  exact hi

/-- Under the precondition every entry of every float argument is a real number. -/
theorem all_real [Facts] (x0 : FVec Ideal S4x65536x3 .f32) (x1 : FVec Ideal S4x8x65536x1 .f32) (x2 : IVec S4x65536x16 32)
    (x3 : FVec Ideal S8x10 .f32) (x4 x5 x6 : FVec Ideal S8 .f32)
    (h : fn (F := Ideal) x0 x1 x2 x3 x4 x5 x6 = fun _ => 1#1) :
    (∀ i, IsReal (x0 i)) ∧ (∀ i, IsReal (x1 i)) ∧ (∀ i, IsReal (x3 i)) ∧ (∀ i, IsReal (x4 i))
      ∧ (∀ i, IsReal (x5 i)) ∧ (∀ i, IsReal (x6 i)) := by
  have h0 := congrFun h ValueIdx.ix0
  simp only [fn, fn_part1, Idealize.ShloMosaic.andi, IntOp.andi_eq_one] at h0
  obtain ⟨⟨⟨⟨⟨e0, e1⟩, e3⟩, e4⟩, e5⟩, e6⟩ := h0
  exact ⟨fun i => isReal_of_all x0 _ (fun _ => rfl) _ _ _ e0 i, fun i => isReal_of_all x1 _ (fun _ => rfl) _ _ _ e1 i,
    fun i => isReal_of_all x3 _ (fun _ => rfl) _ _ _ e3 i, fun i => isReal_of_all x4 _ (fun _ => rfl) _ _ _ e4 i,
    fun i => isReal_of_all x5 _ (fun _ => rfl) _ _ _ e5 i, fun i => isReal_of_all x6 _ (fun _ => rfl) _ _ _ e6 i⟩

end Cert.Finite

end
-- ==== Proof.RefIsSpec.lean ====
/-
  The reference's two results are the functions of `RefSpec`.

  Each stage of the reference is read at an index given by its coordinates, from the relative positions to the two
  channel-first transposes: the elementwise stages by their values at an index, a broadcast by the coordinates it
  keeps, the feature contraction as the sum over the ten features, a concatenation along the last axis by the piece
  whose span holds the coordinate, and a sum over the three leading axes of a rank-4 array as the initial value plus
  the iterated sum over the three coordinates. The two gathers are never opened: they enter as the arrays they are.
-/
import proofs.«173522_j70901320122520_2_alg».proof.Proof.RefRead
import proofs.«173522_j70901320122520_2_alg».proof.Proof.RefSpec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## General readings -/

section General

/-- The indices of a rank-4 shape are the quadruples of coordinates. -/
def idxEquiv4 {n0 n1 n2 n3 : Nat} : (⟨4, ![n0, n1, n2, n3]⟩ : Shape).Idx ≃ Fin n0 × Fin n1 × Fin n2 × Fin n3 where
  toFun j := (j 0, j 1, j 2, j 3)
  invFun p := ix4 p.1 p.2.1 p.2.2.1 p.2.2.2
  left_inv j := (eq_ix4 j).symm
  right_inv _ := rfl

/-- A sum over a rank-4 shape, coordinate by coordinate. -/
theorem sum_idx4 {M : Type} [AddCommMonoid M] {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← idxEquiv4.symm.sum_comp f, Fintype.sum_prod_type]
  refine Finset.sum_congr rfl fun a _ => ?_
  rw [Fintype.sum_prod_type]
  refine Finset.sum_congr rfl fun b _ => ?_
  rw [Fintype.sum_prod_type]
  rfl

/-- The host's sum of a [4, 65536, 16, 8] array over its three leading axes, at channel `o`: the initial value plus
    the iterated sum over the three coordinates. (An index reduces into channel `o` exactly when its last coordinate
    is `o`.) -/
theorem hsum_lead3 {u : Shape} (y : FVec Ideal ⟨4, ![4, 65536, 16, 8]⟩ .f32) (init : u.Idx → Ideal .f32)
    (h : (⟨4, ![4, 65536, 16, 8]⟩ : Shape).ReducesTo [0, 1, 2] ⟨1, ![8]⟩) (hu : 0 < u.numel) (o : Fin 8) :
    Host.reduceAdd y init h hu (ix1 o)
      = init (Shape.Idx.first hu) + ∑ b : Fin 4, ∑ n : Fin 65536, ∑ k : Fin 16, y (ix4 b n k o) := by
  unfold Host.reduceAdd
  rw [Ideal.hostReduceAdd_def]
  unfold Ideal.hostReduceAdd
  refine congrArg (init (Shape.Idx.first hu) + ·) ?_
  rw [Finset.sum_filter, sum_idx4]
  refine Finset.sum_congr rfl fun b _ => Finset.sum_congr rfl fun n _ => Finset.sum_congr rfl fun k _ => ?_
  have hd : ∀ d : Fin 8, h.drop (ix4 b n k d) = ix1 d := fun d => funext fun e => by
    match e with
    | ⟨0, _⟩ => exact Fin.ext (h.drop_apply_val_of_eq (ix4 b n k d) ⟨0, Nat.one_pos⟩ 3)
  rw [Finset.sum_eq_single o]
  · exact if_pos (hd o)
  · intro d _ hne
    refine if_neg fun e => hne ?_
    exact congrFun ((hd d).symm.trans e) 0
  · intro hn
    exact absurd (Finset.mem_univ o) hn

/-- A concatenation of rank-4 arrays along the last axis, read at (p, q, r, c): piece `k`, whose span starts at
    `pre`, at (p, q, r, e) with `pre + e = c`. -/
theorem cat_last4 {α : Type} {A B C D : Nat} (xs : List ((s : Shape) × (s.Idx → α)))
    (h : Shape.Concatenates (xs.map (·.1)) ⟨4, ![A, B, C, D]⟩ 3) (p : Fin A) (q : Fin B) (r : Fin C) (c : Fin D)
    (k : Nat) (E : Nat) (x₁ : (⟨4, ![A, B, C, E]⟩ : Shape).Idx → α)
    (hxk : xs[k]? = some ⟨⟨4, ![A, B, C, E]⟩, x₁⟩) (pre : Nat)
    (hpre : (((xs.take k).map (·.1)).map fun s : Shape =>
      if h : s.rank = (⟨4, ![A, B, C, D]⟩ : Shape).rank then s.size ((3 : Fin (⟨4, ![A, B, C, D]⟩ : Shape).rank).cast h.symm) else 0).sum = pre)
    (e : Fin E) (ha : pre + e.val = c.val) :
    concatenate ⟨4, ![A, B, C, D]⟩ 3 xs h (ix4 p q r c) = x₁ (ix4 p q r e) := by
  obtain ⟨hk, hx⟩ := List.getElem?_eq_some_iff.mp hxk
  exact concatenate_apply_piece 3 xs h (ix4 p q r c) k hk _ x₁ hx rfl pre hpre (ix4 p q r e)
    (fun b' hb => by
      match b' with
      | ⟨0, _⟩ => rfl
      | ⟨1, _⟩ => rfl
      | ⟨2, _⟩ => rfl
      | ⟨3, _⟩ => exact absurd (Fin.ext rfl) hb) ha

/-- A select on "z is at least w", over the extended reals, is the `if`. -/
theorem select_oge {α : Type} (z w : EReal) (a b : α) :
    Scalar.select (Ideal.cmp .oge z w) a b = if w ≤ z then a else b := by
  show (if BitVec.ofBool (decide (w ≤ z)) = 1#1 then a else b) = _
  by_cases hzw : w ≤ z
  · rw [if_pos hzw, if_pos (by rw [decide_eq_true hzw]; rfl)]
  · rw [if_neg hzw, if_neg (by rw [decide_eq_false hzw]; decide)]

end General

/-! ## The stages, each at an index given by its coordinates -/

/-- Point coordinates. -/
abbrev A0 : Type := (⟨S4x65536x3, .f32⟩ : BufTy).Contents (Elt Ideal)
/-- Point features. -/
abbrev A1 : Type := (⟨S4x8x65536x1, .f32⟩ : BufTy).Contents (Elt Ideal)
/-- Neighbour indices. -/
abbrev A2 : Type := (⟨S4x65536x16, .i32⟩ : BufTy).Contents (Elt Ideal)
/-- The linear map's matrix. -/
abbrev A3 : Type := (⟨S8x10, .f32⟩ : BufTy).Contents (Elt Ideal)
/-- One value per output channel. -/
abbrev A4 : Type := (⟨S8, .f32⟩ : BufTy).Contents (Elt Ideal)

section Stages
variable (x0 : A0) (x1 : A1) (x2 : A2) (x3 : A3) (x4 x5 x6 : A4)

local notation "nbc" => val_main_v6 (F := Ideal) x0 x2
local notation "nfe" => val_main_v57 (F := Ideal) x1 x2

/-- The point's coordinates repeated along the neighbour axis. -/
theorem v8_at (b : Fin 4) (n : Fin 65536) (k : Fin 16) (d : Fin 3) :
    val_main_v8 (F := Ideal) x0 (ix4 b n k d) = x0 (ix3 b n d) :=
  (val_main_v8_apply (F := Ideal) x0 _).trans ((val_main_v7_apply (F := Ideal) x0 _).trans (congrArg x0 (funext fun a => by
    match a with
    | ⟨0, _⟩ => rfl
    | ⟨1, _⟩ => rfl
    | ⟨2, _⟩ => rfl)))

/-- The relative position. -/
theorem v9_at (b : Fin 4) (n : Fin 65536) (k : Fin 16) (d : Fin 3) :
    val_main_v9 (F := Ideal) x0 x2 (ix4 b n k d) = RefSpec.rel x0 nbc b n k d := by
  unfold RefSpec.rel
  rw [val_main_v9_apply, Ideal.subf_def, v8_at]

/-- The squared length, from zero. -/
theorem v11_at (b : Fin 4) (n : Fin 65536) (k : Fin 16) :
    val_main_v11 (F := Ideal) x0 x2 (ix3 b n k)
      = 0 + ∑ d : Fin 3, RefSpec.rel x0 nbc b n k d * RefSpec.rel x0 nbc b n k d := by
  rw [val_main_v11_apply]
  refine congrArg₂ (· + ·) Ideal.ofBits_zero_f32 (Finset.sum_congr rfl fun d _ => ?_)
  have hi : idx_main_v11 (ix3 b n k) d = ix4 b n k d := funext fun a => by
    match a with
    | ⟨0, _⟩ => rfl
    | ⟨1, _⟩ => rfl
    | ⟨2, _⟩ => rfl
    | ⟨3, _⟩ => rfl
  rw [hi, val_main_v10_apply, Ideal.mulf_def, v9_at]

/-- The length. -/
theorem v13_at (b : Fin 4) (n : Fin 65536) (k : Fin 16) :
    val_main_v13 (F := Ideal) x0 x2 (ix4 b n k (0 : Fin 1)) = RefSpec.dist x0 nbc b n k := by
  have hi : idx_main_v12 (ix4 b n k (0 : Fin 1)) = ix3 b n k := funext fun a => by
    match a with
    | ⟨0, _⟩ => rfl
    | ⟨1, _⟩ => rfl
    | ⟨2, _⟩ => rfl
  unfold RefSpec.dist
  rw [val_main_v13_apply, Ideal.hostUnary_sqrt_def, val_main_v12_apply, hi, v11_at]

/-- The ten features laid side by side. -/
theorem v14_at (b : Fin 4) (n : Fin 65536) (k : Fin 16) (c : Fin 10) :
    val_main_v14 (F := Ideal) x0 x2 (ix4 b n k c) = RefSpec.feat x0 nbc b n k c := by
  unfold val_main_v14
  match c with
  | ⟨0, _⟩ => exact (cat_last4 _ _ b n k _ 0 1 _ rfl 0 rfl (0 : Fin 1) rfl).trans (v13_at x0 x2 b n k)
  | ⟨1, _⟩ => exact (cat_last4 _ _ b n k _ 1 3 _ rfl 1 rfl (0 : Fin 3) rfl).trans (v9_at x0 x2 b n k 0)
  | ⟨2, _⟩ => exact (cat_last4 _ _ b n k _ 1 3 _ rfl 1 rfl (1 : Fin 3) rfl).trans (v9_at x0 x2 b n k 1)
  | ⟨3, _⟩ => exact (cat_last4 _ _ b n k _ 1 3 _ rfl 1 rfl (2 : Fin 3) rfl).trans (v9_at x0 x2 b n k 2)
  | ⟨4, _⟩ => exact (cat_last4 _ _ b n k _ 2 3 _ rfl 4 rfl (0 : Fin 3) rfl).trans (v8_at x0 b n k 0)
  | ⟨5, _⟩ => exact (cat_last4 _ _ b n k _ 2 3 _ rfl 4 rfl (1 : Fin 3) rfl).trans (v8_at x0 b n k 1)
  | ⟨6, _⟩ => exact (cat_last4 _ _ b n k _ 2 3 _ rfl 4 rfl (2 : Fin 3) rfl).trans (v8_at x0 b n k 2)
  | ⟨7, _⟩ => exact (cat_last4 _ _ b n k _ 3 3 _ rfl 7 rfl (0 : Fin 3) rfl).trans rfl
  | ⟨8, _⟩ => exact (cat_last4 _ _ b n k _ 3 3 _ rfl 7 rfl (1 : Fin 3) rfl).trans rfl
  | ⟨9, _⟩ => exact (cat_last4 _ _ b n k _ 3 3 _ rfl 7 rfl (2 : Fin 3) rfl).trans rfl

/-- The contraction with the matrix: the sum over the ten features. -/
theorem v15_at (b : Fin 4) (n : Fin 65536) (k : Fin 16) (o : Fin 8) :
    val_main_v15 (F := Ideal) x0 x2 x3 (ix4 b n k o) = ∑ c : Fin 10, RefSpec.feat x0 nbc b n k c * x3 (ix2 o c) := by
  rw [val_main_v15_apply]
  refine Finset.sum_congr rfl fun c _ => ?_
  have hl : lidx_main_v15 (ix4 b n k o) c = ix4 b n k c := funext fun a => by
    match a with
    | ⟨0, _⟩ => rfl
    | ⟨1, _⟩ => rfl
    | ⟨2, _⟩ => rfl
    | ⟨3, _⟩ => rfl
  have hr : ridx_main_v15 (ix4 b n k o) c = ix2 o c := funext fun a => by
    match a with
    | ⟨0, _⟩ => rfl
    | ⟨1, _⟩ => rfl
  rw [hl, hr, v14_at]

/-- The bias at every (b, n, k). -/
theorem v17_at (b : Fin 4) (n : Fin 65536) (k : Fin 16) (o : Fin 8) :
    val_main_v17 (F := Ideal) x4 (ix4 b n k o) = x4 (ix1 o) :=
  (val_main_v17_apply (F := Ideal) x4 _).trans ((val_main_v16_apply (F := Ideal) x4 _).trans (congrArg x4 (funext fun a => by
    match a with
    | ⟨0, _⟩ => rfl)))

/-- The linear map with its bias. -/
theorem v18_at (b : Fin 4) (n : Fin 65536) (k : Fin 16) (o : Fin 8) :
    val_main_v18 (F := Ideal) x0 x2 x3 x4 (ix4 b n k o) = RefSpec.yraw x0 nbc x3 x4 b n k o := by
  unfold RefSpec.yraw
  rw [val_main_v18_apply, Ideal.addf_def, v15_at, v17_at]

/-- The sum over every (b, n, k), from zero. -/
theorem v19_at (o : Fin 8) :
    val_main_v19 (F := Ideal) x0 x2 x3 x4 (ix1 o)
      = 0 + ∑ b : Fin 4, ∑ n : Fin 65536, ∑ k : Fin 16, RefSpec.yraw x0 nbc x3 x4 b n k o := by
  have hy : ∀ (b : Fin 4) (n : Fin 65536) (k : Fin 16),
      val_main_v18 (F := Ideal) x0 x2 x3 x4 (ix4 b n k o) = RefSpec.yraw x0 nbc x3 x4 b n k o :=
    fun b n k => v18_at x0 x2 x3 x4 b n k o
  unfold val_main_v19
  generalize val_main_v18 (F := Ideal) x0 x2 x3 x4 = y at hy ⊢
  refine (hsum_lead3 y _ reducesTo_S4x65536x16x8_S8_d0_1_2 h_S_ o).trans ?_
  exact congrArg₂ (· + ·) Ideal.ofBits_zero_f32
    (Finset.sum_congr rfl fun b _ => Finset.sum_congr rfl fun n _ => Finset.sum_congr rfl fun k _ => hy b n k)

/-- The divisor. -/
theorem v20_at (o : Fin 8) : val_main_v20 (F := Ideal) (ix1 o) = RefSpec.count :=
  (val_main_v20_apply (F := Ideal) _).trans rfl

/-- The mean. -/
theorem v21_at (o : Fin 8) :
    val_main_v21 (F := Ideal) x0 x2 x3 x4 (ix1 o) = RefSpec.mean x0 nbc x3 x4 o := by
  unfold RefSpec.mean
  rw [val_main_v21_apply, Ideal.hostDivf_def, v19_at, v20_at]

/-- The mean at every (b, n, k). -/
theorem v23_at (b : Fin 4) (n : Fin 65536) (k : Fin 16) (o : Fin 8) :
    val_main_v23 (F := Ideal) x0 x2 x3 x4 (ix4 b n k o) = RefSpec.mean x0 nbc x3 x4 o := by
  have hi : idx_main_v22 (idx_main_v23 (ix4 b n k o)) = ix1 o := funext fun a => by
    match a with
    | ⟨0, _⟩ => rfl
  rw [val_main_v23_apply, val_main_v22_apply, hi, v21_at]

/-- The deviation from the mean. -/
theorem v24_at (b : Fin 4) (n : Fin 65536) (k : Fin 16) (o : Fin 8) :
    val_main_v24 (F := Ideal) x0 x2 x3 x4 (ix4 b n k o)
      = RefSpec.yraw x0 nbc x3 x4 b n k o - RefSpec.mean x0 nbc x3 x4 o := by
  rw [val_main_v24_apply, Ideal.subf_def, v18_at, v23_at]

/-- The sum of the squared deviations, from zero. -/
theorem v26_at (o : Fin 8) :
    val_main_v26 (F := Ideal) x0 x2 x3 x4 (ix1 o)
      = 0 + ∑ b : Fin 4, ∑ n : Fin 65536, ∑ k : Fin 16,
          (RefSpec.yraw x0 nbc x3 x4 b n k o - RefSpec.mean x0 nbc x3 x4 o)
            * (RefSpec.yraw x0 nbc x3 x4 b n k o - RefSpec.mean x0 nbc x3 x4 o) := by
  have hy : ∀ (b : Fin 4) (n : Fin 65536) (k : Fin 16),
      val_main_v25 (F := Ideal) x0 x2 x3 x4 (ix4 b n k o)
        = (RefSpec.yraw x0 nbc x3 x4 b n k o - RefSpec.mean x0 nbc x3 x4 o)
            * (RefSpec.yraw x0 nbc x3 x4 b n k o - RefSpec.mean x0 nbc x3 x4 o) :=
    fun b n k => by rw [val_main_v25_apply, Ideal.mulf_def, v24_at]
  unfold val_main_v26
  generalize val_main_v25 (F := Ideal) x0 x2 x3 x4 = y at hy ⊢
  refine (hsum_lead3 y _ reducesTo_S4x65536x16x8_S8_d0_1_2 h_S_ o).trans ?_
  exact congrArg₂ (· + ·) Ideal.ofBits_zero_f32
    (Finset.sum_congr rfl fun b _ => Finset.sum_congr rfl fun n _ => Finset.sum_congr rfl fun k _ => hy b n k)

/-- The divisor, again. -/
theorem v27_at (o : Fin 8) : val_main_v27 (F := Ideal) (ix1 o) = RefSpec.count :=
  (val_main_v27_apply (F := Ideal) _).trans rfl

/-- The variance. -/
theorem v28_at (o : Fin 8) :
    val_main_v28 (F := Ideal) x0 x2 x3 x4 (ix1 o) = RefSpec.var x0 nbc x3 x4 o := by
  unfold RefSpec.var
  rw [val_main_v28_apply, Ideal.hostDivf_def, v26_at, v27_at]

/-- The mean at every (b, n, k), a second time. -/
theorem v30_at (b : Fin 4) (n : Fin 65536) (k : Fin 16) (o : Fin 8) :
    val_main_v30 (F := Ideal) x0 x2 x3 x4 (ix4 b n k o) = RefSpec.mean x0 nbc x3 x4 o := by
  have hi : idx_main_v29 (idx_main_v30 (ix4 b n k o)) = ix1 o := funext fun a => by
    match a with
    | ⟨0, _⟩ => rfl
  rw [val_main_v30_apply, val_main_v29_apply, hi, v21_at]

/-- The deviation from the mean, a second time. -/
theorem v31_at (b : Fin 4) (n : Fin 65536) (k : Fin 16) (o : Fin 8) :
    val_main_v31 (F := Ideal) x0 x2 x3 x4 (ix4 b n k o)
      = RefSpec.yraw x0 nbc x3 x4 b n k o - RefSpec.mean x0 nbc x3 x4 o := by
  rw [val_main_v31_apply, Ideal.subf_def, v18_at, v30_at]

/-- The gain at every (b, n, k). -/
theorem v33_at (b : Fin 4) (n : Fin 65536) (k : Fin 16) (o : Fin 8) :
    val_main_v33 (F := Ideal) x5 (ix4 b n k o) = x5 (ix1 o) :=
  (val_main_v33_apply (F := Ideal) x5 _).trans ((val_main_v32_apply (F := Ideal) x5 _).trans (congrArg x5 (funext fun a => by
    match a with
    | ⟨0, _⟩ => rfl)))

/-- The regulariser. -/
theorem v35_at (o : Fin 8) : val_main_v35 (F := Ideal) (ix1 o) = RefSpec.eps :=
  (val_main_v35_apply (F := Ideal) _).trans rfl

/-- The reciprocal standard deviation. -/
theorem v37_at (o : Fin 8) :
    val_main_v37 (F := Ideal) x0 x2 x3 x4 (ix1 o) = RefSpec.scale x0 nbc x3 x4 o := by
  unfold RefSpec.scale
  rw [val_main_v37_apply, Ideal.hostUnary_rsqrt_def, val_main_v36_apply, Ideal.addf_def, v28_at, v35_at]

/-- The reciprocal standard deviation at every (b, n, k). -/
theorem v39_at (b : Fin 4) (n : Fin 65536) (k : Fin 16) (o : Fin 8) :
    val_main_v39 (F := Ideal) x0 x2 x3 x4 (ix4 b n k o) = RefSpec.scale x0 nbc x3 x4 o := by
  have hi : idx_main_v38 (idx_main_v39 (ix4 b n k o)) = ix1 o := funext fun a => by
    match a with
    | ⟨0, _⟩ => rfl
  rw [val_main_v39_apply, val_main_v38_apply, hi, v37_at]

/-- The shift at every (b, n, k). -/
theorem v42_at (b : Fin 4) (n : Fin 65536) (k : Fin 16) (o : Fin 8) :
    val_main_v42 (F := Ideal) x6 (ix4 b n k o) = x6 (ix1 o) :=
  (val_main_v42_apply (F := Ideal) x6 _).trans ((val_main_v41_apply (F := Ideal) x6 _).trans (congrArg x6 (funext fun a => by
    match a with
    | ⟨0, _⟩ => rfl)))

/-- The normalised value, scaled and shifted. -/
theorem v43_at (b : Fin 4) (n : Fin 65536) (k : Fin 16) (o : Fin 8) :
    val_main_v43 (F := Ideal) x0 x2 x3 x4 x5 x6 (ix4 b n k o) = RefSpec.norm x0 nbc x3 x4 x5 x6 b n k o := by
  unfold RefSpec.norm
  rw [val_main_v43_apply, Ideal.addf_def, val_main_v40_apply, Ideal.mulf_def, val_main_v34_apply, Ideal.mulf_def,
    v33_at, v31_at, v39_at, v42_at]

/-- The zero the rectifier compares with. -/
theorem v44_at (i : S4x65536x16x8.Idx) : val_main_v44 (F := Ideal) i = 0 :=
  (val_main_v44_apply (F := Ideal) i).trans Ideal.ofBits_zero_f32

/-- The rectifier's slope. -/
theorem v46_at (i : S4x65536x16x8.Idx) : val_main_v46 (F := Ideal) i = RefSpec.slope :=
  (val_main_v46_apply (F := Ideal) i).trans rfl

/-- The leaky rectifier. -/
theorem v48_at (b : Fin 4) (n : Fin 65536) (k : Fin 16) (o : Fin 8) :
    val_main_v48 (F := Ideal) x0 x2 x3 x4 x5 x6 (ix4 b n k o) = RefSpec.act x0 nbc x3 x4 x5 x6 b n k o := by
  unfold RefSpec.act
  rw [val_main_v48_apply, val_main_v45_apply, Ideal.cmpf_def, val_main_v47_apply, Ideal.mulf_def, v43_at, v44_at,
    v46_at, select_oge]

/-- The neighbour features before the activations. -/
theorem v58_at (b : Fin 4) (n : Fin 65536) (k : Fin 16) (c : Fin 16) :
    val_main_v58 (F := Ideal) x0 x1 x2 x3 x4 x5 x6 (ix4 b n k c) = RefSpec.outAt x0 nbc nfe x3 x4 x5 x6 b c n k := by
  unfold val_main_v58
  by_cases hc : c.val < 8
  · rw [RefSpec.outAt_lt _ _ _ _ _ _ _ b c n k hc]
    exact (cat_last4 _ _ b n k c 0 8 _ rfl 0 rfl ⟨c.val, hc⟩ (Nat.zero_add _)).trans rfl
  · rw [RefSpec.outAt_ge _ _ _ _ _ _ _ b c n k hc]
    exact (cat_last4 _ _ b n k c 1 8 _ rfl 8 rfl ⟨c.val - 8, by have := c.isLt; omega⟩
      (by show 8 + (c.val - 8) = c.val; omega)).trans (v48_at x0 x2 x3 x4 x5 x6 b n k _)

/-- The first result, channel-first. -/
theorem v59_at (b : Fin 4) (ch : Fin 16) (n : Fin 65536) (k : Fin 16) :
    val_main_v59 (F := Ideal) x0 x1 x2 x3 x4 x5 x6 (ix4 b ch n k) = RefSpec.outAt x0 nbc nfe x3 x4 x5 x6 b ch n k := by
  have hi : idx_main_v59 (ix4 b ch n k) = ix4 b n k ch := funext fun a => by
    match a with
    | ⟨0, _⟩ => rfl
    | ⟨1, _⟩ => rfl
    | ⟨2, _⟩ => rfl
    | ⟨3, _⟩ => rfl
  rw [val_main_v59_apply, hi, v58_at]

/-- The second result, channel-first. -/
theorem v60_at (b : Fin 4) (o : Fin 8) (n : Fin 65536) (k : Fin 16) :
    val_main_v60 (F := Ideal) x0 x2 x3 x4 x5 x6 (ix4 b o n k) = RefSpec.act x0 nbc x3 x4 x5 x6 b n k o := by
  have hi : idx_main_v60 (ix4 b o n k) = ix4 b n k o := funext fun a => by
    match a with
    | ⟨0, _⟩ => rfl
    | ⟨1, _⟩ => rfl
    | ⟨2, _⟩ => rfl
    | ⟨3, _⟩ => rfl
  rw [val_main_v60_apply, hi, v48_at]

/-! ## The two results -/

/-- The reference's first result is `RefSpec.out` of the arguments and the two gathered arrays. -/
theorem main_v59_eq_out :
    val_main_v59 (F := Ideal) x0 x1 x2 x3 x4 x5 x6 = RefSpec.out x0 nbc nfe x3 x4 x5 x6 := by
  funext i
  obtain ⟨b, ch, n, k, rfl⟩ : ∃ (b : Fin 4) (ch : Fin 16) (n : Fin 65536) (k : Fin 16), i = ix4 b ch n k :=
    ⟨i 0, i 1, i 2, i 3, eq_ix4 i⟩
  exact (v59_at x0 x1 x2 x3 x4 x5 x6 b ch n k).trans (RefSpec.out_apply x0 nbc nfe x3 x4 x5 x6 b ch n k).symm

/-- The reference's second result is `RefSpec.yout` of the arguments and the gathered neighbour coordinates. -/
theorem main_v60_eq_yout :
    val_main_v60 (F := Ideal) x0 x2 x3 x4 x5 x6 = RefSpec.yout x0 nbc x3 x4 x5 x6 := by
  funext i
  obtain ⟨b, o, n, k, rfl⟩ : ∃ (b : Fin 4) (o : Fin 8) (n : Fin 65536) (k : Fin 16), i = ix4 b o n k :=
    ⟨i 0, i 1, i 2, i 3, eq_ix4 i⟩
  exact (v60_at x0 x2 x3 x4 x5 x6 b o n k).trans (RefSpec.yout_apply x0 nbc x3 x4 x5 x6 b o n k).symm

end Stages

end Cert.ReferenceIdeal.RefValue

end
-- ==== Proof.RefFinal.lean ====
/-
  The reference's run, read back: every weakly fair execution of the reference terminates with its two results at the
  functions of `RefSpec` of the arguments (and of the two gathered arrays) and with its arguments unchanged.

  The reference is a straight line of 73 operations, so each buffer's final contents is the fold of the operations'
  results over the launch contents. The line is cut before each of its two joins: the first 17 operations give the
  first join's four pieces; the next 53, folded over an arbitrary valuation in which those pieces and the arguments are
  given, give the second join's two pieces; the last 3, folded over an arbitrary valuation in which those two are
  given, give the two results. Running two lines one after the other is running their concatenation, which puts the
  three parts together. No part touches an argument.
-/
import proofs.«173522_j70901320122520_2_alg».proof.Proof.RefRun
import proofs.«173522_j70901320122520_2_alg».proof.Proof.RefRead
import proofs.«173522_j70901320122520_2_alg».proof.Proof.RefIsSpec
import proofs.«173522_j70901320122520_2_alg».proof.Defs

noncomputable section

namespace Cert.ReferenceIdeal.RefValue

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are unchanged. -/
theorem ofBuf_toBuf' {sig : RefSig} {Val : EltTy → Type} {T : BufTy} (x : StableHlo.TRef sig T) (v : T.Contents Val) :
    x.ofBuf (x.toBuf v) = v := by
  obtain ⟨r, h, hd, hu⟩ := x
  subst h
  rfl

/-! ## The first 17 operations -/

set_option maxHeartbeats 1000000 in
/-- The first 17 operations leave `main_v13` at its stage of the arguments. -/
theorem partA_v13 (V : Valuation τ sig (Elt F)) :
    after (((ops (F := F)).take 70).take 17) V (Proc.devRef .tc main_v13) = val_main_v13 (F := F) (V (Proc.devRef .tc main_arg0)) (V (Proc.devRef .tc main_arg2)) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 1000000 in
/-- The first 17 operations leave `main_v9` at its stage of the arguments. -/
theorem partA_v9 (V : Valuation τ sig (Elt F)) :
    after (((ops (F := F)).take 70).take 17) V (Proc.devRef .tc main_v9) = val_main_v9 (F := F) (V (Proc.devRef .tc main_arg0)) (V (Proc.devRef .tc main_arg2)) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 1000000 in
/-- The first 17 operations leave `main_v8` at its stage of the arguments. -/
theorem partA_v8 (V : Valuation τ sig (Elt F)) :
    after (((ops (F := F)).take 70).take 17) V (Proc.devRef .tc main_v8) = val_main_v8 (F := F) (V (Proc.devRef .tc main_arg0)) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 1000000 in
/-- The first 17 operations leave `main_v6` at its stage of the arguments. -/
theorem partA_v6 (V : Valuation τ sig (Elt F)) :
    after (((ops (F := F)).take 70).take 17) V (Proc.devRef .tc main_v6) = val_main_v6 (F := F) (V (Proc.devRef .tc main_arg0)) (V (Proc.devRef .tc main_arg2)) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 1000000 in
/-- The first 17 operations leave argument 0 untouched. -/
theorem partA_arg0 (V : Valuation τ sig (Elt F)) :
    after (((ops (F := F)).take 70).take 17) V (Proc.devRef .tc main_arg0) = V (Proc.devRef .tc main_arg0) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The first 17 operations leave argument 1 untouched. -/
theorem partA_arg1 (V : Valuation τ sig (Elt F)) :
    after (((ops (F := F)).take 70).take 17) V (Proc.devRef .tc main_arg1) = V (Proc.devRef .tc main_arg1) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The first 17 operations leave argument 2 untouched. -/
theorem partA_arg2 (V : Valuation τ sig (Elt F)) :
    after (((ops (F := F)).take 70).take 17) V (Proc.devRef .tc main_arg2) = V (Proc.devRef .tc main_arg2) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The first 17 operations leave argument 3 untouched. -/
theorem partA_arg3 (V : Valuation τ sig (Elt F)) :
    after (((ops (F := F)).take 70).take 17) V (Proc.devRef .tc main_arg3) = V (Proc.devRef .tc main_arg3) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The first 17 operations leave argument 4 untouched. -/
theorem partA_arg4 (V : Valuation τ sig (Elt F)) :
    after (((ops (F := F)).take 70).take 17) V (Proc.devRef .tc main_arg4) = V (Proc.devRef .tc main_arg4) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The first 17 operations leave argument 5 untouched. -/
theorem partA_arg5 (V : Valuation τ sig (Elt F)) :
    after (((ops (F := F)).take 70).take 17) V (Proc.devRef .tc main_arg5) = V (Proc.devRef .tc main_arg5) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The first 17 operations leave argument 6 untouched. -/
theorem partA_arg6 (V : Valuation τ sig (Elt F)) :
    after (((ops (F := F)).take 70).take 17) V (Proc.devRef .tc main_arg6) = V (Proc.devRef .tc main_arg6) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

/-! ## The next 53 operations, from a valuation in which the first join's pieces and the arguments are given -/

set_option maxHeartbeats 4000000 in
/-- The activations after the middle part. -/
theorem partB_v48 (V1 : Valuation τ sig (Elt F)) (x0 : (⟨S4x65536x3, .f32⟩ : BufTy).Contents (Elt F)) (x1 : (⟨S4x8x65536x1, .f32⟩ : BufTy).Contents (Elt F)) (x2 : (⟨S4x65536x16, .i32⟩ : BufTy).Contents (Elt F)) (x3 : (⟨S8x10, .f32⟩ : BufTy).Contents (Elt F)) (x4 x5 x6 : (⟨S8, .f32⟩ : BufTy).Contents (Elt F))
    (h13 : V1 (Proc.devRef .tc main_v13) = val_main_v13 (F := F) x0 x2)
    (h9 : V1 (Proc.devRef .tc main_v9) = val_main_v9 (F := F) x0 x2)
    (h8 : V1 (Proc.devRef .tc main_v8) = val_main_v8 (F := F) x0)
    (h6 : V1 (Proc.devRef .tc main_v6) = val_main_v6 (F := F) x0 x2)
    (e3 : V1 (Proc.devRef .tc main_arg3) = x3) (e4 : V1 (Proc.devRef .tc main_arg4) = x4)
    (e5 : V1 (Proc.devRef .tc main_arg5) = x5) (e6 : V1 (Proc.devRef .tc main_arg6) = x6) :
    after (((ops (F := F)).take 70).drop 17) V1 (Proc.devRef .tc main_v48) = val_main_v48 (F := F) x0 x2 x3 x4 x5 x6 := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rw [h13, h9, h8, h6, e3, e4, e5, e6]
  rfl

set_option maxHeartbeats 4000000 in
/-- The gathered neighbour features after the middle part. -/
theorem partB_v57 (V1 : Valuation τ sig (Elt F)) (x1 : (⟨S4x8x65536x1, .f32⟩ : BufTy).Contents (Elt F)) (x2 : (⟨S4x65536x16, .i32⟩ : BufTy).Contents (Elt F))
    (e1 : V1 (Proc.devRef .tc main_arg1) = x1) (e2 : V1 (Proc.devRef .tc main_arg2) = x2) :
    after (((ops (F := F)).take 70).drop 17) V1 (Proc.devRef .tc main_v57) = val_main_v57 (F := F) x1 x2 := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rw [e1, e2]
  rfl

set_option maxHeartbeats 4000000 in
/-- The middle part leaves argument 0 untouched. -/
theorem partB_arg0 (V1 : Valuation τ sig (Elt F)) :
    after (((ops (F := F)).take 70).drop 17) V1 (Proc.devRef .tc main_arg0) = V1 (Proc.devRef .tc main_arg0) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- The middle part leaves argument 1 untouched. -/
theorem partB_arg1 (V1 : Valuation τ sig (Elt F)) :
    after (((ops (F := F)).take 70).drop 17) V1 (Proc.devRef .tc main_arg1) = V1 (Proc.devRef .tc main_arg1) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- The middle part leaves argument 2 untouched. -/
theorem partB_arg2 (V1 : Valuation τ sig (Elt F)) :
    after (((ops (F := F)).take 70).drop 17) V1 (Proc.devRef .tc main_arg2) = V1 (Proc.devRef .tc main_arg2) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- The middle part leaves argument 3 untouched. -/
theorem partB_arg3 (V1 : Valuation τ sig (Elt F)) :
    after (((ops (F := F)).take 70).drop 17) V1 (Proc.devRef .tc main_arg3) = V1 (Proc.devRef .tc main_arg3) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- The middle part leaves argument 4 untouched. -/
theorem partB_arg4 (V1 : Valuation τ sig (Elt F)) :
    after (((ops (F := F)).take 70).drop 17) V1 (Proc.devRef .tc main_arg4) = V1 (Proc.devRef .tc main_arg4) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- The middle part leaves argument 5 untouched. -/
theorem partB_arg5 (V1 : Valuation τ sig (Elt F)) :
    after (((ops (F := F)).take 70).drop 17) V1 (Proc.devRef .tc main_arg5) = V1 (Proc.devRef .tc main_arg5) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- The middle part leaves argument 6 untouched. -/
theorem partB_arg6 (V1 : Valuation τ sig (Elt F)) :
    after (((ops (F := F)).take 70).drop 17) V1 (Proc.devRef .tc main_arg6) = V1 (Proc.devRef .tc main_arg6) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

/-! ## The last 3 operations, from a valuation in which the second join's pieces are given -/

set_option maxHeartbeats 1000000 in
/-- The first result. -/
theorem partC_v59 (V2 : Valuation τ sig (Elt F)) (x0 : (⟨S4x65536x3, .f32⟩ : BufTy).Contents (Elt F)) (x1 : (⟨S4x8x65536x1, .f32⟩ : BufTy).Contents (Elt F)) (x2 : (⟨S4x65536x16, .i32⟩ : BufTy).Contents (Elt F)) (x3 : (⟨S8x10, .f32⟩ : BufTy).Contents (Elt F)) (x4 x5 x6 : (⟨S8, .f32⟩ : BufTy).Contents (Elt F))
    (h57 : V2 (Proc.devRef .tc main_v57) = val_main_v57 (F := F) x1 x2)
    (h48 : V2 (Proc.devRef .tc main_v48) = val_main_v48 (F := F) x0 x2 x3 x4 x5 x6) :
    after ((ops (F := F)).drop 70) V2 (Proc.devRef .tc main_v59) = val_main_v59 (F := F) x0 x1 x2 x3 x4 x5 x6 := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rw [h57, h48]
  rfl

set_option maxHeartbeats 1000000 in
/-- The second result. -/
theorem partC_v60 (V2 : Valuation τ sig (Elt F)) (x0 : (⟨S4x65536x3, .f32⟩ : BufTy).Contents (Elt F)) (x1 : (⟨S4x8x65536x1, .f32⟩ : BufTy).Contents (Elt F)) (x2 : (⟨S4x65536x16, .i32⟩ : BufTy).Contents (Elt F)) (x3 : (⟨S8x10, .f32⟩ : BufTy).Contents (Elt F)) (x4 x5 x6 : (⟨S8, .f32⟩ : BufTy).Contents (Elt F))
    (h48 : V2 (Proc.devRef .tc main_v48) = val_main_v48 (F := F) x0 x2 x3 x4 x5 x6) :
    after ((ops (F := F)).drop 70) V2 (Proc.devRef .tc main_v60) = val_main_v60 (F := F) x0 x2 x3 x4 x5 x6 := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rw [h48]
  rfl

set_option maxHeartbeats 1000000 in
/-- The last part leaves argument 0 untouched. -/
theorem partC_arg0 (V2 : Valuation τ sig (Elt F)) :
    after ((ops (F := F)).drop 70) V2 (Proc.devRef .tc main_arg0) = V2 (Proc.devRef .tc main_arg0) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The last part leaves argument 1 untouched. -/
theorem partC_arg1 (V2 : Valuation τ sig (Elt F)) :
    after ((ops (F := F)).drop 70) V2 (Proc.devRef .tc main_arg1) = V2 (Proc.devRef .tc main_arg1) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The last part leaves argument 2 untouched. -/
theorem partC_arg2 (V2 : Valuation τ sig (Elt F)) :
    after ((ops (F := F)).drop 70) V2 (Proc.devRef .tc main_arg2) = V2 (Proc.devRef .tc main_arg2) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The last part leaves argument 3 untouched. -/
theorem partC_arg3 (V2 : Valuation τ sig (Elt F)) :
    after ((ops (F := F)).drop 70) V2 (Proc.devRef .tc main_arg3) = V2 (Proc.devRef .tc main_arg3) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The last part leaves argument 4 untouched. -/
theorem partC_arg4 (V2 : Valuation τ sig (Elt F)) :
    after ((ops (F := F)).drop 70) V2 (Proc.devRef .tc main_arg4) = V2 (Proc.devRef .tc main_arg4) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The last part leaves argument 5 untouched. -/
theorem partC_arg5 (V2 : Valuation τ sig (Elt F)) :
    after ((ops (F := F)).drop 70) V2 (Proc.devRef .tc main_arg5) = V2 (Proc.devRef .tc main_arg5) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 1000000 in
/-- The last part leaves argument 6 untouched. -/
theorem partC_arg6 (V2 : Valuation τ sig (Elt F)) :
    after ((ops (F := F)).drop 70) V2 (Proc.devRef .tc main_arg6) = V2 (Proc.devRef .tc main_arg6) := by
  simp (disch := decide) only [Value.ops, List.take_succ_cons, List.take_zero, List.drop_succ_cons, List.drop_zero, after_cons, after_nil, cast_eq, ofBuf_toBuf', Fin.cons_zero, Fin.cons_succ,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']

/-! ## The whole line -/

/-- The line is its first 17 operations, then the next 53, then the last 3. -/
theorem after_ops_split (V : Valuation τ sig (Elt F)) :
    after (ops (F := F)) V
      = after ((ops (F := F)).drop 70) (after (((ops (F := F)).take 70).drop 17) (after (((ops (F := F)).take 70).take 17) V)) := by
  have h1 : after (ops (F := F)) V = after ((ops (F := F)).drop 70) (after ((ops (F := F)).take 70) V) := by
    rw [← after_append, List.take_append_drop]
  have h2 : after ((ops (F := F)).take 70) V = after (((ops (F := F)).take 70).drop 17) (after (((ops (F := F)).take 70).take 17) V) := by
    rw [← after_append, List.take_append_drop]
  exact h1.trans (congrArg (after ((ops (F := F)).drop 70)) h2)

/-- The first 70 operations leave argument 0 untouched. -/
theorem partAB_arg0 (V : Valuation τ sig (Elt F)) :
    after (((ops (F := F)).take 70).drop 17) (after (((ops (F := F)).take 70).take 17) V) (Proc.devRef .tc main_arg0) = V (Proc.devRef .tc main_arg0) := by
  rw [partB_arg0, partA_arg0]

/-- The first 70 operations leave argument 1 untouched. -/
theorem partAB_arg1 (V : Valuation τ sig (Elt F)) :
    after (((ops (F := F)).take 70).drop 17) (after (((ops (F := F)).take 70).take 17) V) (Proc.devRef .tc main_arg1) = V (Proc.devRef .tc main_arg1) := by
  rw [partB_arg1, partA_arg1]

/-- The first 70 operations leave argument 2 untouched. -/
theorem partAB_arg2 (V : Valuation τ sig (Elt F)) :
    after (((ops (F := F)).take 70).drop 17) (after (((ops (F := F)).take 70).take 17) V) (Proc.devRef .tc main_arg2) = V (Proc.devRef .tc main_arg2) := by
  rw [partB_arg2, partA_arg2]

/-- The first 70 operations leave argument 3 untouched. -/
theorem partAB_arg3 (V : Valuation τ sig (Elt F)) :
    after (((ops (F := F)).take 70).drop 17) (after (((ops (F := F)).take 70).take 17) V) (Proc.devRef .tc main_arg3) = V (Proc.devRef .tc main_arg3) := by
  rw [partB_arg3, partA_arg3]

/-- The first 70 operations leave argument 4 untouched. -/
theorem partAB_arg4 (V : Valuation τ sig (Elt F)) :
    after (((ops (F := F)).take 70).drop 17) (after (((ops (F := F)).take 70).take 17) V) (Proc.devRef .tc main_arg4) = V (Proc.devRef .tc main_arg4) := by
  rw [partB_arg4, partA_arg4]

/-- The first 70 operations leave argument 5 untouched. -/
theorem partAB_arg5 (V : Valuation τ sig (Elt F)) :
    after (((ops (F := F)).take 70).drop 17) (after (((ops (F := F)).take 70).take 17) V) (Proc.devRef .tc main_arg5) = V (Proc.devRef .tc main_arg5) := by
  rw [partB_arg5, partA_arg5]

/-- The first 70 operations leave argument 6 untouched. -/
theorem partAB_arg6 (V : Valuation τ sig (Elt F)) :
    after (((ops (F := F)).take 70).drop 17) (after (((ops (F := F)).take 70).take 17) V) (Proc.devRef .tc main_arg6) = V (Proc.devRef .tc main_arg6) := by
  rw [partB_arg6, partA_arg6]

/-- The activations after the first 70 operations. -/
theorem partAB_v48 (V : Valuation τ sig (Elt F)) :
    after (((ops (F := F)).take 70).drop 17) (after (((ops (F := F)).take 70).take 17) V) (Proc.devRef .tc main_v48)
      = val_main_v48 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) :=
  partB_v48 _ _ (V (Proc.devRef .tc main_arg1)) _ _ _ _ _ (partA_v13 V) (partA_v9 V) (partA_v8 V) (partA_v6 V)
    (partA_arg3 V) (partA_arg4 V) (partA_arg5 V) (partA_arg6 V)

/-- The gathered neighbour features after the first 70 operations. -/
theorem partAB_v57 (V : Valuation τ sig (Elt F)) :
    after (((ops (F := F)).take 70).drop 17) (after (((ops (F := F)).take 70).take 17) V) (Proc.devRef .tc main_v57)
      = val_main_v57 (F := F) (V (Proc.devRef .tc main_arg1)) (V (Proc.devRef .tc main_arg2)) :=
  partB_v57 _ _ _ (partA_arg1 V) (partA_arg2 V)

/-- The first result off the fold. -/
theorem after_ops_v59 (V : Valuation τ sig (Elt F)) :
    after (ops (F := F)) V (Proc.devRef .tc main_v59)
      = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops_split]
  exact partC_v59 _ _ _ _ _ _ _ _ (partAB_v57 V) (partAB_v48 V)

/-- The second result off the fold. -/
theorem after_ops_v60 (V : Valuation τ sig (Elt F)) :
    after (ops (F := F)) V (Proc.devRef .tc main_v60)
      = val_main_v60 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) := by
  rw [after_ops_split]
  exact partC_v60 _ _ (V (Proc.devRef .tc main_arg1)) _ _ _ _ _ (partAB_v48 V)

/-- Argument 0 is unchanged by the whole line. -/
theorem after_ops_arg0 (V : Valuation τ sig (Elt F)) :
    after (ops (F := F)) V (Proc.devRef .tc main_arg0) = V (Proc.devRef .tc main_arg0) := by
  rw [after_ops_split, partC_arg0, partAB_arg0]

/-- Argument 1 is unchanged by the whole line. -/
theorem after_ops_arg1 (V : Valuation τ sig (Elt F)) :
    after (ops (F := F)) V (Proc.devRef .tc main_arg1) = V (Proc.devRef .tc main_arg1) := by
  rw [after_ops_split, partC_arg1, partAB_arg1]

/-- Argument 2 is unchanged by the whole line. -/
theorem after_ops_arg2 (V : Valuation τ sig (Elt F)) :
    after (ops (F := F)) V (Proc.devRef .tc main_arg2) = V (Proc.devRef .tc main_arg2) := by
  rw [after_ops_split, partC_arg2, partAB_arg2]

/-- Argument 3 is unchanged by the whole line. -/
theorem after_ops_arg3 (V : Valuation τ sig (Elt F)) :
    after (ops (F := F)) V (Proc.devRef .tc main_arg3) = V (Proc.devRef .tc main_arg3) := by
  rw [after_ops_split, partC_arg3, partAB_arg3]

/-- Argument 4 is unchanged by the whole line. -/
theorem after_ops_arg4 (V : Valuation τ sig (Elt F)) :
    after (ops (F := F)) V (Proc.devRef .tc main_arg4) = V (Proc.devRef .tc main_arg4) := by
  rw [after_ops_split, partC_arg4, partAB_arg4]

/-- Argument 5 is unchanged by the whole line. -/
theorem after_ops_arg5 (V : Valuation τ sig (Elt F)) :
    after (ops (F := F)) V (Proc.devRef .tc main_arg5) = V (Proc.devRef .tc main_arg5) := by
  rw [after_ops_split, partC_arg5, partAB_arg5]

/-- Argument 6 is unchanged by the whole line. -/
theorem after_ops_arg6 (V : Valuation τ sig (Elt F)) :
    after (ops (F := F)) V (Proc.devRef .tc main_arg6) = V (Proc.devRef .tc main_arg6) := by
  rw [after_ops_split, partC_arg6, partAB_arg6]
/-! ## The reference's run -/

/-- Every weakly fair execution of the reference, at the ideal values, from any memory with zero counters,
    terminates; its first result is `RefSpec.out` and its second `RefSpec.yout` of the arguments and the two gathered
    arrays, and the seven arguments are unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v59)
            = Cert.RefSpec.out (m' ((c.tc : Thread Cert.ReferenceIdeal.nD Cert.ReferenceIdeal.τ).loc Cert.ReferenceIdeal.main_arg0)) (val_main_v6 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (val_main_v57 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v60)
            = Cert.RefSpec.yout (m' ((c.tc : Thread Cert.ReferenceIdeal.nD Cert.ReferenceIdeal.τ).loc Cert.ReferenceIdeal.main_arg0)) (val_main_v6 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono (fun _ h c =>
    ⟨(h c main_v59).trans ((after_ops_v59 _).trans (main_v59_eq_out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))),
     (h c main_v60).trans ((after_ops_v60 _).trans (main_v60_eq_yout (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))),
     (h c main_arg0).trans (after_ops_arg0 _),
     (h c main_arg1).trans (after_ops_arg1 _),
     (h c main_arg2).trans (after_ops_arg2 _),
     (h c main_arg3).trans (after_ops_arg3 _),
     (h c main_arg4).trans (after_ops_arg4 _),
     (h c main_arg5).trans (after_ops_arg5 _),
     (h c main_arg6).trans (after_ops_arg6 _)⟩)
    (Cert.ReferenceIdeal.Value.run (F := Ideal) m' g')

/-- The reference runs and leaves its arguments unchanged. -/
theorem frame_ri [Cert.Pre_finite_inputs.Facts] : Cert.frame_ReferenceIdeal := fun m g _ =>
  (θ_run (Cert.ReferenceIdeal.defs (F := Ideal)) _ _).mono (fun _ h c => (h c).2.2) (ref_run m g)

end Cert.ReferenceIdeal.RefValue

end
-- ==== Proof.Final.lean ====
/-
  The reference's frame and the value claim.

  The reference's frame is its run with the results dropped.  For the value claim both programs are run from memories
  that agree on the arguments: the kernel program ends with its two results at the functions of the arguments that the
  assembly module names, the reference ends at its specification; the precondition makes every float argument a real
  number, the gathered coordinates are then real as well, the two programs gather the same rows, and on real entries
  the kernel program's functions are the reference's specification.
-/
import proofs.«173522_j70901320122520_2_alg».proof.Proof.Frames
import proofs.«173522_j70901320122520_2_alg».proof.Proof.KI.Value
import proofs.«173522_j70901320122520_2_alg».proof.Proof.Gathers
import proofs.«173522_j70901320122520_2_alg».proof.Proof.Finite
import proofs.«173522_j70901320122520_2_alg».proof.Proof.RefFinal
import proofs.«173522_j70901320122520_2_alg».proof.Proof.Gen.ReferenceIdeal

set_option maxRecDepth 16384

noncomputable section

namespace Cert.Proof.Claims

open Idealize.ShloMosaic Idealize.ShloMosaic.TcCoe Idealize.SL.Sem

theorem frame_ri : Cert.frame_ReferenceIdeal := fun m ρ _ =>
  (θ_run Cert.ReferenceIdeal.defs _ _).mono (fun _ h c => (h c).2.2) (Cert.ReferenceIdeal.RefValue.ref_run m ρ)

theorem algebraic : Cert.algebraic_KernelIdeal_ReferenceIdeal := by
  intro m ρ m' ρ' hpre hagree
  refine ⟨fun c => Cert.KernelIdeal.Hand.kernelOut
      (m ((c.tc : Thread Cert.KernelIdeal.nD Cert.KernelIdeal.τ).loc Cert.KernelIdeal.main_arg0))
      (Cert.KernelIdeal.Hand.nbCoords (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.KernelIdeal.Hand.nbFeats (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.KernelIdeal.Hand.kernelY
      (m ((c.tc : Thread Cert.KernelIdeal.nD Cert.KernelIdeal.τ).loc Cert.KernelIdeal.main_arg0))
      (Cert.KernelIdeal.Hand.nbCoords (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.B5_v47 m ρ c), (h c).2.1.trans (Cert.KernelIdeal.Hand.B5_v48 m ρ c), (h c).2.2⟩)
      (Cert.KernelIdeal.Hand.run_results (F := Ideal) m ρ)
  · refine (θ_run Cert.ReferenceIdeal.defs _ _).mono (fun r h c => ?_) (Cert.ReferenceIdeal.RefValue.ref_run m' ρ')
    obtain ⟨h0, h1, h2, h3, h4, h5, h6⟩ := hagree c
    obtain ⟨r0, -, r3, r4, r5, r6⟩ := Cert.Finite.all_real _ _ _ _ _ _ _ (hpre c)
    refine ⟨(h c).1.trans ?_, (h c).2.1.trans ?_, (h c).2.2⟩
    · rw [h0, h1, h2, h3, h4, h5, h6, ← Cert.Gathers.nbCoords_eq, ← Cert.Gathers.nbFeats_eq]
      exact (Cert.KernelIdeal.Hand.kernelOut_eq _ _ _ _ _ _ _ r0 (Cert.Gathers.nbCoords_real _ _ r0) r3 r4 r5 r6).symm
    · rw [h0, h2, h3, h4, h5, h6, ← Cert.Gathers.nbCoords_eq]
      exact (Cert.KernelIdeal.Hand.kernelY_eq _ _ _ _ _ _ r0 (Cert.Gathers.nbCoords_real _ _ r0) r3 r4 r5 r6).symm

end Cert.Proof.Claims

end
-- ==== Proof.lean ====
/-
  The proof of the certificate's claim: the two kernel programs' frames (their run over five items: host operations, the
  statistics kernel, host operations, the normalising kernel, two reshapes), the reference's frame (its run), nothing to
  preserve (the ideal pass rewrote no operation), and the value claim: at the extended reals, on finite inputs, the
  kernel program's variance as mean square less squared mean and its normalisation folded into the convolution's weights
  and bias give the reference's results, entry by entry.
-/
import proofs.«173522_j70901320122520_2_alg».proof.Defs
import proofs.«173522_j70901320122520_2_alg».proof.Proof.Final
import proofs.«173522_j70901320122520_2_alg».proof.Proof.Gen.Kernel
import proofs.«173522_j70901320122520_2_alg».proof.Proof.Gen.KernelIdeal
import proofs.«173522_j70901320122520_2_alg».proof.Proof.Gen.ReferenceIdeal
import proofs.«173522_j70901320122520_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
